-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x4096x1536 : Shape := ⟨3, ![1, 4096, 1536]⟩
abbrev S4608x1536 : Shape := ⟨2, ![4608, 1536]⟩
abbrev S4608 : Shape := ⟨1, ![4608]⟩
abbrev S1536x1536 : Shape := ⟨2, ![1536, 1536]⟩
abbrev S1536 : Shape := ⟨1, ![1536]⟩
abbrev S_ : Shape := ⟨0, ![]⟩

class Facts : Prop where
  bcast_S_S1x4096x1536 : S_.BroadcastsInDim S1x4096x1536 (![] : Fin 0 → Fin S1x4096x1536.rank)
  reducesTo_S1x4096x1536_S_d0_1_2 : S1x4096x1536.ReducesTo [0, 1, 2] S_
  h_S_ : 0 < S_.numel
  bcast_S_S4608x1536 : S_.BroadcastsInDim S4608x1536 (![] : Fin 0 → Fin S4608x1536.rank)
  reducesTo_S4608x1536_S_d0_1 : S4608x1536.ReducesTo [0, 1] S_
  bcast_S_S4608 : S_.BroadcastsInDim S4608 (![] : Fin 0 → Fin S4608.rank)
  reducesTo_S4608_S_d0 : S4608.ReducesTo [0] S_
  bcast_S_S1536x1536 : S_.BroadcastsInDim S1536x1536 (![] : Fin 0 → Fin S1536x1536.rank)
  reducesTo_S1536x1536_S_d0_1 : S1536x1536.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S1536 .f32) (main_v13 : IVec S_ 1) (main_v16 : IVec S1536x1536 1) : IVec S_ 1 :=
  let main_c_5 : IVec S_ 1 := constantI S_ 1 1#1
  let main_v17 : IVec S_ 1 := (fun x v => Host.reduce IntOp.andi x v reducesTo_S1536x1536_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  main_v23

def fn {F : FTy → Type} [FloatOps F] (main_arg0 : FVec F S1x4096x1536 .f32) (main_arg1 : FVec F S4608x1536 .f32) (main_arg2 : FVec F S4608 .f32) (main_arg3 : FVec F S1536x1536 .f32) (main_arg4 : FVec F S1536 .f32) : IVec S_ 1 :=
  let main_v0 : FVec F S1x4096x1536 .f32 := Host.absf main_arg0
  let main_cst : FVec F S_ .f32 := constant S_ .f32 0x7F800000#32
  let main_v1 : FVec F S1x4096x1536 .f32 := broadcastInDim S1x4096x1536 ![] bcast_S_S1x4096x1536 main_cst
  let main_v2 : IVec S1x4096x1536 1 := cmpf .olt main_v0 main_v1
  let main_c : IVec S_ 1 := constantI S_ 1 1#1
  let main_v3 : IVec S_ 1 := (fun x v => Host.reduce IntOp.andi x v reducesTo_S1x4096x1536_S_d0_1_2 h_S_) main_v2 main_c
  let main_v4 : FVec F S4608x1536 .f32 := Host.absf main_arg1
  let main_cst_0 : FVec F S_ .f32 := constant S_ .f32 0x7F800000#32
  let main_v5 : FVec F S4608x1536 .f32 := broadcastInDim S4608x1536 ![] bcast_S_S4608x1536 main_cst_0
  let main_v6 : IVec S4608x1536 1 := cmpf .olt main_v4 main_v5
  let main_c_1 : IVec S_ 1 := constantI S_ 1 1#1
  let main_v7 : IVec S_ 1 := (fun x v => Host.reduce IntOp.andi x v reducesTo_S4608x1536_S_d0_1 h_S_) main_v6 main_c_1
  let main_v8 : IVec S_ 1 := andi main_v3 main_v7
  let main_v9 : FVec F S4608 .f32 := Host.absf main_arg2
  let main_cst_2 : FVec F S_ .f32 := constant S_ .f32 0x7F800000#32
  let main_v10 : FVec F S4608 .f32 := broadcastInDim S4608 ![] bcast_S_S4608 main_cst_2
  let main_v11 : IVec S4608 1 := cmpf .olt main_v9 main_v10
  let main_c_3 : IVec S_ 1 := constantI S_ 1 1#1
  let main_v12 : IVec S_ 1 := (fun x v => Host.reduce IntOp.andi x v reducesTo_S4608_S_d0 h_S_) main_v11 main_c_3
  let main_v13 : IVec S_ 1 := andi main_v8 main_v12
  let main_v14 : FVec F S1536x1536 .f32 := Host.absf main_arg3
  let main_cst_4 : FVec F S_ .f32 := constant S_ .f32 0x7F800000#32
  let main_v15 : FVec F S1536x1536 .f32 := broadcastInDim S1536x1536 ![] bcast_S_S1536x1536 main_cst_4
  let main_v16 : IVec S1536x1536 1 := cmpf .olt main_v14 main_v15
  fn_part1 (F := F) main_arg4 main_v13 main_v16
-- ==== Kernel.lean ====
abbrev S1x4096x1536 : Shape := ⟨3, ![1, 4096, 1536]⟩
abbrev S4608x1536 : Shape := ⟨2, ![4608, 1536]⟩
abbrev S4608 : Shape := ⟨1, ![4608]⟩
abbrev S1536x1536 : Shape := ⟨2, ![1536, 1536]⟩
abbrev S1536 : Shape := ⟨1, ![1536]⟩
abbrev S4096x1536 : Shape := ⟨2, ![4096, 1536]⟩
abbrev S1x4608 : Shape := ⟨2, ![1, 4608]⟩
abbrev S1x1536 : Shape := ⟨2, ![1, 1536]⟩
abbrev S_ : Shape := ⟨0, ![]⟩
abbrev S4608x1 : Shape := ⟨2, ![4608, 1]⟩
abbrev S1536x1 : Shape := ⟨2, ![1536, 1]⟩
abbrev S4096x4608 : Shape := ⟨2, ![4096, 4608]⟩
abbrev S512x1536 : Shape := ⟨2, ![512, 1536]⟩
abbrev S1x512 : Shape := ⟨2, ![1, 512]⟩
abbrev S512x512 : Shape := ⟨2, ![512, 512]⟩
abbrev S512 : Shape := ⟨1, ![512]⟩
abbrev S512x1 : Shape := ⟨2, ![512, 1]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 60
  | .vmem => 27
  | .smem => 0
  | _ => 0

abbrev bufTy : (tb : Table) → Fin (tcTables nBuf tb) → BufTy
  | .hbm, ⟨0, _⟩ => ⟨S1x4096x1536, .f32⟩
  | .hbm, ⟨1, _⟩ => ⟨S4608x1536, .f32⟩
  | .hbm, ⟨2, _⟩ => ⟨S4608, .f32⟩
  | .hbm, ⟨3, _⟩ => ⟨S1536x1536, .f32⟩
  | .hbm, ⟨4, _⟩ => ⟨S1536, .f32⟩
  | .hbm, ⟨5, _⟩ => ⟨S4096x1536, .f32⟩
  | .hbm, ⟨6, _⟩ => ⟨S1x4608, .f32⟩
  | .hbm, ⟨7, _⟩ => ⟨S1x1536, .f32⟩
  | .hbm, ⟨8, _⟩ => ⟨S4608x1536, .f32⟩
  | .hbm, ⟨9, _⟩ => ⟨S_, .f32⟩
  | .hbm, ⟨10, _⟩ => ⟨S4608, .f32⟩
  | .hbm, ⟨11, _⟩ => ⟨S4608x1, .f32⟩
  | .hbm, ⟨12, _⟩ => ⟨S_, .f32⟩
  | .hbm, ⟨13, _⟩ => ⟨S4608x1, .f32⟩
  | .hbm, ⟨14, _⟩ => ⟨S4608x1, .f32⟩
  | .hbm, ⟨15, _⟩ => ⟨S_, .f32⟩
  | .hbm, ⟨16, _⟩ => ⟨S4608x1, .f32⟩
  | .hbm, ⟨17, _⟩ => ⟨S4608x1, .f32⟩
  | .hbm, ⟨18, _⟩ => ⟨S4608x1536, .f32⟩
  | .hbm, ⟨19, _⟩ => ⟨S4608x1536, .f32⟩
  | .hbm, ⟨20, _⟩ => ⟨S4608x1536, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4608x1536, .f32⟩
  | .hbm, ⟨25, _⟩ => ⟨S4608x1536, .f32⟩
  | .hbm, ⟨26, _⟩ => ⟨S_, .f32⟩
  | .hbm, ⟨27, _⟩ => ⟨S4608x1536, .f32⟩
  | .hbm, ⟨28, _⟩ => ⟨S4608x1536, .f32⟩
  | .hbm, ⟨29, _⟩ => ⟨S4608x1536, .f32⟩
  | .hbm, ⟨30, _⟩ => ⟨S4608x1536, .f32⟩
  | .hbm, ⟨31, _⟩ => ⟨S4608x1536, .bf16⟩
  | .hbm, ⟨32, _⟩ => ⟨S1536x1536, .f32⟩
  | .hbm, ⟨33, _⟩ => ⟨S_, .f32⟩
  | .hbm, ⟨34, _⟩ => ⟨S1536, .f32⟩
  | .hbm, ⟨35, _⟩ => ⟨S1536x1, .f32⟩
  | .hbm, ⟨36, _⟩ => ⟨S_, .f32⟩
  | .hbm, ⟨37, _⟩ => ⟨S1536x1, .f32⟩
  | .hbm, ⟨38, _⟩ => ⟨S1536x1, .f32⟩
  | .hbm, ⟨39, _⟩ => ⟨S_, .f32⟩
  | .hbm, ⟨40, _⟩ => ⟨S1536x1, .f32⟩
  | .hbm, ⟨41, _⟩ => ⟨S1536x1, .f32⟩
  | .hbm, ⟨42, _⟩ => ⟨S1536x1536, .f32⟩
  | .hbm, ⟨43, _⟩ => ⟨S1536x1536, .f32⟩
  | .hbm, ⟨44, _⟩ => ⟨S1536x1536, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S1536x1536, .f32⟩
  | .hbm, ⟨49, _⟩ => ⟨S1536x1536, .f32⟩
  | .hbm, ⟨50, _⟩ => ⟨S_, .f32⟩
  | .hbm, ⟨51, _⟩ => ⟨S1536x1536, .f32⟩
  | .hbm, ⟨52, _⟩ => ⟨S1536x1536, .f32⟩
  | .hbm, ⟨53, _⟩ => ⟨S1536x1536, .f32⟩
  | .hbm, ⟨54, _⟩ => ⟨S1536x1536, .f32⟩
  | .hbm, ⟨55, _⟩ => ⟨S1536x1536, .bf16⟩
  | .hbm, ⟨56, _⟩ => ⟨S4096x4608, .bf16⟩
  | .hbm, ⟨57, _⟩ => ⟨S4096x1536, .f32⟩
  | .hbm, ⟨58, _⟩ => ⟨S4096x1536, .f32⟩
  | .hbm, ⟨59, _⟩ => ⟨S1x4096x1536, .f32⟩
  | .local _ .vmem, ⟨0, _⟩ => ⟨S512x1536, .f32⟩
  | .local _ .vmem, ⟨1, _⟩ => ⟨S512x1536, .f32⟩
  | .local _ .vmem, ⟨2, _⟩ => ⟨S512x1536, .bf16⟩
  | .local _ .vmem, ⟨3, _⟩ => ⟨S512x1536, .bf16⟩
  | .local _ .vmem, ⟨4, _⟩ => ⟨S1x512, .f32⟩
  | .local _ .vmem, ⟨5, _⟩ => ⟨S1x512, .f32⟩
  | .local _ .vmem, ⟨6, _⟩ => ⟨S512x512, .bf16⟩
  | .local _ .vmem, ⟨7, _⟩ => ⟨S512x512, .bf16⟩
  | .local _ .vmem, ⟨8, _⟩ => ⟨S1024x128, .bf16⟩
  | .local _ .vmem, ⟨9, _⟩ => ⟨S1024x128, .bf16⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .f32⟩
  | .local _ .vmem, ⟨15, _⟩ => ⟨S1024x128, .f32⟩
  | .local _ .vmem, ⟨16, _⟩ => ⟨S1024x1, .f32⟩
  | .local _ .vmem, ⟨17, _⟩ => ⟨S1024x1, .f32⟩
  | .local _ .vmem, ⟨18, _⟩ => ⟨S1024x128, .f32⟩
  | .local _ .vmem, ⟨19, _⟩ => ⟨S512x1536, .f32⟩
  | .local _ .vmem, ⟨20, _⟩ => ⟨S512x1536, .f32⟩
  | .local _ .vmem, ⟨21, _⟩ => ⟨S512x1536, .bf16⟩
  | .local _ .vmem, ⟨22, _⟩ => ⟨S512x1536, .bf16⟩
  | .local _ .vmem, ⟨23, _⟩ => ⟨S1x512, .f32⟩
  | .local _ .vmem, ⟨24, _⟩ => ⟨S1x512, .f32⟩
  | .local _ .vmem, ⟨25, _⟩ => ⟨S512x512, .f32⟩
  | .local _ .vmem, ⟨26, _⟩ => ⟨S512x512, .f32⟩
  | _, _ => ⟨S1x4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_cst_6 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_cst_8 : Ref sig .tc := ⟨.hbm, 46, rfl⟩
abbrev main_call3_v0 : Ref sig .tc := ⟨.hbm, 47, rfl⟩
abbrev main_call3_v1 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨2, ![8, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![12, 4, 4], ![false, false, false]⟩

def k1_cond2 (i : grid1.Coords) : BitVec 1 :=
  let arg2 : BitVec 32 := BitVec.ofNat 32 (i 2).val
  let c3_i32 : BitVec 32 := 3#32
  let v44 : BitVec 1 := Scalar.cmpi .eq arg2 c3_i32
  let v45 : BitVec 32 := Scalar.extui v44
  let c0_i32_24 : BitVec 32 := 0#32
  let v46 : BitVec 1 := Scalar.cmpi .ne v45 c0_i32_24
  v46

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg2.toNat, v0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg0
  let c0_i32 : BitVec 32 := 0#32
  ![arg2.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S1024x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1024x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨2, ![8, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1536 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S1x4096x1536_S4096x1536 : S1x4096x1536.ShapeCasts S4096x1536
  shapeCasts_S4608_S1x4608 : S4608.ShapeCasts S1x4608
  shapeCasts_S1536_S1x1536 : S1536.ShapeCasts S1x1536
  reducesTo_S4608x1536_S4608_d1 : S4608x1536.ReducesTo [1] S4608
  h_S_ : 0 < S_.numel
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1536_0_1 : S4608x1.BroadcastsInDim S4608x1536 (![0, 1] : Fin 2 → Fin S4608x1536.rank)
  bcast_S_S4608x1536 : S_.BroadcastsInDim S4608x1536 (![] : Fin 0 → Fin S4608x1536.rank)
  bitsLt_bf16_f32 : FTy.bits .bf16 < FTy.bits .f32
  reducesTo_S1536x1536_S1536_d1 : S1536x1536.ReducesTo [1] S1536
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1536x1_S1536x1536_0_1 : S1536x1.BroadcastsInDim S1536x1536 (![0, 1] : Fin 2 → Fin S1536x1536.rank)
  bcast_S_S1536x1536 : S_.BroadcastsInDim S1536x1536 (![] : Fin 0 → Fin S1536x1536.rank)
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  reduces_S512x1536_S512 : S512x1536.Reduces [1] S512
  shapeCasts_S512_S512x1 : S512.ShapeCasts S512x1
  broadcasts_S512x1_S512x1536 : S512x1.Broadcasts S512x1536
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x128 : S1024x1.Broadcasts S1024x128
  shapeCasts_S4096x1536_S1x4096x1536 : S4096x1536.ShapeCasts S1x4096x1536
  dot_S512x1536_S512x1536_S512x512_1_1_0_0_n_n_wf : DotDims.WF S512x1536 S512x1536 S512x512 [1] [1] [0] [0] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1536.size a ≤ S4096x1536.size a
  hwx0_0 : ∀ i : grid0.Coords, EltTy.bits .f32 = 32 ∨ (Rect.block (s := S4096x1536) S512x1536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S4608x1536.size a
  hwx0_1 : ∀ i : grid0.Coords, EltTy.bits .bf16 = 32 ∨ (Rect.block (s := S4608x1536) S512x1536.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4608.size a
  hwx0_2 : ∀ i : grid0.Coords, EltTy.bits .f32 = 32 ∨ (Rect.block (s := S1x4608) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x4608.size a
  hwx0_3 : ∀ i : grid0.Coords, EltTy.bits .bf16 = 32 ∨ (Rect.block (s := S4096x4608) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S4096x4608.size a
  hwx1_0 : ∀ i : grid1.Coords, EltTy.bits .bf16 = 32 ∨ (Rect.block (s := S4096x4608) S1024x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x4608.size a
  hwx1_1 : ∀ i : grid1.Coords, EltTy.bits .bf16 = 32 ∨ (Rect.block (s := S4096x4608) S1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x4608.size a
  hwx1_2 : ∀ i : grid1.Coords, EltTy.bits .bf16 = 32 ∨ (Rect.block (s := S4096x4608) S1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x128.size a ≤ S4096x1536.size a
  hwx1_3 : ∀ i : grid1.Coords, EltTy.bits .f32 = 32 ∨ (Rect.block (s := S4096x1536) S1024x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1536.size a ≤ S4096x1536.size a
  hwx2_0 : ∀ i : grid2.Coords, EltTy.bits .f32 = 32 ∨ (Rect.block (s := S4096x1536) S512x1536.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1536.size a ≤ S1536x1536.size a
  hwx2_1 : ∀ i : grid2.Coords, EltTy.bits .bf16 = 32 ∨ (Rect.block (s := S1536x1536) S512x1536.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x1536.size a
  hwx2_2 : ∀ i : grid2.Coords, EltTy.bits .f32 = 32 ∨ (Rect.block (s := S1x1536) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x1536.size a
  hwx2_3 : ∀ i : grid2.Coords, EltTy.bits .f32 = 32 ∨ (Rect.block (s := S4096x1536) S512x512.size (cc2_transform_3 i) (hinb2_3 i)).WholeWords (EltTy.packing .f32)

variable [Facts₀]

def dot_S512x1536_S512x1536_S512x512_1_1_0_0_n_n : DotDims S512x1536 S512x1536 S512x512 where
  lhsContracting := [1]
  rhsContracting := [1]
  lhsNonContracting := [0]
  rhsNonContracting := [0]
  lhsBatch := []
  rhsBatch := []
  wf := dot_S512x1536_S512x1536_S512x512_1_1_0_0_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf

abbrev win0_0 : Pipeline.Window sig grid0 :=
  Pipeline.Window.ofSpec (Memref.whole main_v0) S512x1536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S512x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1024x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v32) S512x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30) S512x1536.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1x4096x1536 : Shape := ⟨3, ![1, 4096, 1536]⟩
abbrev S4608x1536 : Shape := ⟨2, ![4608, 1536]⟩
abbrev S4608 : Shape := ⟨1, ![4608]⟩
abbrev S1536x1536 : Shape := ⟨2, ![1536, 1536]⟩
abbrev S1536 : Shape := ⟨1, ![1536]⟩
abbrev S_ : Shape := ⟨0, ![]⟩
abbrev S1x4096 : Shape := ⟨2, ![1, 4096]⟩
abbrev S1x4096x1 : Shape := ⟨3, ![1, 4096, 1]⟩
abbrev S4608x1 : Shape := ⟨2, ![4608, 1]⟩
abbrev S1x4096x4608 : Shape := ⟨3, ![1, 4096, 4608]⟩
abbrev S1x1x4608 : Shape := ⟨3, ![1, 1, 4608]⟩
abbrev S1x4096x3x12x128 : Shape := ⟨5, ![1, 4096, 3, 12, 128]⟩
abbrev S3x1x12x4096x128 : Shape := ⟨5, ![3, 1, 12, 4096, 128]⟩
abbrev S1x1x12x4096x128 : Shape := ⟨5, ![1, 1, 12, 4096, 128]⟩
abbrev S1x12x4096x128 : Shape := ⟨4, ![1, 12, 4096, 128]⟩
abbrev S1x12x4096x4096 : Shape := ⟨4, ![1, 12, 4096, 4096]⟩
abbrev S1x12x4096 : Shape := ⟨3, ![1, 12, 4096]⟩
abbrev S1x12x4096x1 : Shape := ⟨4, ![1, 12, 4096, 1]⟩
abbrev S1x4096x12x128 : Shape := ⟨4, ![1, 4096, 12, 128]⟩
abbrev S1536x1 : Shape := ⟨2, ![1536, 1]⟩
abbrev S1x1x1536 : Shape := ⟨3, ![1, 1, 1536]⟩

abbrev nBuf : Space → Nat
  | .hbm => 142
  | .vmem => 0
  | .smem => 0
  | _ => 0

abbrev hbmTy0_0 (i : Nat) : BufTy := match i % 128 with
  | 0 => ⟨S1x4096x1536, .f32⟩
  | 1 => ⟨S4608x1536, .f32⟩
  | 2 => ⟨S4608, .f32⟩
  | 3 => ⟨S1536x1536, .f32⟩
  | 4 => ⟨S1536, .f32⟩
  | 5 => ⟨S1x4096x1536, .f32⟩
  | 6 => ⟨S_, .f32⟩
  | 7 => ⟨S1x4096, .f32⟩
  | 8 => ⟨S1x4096x1, .f32⟩
  | 9 => ⟨S_, .f32⟩
  | 10 => ⟨S1x4096x1, .f32⟩
  | 11 => ⟨S1x4096x1, .f32⟩
  | 12 => ⟨S_, .f32⟩
  | 13 => ⟨S1x4096x1, .f32⟩
  | 14 => ⟨S1x4096x1, .f32⟩
  | 15 => ⟨S1x4096x1536, .f32⟩
  | 16 => ⟨S1x4096x1536, .f32⟩
  | 17 => ⟨S1x4096x1536, .f32⟩
  | 18 => ⟨S_, .f32⟩
  | 19 => ⟨S_, .f32⟩
  | 20 => ⟨S_, .f32⟩
  | 21 => ⟨S1x4096x1536, .f32⟩
  | 22 => ⟨S1x4096x1536, .f32⟩
  | 23 => ⟨S_, .f32⟩
  | 24 => ⟨S1x4096x1536, .f32⟩
  | 25 => ⟨S1x4096x1536, .f32⟩
  | 26 => ⟨S1x4096x1536, .f32⟩
  | 27 => ⟨S1x4096x1536, .f32⟩
  | 28 => ⟨S1x4096x1536, .f32⟩
  | 29 => ⟨S1x4096x1536, .f32⟩
  | 30 => ⟨S4608x1536, .f32⟩
  | 31 => ⟨S_, .f32⟩
  | 32 => ⟨S4608, .f32⟩
  | 33 => ⟨S4608x1, .f32⟩
  | 34 => ⟨S_, .f32⟩
  | 35 => ⟨S4608x1, .f32⟩
  | 36 => ⟨S4608x1, .f32⟩
  | 37 => ⟨S_, .f32⟩
  | 38 => ⟨S4608x1, .f32⟩
  | 39 => ⟨S4608x1, .f32⟩
  | 40 => ⟨S4608x1536, .f32⟩
  | 41 => ⟨S4608x1536, .f32⟩
  | 42 => ⟨S4608x1536, .f32⟩
  | 43 => ⟨S_, .f32⟩
  | 44 => ⟨S_, .f32⟩
  | 45 => ⟨S_, .f32⟩
  | 46 => ⟨S4608x1536, .f32⟩
  | 47 => ⟨S4608x1536, .f32⟩
  | 48 => ⟨S_, .f32⟩
  | 49 => ⟨S4608x1536, .f32⟩
  | 50 => ⟨S4608x1536, .f32⟩
  | 51 => ⟨S4608x1536, .f32⟩
  | 52 => ⟨S4608x1536, .f32⟩
  | 53 => ⟨S4608x1536, .f32⟩
  | 54 => ⟨S4608x1536, .f32⟩
  | 55 => ⟨S1x4096x4608, .f32⟩
  | 56 => ⟨S1x1x4608, .f32⟩
  | 57 => ⟨S1x4096x4608, .f32⟩
  | 58 => ⟨S1x4096x4608, .f32⟩
  | 59 => ⟨S1x4096x3x12x128, .f32⟩
  | 60 => ⟨S3x1x12x4096x128, .f32⟩
  | 61 => ⟨S1x1x12x4096x128, .f32⟩
  | 62 => ⟨S1x12x4096x128, .f32⟩
  | 63 => ⟨S1x1x12x4096x128, .f32⟩
  | 64 => ⟨S1x12x4096x128, .f32⟩
  | 65 => ⟨S1x1x12x4096x128, .f32⟩
  | 66 => ⟨S1x12x4096x128, .f32⟩
  | 67 => ⟨S_, .f32⟩
  | 68 => ⟨S1x12x4096x128, .f32⟩
  | 69 => ⟨S1x12x4096x128, .f32⟩
  | 70 => ⟨S1x12x4096x4096, .f32⟩
  | 71 => ⟨S_, .f32⟩
  | 72 => ⟨S1x12x4096, .f32⟩
  | 73 => ⟨S_, .f32⟩
  | 74 => ⟨S1x12x4096, .f32⟩
  | 75 => ⟨S1x12x4096, .f32⟩
  | 76 => ⟨S1x12x4096x1, .f32⟩
  | 77 => ⟨S1x12x4096x4096, .f32⟩
  | 78 => ⟨S1x12x4096x4096, .f32⟩
  | 79 => ⟨S1x12x4096x4096, .f32⟩
  | 80 => ⟨S_, .f32⟩
  | 81 => ⟨S1x12x4096, .f32⟩
  | 82 => ⟨S1x12x4096x1, .f32⟩
  | 83 => ⟨S1x12x4096x4096, .f32⟩
  | 84 => ⟨S1x12x4096x4096, .f32⟩
  | 85 => ⟨S1x12x4096x128, .f32⟩
  | 86 => ⟨S1x4096x12x128, .f32⟩
  | 87 => ⟨S1x4096x1536, .f32⟩
  | 88 => ⟨S1x4096x1536, .f32⟩
  | 89 => ⟨S_, .f32⟩
  | 90 => ⟨S1x4096, .f32⟩
  | 91 => ⟨S1x4096x1, .f32⟩
  | 92 => ⟨S_, .f32⟩
  | 93 => ⟨S1x4096x1, .f32⟩
  | 94 => ⟨S1x4096x1, .f32⟩
  | 95 => ⟨S_, .f32⟩
  | 96 => ⟨S1x4096x1, .f32⟩
  | 97 => ⟨S1x4096x1, .f32⟩
  | 98 => ⟨S1x4096x1536, .f32⟩
  | 99 => ⟨S1x4096x1536, .f32⟩
  | 100 => ⟨S1x4096x1536, .f32⟩
  | 101 => ⟨S_, .f32⟩
  | 102 => ⟨S_, .f32⟩
  | 103 => ⟨S_, .f32⟩
  | 104 => ⟨S1x4096x1536, .f32⟩
  | 105 => ⟨S1x4096x1536, .f32⟩
  | 106 => ⟨S_, .f32⟩
  | 107 => ⟨S1x4096x1536, .f32⟩
  | 108 => ⟨S1x4096x1536, .f32⟩
  | 109 => ⟨S1x4096x1536, .f32⟩
  | 110 => ⟨S1x4096x1536, .f32⟩
  | 111 => ⟨S1x4096x1536, .f32⟩
  | 112 => ⟨S1x4096x1536, .f32⟩
  | 113 => ⟨S1536x1536, .f32⟩
  | 114 => ⟨S_, .f32⟩
  | 115 => ⟨S1536, .f32⟩
  | 116 => ⟨S1536x1, .f32⟩
  | 117 => ⟨S_, .f32⟩
  | 118 => ⟨S1536x1, .f32⟩
  | 119 => ⟨S1536x1, .f32⟩
  | 120 => ⟨S_, .f32⟩
  | 121 => ⟨S1536x1, .f32⟩
  | 122 => ⟨S1536x1, .f32⟩
  | 123 => ⟨S1536x1536, .f32⟩
  | 124 => ⟨S1536x1536, .f32⟩
  | 125 => ⟨S1536x1536, .f32⟩
  | 126 => ⟨S_, .f32⟩
  | 127 => ⟨S_, .f32⟩
  | _ => ⟨S1x4096x1536, .f32⟩

abbrev hbmTy0_1 (i : Nat) : BufTy := match i % 128 with
  | 0 => ⟨S_, .f32⟩
  | 1 => ⟨S1536x1536, .f32⟩
  | 2 => ⟨S1536x1536, .f32⟩
  | 3 => ⟨S_, .f32⟩
  | 4 => ⟨S1536x1536, .f32⟩
  | 5 => ⟨S1536x1536, .f32⟩
  | 6 => ⟨S1536x1536, .f32⟩
  | 7 => ⟨S1536x1536, .f32⟩
  | 8 => ⟨S1536x1536, .f32⟩
  | 9 => ⟨S1536x1536, .f32⟩
  | 10 => ⟨S1x4096x1536, .f32⟩
  | 11 => ⟨S1x1x1536, .f32⟩
  | 12 => ⟨S1x4096x1536, .f32⟩
  | 13 => ⟨S1x4096x1536, .f32⟩
  | _ => ⟨S1x4096x1536, .f32⟩

abbrev hbmTy (i : Nat) : BufTy := match i / 128 with
  | 0 => hbmTy0_0 i
  | 1 => hbmTy0_1 i
  | _ => ⟨S1x4096x1536, .f32⟩

abbrev bufTy : (tb : Table) → Fin (tcTables nBuf tb) → BufTy
  | .hbm, ⟨i, _⟩ => hbmTy i
  | _, _ => ⟨S1x4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_cst_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_cst_5 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_7 : Ref sig .tc := ⟨.hbm, 43, rfl⟩
abbrev main_cst_8 : Ref sig .tc := ⟨.hbm, 44, rfl⟩
abbrev main_call3_v0 : Ref sig .tc := ⟨.hbm, 45, rfl⟩
abbrev main_call3_v1 : Ref sig .tc := ⟨.hbm, 46, rfl⟩
abbrev main_call3_v2 : Ref sig .tc := ⟨.hbm, 47, rfl⟩
abbrev main_call3_v3 : Ref sig .tc := ⟨.hbm, 48, rfl⟩
abbrev main_call3_v4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_10 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_cst_12 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_13 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_cst_15 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_16 : Ref sig .tc := ⟨.hbm, 101, rfl⟩
abbrev main_cst_17 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_18 : Ref sig .tc := ⟨.hbm, 114, rfl⟩
abbrev main_v75 : Ref sig .tc := ⟨.hbm, 115, rfl⟩
abbrev main_v76 : Ref sig .tc := ⟨.hbm, 116, rfl⟩
abbrev main_cst_19 : Ref sig .tc := ⟨.hbm, 117, rfl⟩
abbrev main_v77 : Ref sig .tc := ⟨.hbm, 118, rfl⟩
abbrev main_v78 : Ref sig .tc := ⟨.hbm, 119, rfl⟩
abbrev main_cst_20 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_21 : Ref sig .tc := ⟨.hbm, 126, rfl⟩
abbrev main_cst_22 : Ref sig .tc := ⟨.hbm, 127, rfl⟩
abbrev main_call7_v0 : Ref sig .tc := ⟨.hbm, 128, rfl⟩
abbrev main_call7_v1 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩

abbrev nD : Nat := 1
abbrev τ : Topo := Topo.v7x

variable {F : FTy → Type} [FloatOps F]

class Facts₀ : Prop where
  reducesTo_S1x4096x1536_S1x4096_d2 : S1x4096x1536.ReducesTo [2] S1x4096
  h_S_ : 0 < S_.numel
  bcast_S1x4096_S1x4096x1_0_1 : S1x4096.BroadcastsInDim S1x4096x1 (![0, 1] : Fin 2 → Fin S1x4096x1.rank)
  bcast_S_S1x4096x1 : S_.BroadcastsInDim S1x4096x1 (![] : Fin 0 → Fin S1x4096x1.rank)
  bcast_S1x4096x1_S1x4096x1536_0_1_2 : S1x4096x1.BroadcastsInDim S1x4096x1536 (![0, 1, 2] : Fin 3 → Fin S1x4096x1536.rank)
  bcast_S_S1x4096x1536 : S_.BroadcastsInDim S1x4096x1536 (![] : Fin 0 → Fin S1x4096x1536.rank)
  reducesTo_S4608x1536_S4608_d1 : S4608x1536.ReducesTo [1] S4608
  bcast_S4608_S4608x1_0 : S4608.BroadcastsInDim S4608x1 (![0] : Fin 1 → Fin S4608x1.rank)
  bcast_S_S4608x1 : S_.BroadcastsInDim S4608x1 (![] : Fin 0 → Fin S4608x1.rank)
  bcast_S4608x1_S4608x1536_0_1 : S4608x1.BroadcastsInDim S4608x1536 (![0, 1] : Fin 2 → Fin S4608x1536.rank)
  bcast_S_S4608x1536 : S_.BroadcastsInDim S4608x1536 (![] : Fin 0 → Fin S4608x1536.rank)
  bcast_S4608_S1x1x4608_2 : S4608.BroadcastsInDim S1x1x4608 (![2] : Fin 1 → Fin S1x1x4608.rank)
  bcast_S1x1x4608_S1x4096x4608_0_1_2 : S1x1x4608.BroadcastsInDim S1x4096x4608 (![0, 1, 2] : Fin 3 → Fin S1x4096x4608.rank)
  shapeCasts_S1x4096x4608_S1x4096x3x12x128 : S1x4096x4608.ShapeCasts S1x4096x3x12x128
  transposes_S1x4096x3x12x128_S3x1x12x4096x128_2_0_3_1_4 : S1x4096x3x12x128.Transposes [2, 0, 3, 1, 4] S3x1x12x4096x128
  slices_S3x1x12x4096x128_S1x1x12x4096x128_0_0_0_0_0 : S3x1x12x4096x128.Slices ![0, 0, 0, 0, 0] S1x1x12x4096x128
  shapeCasts_S1x1x12x4096x128_S1x12x4096x128 : S1x1x12x4096x128.ShapeCasts S1x12x4096x128
  slices_S3x1x12x4096x128_S1x1x12x4096x128_1_0_0_0_0 : S3x1x12x4096x128.Slices ![1, 0, 0, 0, 0] S1x1x12x4096x128
  slices_S3x1x12x4096x128_S1x1x12x4096x128_2_0_0_0_0 : S3x1x12x4096x128.Slices ![2, 0, 0, 0, 0] S1x1x12x4096x128
  bcast_S_S1x12x4096x128 : S_.BroadcastsInDim S1x12x4096x128 (![] : Fin 0 → Fin S1x12x4096x128.rank)
  reducesTo_S1x12x4096x4096_S1x12x4096_d3 : S1x12x4096x4096.ReducesTo [3] S1x12x4096
  bcast_S_S1x12x4096 : S_.BroadcastsInDim S1x12x4096 (![] : Fin 0 → Fin S1x12x4096.rank)
  bcast_S1x12x4096_S1x12x4096x1_0_1_2 : S1x12x4096.BroadcastsInDim S1x12x4096x1 (![0, 1, 2] : Fin 3 → Fin S1x12x4096x1.rank)
  bcast_S1x12x4096x1_S1x12x4096x4096_0_1_2_3 : S1x12x4096x1.BroadcastsInDim S1x12x4096x4096 (![0, 1, 2, 3] : Fin 4 → Fin S1x12x4096x4096.rank)
  transposes_S1x12x4096x128_S1x4096x12x128_0_2_1_3 : S1x12x4096x128.Transposes [0, 2, 1, 3] S1x4096x12x128
  shapeCasts_S1x4096x12x128_S1x4096x1536 : S1x4096x12x128.ShapeCasts S1x4096x1536
  reducesTo_S1536x1536_S1536_d1 : S1536x1536.ReducesTo [1] S1536
  bcast_S1536_S1536x1_0 : S1536.BroadcastsInDim S1536x1 (![0] : Fin 1 → Fin S1536x1.rank)
  bcast_S_S1536x1 : S_.BroadcastsInDim S1536x1 (![] : Fin 0 → Fin S1536x1.rank)
  bcast_S1536x1_S1536x1536_0_1 : S1536x1.BroadcastsInDim S1536x1536 (![0, 1] : Fin 2 → Fin S1536x1536.rank)
  bcast_S_S1536x1536 : S_.BroadcastsInDim S1536x1536 (![] : Fin 0 → Fin S1536x1536.rank)
  bcast_S1536_S1x1x1536_2 : S1536.BroadcastsInDim S1x1x1536 (![2] : Fin 1 → Fin S1x1x1536.rank)
  bcast_S1x1x1536_S1x4096x1536_0_1_2 : S1x1x1536.BroadcastsInDim S1x4096x1536 (![0, 1, 2] : Fin 3 → Fin S1x4096x1536.rank)
  dot_S1x4096x1536_S4608x1536_S1x4096x4608_2_1_01_0_n_n_wf : DotDims.WF S1x4096x1536 S4608x1536 S1x4096x4608 [2] [1] [0, 1] [0] [] []
  dot_S1x12x4096x128_S1x12x4096x128_S1x12x4096x4096_3_3_2_2_01_01_wf : DotDims.WF S1x12x4096x128 S1x12x4096x128 S1x12x4096x4096 [3] [3] [2] [2] [0, 1] [0, 1]
  dot_S1x12x4096x4096_S1x12x4096x128_S1x12x4096x128_3_2_2_3_01_01_wf : DotDims.WF S1x12x4096x4096 S1x12x4096x128 S1x12x4096x128 [3] [2] [2] [3] [0, 1] [0, 1]
  dot_S1x4096x1536_S1536x1536_S1x4096x1536_2_1_01_0_n_n_wf : DotDims.WF S1x4096x1536 S1536x1536 S1x4096x1536 [2] [1] [0, 1] [0] [] []

variable [Facts₀]

def dot_S1x4096x1536_S4608x1536_S1x4096x4608_2_1_01_0_n_n : DotDims S1x4096x1536 S4608x1536 S1x4096x4608 where
  lhsContracting := [2]
  rhsContracting := [1]
  lhsNonContracting := [0, 1]
  rhsNonContracting := [0]
  lhsBatch := []
  rhsBatch := []
  wf := dot_S1x4096x1536_S4608x1536_S1x4096x4608_2_1_01_0_n_n_wf
def dot_S1x12x4096x128_S1x12x4096x128_S1x12x4096x4096_3_3_2_2_01_01 : DotDims S1x12x4096x128 S1x12x4096x128 S1x12x4096x4096 where
  lhsContracting := [3]
  rhsContracting := [3]
  lhsNonContracting := [2]
  rhsNonContracting := [2]
  lhsBatch := [0, 1]
  rhsBatch := [0, 1]
  wf := dot_S1x12x4096x128_S1x12x4096x128_S1x12x4096x4096_3_3_2_2_01_01_wf
def dot_S1x12x4096x4096_S1x12x4096x128_S1x12x4096x128_3_2_2_3_01_01 : DotDims S1x12x4096x4096 S1x12x4096x128 S1x12x4096x128 where
  lhsContracting := [3]
  rhsContracting := [2]
  lhsNonContracting := [2]
  rhsNonContracting := [3]
  lhsBatch := [0, 1]
  rhsBatch := [0, 1]
  wf := dot_S1x12x4096x4096_S1x12x4096x128_S1x12x4096x128_3_2_2_3_01_01_wf
def dot_S1x4096x1536_S1536x1536_S1x4096x1536_2_1_01_0_n_n : DotDims S1x4096x1536 S1536x1536 S1x4096x1536 where
  lhsContracting := [2]
  rhsContracting := [1]
  lhsNonContracting := [0, 1]
  rhsNonContracting := [0]
  lhsBatch := []
  rhsBatch := []
  wf := dot_S1x4096x1536_S1536x1536_S1x4096x1536_2_1_01_0_n_n_wf

class Facts : Prop extends Facts₀ where

variable [Facts]
-- ==== Proof.LaunchRestK.lean ====
/-
  What rides beside the buffers between two items of the program, and how the launch makes it.

  Between items a core holds, besides its unscoped buffers, its generator register at some state and its debt to the
  other cores, which is nothing: no kernel of this program signals another core. The launch hands each core its
  register at the launch state and a debt of nothing with nothing recorded, which is that state; at the end the
  state still says that nothing is owed.
-/
import proofs.«162336_j12171937317144_2_alg».proof.Proof.Gen.Kernel.Regions

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel Cert.Kernel.Gen

variable {F : FTy → Type} [FloatOps F]

local notation "𝕄" => MT nD τ sig Unit (Elt F) ℕ (Pipeline.UD sig nD τ) ℕ

abbrev L : GSem nD τ sig → Finset Unit := fun _ => ∅
abbrev lv : GSem nD τ sig → Unit → ℕ := fun _ _ => 0

/-- A core's generator register at some state, and nothing owed. -/
abbrev R (c : Dev nD) : sProp 𝕄 := iprop((∃ r, prngReg c r) ∗ ∃ W, owes (c : Thread nD τ) (0 : CellTallies nD τ sig Unit) W)

/-- The same state rides through all four boundaries around the three regions. -/
abbrev E : Fin 4 → Dev nD → sProp 𝕄 := fun _ c => R (F := F) c

/-- At the end nothing is owed. -/
theorem hE3 (c : Dev nD) : E (F := F) 3 c ⊢ (iprop(∃ W, owes (c : Thread nD τ) (0 : CellTallies nD τ sig Unit) W) : sProp 𝕄) := by
  iintro ⟨-, HO⟩
  iexact HO

/-- The launch makes the state on every core at once. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (E (F := F) 0) : sProp 𝕄) :=
    bigSep_mono fun c _ => (show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ E (F := F) 0 c from by
      iintro ⟨-, HO, -, Hp, -⟩
      isplitl [Hp]; · iexists _; iexact Hp
      iexists ∅; iexact HO)
  iintro ⟨H, -⟩
  ihave H' := hmono $$ H
  imodintro
  iexact H'

end Cert.Kernel.Asm

end
-- ==== Proof.QuantLinearBodyK.lean ====
/- The body obligations and proof data of the two fake-quantised linear layers (pipelines 0 and 2), at a parameter
   `V`: the buffer contents when the region is entered. Per region: each window's block at a point, what the body
   leaves in the output window's buffer as the payload of the three input blocks, the body's triple, the proof data,
   each input found at its block whether fetched or not, the body obligation at every point, and the output array
   after the last point block by block. -/
import proofs.«162336_j12171937317144_2_alg».proof.Proof.Gen.Kernel.Launch
import proofs.«162336_j12171937317144_2_alg».proof.Proof.Gen.Kernel.Skeleton
import proofs.«162336_j12171937317144_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.QL

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when a region is entered: the parameter both regions' halves are stated at
variable (V : (c : Dev nD) → (b : Ref sig .tc) → Buf (Elt F) ((c : Thread nD τ).loc b))

/-! # The first fake-quantised linear layer: pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S512x1536 := Rect.unit (s := S512x1536) ![0, 0] S512x1536.size inb_S512x1536_S512x1536_0_0
abbrev r0_1 : Rect S1x512 := Rect.unit (s := S1x512) ![0, 0] S1x512.size inb_S1x512_S1x512_0_0
abbrev r0_2 : Rect S512x512 := Rect.unit (s := S512x512) ![0, 0] S512x512.size inb_S512x512_S512x512_0_0

/-! ## What the body leaves in the output window's buffer -/

/-- The output window's staging buffer after the body, from the three input blocks: its one store, of the whole
    rectangle, as a piece. -/
def out0_3 (x0 : Vec F S512x1536 .f32) (x1 : Vec F S512x1536 .bf16) (x2 : Vec F S1x512 .f32) : Vec F S512x512 .bf16 :=
  View.canon [⟨r0_2, k0_pay1 (View.ld x0 r0_0) (View.ld x1 r0_0) (View.ld x2 r0_1)⟩]

/-- The store's rectangle is the whole buffer, so it covers it. -/
theorem cover0_3 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-! ## The body's triple -/

set_option maxHeartbeats 1000000 in
/-- The kernel body on whole staging memrefs, the three inputs' at read contents `x0 x1 x2` and the output's at
    anything, runs to the continuation holding the inputs' as they were and the output's at `out0_3` of the inputs:
    three whole-rectangle loads, a load of the output buffer whose value nothing reads, the payload, one
    whole-rectangle store. -/
theorem sound_kernel0 (c : Dev nD) (E : Set ℕ) (i : grid0.Coords) (arg2 : Memref sig .tc .vmem S512x1536 .f32) (harg2 : arg2.IsWhole) (arg3 : Memref sig .tc .vmem S512x1536 .bf16) (harg3 : arg3.IsWhole) (arg4 : Memref sig .tc .vmem S1x512 .f32) (harg4 : arg4.IsWhole) (arg5 : Memref sig .tc .vmem S512x512 .bf16) (harg5 : arg5.IsWhole)
    (x0 : Vec F S512x1536 .f32) (x1 : Vec F S512x1536 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__quant_linear_kernel i arg2 harg2 arg3 harg3 arg4 harg4 arg5 harg5) K := by
  simp only [cc0__quant_linear_kernel_eq_skeleton]; unfold cc0__quant_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What the region leaves in the output array, block by block -/

theorem hz0 : (![0, 0] : Fin 2 → Nat) = fun _ => 0 := funext fun a => by fin_cases a <;> rfl

/-- The loads and the store go through whole rectangles, so what the body leaves in the output buffer is the payload
    of the three input buffers' contents. -/
theorem out0_3_eq (x0 : Vec F S512x1536 .f32) (x1 : Vec F S512x1536 .bf16) (x2 : Vec F S1x512 .f32) :
    out0_3 x0 x1 x2 = k0_pay1 x0 x1 x2 := by
  unfold out0_3
  rw [View.canon_unit_zero hz0]
  simp only [View.ld_unit_zero (S := S512x1536) hz0, View.ld_unit_zero (S := S1x512) hz0]

/-- What point `t` writes back to the output window's array: the payload of the point's three input blocks. -/
theorem flushed0_3 (c : Dev nD) (t : Fin cfg0.N) :
    (dat0 V c).flushed 3 t = (cfg0.win 3).cut (grid0.coords t) (k0_pay1 (iblk0 V c 0 t) (iblk0 V c 1 t) (iblk0 V c 2 t)) := by
  show (cfg0.win 3).cut (grid0.coords t) ((dat0 V c).after 3 t) = _
  rw [after0_3, out0_3_eq]

/-- The output's index map sends distinct grid points to distinct block indices (decided over the grid). -/
theorem idx_inj0_3 : ∀ t t' : Fin cfg0.N, win0_3.index t = win0_3.index t' → t = t' :=
  (by decide +kernel : ∀ t t' : Fin grid0.N, win0_3.index t = win0_3.index t' → t = t')

/-- So two points' output blocks share no array index. -/
theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj0_3 t t' h)

/-- Block `t` of the output array after the last point, read back through the window, is what point `t` wrote back:
    every point writes back, and no other point's block meets it. -/
theorem blocks0_3 (c : Dev nD) (t : Fin cfg0.N) :
    ((cfg0.win 3).blk t).view.read (Elt F) ((dat0 V c).arrAt 3 cfg0.N) = (dat0 V c).flushed 3 t :=
  (dat0 V c).read_blk_arrAt_eq_flushed 3 disjoint0_3 cfg0.N t t.isLt (flush0_3 t)

/-- The output array after the region, block by block: block `t` is the payload of point `t`'s three input blocks. -/
theorem arrAt0_out (c : Dev nD) (t : Fin cfg0.N) :
    ((cfg0.win 3).blk t).view.read (Elt F) ((dat0 V c).arrAt 3 cfg0.N)
      = (cfg0.win 3).cut (grid0.coords t) (k0_pay1 (iblk0 V c 0 t) (iblk0 V c 1 t) (iblk0 V c 2 t)) :=
  (blocks0_3 V c t).trans (flushed0_3 V c t)

/-! # The second fake-quantised linear layer: pipeline 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer through its whole rectangle -/

abbrev r2_0 : Rect S512x1536 := Rect.unit (s := S512x1536) ![0, 0] S512x1536.size inb_S512x1536_S512x1536_0_0
abbrev r2_1 : Rect S1x512 := Rect.unit (s := S1x512) ![0, 0] S1x512.size inb_S1x512_S1x512_0_0
abbrev r2_2 : Rect S512x512 := Rect.unit (s := S512x512) ![0, 0] S512x512.size inb_S512x512_S512x512_0_0

/-! ## What the body leaves in the output window's buffer -/

/-- The output window's staging buffer after the body, from the three input blocks: its one store, of the whole
    rectangle, as a piece. -/
def out2_3 (x0 : Vec F S512x1536 .f32) (x1 : Vec F S512x1536 .bf16) (x2 : Vec F S1x512 .f32) : Vec F S512x512 .f32 :=
  View.canon [⟨r2_2, k2_pay1 (View.ld x0 r2_0) (View.ld x1 r2_0) (View.ld x2 r2_1)⟩]

/-- The store's rectangle is the whole buffer, so it covers it. -/
theorem cover2_3 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The kernel body on whole staging memrefs, the three inputs' at read contents `x0 x1 x2` and the output's at
    anything, runs to the continuation holding the inputs' as they were and the output's at `out2_3` of the inputs:
    three whole-rectangle loads, a load of the output buffer whose value nothing reads, the payload, one
    whole-rectangle store. -/
theorem sound_kernel2 (c : Dev nD) (E : Set ℕ) (i : grid2.Coords) (arg2 : Memref sig .tc .vmem S512x1536 .f32) (harg2 : arg2.IsWhole) (arg3 : Memref sig .tc .vmem S512x1536 .bf16) (harg3 : arg3.IsWhole) (arg4 : Memref sig .tc .vmem S1x512 .f32) (harg4 : arg4.IsWhole) (arg5 : Memref sig .tc .vmem S512x512 .f32) (harg5 : arg5.IsWhole)
    (x0 : Vec F S512x1536 .f32) (x1 : Vec F S512x1536 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__quant_linear_kernel i arg2 harg2 arg3 harg3 arg4 harg4 arg5 harg5) K := by
  simp only [cc2__quant_linear_kernel_eq_skeleton]; unfold cc2__quant_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the three input blocks; the invariant the scoped
    rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## What the region leaves in the output array, block by block -/

theorem hz2 : (![0, 0] : Fin 2 → Nat) = fun _ => 0 := funext fun a => by fin_cases a <;> rfl

/-- The loads and the store go through whole rectangles, so what the body leaves in the output buffer is the payload
    of the three input buffers' contents. -/
theorem out2_3_eq (x0 : Vec F S512x1536 .f32) (x1 : Vec F S512x1536 .bf16) (x2 : Vec F S1x512 .f32) :
    out2_3 x0 x1 x2 = k2_pay1 x0 x1 x2 := by
  unfold out2_3
  rw [View.canon_unit_zero hz2]
  simp only [View.ld_unit_zero (S := S512x1536) hz2, View.ld_unit_zero (S := S1x512) hz2]

/-- What point `t` writes back to the output window's array: the payload of the point's three input blocks. -/
theorem flushed2_3 (c : Dev nD) (t : Fin cfg2.N) :
    (dat2 V c).flushed 3 t = (cfg2.win 3).cut (grid2.coords t) (k2_pay1 (iblk2 V c 0 t) (iblk2 V c 1 t) (iblk2 V c 2 t)) := by
  show (cfg2.win 3).cut (grid2.coords t) ((dat2 V c).after 3 t) = _
  rw [after2_3, out2_3_eq]

/-- The output's index map sends distinct grid points to distinct block indices (decided over the grid). -/
theorem idx_inj2_3 : ∀ t t' : Fin cfg2.N, win2_3.index t = win2_3.index t' → t = t' :=
  (by decide +kernel : ∀ t t' : Fin grid2.N, win2_3.index t = win2_3.index t' → t = t')

/-- So two points' output blocks share no array index. -/
theorem disjoint2_3 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne (idx_inj2_3 t t' h)

/-- Block `t` of the output array after the last point, read back through the window, is what point `t` wrote back:
    every point writes back, and no other point's block meets it. -/
theorem blocks2_3 (c : Dev nD) (t : Fin cfg2.N) :
    ((cfg2.win 3).blk t).view.read (Elt F) ((dat2 V c).arrAt 3 cfg2.N) = (dat2 V c).flushed 3 t :=
  (dat2 V c).read_blk_arrAt_eq_flushed 3 disjoint2_3 cfg2.N t t.isLt (flush2_3 t)

/-- The output array after the region, block by block: block `t` is the payload of point `t`'s three input blocks. -/
theorem arrAt2_out (c : Dev nD) (t : Fin cfg2.N) :
    ((cfg2.win 3).blk t).view.read (Elt F) ((dat2 V c).arrAt 3 cfg2.N)
      = (cfg2.win 3).cut (grid2.coords t) (k2_pay1 (iblk2 V c 0 t) (iblk2 V c 1 t) (iblk2 V c 2 t)) :=
  (blocks2_3 V c t).trans (flushed2_3 V c t)

end Cert.Kernel.QL

end
-- ==== Proof.AttnRunsK.lean ====
/-
  The attention launch's kernel body, run whole on arbitrary whole memrefs, once per case of its two conditionals.

  The launch's grid is (head, query block, key block) = 12 × 4 × 4 with the key block the fastest axis. At each
  point the body updates three buffers it carries across the key blocks of one (head, query block): the running
  row maximum, the running normaliser and the running numerator of a streaming softmax. At key block 0 it first
  resets them (to −∞, 0, 0); at key block 3 it finally divides the numerator by the normaliser and stores the
  output block. So there are three cases — reset and update; update only; update, divide and store — selected by
  the point's residue modulo 4, which the closed forms below decide over the 192 points.
-/
import proofs.«162336_j12171937317144_2_alg».proof.Proof.Gen.Kernel.Launch
import proofs.«162336_j12171937317144_2_alg».proof.Proof.Gen.Kernel.Skeleton
import proofs.«162336_j12171937317144_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditionals, in closed form over the grid

The attention launch's grid is (head, query block, key block) = 12 × 4 × 4, the key block the fastest axis, so the
key block of point `t` is `t % 4`. The first conditional (reset the running maximum, normaliser and numerator)
is taken at key block 0; the second (divide the numerator by the normaliser and store the output block) at key
block 3. -/

/-- The first conditional's condition, from the grid coordinates (the skeleton's scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second conditional is not taken the output window is idle (nothing is stored into it), -/
theorem idleAt1_3 : ∀ t : Fin cfg1.N, ¬cond1_1 (grid1.coords t) → cfg1.idle 3 (grid1.coords t) = true := by decide +kernel
/-- and is not written back; -/
theorem noFlush1_3 : ∀ t : Fin cfg1.N, ¬cond1_1 (grid1.coords t) → (cfg1.win 3).flush t = false := by decide +kernel
/-- where it is taken the window is live. -/
theorem liveAt1_3 : ∀ t : Fin cfg1.N, cond1_1 (grid1.coords t) → cfg1.idle 3 (grid1.coords t) = false := by decide +kernel

/-! ## The kernel body on any whole memrefs, one run per case of the conditionals

Each run is a subtype: the lists of pieces the body's stores leave in the buffers it writes (last store first),
with the proof that from the buffers at the stated contents the body runs to any
continuation that takes them back with those pieces written. -/

set_option maxHeartbeats 4000000 in
/-- CASE A — key block 0: the first conditional taken, the second not. The three scratch buffers are handed in
    at anything (the reset overwrites them whole before anything reads them); the output block is handed back
    untouched. -/
noncomputable def kernelRun1_A (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 x2 : Vec F S1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

set_option maxHeartbeats 4000000 in
/-- CASE B — key blocks 1 and 2: neither conditional taken. The scratch buffers are handed in at what the
    point before left; the output block is handed back untouched. -/
noncomputable def kernelRun1_B (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 x2 : Vec F S1024x128 .bf16) (xs0 xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

set_option maxHeartbeats 4000000 in
/-- CASE C — key block 3: the first conditional not taken, the second taken. The scratch buffers are handed in
    at what the point before left; the output block, handed in at anything, is stored whole. -/
noncomputable def kernelRun1_C (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 x2 : Vec F S1024x128 .bf16) (xs0 xs1 : Vec F S1024x1 .f32) (xs2 : Vec F S1024x128 .f32) :
    Σ' (L3 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.Kernel.Attn

end
-- ==== Proof.AttnBodyK.lean ====
/-
  The attention launch's proof data and body obligation.

  The three scratch buffers the body carries across the key blocks of one (head, query block) — running row
  maximum, running normaliser, running numerator — and the output block it stores at the last key block are
  stated by recursion on the grid point (`outsAt1`): at each point the case its residue modulo 4 selects, run on
  the point's input blocks over what the point before left. The region invariant (`PhiS`) holds the scratch
  buffers at those contents between points; the proof data (`dat1`) hold the one array the three input windows
  share at three positive shares that compose to the full share.
-/
import proofs.«162336_j12171937317144_2_alg».proof.Proof.Gen.Kernel.Launch
import proofs.«162336_j12171937317144_2_alg».proof.Proof.Gen.Kernel.Skeleton
import proofs.«162336_j12171937317144_2_alg».proof.Proof.Gen.Kernel.Points
import proofs.«162336_j12171937317144_2_alg».proof.Proof.AttnRunsK
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_3 : View sig .tc .vmem S1024x128 .f32 := (Memref.whole cc1_stg3_0 : Memref sig .tc .vmem S1024x128 .f32).view
/-- Each window's current staging memref at point `t`, as the pipeline passes it, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The scratch operands — running maximum, running normaliser, running numerator —: whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The scratch buffers as views: what they hold is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## What each case leaves, at a point

The three scratch buffers after the body as a triple (running maximum, running normaliser, running numerator):
each the case's pieces for that buffer read back over junk. Each case stores every scratch buffer whole, so the
pieces cover it and the junk is never read. -/

/-- The scratch triple. -/
abbrev Scr (F : FTy → Type) [FloatOps F] : Type := Vec F S1024x1 .f32 × Vec F S1024x1 .f32 × Vec F S1024x128 .f32

/-- A placeholder for the output block at the points where the window is idle: nothing consults it (the window is
    neither written back there nor read at the next point). -/
def outIdle : Vec F S1024x128 .f32 := VO1_3.read (Elt F) VO1_3.junk

/-- After a point of case A: the scratch triple the reset and the update leave. -/
def scrA (c : Dev nD) (t : Fin cfg1.N) (h0 : t.val % 4 = 0) (h1 : ¬t.val % 4 = 3) : Scr F :=
  (VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1))

/-- After a point of case B, over the triple `p` the point before left. -/
def scrB (c : Dev nD) (t : Fin cfg1.N) (h0 : ¬t.val % 4 = 0) (h1 : ¬t.val % 4 = 3) (p : Scr F) : Scr F :=
  (VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1))

/-- After a point of case C, over the triple `p` the point before left. -/
def scrC (c : Dev nD) (t : Fin cfg1.N) (h0 : ¬t.val % 4 = 0) (h1 : t.val % 4 = 3) (p : Scr F) : Scr F :=
  (VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1))

/-- The output block a point of case C stores, over the triple `p` the point before left. -/
def outC (c : Dev nD) (t : Fin cfg1.N) (h0 : ¬t.val % 4 = 0) (h1 : t.val % 4 = 3) (p : Scr F) : Vec F S1024x128 .f32 :=
  VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1)

/-- The pieces cover: every store of the body is a whole-block store. -/
theorem scoverA_0 (c : Dev nD) (t : Fin cfg1.N) (h0 : t.val % 4 = 0) (h1 : ¬t.val % 4 = 3) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, y ∈ pc.1.set :=
  View.cover_of_tiledL _ S1024x1.size (by sl_kernel_rfl) y
theorem scoverA_1 (c : Dev nD) (t : Fin cfg1.N) (h0 : t.val % 4 = 0) (h1 : ¬t.val % 4 = 3) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, y ∈ pc.1.set :=
  View.cover_of_tiledL _ S1024x1.size (by sl_kernel_rfl) y
theorem scoverA_2 (c : Dev nD) (t : Fin cfg1.N) (h0 : t.val % 4 = 0) (h1 : ¬t.val % 4 = 3) (y : S1024x128.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1, y ∈ pc.1.set :=
  View.cover_of_tiledL _ S1024x128.size (by sl_kernel_rfl) y
theorem scoverB_0 (c : Dev nD) (t : Fin cfg1.N) (h0 : ¬t.val % 4 = 0) (h1 : ¬t.val % 4 = 3) (p : Scr F) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1, y ∈ pc.1.set :=
  View.cover_of_tiledL _ S1024x1.size (by sl_kernel_rfl) y
theorem scoverB_1 (c : Dev nD) (t : Fin cfg1.N) (h0 : ¬t.val % 4 = 0) (h1 : ¬t.val % 4 = 3) (p : Scr F) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1, y ∈ pc.1.set :=
  View.cover_of_tiledL _ S1024x1.size (by sl_kernel_rfl) y
theorem scoverB_2 (c : Dev nD) (t : Fin cfg1.N) (h0 : ¬t.val % 4 = 0) (h1 : ¬t.val % 4 = 3) (p : Scr F) (y : S1024x128.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1, y ∈ pc.1.set :=
  View.cover_of_tiledL _ S1024x128.size (by sl_kernel_rfl) y
theorem coverC_3 (c : Dev nD) (t : Fin cfg1.N) (h0 : ¬t.val % 4 = 0) (h1 : t.val % 4 = 3) (p : Scr F) (y : S1024x128.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1, y ∈ pc.1.set :=
  View.cover_of_tiledL _ S1024x128.size (by sl_kernel_rfl) y
theorem scoverC_0 (c : Dev nD) (t : Fin cfg1.N) (h0 : ¬t.val % 4 = 0) (h1 : t.val % 4 = 3) (p : Scr F) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1, y ∈ pc.1.set :=
  View.cover_of_tiledL _ S1024x1.size (by sl_kernel_rfl) y
theorem scoverC_1 (c : Dev nD) (t : Fin cfg1.N) (h0 : ¬t.val % 4 = 0) (h1 : t.val % 4 = 3) (p : Scr F) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1, y ∈ pc.1.set :=
  View.cover_of_tiledL _ S1024x1.size (by sl_kernel_rfl) y
theorem scoverC_2 (c : Dev nD) (t : Fin cfg1.N) (h0 : ¬t.val % 4 = 0) (h1 : t.val % 4 = 3) (p : Scr F) (y : S1024x128.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1, y ∈ pc.1.set :=
  View.cover_of_tiledL _ S1024x128.size (by sl_kernel_rfl) y

/-! ## What the scratch buffers and the output block hold after each point -/

/-- THE RECURSION ON THE POINT. After the body at position `n`: the output block (a placeholder where the window is
    idle) and the scratch triple — the case the point's residue modulo 4 selects, run at the point's memrefs and
    input blocks, over the triple the point before left (at key block 0 over nothing: the reset overwrites it). -/
def outsAt1 (c : Dev nD) : (n : ℕ) → n < cfg1.N → Vec F S1024x128 .f32 × Scr F
  | 0, hn => (outIdle, scrA V c ⟨0, hn⟩ (Nat.zero_mod _) (fun h => by (try dsimp only at h); omega))
  | n + 1, hn =>
    if h0 : (n + 1) % 4 = 0 then
      if h1 : (n + 1) % 4 = 3 then
        False.elim (by omega)
      else
        (outIdle, scrA V c ⟨n + 1, hn⟩ h0 h1)
    else
      if h1 : (n + 1) % 4 = 3 then
        (outC V c ⟨n + 1, hn⟩ h0 h1 (outsAt1 c n (Nat.lt_of_succ_lt hn)).2, scrC V c ⟨n + 1, hn⟩ h0 h1 (outsAt1 c n (Nat.lt_of_succ_lt hn)).2)
      else
        (outIdle, scrB V c ⟨n + 1, hn⟩ h0 h1 (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (outIdle, scrA V c t h0 h1) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (outIdle, scrB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (outC V c t h0 h1 (outsAt1 V c (t.val - 1) (Nat.lt_of_le_of_lt (Nat.sub_le _ _) t.isLt)).2,
      scrC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- The scoped buffers that are neither a staging buffer of this launch nor one of its scratch buffers, each whole
    at some contents, and the generator register at some state: what the body never touches. -/
def othersInv (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ r, prngReg c r))

/-- The class invariant (the scoped rest and the generator register), listed, the scratch operands as memrefs
    owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg1_1), ((c : Thread nD τ).loc cc2_stg1_1) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg2_1), ((c : Thread nD τ).loc cc2_stg2_1) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f))
        ∗ (∃ r, prngReg c r)) := by
  unfold Pipeline.ΦA; rw [scopedRest1_eq]; simp only [scM1_0, scM1_1, scM1_2, owns_whole]; try rfl

/-- The class invariant hands out the three scratch buffers at some contents, beside the untouched rest, -/
theorem PhiA1_elim (c : Dev nD) :
    (Pipeline.ΦA spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ othersInv c) := by
  rw [PhiA1_eq]; unfold othersInv
  iintro ⟨⟨HR0, HR1, HR2, HR3, HR4, HR5, HR6, HR7, HS0, HS1, HS2, HR8, HR9, HR10, HR11, HR12, HR13, HR14, HR15⟩, Hg⟩
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  iexact Hg

/-- and takes them back. -/
theorem PhiA1_intro (c : Dev nD) :
    iprop((∃ d, owns (c : Thread nD τ) scM1_0 fullShare d) ∗ (∃ d, owns (c : Thread nD τ) scM1_1 fullShare d) ∗ (∃ d, owns (c : Thread nD τ) scM1_2 fullShare d) ∗ othersInv c) ⊢ (Pipeline.ΦA spec1 c : sProp 𝕄) := by
  rw [PhiA1_eq]; unfold othersInv
  iintro ⟨HS0, HS1, HS2, HR0, HR1, HR2, HR3, HR4, HR5, HR6, HR7, HR8, HR9, HR10, HR11, HR12, HR13, HR14, HR15, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexact HS0
    isplitl [HS1]; · iexact HS1
    isplitl [HS2]; · iexact HS2
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

/-- The region invariant before position `n`: before the first point the class invariant (every scratch buffer at
    anything); afterwards each scratch buffer at what the point before left in it, beside the untouched rest. -/
def PhiS (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ othersInv c)

theorem PhiS_zero (c : Dev nD) (n : ℕ) (h : n ≤ cfg1.N) (hz : n = 0) : PhiS V c n h = Pipeline.ΦA spec1 c := by
  subst hz; rfl

/-- After point `n` (before point `n + 1`): the scratch buffers at that point's contents. -/
theorem PhiS_succ (c : Dev nD) (n : ℕ) (hn : n < cfg1.N) :
    PhiS V c (n + 1) hn = iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ othersInv c) := rfl

/-- Before a point that is not the first: the scratch buffers at what the point before left. -/
theorem PhiS_pos (c : Dev nD) (n : ℕ) (h : n ≤ cfg1.N) (hz : n ≠ 0) :
    PhiS V c n h = iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ othersInv c) := by
  cases n with
  | zero => exact absurd rfl hz
  | succ n => rfl

/-! ## The pipeline's proof data -/

/-- The proof data of the attention launch on core `c`: the arrays as the region finds them (`V`); after the body
    at point `t` each input's buffer at its block and the output's at `outsAt1`'s first component; the invariant
    `PhiS`; the one input array the three input windows share held at three positive shares that compose to the
    full share (the left half; the left and the right half of the right half), the output's at the full share;
    nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares of the three input windows, -/
theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
/-- which compose to the full share: the two halves of the right half to the right half, the two halves to the whole. -/
theorem q1_split_right : fullShare.right ∈ PCS.op fullShare.right.left fullShare.right.right := PosShare.mem_left_op_right _
theorem q1_split : fullShare ∈ PCS.op fullShare.left fullShare.right := PosShare.mem_left_op_right _

/-- Nothing is owed at any point. -/
theorem owed1 (c : Dev nD) (t : Fin (cfg1.N + 1)) : (dat1 V c).owed t = 0 := rfl

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's residue modulo 4 says which case it is
    in; that case's run applies: the invariant hands the body the scratch buffers at what the point before left
    (at anything before the first point) and takes them back at this point's contents; where the output window is
    idle its buffer is handed back untouched, at key block 3 it is taken at anything and given back at the block
    stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 192 := lt_of_lt_of_eq t.isLt (show cfg1.N = 192 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold scrA; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_elim c) $$ HΦ
        icases HΦ' with ⟨HS0, HS1, HS2, Hrest⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          iexact Hrest
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HS0, HS1, HS2, Hrest⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          iexact Hrest
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold scrC outC; (try dsimp only)
      rw [PhiS_castSucc V c t, PhiS_pos V c _ _ hz]
      iintro ⟨⟨HS0, HS1, HS2, Hrest⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scoverC_0 V c t h0 h1 _)
        isplitl [HS1]
        · unfold owns; iexists _; isplitr
          swap; · iexact HS1
          ipureintro; exact View.read_writes_of_cover _ _ _ _ _ (scoverC_1 V c t h0 h1 _)
        isplitl [HS2]
        · unfold owns; iexists _; isplitr
          swap; · iexact HS2
          ipureintro; exact View.read_writes_of_cover _ _ _ _ _ (scoverC_2 V c t h0 h1 _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold scrB; (try dsimp only)
      rw [PhiS_castSucc V c t, PhiS_pos V c _ _ hz]
      iintro ⟨⟨HS0, HS1, HS2, Hrest⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scoverB_0 V c t h0 h1 _)
        isplitl [HS1]
        · unfold owns; iexists _; isplitr
          swap; · iexact HS1
          ipureintro; exact View.read_writes_of_cover _ _ _ _ _ (scoverB_1 V c t h0 h1 _)
        isplitl [HS2]
        · unfold owns; iexists _; isplitr
          swap; · iexact HS2
          ipureintro; exact View.read_writes_of_cover _ _ _ _ _ (scoverB_2 V c t h0 h1 _)
        iexact Hrest
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch buffers' named contents
    are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HS0, HS1, HS2, Hrest⟩
  iapply (PhiA1_intro c)
  isplitl [HS0]; · iexists _; iexact HS0
  isplitl [HS1]; · iexists _; iexact HS1
  isplitl [HS2]; · iexists _; iexact HS2
  iexact Hrest

/-- The same after the last point. -/
theorem hout1 (c : Dev nD) : (dat1 V c).Φ (Fin.last cfg1.N) ⊢ Pipeline.ΦA spec1 c :=
  Phi_out1 V c _ (by rw [Fin.val_last]; have : cfg1.N = 192 := N_1; omega)

end Region

end Cert.Kernel.Attn

end
-- ==== Proof.BoundariesK.lean ====
/-
  The buffers' contents at the four boundaries around the three kernel regions.

  When region 0 is entered every unscoped buffer holds the launch contents with the host operations before the region
  applied. A region changes one array, its output: the projected rows after region 0, the attention rows after region 1,
  the output rows after region 2; what it leaves there is the fold of its write-backs over every grid point, and every
  other buffer, the arrays it only reads included, stays as entered. Each region's proof data are taken at the contents
  its region is entered with, so that region 1 reads what region 0 wrote and region 2 what region 1 wrote.
-/
import proofs.«162336_j12171937317144_2_alg».proof.Proof.LaunchRestK
import proofs.«162336_j12171937317144_2_alg».proof.Proof.QuantLinearBodyK
import proofs.«162336_j12171937317144_2_alg».proof.Proof.AttnBodyK

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- The buffers' contents when region 0 is entered, read at the TensorCore's references. -/
abbrev U9 : (c : Dev nD) → (b : Ref sig .tc) → Buf (Elt F) ((c : Thread nD τ).loc b) := fun c b => V9 m c b
/-- What region 0's write-backs leave in the projected rows. -/
def out0 (c : Dev nD) : Buf (Elt F) ((c : Thread nD τ).loc main_v31) := (QL.dat0 (U9 m) c).arrAt 3 cfg0.N
/-- After region 0: the projected rows replaced by that. -/
def W10 (c : Dev nD) : Valuation τ sig (Elt F) := Function.update (V9 m c) main_v31 (out0 m c)
abbrev U10 : (c : Dev nD) → (b : Ref sig .tc) → Buf (Elt F) ((c : Thread nD τ).loc b) := fun c b => W10 m c b
/-- What region 1's write-backs leave in the attention rows. -/
def out1 (c : Dev nD) : Buf (Elt F) ((c : Thread nD τ).loc main_v32) := (Attn.dat1 (U10 m) c).arrAt 3 cfg1.N
/-- After region 1. -/
def W11 (c : Dev nD) : Valuation τ sig (Elt F) := Function.update (W10 m c) main_v32 (out1 m c)
abbrev U11 : (c : Dev nD) → (b : Ref sig .tc) → Buf (Elt F) ((c : Thread nD τ).loc b) := fun c b => W11 m c b
/-- What region 2's write-backs leave in the output rows. -/
def out2 (c : Dev nD) : Buf (Elt F) ((c : Thread nD τ).loc main_v33) := (QL.dat2 (U11 m) c).arrAt 3 cfg2.N
/-- After region 2. -/
def W12 (c : Dev nD) : Valuation τ sig (Elt F) := Function.update (W11 m c) main_v33 (out2 m c)
abbrev U12 : (c : Dev nD) → (b : Ref sig .tc) → Buf (Elt F) ((c : Thread nD τ).loc b) := fun c b => W12 m c b

theorem out0_def (c : Dev nD) : out0 m c = (QL.dat0 (U9 m) c).arrAt 3 cfg0.N := rfl
theorem out1_def (c : Dev nD) : out1 m c = (Attn.dat1 (U10 m) c).arrAt 3 cfg1.N := rfl
theorem out2_def (c : Dev nD) : out2 m c = (QL.dat2 (U11 m) c).arrAt 3 cfg2.N := rfl
attribute [irreducible] out0 out1 out2

theorem W10_self (c : Dev nD) : W10 m c main_v31 = out0 m c := by unfold W10; rw [Function.update_self]
theorem W11_self (c : Dev nD) : W11 m c main_v32 = out1 m c := by unfold W11; rw [Function.update_self]
theorem W12_self (c : Dev nD) : W12 m c main_v33 = out2 m c := by unfold W12; rw [Function.update_self]

/-- What the regions leave, as a lookup in the boundary contents. -/
def outs : Outs (F := F) := fun J r c => if J = 10 then W10 m c r else if J = 11 then W11 m c r else W12 m c r

theorem outs_10 (c : Dev nD) : outs m 10 main_v31 c = out0 m c := by
  unfold outs; rw [if_pos rfl]; exact W10_self m c
theorem outs_11 (c : Dev nD) : outs m 11 main_v32 c = out1 m c := by
  unfold outs; rw [if_neg (by decide), if_pos rfl]; exact W11_self m c
theorem outs_12 (c : Dev nD) : outs m 12 main_v33 c = out2 m c := by
  unfold outs; rw [if_neg (by decide), if_neg (by decide)]; exact W12_self m c

theorem V10_eq (c : Dev nD) : V10 m (outs m) c = W10 m c := by
  have h : V10 m (outs m) c = Function.update (V9 m c) main_v31 (outs m 10 main_v31 c) := rfl
  rw [h, outs_10]; rfl
theorem V11_eq (c : Dev nD) : V11 m (outs m) c = W11 m c := by
  have h : V11 m (outs m) c = Function.update (V10 m (outs m) c) main_v32 (outs m 11 main_v32 c) := rfl
  rw [h, outs_11, V10_eq]; rfl
theorem V12_eq (c : Dev nD) : V12 m (outs m) c = W12 m c := by
  have h : V12 m (outs m) c = Function.update (V11 m (outs m) c) main_v33 (outs m 12 main_v33 c) := rfl
  rw [h, outs_12, V11_eq]; rfl

/-- Every pipeline's proof data, each at its region's entry contents. -/
def pdats : (p : Fin 3) → (c : Dev nD) → Dat τ (Elt F) Unit ℕ (Pipeline.UD sig nD τ) ℕ (cfgs p) c
  | ⟨0, _⟩ => fun c => QL.dat0 (U9 m) c
  | ⟨1, _⟩ => fun c => Attn.dat1 (U10 m) c
  | ⟨2, _⟩ => fun c => QL.dat2 (U11 m) c

/-- A window that never writes its block back leaves its array as it found it. -/
theorem arrAt_input {cfg : Pipeline.Cfg sig Λ₀} {c : Dev nD} (dat : Dat τ (Elt F) Unit ℕ (Pipeline.UD sig nD τ) ℕ cfg c) (w : Fin cfg.W)
    (h : ∀ t, (cfg.win w).flush t = false) : ∀ n : Nat, dat.arrAt w n = dat.A w
  | 0 => rfl
  | n + 1 => by
      have ih := arrAt_input dat w h n
      rw [Dat.arrAt]
      dsimp only
      split
      · rename_i hlt
        rw [h ⟨n, hlt⟩]
        exact ih
      · exact ih

theorem noflush0 : ∀ w : Fin cfg0.W, w ≠ 3 → ∀ t, (cfg0.win w).flush t = false := by decide

/-- After region 0 each of its arrays holds what the pipeline leaves: the three it reads as entered, the projected
    rows the write-backs. -/
theorem hF0 (c : Dev nD) (w : Fin cfg0.W) : (QL.dat0 (U9 m) c).arrAt w cfg0.N = U10 m c (Pipeline.arrRef spec0 w) := by
  by_cases hw : w = 3
  · subst hw
    show _ = W10 m c main_v31
    rw [W10_self, out0_def]
  · have hne : Pipeline.arrRef spec0 w ≠ main_v31 := by revert w; decide
    rw [arrAt_input _ w (noflush0 w hw), QL.A_eq0]
    show V9 m c (Pipeline.arrRef spec0 w) = W10 m c (Pipeline.arrRef spec0 w)
    simp only [W10, Function.update_of_ne (StableHlo.devRef_ne_of_ne hne : (Proc.devRef .tc (Pipeline.arrRef spec0 w) : DevRef τ sig) ≠ Proc.devRef .tc main_v31)]

theorem hrest0 (c : Dev nD) : ∀ b, b ∉ Finset.univ.image (Pipeline.arrRef spec0) → U10 m c b = U9 m c b := fun b hb => by
  have hne : b ≠ main_v31 := fun e => hb (e ▸ Finset.mem_image.mpr ⟨3, Finset.mem_univ _, rfl⟩)
  show W10 m c b = V9 m c b
  simp only [W10, Function.update_of_ne (StableHlo.devRef_ne_of_ne hne : (Proc.devRef .tc b : DevRef τ sig) ≠ Proc.devRef .tc main_v31)]

theorem noflush2 : ∀ w : Fin cfg2.W, w ≠ 3 → ∀ t, (cfg2.win w).flush t = false := by decide

theorem hF2 (c : Dev nD) (w : Fin cfg2.W) : (QL.dat2 (U11 m) c).arrAt w cfg2.N = U12 m c (Pipeline.arrRef spec2 w) := by
  by_cases hw : w = 3
  · subst hw
    show _ = W12 m c main_v33
    rw [W12_self, out2_def]
  · have hne : Pipeline.arrRef spec2 w ≠ main_v33 := by revert w; decide
    rw [arrAt_input _ w (noflush2 w hw), QL.A_eq2]
    show W11 m c (Pipeline.arrRef spec2 w) = W12 m c (Pipeline.arrRef spec2 w)
    simp only [W12, Function.update_of_ne (StableHlo.devRef_ne_of_ne hne : (Proc.devRef .tc (Pipeline.arrRef spec2 w) : DevRef τ sig) ≠ Proc.devRef .tc main_v33)]

theorem hrest2 (c : Dev nD) : ∀ b, b ∉ Finset.univ.image (Pipeline.arrRef spec2) → U12 m c b = U11 m c b := fun b hb => by
  have hne : b ≠ main_v33 := fun e => hb (e ▸ Finset.mem_image.mpr ⟨3, Finset.mem_univ _, rfl⟩)
  show W12 m c b = W11 m c b
  simp only [W12, Function.update_of_ne (StableHlo.devRef_ne_of_ne hne : (Proc.devRef .tc b : DevRef τ sig) ≠ Proc.devRef .tc main_v33)]

end Cert.Kernel.Asm

end
-- ==== Proof.AttnSharesK.lean ====
/-
  The attention region reads the projected rows [4096,4608] through three windows: a query block, a key block and a value
  block of one and the same array. A window that only reads its array needs only a positive share of it. So on entering
  the region the array's buffer, held whole at the full share, is dealt to the three windows as a half and two quarters,
  and on leaving the three parts, still at the contents they were dealt at, are put together again.
-/
import proofs.«162336_j12171937317144_2_alg».proof.Proof.Gen.Kernel.Regions

noncomputable section

namespace Cert.Kernel.Shares

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Kernel Cert.Kernel.Gen

variable {F : FTy → Type} [FloatOps F]

local notation "𝕄" => MT nD τ sig Unit (Elt F) ℕ (Pipeline.UD sig nD τ) ℕ

/-- The four windows' arrays, each a whole buffer, as whole-buffer points-tos at each window's own share. -/
theorem arrays_whole (c : Dev nD) (dat : Dat τ (Elt F) Unit ℕ (Pipeline.UD sig nD τ) ℕ cfg1 c)
    (G : (w : Fin cfg1.W) → Buf (Elt F) ((cfg1.win w).arr.view.loc (c.tc : Thread nD τ))) :
    dat.arrays G = bigSep Finset.univ fun w => (((c.tc : Thread nD τ).loc (Pipeline.arrRef spec1 w)) ↦{dat.share w} G w : sProp 𝕄) := by
  unfold Dat.arrays
  exact bigSep_congr fun w _ => by rw [(arr_whole1 w).set_eq_univ]

/-- The four windows look at two buffers: the three input windows at the projected rows, the output window at the
    attention rows. -/
theorem image_arr1 : Finset.univ.image (Pipeline.arrRef spec1) = ({main_v31, main_v32} : Finset (Ref sig .tc)) := by decide

/-- Entering: the two buffers, whole at the full share, are the four windows' arrays at the windows' shares; the query,
    key and value windows, which only read the projected rows, take a half and two quarters of that buffer. -/
theorem arrays_of_arrBufs1 (c : Dev nD) (dat : Dat τ (Elt F) Unit ℕ (Pipeline.UD sig nD τ) ℕ cfg1 c)
    (V : (b : Ref sig .tc) → Buf (Elt F) ((c.tc : Thread nD τ).loc b))
    (hq0 : dat.q 0 = fullShare.left) (hq1 : dat.q 1 = fullShare.right.left) (hq2 : dat.q 2 = fullShare.right.right) :
    (Pipeline.arrBufs spec1 c V : sProp 𝕄) ⊢ dat.arrays (fun w => V (Pipeline.arrRef spec1 w)) := by
  have hs0 : dat.share 0 = fullShare.left := by rw [← hq0]; rfl
  have hs1 : dat.share 1 = fullShare.right.left := by rw [← hq1]; rfl
  have hs2 : dat.share 2 = fullShare.right.right := by rw [← hq2]; rfl
  have hs3 : dat.share 3 = fullShare := rfl
  rw [arrays_whole, bigSep_W1, hs0, hs1, hs2, hs3]
  have hL : (Pipeline.arrBufs spec1 c V : sProp 𝕄)
      = iprop((((c.tc : Thread nD τ).loc main_v31) ↦{fullShare} V main_v31) ∗ (((c.tc : Thread nD τ).loc main_v32) ↦{fullShare} V main_v32)) := by
    unfold Pipeline.arrBufs
    rw [image_arr1, bigSep_insert (by decide : main_v31 ∉ ({main_v32} : Finset (Ref sig .tc))), bigSep_singleton]
    rfl
  rw [hL]
  iintro ⟨H31, H32⟩
  ihave H := (pointsTo_share (PosShare.mem_left_op_right fullShare)).1 $$ H31
  icases H with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H32

/-- Leaving: the four windows' arrays at the windows' shares, the three reading windows all at the one buffer's contents,
    are the two buffers whole at the full share again. -/
theorem arrBufs_of_arrays1 (c : Dev nD) (dat : Dat τ (Elt F) Unit ℕ (Pipeline.UD sig nD τ) ℕ cfg1 c)
    (V : (b : Ref sig .tc) → Buf (Elt F) ((c.tc : Thread nD τ).loc b))
    (hq0 : dat.q 0 = fullShare.left) (hq1 : dat.q 1 = fullShare.right.left) (hq2 : dat.q 2 = fullShare.right.right) :
    dat.arrays (fun w => V (Pipeline.arrRef spec1 w)) ⊢ (Pipeline.arrBufs spec1 c V : sProp 𝕄) := by
  have hs0 : dat.share 0 = fullShare.left := by rw [← hq0]; rfl
  have hs1 : dat.share 1 = fullShare.right.left := by rw [← hq1]; rfl
  have hs2 : dat.share 2 = fullShare.right.right := by rw [← hq2]; rfl
  have hs3 : dat.share 3 = fullShare := rfl
  rw [arrays_whole, bigSep_W1, hs0, hs1, hs2, hs3]
  have hL : (Pipeline.arrBufs spec1 c V : sProp 𝕄)
      = iprop((((c.tc : Thread nD τ).loc main_v31) ↦{fullShare} V main_v31) ∗ (((c.tc : Thread nD τ).loc main_v32) ↦{fullShare} V main_v32)) := by
    unfold Pipeline.arrBufs
    rw [image_arr1, bigSep_insert (by decide : main_v31 ∉ ({main_v32} : Finset (Ref sig .tc))), bigSep_singleton]
    rfl
  rw [hL]
  iintro ⟨Ha, Hb1, Hb2, H32⟩
  ihave Hb := (pointsTo_share (PosShare.mem_left_op_right fullShare.right)).2 $$ [Hb1 Hb2]
  · isplitl [Hb1] <;> iassumption
  ihave H31 := (pointsTo_share (PosShare.mem_left_op_right fullShare)).2 $$ [Ha Hb]
  · isplitl [Ha] <;> iassumption
  isplitl [H31]; · iexact H31
  iexact H32

end Cert.Kernel.Shares

end
-- ==== Proof.RecordsK.lean ====
/-
  The three kernel regions as segments of the program, each between its two boundaries.

  A region is entered holding every unscoped buffer whole at the boundary's contents, the generator register at some
  state and nothing owed. Its windows' arrays are split out of the unscoped buffers and, when it ends, put back at what
  the pipeline leaves; the register goes into the region's invariant and comes back; the region owes nothing and has no
  semaphore of its own.
-/
import proofs.«162336_j12171937317144_2_alg».proof.Proof.BoundariesK
import proofs.«162336_j12171937317144_2_alg».proof.Proof.AttnSharesK
import Idealize.ShloMosaic.Lib.Pipeline.RegionsLoop

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 0 between its two boundaries: its four arrays split out of the unscoped buffers and put back at what the
    pipeline leaves; the generator register into the region's invariant and out; nothing owed; no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (QL.body_obligation0 (U9 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U9 m c) (U10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between its two boundaries, likewise: its four arrays split out of the unscoped buffers and put back at what the
    pipeline leaves; the generator register into the region's invariant and out; nothing owed; no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (QL.body_obligation2 (U11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U11 m c) (U12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.FrameWithResultK.lean ====
/-
  The run of the three-region program with its RESULT named, given the three regions' records.

  Between two items of the program every unscoped buffer of a core is held whole at a valuation: the launch
  contents, then each stretch of host operations applied, then, after a region, that region's output array replaced
  by what the region left there. The last item is one reshape of the third region's output [4096,1536] into the
  result [1,4096,1536]. So at the end the result buffer holds the last valuation at the result, and each argument
  buffer holds its launch contents, no item writing an argument. This is the conditional frame of the program with
  one more buffer read off the last valuation.
-/
import proofs.«162336_j12171937317144_2_alg».proof.Proof.Gen.Kernel.Regions

noncomputable section

namespace Cert.Kernel.GenR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

set_option backward.isDefEq.respectTransparency.types false in
/-- Every weakly fair execution of the program from memory `m` with zero counters terminates; the result buffer
    ends at the last valuation's contents and every argument buffer at its launch contents. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      r.2.mem ((c.tc : Thread nD τ).loc main_v34) = V13 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, .rfl, .rfl, .rfl, .rfl, hpre0 c, (hpost0 c).trans (hpre1 c), (hpost1 c).trans (hpre2 c), hpost2 c, sep_mono .rfl (hE3 c)⟩)
    (hinit := ?_) (QY := fun c s => s.mem ((c.tc : Thread nD τ).loc main_v34) = V13 m outs c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c)⟩
    · iexact HSI

end Cert.Kernel.GenR

end
-- ==== Proof.AssemblyK.lean ====
/-
  The program's run from the three regions' segments.

  The launch hands every core its unscoped buffers at the launch contents, its generator register and a debt of
  nothing. The host operations before the first region, the three regions and the final reshape follow one another, each
  entered from what the one before left. At the end every argument buffer holds its launch contents, and the result
  buffer holds the reshape of what region 2 left in the output rows.
-/
import proofs.«162336_j12171937317144_2_alg».proof.Proof.RecordsK
import proofs.«162336_j12171937317144_2_alg».proof.Proof.FrameWithResultK
import Idealize.ShloMosaic.Lib.Pipeline.Kit

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Every weakly fair execution terminates and every argument buffer ends at its launch contents, given region 1's
    segment between the second and third boundaries. -/
theorem frame_of (ρ : Dev nD → PrngReg)
    (R1 : RegionSeg (pcfgs (F := F)) adm (pdats m) () defs₀ Variants.none L lv 1)
    (hpre1 : ∀ c : Dev nD, iprop(StableHlo.held (c : Thread nD τ) (Pipeline.ucRefs τ sig) (W10 m c) ∗ E (F := F) 1 c) ⊢ R1.pre c)
    (hpost1 : ∀ c : Dev nD, R1.post c ⊢ iprop(StableHlo.held (c : Thread nD τ) (Pipeline.ucRefs τ sig) (W11 m c) ∗ E (F := F) 2 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m embL () Variants.none L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E) (hE0 := hE0 ρ) (hE3 := hE3)
    (R0 := reg0 m) (hpre0 := fun c => .rfl) (hpost0 := fun c => by rw [V10_eq]; exact .rfl)
    (R1 := R1) (hpre1 := fun c => by rw [V10_eq]; exact hpre1 c) (hpost1 := fun c => by rw [V11_eq]; exact hpost1 c)
    (R2 := reg2 m) (hpre2 := fun c => by rw [V11_eq]; exact .rfl) (hpost2 := fun c => by rw [V12_eq]; exact .rfl)

set_option backward.isDefEq.respectTransparency.types false in
/-- The same run with the result named: the result buffer ends at the last boundary's contents, which are the
    reshape of region 2's output rows. -/
theorem run_of (ρ : Dev nD → PrngReg)
    (R1 : RegionSeg (pcfgs (F := F)) adm (pdats m) () defs₀ Variants.none L lv 1)
    (hpre1 : ∀ c : Dev nD, iprop(StableHlo.held (c : Thread nD τ) (Pipeline.ucRefs τ sig) (W10 m c) ∗ E (F := F) 1 c) ⊢ R1.pre c)
    (hpost1 : ∀ c : Dev nD, R1.post c ⊢ iprop(StableHlo.held (c : Thread nD τ) (Pipeline.ucRefs τ sig) (W11 m c) ∗ E (F := F) 2 c)) :
    θ_run defs (onTc (τ := τ) (main (F := F))) ⟨m, fun _ => 0, ρ⟩ (fun r => ∀ c : Dev nD,
      r.2.mem ((c.tc : Thread nD τ).loc main_v34) = V13 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  GenR.run_cond m embL () Variants.none L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E) (hE0 := hE0 ρ) (hE3 := hE3)
    (R0 := reg0 m) (hpre0 := fun c => .rfl) (hpost0 := fun c => by rw [V10_eq]; exact .rfl)
    (R1 := R1) (hpre1 := fun c => by rw [V10_eq]; exact hpre1 c) (hpost1 := fun c => by rw [V11_eq]; exact hpost1 c)
    (R2 := reg2 m) (hpre2 := fun c => by rw [V11_eq]; exact .rfl) (hpost2 := fun c => by rw [V12_eq]; exact .rfl)

end Cert.Kernel.Asm

end
-- ==== Proof.Records1K.lean ====
/-
  The attention region as a segment of the program, between its two boundaries.

  The region is entered holding every unscoped buffer whole at the boundary's contents, the generator register at
  some state and nothing owed. Its three input windows all look at the projected rows: that one buffer, split out
  of the unscoped buffers whole at the full share, is dealt to them as a half and two quarters, and when the region
  ends the three parts, still at the contents they were dealt at, are put together again and returned beside the
  attention rows at what the write-backs left. The register and the scoped buffers go into the region's invariant
  and come back; the region owes nothing and has no semaphore of its own.
-/
import proofs.«162336_j12171937317144_2_alg».proof.Proof.BoundariesK
import proofs.«162336_j12171937317144_2_alg».proof.Proof.AttnSharesK
import Idealize.ShloMosaic.Lib.Pipeline.RegionsLoop

noncomputable section

namespace Cert.Kernel.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- The three input windows never write their blocks back. -/
theorem noflush1 : ∀ w : Fin cfg1.W, w ≠ 3 → ∀ t, (cfg1.win w).flush t = false := by decide +kernel

/-- After the region each of its arrays holds what the pipeline leaves: the projected rows, which the three input
    windows only read, as entered; the attention rows the write-backs. -/
theorem hF1 (c : Dev nD) (w : Fin cfg1.W) : (Attn.dat1 (U10 m) c).arrAt w cfg1.N = U11 m c (Pipeline.arrRef spec1 w) := by
  by_cases hw : w = 3
  · subst hw
    show _ = W11 m c main_v32
    rw [W11_self, out1_def]
  · have hne : Pipeline.arrRef spec1 w ≠ main_v32 := by revert w; decide
    rw [arrAt_input _ w (noflush1 w hw), Attn.A_eq1]
    show W10 m c (Pipeline.arrRef spec1 w) = W11 m c (Pipeline.arrRef spec1 w)
    simp only [W11, Function.update_of_ne (StableHlo.devRef_ne_of_ne hne : (Proc.devRef .tc (Pipeline.arrRef spec1 w) : DevRef τ sig) ≠ Proc.devRef .tc main_v32)]

/-- Every other buffer stays as entered. -/
theorem hrest1 (c : Dev nD) : ∀ b, b ∉ Finset.univ.image (Pipeline.arrRef spec1) → U11 m c b = U10 m c b := fun b hb => by
  have hne : b ≠ main_v32 := fun e => hb (e ▸ Finset.mem_image.mpr ⟨3, Finset.mem_univ _, rfl⟩)
  show W11 m c b = W10 m c b
  simp only [W11, Function.update_of_ne (StableHlo.devRef_ne_of_ne hne : (Proc.devRef .tc b : DevRef τ sig) ≠ Proc.devRef .tc main_v32)]

/-- The unscoped buffers that are no array of the region, at two valuations that agree off the arrays. -/
theorem rest_congr1 (c : Dev nD) (V V' : (b : Ref sig .tc) → Buf (Elt F) ((c.tc : Thread nD τ).loc b))
    (hrest : ∀ b, b ∉ Finset.univ.image (Pipeline.arrRef spec1) → V' b = V b) :
    (Pipeline.unscopedRest (Ix := Unit) (Name := ℕ) (U := Pipeline.UD sig nD τ) (Lvl := ℕ) spec1 c V : sProp 𝕄)
      = Pipeline.unscopedRest (Ix := Unit) (Name := ℕ) (U := Pipeline.UD sig nD τ) (Lvl := ℕ) spec1 c V' := by
  unfold Pipeline.unscopedRest
  exact bigSep_congr fun b hb => by rw [hrest b (Finset.mem_sdiff.mp hb).2]

/-- ENTRY, the arrays' part: the unscoped buffers at the entry boundary are the region's arrays at the proof data's
    entry contents — the projected rows dealt to the three input windows — and the unscoped rest. -/
theorem entry1 (c : Dev nD) :
    (StableHlo.held (c : Thread nD τ) (Pipeline.ucRefs τ sig) (W10 m c) : sProp 𝕄)
      ⊢ iprop((Attn.dat1 (U10 m) c).arrays ((Attn.dat1 (U10 m) c).arrAt · 0)
          ∗ Pipeline.unscopedRest (Ix := Unit) (Name := ℕ) (U := Pipeline.UD sig nD τ) (Lvl := ℕ) spec1 c (U10 m c)) := by
  rw [← Pipeline.unscopedBufs_held (Ix := Unit) (Name := ℕ) (U := Pipeline.UD sig nD τ) (Lvl := ℕ) c (W10 m c),
    Pipeline.unscopedBufs_split₀ cfgs 1 winFacts₀1.arr_unscoped c (fun b => W10 m c b)]
  refine BIClass.sep_mono ?_ .rfl
  have hA : (fun w => (Attn.dat1 (U10 m) c).arrAt w 0) = fun w => U10 m c (Pipeline.arrRef spec1 w) :=
    funext fun w => Attn.A_eq1 (U10 m) c w
  rw [hA]
  exact Shares.arrays_of_arrBufs1 c (Attn.dat1 (U10 m) c) (U10 m c) (Attn.q1_0 _ c) (Attn.q1_1 _ c) (Attn.q1_2 _ c)

/-- EXIT, the arrays' part: the region's arrays at what the pipeline leaves, the three parts of the projected rows
    put together again, and the unscoped rest are the unscoped buffers at the exit boundary. -/
theorem exit1 (c : Dev nD) :
    iprop((Attn.dat1 (U10 m) c).arrays ((Attn.dat1 (U10 m) c).arrAt · cfg1.N)
        ∗ Pipeline.unscopedRest (Ix := Unit) (Name := ℕ) (U := Pipeline.UD sig nD τ) (Lvl := ℕ) spec1 c (U10 m c))
      ⊢ (StableHlo.held (c : Thread nD τ) (Pipeline.ucRefs τ sig) (W11 m c) : sProp 𝕄) := by
  rw [← Pipeline.unscopedBufs_held (Ix := Unit) (Name := ℕ) (U := Pipeline.UD sig nD τ) (Lvl := ℕ) c (W11 m c),
    Pipeline.unscopedBufs_split₀ cfgs 1 winFacts₀1.arr_unscoped c (fun b => W11 m c b)]
  have hA : (fun w => (Attn.dat1 (U10 m) c).arrAt w cfg1.N) = fun w => U11 m c (Pipeline.arrRef spec1 w) :=
    funext fun w => hF1 m c w
  rw [hA]
  exact BIClass.sep_mono (Shares.arrBufs_of_arrays1 c (Attn.dat1 (U10 m) c) (U11 m c) (Attn.q1_0 _ c) (Attn.q1_1 _ c) (Attn.q1_2 _ c))
    (Entails.of_eq (rest_congr1 c (U10 m c) (U11 m c) (hrest1 m c)))

set_option backward.isDefEq.respectTransparency.types false in
/-- The attention region between its two boundaries. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Attn.body_obligation1 (U10 m) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U10 m c)
  hentry c := by
    rw [Pipeline.ownSems0_none]
    have hsplit : (StableHlo.held (c : Thread nD τ) (Pipeline.ucRefs τ sig) (W10 m c) : sProp 𝕄)
        ⊢ iprop((pdats m 1 c).arrays ((pdats m 1 c).arrAt · 0)
            ∗ Pipeline.unscopedRest (Ix := Unit) (Name := ℕ) (U := Pipeline.UD sig nD τ) (Lvl := ℕ) spec1 c (U10 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (_ : sProp 𝕄) ⊢ Pipeline.ΦA spec1 c from by
      unfold Pipeline.ΦA
      iintro ⟨Hp, -, Hr⟩
      isplitl [Hr]; · iexact Hr
      iexact Hp).trans (Attn.hin1 (U10 m) c)
  hout c := (Attn.hout1 (U10 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 1 c).arrays ((pdats m 1 c).arrAt · cfg1.N)
          ∗ Pipeline.unscopedRest (Ix := Unit) (Name := ℕ) (U := Pipeline.UD sig nD τ) (Lvl := ℕ) spec1 c (U10 m c))
        ⊢ (StableHlo.held (c : Thread nD τ) (Pipeline.ucRefs τ sig) (W11 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Asm

end
-- ==== Proof.LaunchRest.lean ====
/-
  What rides beside the buffers between two items of the program, and how the launch makes it.

  Between items a core holds, besides its unscoped buffers, its generator register at some state and its debt to the
  other cores, which is nothing: no kernel of this program signals another core. The launch hands each core its
  register at the launch state and a debt of nothing with nothing recorded, which is that state; at the end the
  state still says that nothing is owed.
-/
import proofs.«162336_j12171937317144_2_alg».proof.Proof.Gen.KernelIdeal.Regions

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (Pipeline.UD sig nD τ) ℕ

abbrev L : GSem nD τ sig → Finset Unit := fun _ => ∅
abbrev lv : GSem nD τ sig → Unit → ℕ := fun _ _ => 0

/-- A core's generator register at some state, and nothing owed. -/
abbrev R (c : Dev nD) : sProp 𝕄 := iprop((∃ r, prngReg c r) ∗ ∃ W, owes (c : Thread nD τ) (0 : CellTallies nD τ sig Unit) W)

/-- The same state rides through all four boundaries around the three regions. -/
abbrev E : Fin 4 → Dev nD → sProp 𝕄 := fun _ c => R (F := F) c

/-- At the end nothing is owed. -/
theorem hE3 (c : Dev nD) : E (F := F) 3 c ⊢ (iprop(∃ W, owes (c : Thread nD τ) (0 : CellTallies nD τ sig Unit) W) : sProp 𝕄) := by
  iintro ⟨-, HO⟩
  iexact HO

/-- The launch makes the state on every core at once. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
      ⊢ (|={Set.univ}=> bigSep Finset.univ (E (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)))
      ⊢ (bigSep Finset.univ (E (F := F) 0) : sProp 𝕄) :=
    bigSep_mono fun c _ => (show (iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄)) : sProp 𝕄) ⊢ E (F := F) 0 c from by
      iintro ⟨-, HO, -, Hp, -⟩
      isplitl [Hp]; · iexists _; iexact Hp
      iexists ∅; iexact HO)
  iintro ⟨H, -⟩
  ihave H' := hmono $$ H
  imodintro
  iexact H'

end Cert.KernelIdeal.Asm

end
-- ==== Proof.QuantLinearBody.lean ====
/- The body obligations and proof data of the two fake-quantised linear layers (pipelines 0 and 2), at a parameter
   `V`: the buffer contents when the region is entered. Per region: each window's block at a point, what the body
   leaves in the output window's buffer as the payload of the three input blocks, the body's triple, the proof data,
   each input found at its block whether fetched or not, the body obligation at every point, and the output array
   after the last point block by block. -/
import proofs.«162336_j12171937317144_2_alg».proof.Proof.Gen.KernelIdeal.Launch
import proofs.«162336_j12171937317144_2_alg».proof.Proof.Gen.KernelIdeal.Skeleton
import proofs.«162336_j12171937317144_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.QL

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when a region is entered: the parameter both regions' halves are stated at
variable (V : (c : Dev nD) → (b : Ref sig .tc) → Buf (Elt F) ((c : Thread nD τ).loc b))

/-! # The first fake-quantised linear layer: pipeline 0, at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof
    data whose array is `V`'s and whose body leaves the block in place: unfetched, the block index has not moved. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer through its whole rectangle -/

abbrev r0_0 : Rect S512x1536 := Rect.unit (s := S512x1536) ![0, 0] S512x1536.size inb_S512x1536_S512x1536_0_0
abbrev r0_1 : Rect S1x512 := Rect.unit (s := S1x512) ![0, 0] S1x512.size inb_S1x512_S1x512_0_0
abbrev r0_2 : Rect S512x512 := Rect.unit (s := S512x512) ![0, 0] S512x512.size inb_S512x512_S512x512_0_0

/-! ## What the body leaves in the output window's buffer -/

/-- The output window's staging buffer after the body, from the three input blocks: its one store, of the whole
    rectangle, as a piece. -/
def out0_3 (x0 : Vec F S512x1536 .f32) (x1 : Vec F S512x1536 .bf16) (x2 : Vec F S1x512 .f32) : Vec F S512x512 .bf16 :=
  View.canon [⟨r0_2, k0_pay1 (View.ld x0 r0_0) (View.ld x1 r0_0) (View.ld x2 r0_1)⟩]

/-- The store's rectangle is the whole buffer, so it covers it. -/
theorem cover0_3 (p0 : Vec F S512x512 .bf16) (y : S512x512.Idx) :
    ∃ pc ∈ ([⟨r0_2, p0⟩] : List (View.Piece (Elt F) S512x512 .bf16)), y ∈ pc.1.set :=
  View.cover_of_tiled [⟨r0_2, p0⟩] S512x512.size (by rfl) y

/-! ## The body's triple -/

set_option maxHeartbeats 1000000 in
/-- The kernel body on whole staging memrefs, the three inputs' at read contents `x0 x1 x2` and the output's at
    anything, runs to the continuation holding the inputs' as they were and the output's at `out0_3` of the inputs:
    three whole-rectangle loads, a load of the output buffer whose value nothing reads, the payload, one
    whole-rectangle store. -/
theorem sound_kernel0 (c : Dev nD) (E : Set ℕ) (i : grid0.Coords) (arg2 : Memref sig .tc .vmem S512x1536 .f32) (harg2 : arg2.IsWhole) (arg3 : Memref sig .tc .vmem S512x1536 .bf16) (harg3 : arg3.IsWhole) (arg4 : Memref sig .tc .vmem S1x512 .f32) (harg4 : arg4.IsWhole) (arg5 : Memref sig .tc .vmem S512x512 .bf16) (harg5 : arg5.IsWhole)
    (x0 : Vec F S512x1536 .f32) (x1 : Vec F S512x1536 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__quant_linear_kernel i arg2 harg2 arg3 harg3 arg4 harg4 arg5 harg5) K := by
  simp only [cc0__quant_linear_kernel_eq_skeleton]; unfold cc0__quant_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant the scoped
    rest and the generator register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the core's
    `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## What the region leaves in the output array, block by block -/

theorem hz0 : (![0, 0] : Fin 2 → Nat) = fun _ => 0 := funext fun a => by fin_cases a <;> rfl

/-- The loads and the store go through whole rectangles, so what the body leaves in the output buffer is the payload
    of the three input buffers' contents. -/
theorem out0_3_eq (x0 : Vec F S512x1536 .f32) (x1 : Vec F S512x1536 .bf16) (x2 : Vec F S1x512 .f32) :
    out0_3 x0 x1 x2 = k0_pay1 x0 x1 x2 := by
  unfold out0_3
  rw [View.canon_unit_zero hz0]
  simp only [View.ld_unit_zero (S := S512x1536) hz0, View.ld_unit_zero (S := S1x512) hz0]

/-- What point `t` writes back to the output window's array: the payload of the point's three input blocks. -/
theorem flushed0_3 (c : Dev nD) (t : Fin cfg0.N) :
    (dat0 V c).flushed 3 t = (cfg0.win 3).cut (grid0.coords t) (k0_pay1 (iblk0 V c 0 t) (iblk0 V c 1 t) (iblk0 V c 2 t)) := by
  show (cfg0.win 3).cut (grid0.coords t) ((dat0 V c).after 3 t) = _
  rw [after0_3, out0_3_eq]

/-- The output's index map sends distinct grid points to distinct block indices (decided over the grid). -/
theorem idx_inj0_3 : ∀ t t' : Fin cfg0.N, win0_3.index t = win0_3.index t' → t = t' :=
  (by decide +kernel : ∀ t t' : Fin grid0.N, win0_3.index t = win0_3.index t' → t = t')

/-- So two points' output blocks share no array index. -/
theorem disjoint0_3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj0_3 t t' h)

/-- Block `t` of the output array after the last point, read back through the window, is what point `t` wrote back:
    every point writes back, and no other point's block meets it. -/
theorem blocks0_3 (c : Dev nD) (t : Fin cfg0.N) :
    ((cfg0.win 3).blk t).view.read (Elt F) ((dat0 V c).arrAt 3 cfg0.N) = (dat0 V c).flushed 3 t :=
  (dat0 V c).read_blk_arrAt_eq_flushed 3 disjoint0_3 cfg0.N t t.isLt (flush0_3 t)

/-- The output array after the region, block by block: block `t` is the payload of point `t`'s three input blocks. -/
theorem arrAt0_out (c : Dev nD) (t : Fin cfg0.N) :
    ((cfg0.win 3).blk t).view.read (Elt F) ((dat0 V c).arrAt 3 cfg0.N)
      = (cfg0.win 3).cut (grid0.coords t) (k0_pay1 (iblk0 V c 0 t) (iblk0 V c 1 t) (iblk0 V c 2 t)) :=
  (blocks0_3 V c t).trans (flushed0_3 V c t)

/-! # The second fake-quantised linear layer: pipeline 2, at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: unfetched, the block index has not moved. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer through its whole rectangle -/

abbrev r2_0 : Rect S512x1536 := Rect.unit (s := S512x1536) ![0, 0] S512x1536.size inb_S512x1536_S512x1536_0_0
abbrev r2_1 : Rect S1x512 := Rect.unit (s := S1x512) ![0, 0] S1x512.size inb_S1x512_S1x512_0_0
abbrev r2_2 : Rect S512x512 := Rect.unit (s := S512x512) ![0, 0] S512x512.size inb_S512x512_S512x512_0_0

/-! ## What the body leaves in the output window's buffer -/

/-- The output window's staging buffer after the body, from the three input blocks: its one store, of the whole
    rectangle, as a piece. -/
def out2_3 (x0 : Vec F S512x1536 .f32) (x1 : Vec F S512x1536 .bf16) (x2 : Vec F S1x512 .f32) : Vec F S512x512 .f32 :=
  View.canon [⟨r2_2, k2_pay1 (View.ld x0 r2_0) (View.ld x1 r2_0) (View.ld x2 r2_1)⟩]

/-- The store's rectangle is the whole buffer, so it covers it. -/
theorem cover2_3 (p0 : Vec F S512x512 .f32) (y : S512x512.Idx) :
    ∃ pc ∈ ([⟨r2_2, p0⟩] : List (View.Piece (Elt F) S512x512 .f32)), y ∈ pc.1.set :=
  View.cover_of_tiled [⟨r2_2, p0⟩] S512x512.size (by rfl) y

/-! ## The body's triple -/

set_option maxHeartbeats 1000000 in
/-- The kernel body on whole staging memrefs, the three inputs' at read contents `x0 x1 x2` and the output's at
    anything, runs to the continuation holding the inputs' as they were and the output's at `out2_3` of the inputs:
    three whole-rectangle loads, a load of the output buffer whose value nothing reads, the payload, one
    whole-rectangle store. -/
theorem sound_kernel2 (c : Dev nD) (E : Set ℕ) (i : grid2.Coords) (arg2 : Memref sig .tc .vmem S512x1536 .f32) (harg2 : arg2.IsWhole) (arg3 : Memref sig .tc .vmem S512x1536 .bf16) (harg3 : arg3.IsWhole) (arg4 : Memref sig .tc .vmem S1x512 .f32) (harg4 : arg4.IsWhole) (arg5 : Memref sig .tc .vmem S512x512 .f32) (harg5 : arg5.IsWhole)
    (x0 : Vec F S512x1536 .f32) (x1 : Vec F S512x1536 .bf16) (x2 : Vec F S1x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__quant_linear_kernel i arg2 harg2 arg3 harg3 arg4 harg4 arg5 harg5) K := by
  simp only [cc2__quant_linear_kernel_eq_skeleton]; unfold cc2__quant_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them (`V`); after the body at point `t`
    each input's buffer at its block and the output's at `out2_3` of the three input blocks; the invariant the scoped
    rest and the generator register, untouched; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the triple applies; the invariant and the core's
    `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## What the region leaves in the output array, block by block -/

theorem hz2 : (![0, 0] : Fin 2 → Nat) = fun _ => 0 := funext fun a => by fin_cases a <;> rfl

/-- The loads and the store go through whole rectangles, so what the body leaves in the output buffer is the payload
    of the three input buffers' contents. -/
theorem out2_3_eq (x0 : Vec F S512x1536 .f32) (x1 : Vec F S512x1536 .bf16) (x2 : Vec F S1x512 .f32) :
    out2_3 x0 x1 x2 = k2_pay1 x0 x1 x2 := by
  unfold out2_3
  rw [View.canon_unit_zero hz2]
  simp only [View.ld_unit_zero (S := S512x1536) hz2, View.ld_unit_zero (S := S1x512) hz2]

/-- What point `t` writes back to the output window's array: the payload of the point's three input blocks. -/
theorem flushed2_3 (c : Dev nD) (t : Fin cfg2.N) :
    (dat2 V c).flushed 3 t = (cfg2.win 3).cut (grid2.coords t) (k2_pay1 (iblk2 V c 0 t) (iblk2 V c 1 t) (iblk2 V c 2 t)) := by
  show (cfg2.win 3).cut (grid2.coords t) ((dat2 V c).after 3 t) = _
  rw [after2_3, out2_3_eq]

/-- The output's index map sends distinct grid points to distinct block indices (decided over the grid). -/
theorem idx_inj2_3 : ∀ t t' : Fin cfg2.N, win2_3.index t = win2_3.index t' → t = t' :=
  (by decide +kernel : ∀ t t' : Fin grid2.N, win2_3.index t = win2_3.index t' → t = t')

/-- So two points' output blocks share no array index. -/
theorem disjoint2_3 : ∀ t t' : Fin cfg2.N, (cfg2.win 3).flush t = true → (cfg2.win 3).flush t' = true → t ≠ t' →
    Disjoint ((cfg2.win 3).blk t).view.set ((cfg2.win 3).blk t').view.set :=
  fun t t' _ _ hne => (cfg2.win 3).disjoint_blk fun h => hne (idx_inj2_3 t t' h)

/-- Block `t` of the output array after the last point, read back through the window, is what point `t` wrote back:
    every point writes back, and no other point's block meets it. -/
theorem blocks2_3 (c : Dev nD) (t : Fin cfg2.N) :
    ((cfg2.win 3).blk t).view.read (Elt F) ((dat2 V c).arrAt 3 cfg2.N) = (dat2 V c).flushed 3 t :=
  (dat2 V c).read_blk_arrAt_eq_flushed 3 disjoint2_3 cfg2.N t t.isLt (flush2_3 t)

/-- The output array after the region, block by block: block `t` is the payload of point `t`'s three input blocks. -/
theorem arrAt2_out (c : Dev nD) (t : Fin cfg2.N) :
    ((cfg2.win 3).blk t).view.read (Elt F) ((dat2 V c).arrAt 3 cfg2.N)
      = (cfg2.win 3).cut (grid2.coords t) (k2_pay1 (iblk2 V c 0 t) (iblk2 V c 1 t) (iblk2 V c 2 t)) :=
  (blocks2_3 V c t).trans (flushed2_3 V c t)

end Cert.KernelIdeal.QL

end
-- ==== Proof.AttnRuns.lean ====
/-
  The attention launch's kernel body, run whole on arbitrary whole memrefs, once per case of its two conditionals.

  The launch's grid is (head, query block, key block) = 12 × 4 × 4 with the key block the fastest axis. At each
  point the body updates three buffers it carries across the key blocks of one (head, query block): the running
  row maximum, the running normaliser and the running numerator of a streaming softmax. At key block 0 it first
  resets them (to −∞, 0, 0); at key block 3 it finally divides the numerator by the normaliser and stores the
  output block. So there are three cases — reset and update; update only; update, divide and store — selected by
  the point's residue modulo 4, which the closed forms below decide over the 192 points.
-/
import proofs.«162336_j12171937317144_2_alg».proof.Proof.Gen.KernelIdeal.Launch
import proofs.«162336_j12171937317144_2_alg».proof.Proof.Gen.KernelIdeal.Skeleton
import proofs.«162336_j12171937317144_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's two conditionals, in closed form over the grid

The attention launch's grid is (head, query block, key block) = 12 × 4 × 4, the key block the fastest axis, so the
key block of point `t` is `t % 4`. The first conditional (reset the running maximum, normaliser and numerator)
is taken at key block 0; the second (divide the numerator by the normaliser and store the output block) at key
block 3. -/

/-- The first conditional's condition, from the grid coordinates (the skeleton's scalar chain substituted). -/
abbrev cond1_0 (i : grid1.Coords) : Prop := (Scalar.cmpi .ne (Scalar.extui (Scalar.cmpi .eq (BitVec.ofNat 32 (i 2).val) 0#32)) 0#32) = 1#1
/-- It holds at the points ≡ 0 (mod 4) — decided over the grid. -/
theorem hcond1_0 : ∀ t : Fin cfg1.N, cond1_0 (grid1.coords t) ↔ t.val % 4 = 0 :=
  (by decide +kernel : ∀ t : Fin grid1.N, cond1_0 (grid1.coords t) ↔ t.val % 4 = 0)

/-- The second conditional's condition. -/
abbrev cond1_1 (i : grid1.Coords) : Prop := k1_cond2 i = 1#1
/-- It holds at the points ≡ 3 (mod 4) — decided over the grid. -/
theorem hcond1_1 : ∀ t : Fin cfg1.N, cond1_1 (grid1.coords t) ↔ t.val % 4 = 3 :=
  (by decide +kernel : ∀ t : Fin grid1.N, cond1_1 (grid1.coords t) ↔ t.val % 4 = 3)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second conditional is not taken the output window is idle (nothing is stored into it), -/
theorem idleAt1_3 : ∀ t : Fin cfg1.N, ¬cond1_1 (grid1.coords t) → cfg1.idle 3 (grid1.coords t) = true := by decide +kernel
/-- and is not written back; -/
theorem noFlush1_3 : ∀ t : Fin cfg1.N, ¬cond1_1 (grid1.coords t) → (cfg1.win 3).flush t = false := by decide +kernel
/-- where it is taken the window is live. -/
theorem liveAt1_3 : ∀ t : Fin cfg1.N, cond1_1 (grid1.coords t) → cfg1.idle 3 (grid1.coords t) = false := by decide +kernel

/-! ## The kernel body on any whole memrefs, one run per case of the conditionals

Each run is a subtype: the lists of pieces the body's stores leave in the buffers it writes (last store first),
with the proof that from the buffers at the stated contents the body runs to any
continuation that takes them back with those pieces written. -/

set_option maxHeartbeats 4000000 in
/-- CASE A — key block 0: the first conditional taken, the second not. The three scratch buffers are handed in
    at anything (the reset overwrites them whole before anything reads them); the output block is handed back
    untouched. -/
noncomputable def kernelRun1_A (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 x2 : Vec F S1024x128 .bf16) :
    Σ' (LS0 : List (View.Piece (Elt F) S1024x1 .f32)) (LS1 : List (View.Piece (Elt F) S1024x1 .f32)), { LS2 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

set_option maxHeartbeats 4000000 in
/-- CASE B — key blocks 1 and 2: neither conditional taken. The scratch buffers are handed in at what the
    point before left; the output block is handed back untouched. -/
noncomputable def kernelRun1_B (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 x2 : Vec F S1024x128 .bf16) (xs0 xs1 : Vec F S1024x1 .f32) (xs2 : Vec F S1024x128 .f32) :
    Σ' (LS0 : List (View.Piece (Elt F) S1024x1 .f32)) (LS1 : List (View.Piece (Elt F) S1024x1 .f32)), { LS2 : List (View.Piece (Elt F) S1024x128 .f32) //
      ∀ (xi3 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]
    · iexists _; iexact HS0
    isplitl [HS1]
    · iexists _; iexact HS1
    iexists _; iexact HS2

set_option maxHeartbeats 4000000 in
/-- CASE C — key block 3: the first conditional not taken, the second taken. The scratch buffers are handed in
    at what the point before left; the output block, handed in at anything, is stored whole. -/
noncomputable def kernelRun1_C (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 x2 : Vec F S1024x128 .bf16) (xs0 xs1 : Vec F S1024x1 .f32) (xs2 : Vec F S1024x128 .f32) :
    Σ' (L3 : List (View.Piece (Elt F) S1024x128 .f32)) (LS0 : List (View.Piece (Elt F) S1024x1 .f32)) (LS1 : List (View.Piece (Elt F) S1024x1 .f32)), { LS2 : List (View.Piece (Elt F) S1024x128 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)
                ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HS0]
    · iexists _; iexact HS0
    isplitl [HS1]
    · iexists _; iexact HS1
    iexists _; iexact HS2

end Cert.KernelIdeal.Attn

end
-- ==== Proof.AttnBody.lean ====
/-
  The attention launch's proof data and body obligation.

  The three scratch buffers the body carries across the key blocks of one (head, query block) — running row
  maximum, running normaliser, running numerator — and the output block it stores at the last key block are
  stated by recursion on the grid point (`outsAt1`): at each point the case its residue modulo 4 selects, run on
  the point's input blocks over what the point before left. The region invariant (`PhiS`) holds the scratch
  buffers at those contents between points; the proof data (`dat1`) hold the one array the three input windows
  share at three positive shares that compose to the full share.
-/
import proofs.«162336_j12171937317144_2_alg».proof.Proof.Gen.KernelIdeal.Launch
import proofs.«162336_j12171937317144_2_alg».proof.Proof.Gen.KernelIdeal.Skeleton
import proofs.«162336_j12171937317144_2_alg».proof.Proof.Gen.KernelIdeal.Points
import proofs.«162336_j12171937317144_2_alg».proof.Proof.AttnRuns
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The memrefs the body is called with -/

/-- One staging buffer of the output window, through which its contents are stated (the choice does not matter). -/
abbrev VO1_3 : View sig .tc .vmem S1024x128 .f32 := (Memref.whole cc1_stg3_0 : Memref sig .tc .vmem S1024x128 .f32).view
/-- Each window's current staging memref at point `t`, as the pipeline passes it, and its wholeness. -/
abbrev ms1_0 (t : Fin cfg1.N) : Memref sig .tc .vmem S1024x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x128 .f32 := win1_3.stage (cfg1.slots t 3)
abbrev hs1_3 (t : Fin cfg1.N) : (ms1_3 t).IsWhole := hstage1_3 ((cfg1.slots t 3).cast nbuf1_3)
/-- The scratch operands — running maximum, running normaliser, running numerator —: whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x128 .f32 := Memref.whole cc1_scratch2
/-- The scratch buffers as views: what they hold is stated through them. -/
abbrev VS1_0 : View sig .tc .vmem S1024x1 .f32 := scM1_0.view
abbrev VS1_1 : View sig .tc .vmem S1024x1 .f32 := scM1_1.view
abbrev VS1_2 : View sig .tc .vmem S1024x128 .f32 := scM1_2.view

/-! ## What each case leaves, at a point

The three scratch buffers after the body as a triple (running maximum, running normaliser, running numerator):
each the case's pieces for that buffer read back over junk. Each case stores every scratch buffer whole, so the
pieces cover it and the junk is never read. -/

/-- The scratch triple. -/
abbrev Scr (F : FTy → Type) [FloatOps F] : Type := Vec F S1024x1 .f32 × Vec F S1024x1 .f32 × Vec F S1024x128 .f32

/-- A placeholder for the output block at the points where the window is idle: nothing consults it (the window is
    neither written back there nor read at the next point). -/
def outIdle : Vec F S1024x128 .f32 := VO1_3.read (Elt F) VO1_3.junk

/-- After a point of case A: the scratch triple the reset and the update leave. -/
def scrA (c : Dev nD) (t : Fin cfg1.N) (h0 : t.val % 4 = 0) (h1 : ¬t.val % 4 = 3) : Scr F :=
  (VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1))

/-- After a point of case B, over the triple `p` the point before left. -/
def scrB (c : Dev nD) (t : Fin cfg1.N) (h0 : ¬t.val % 4 = 0) (h1 : ¬t.val % 4 = 3) (p : Scr F) : Scr F :=
  (VS1_0.read (Elt F) (VS1_0.writes (Elt F) VS1_0.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1),
   VS1_1.read (Elt F) (VS1_1.writes (Elt F) VS1_1.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1),
   VS1_2.read (Elt F) (VS1_2.writes (Elt F) VS1_2.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1))

/-- After a point of case C, over the triple `p` the point before left. -/
def scrC (c : Dev nD) (t : Fin cfg1.N) (h0 : ¬t.val % 4 = 0) (h1 : t.val % 4 = 3) (p : Scr F) : Scr F :=
  (VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1))

/-- The output block a point of case C stores, over the triple `p` the point before left. -/
def outC (c : Dev nD) (t : Fin cfg1.N) (h0 : ¬t.val % 4 = 0) (h1 : t.val % 4 = 3) (p : Scr F) : Vec F S1024x128 .f32 :=
  VO1_3.read (Elt F) (VO1_3.writes (Elt F) VO1_3.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1)

/-- The pieces cover: every store of the body is a whole-block store. -/
theorem scoverA_0 (c : Dev nD) (t : Fin cfg1.N) (h0 : t.val % 4 = 0) (h1 : ¬t.val % 4 = 3) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).1, y ∈ pc.1.set :=
  View.cover_of_tiledL _ S1024x1.size (by sl_kernel_rfl) y
theorem scoverA_1 (c : Dev nD) (t : Fin cfg1.N) (h0 : t.val % 4 = 0) (h1 : ¬t.val % 4 = 3) (y : S1024x1.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.1, y ∈ pc.1.set :=
  View.cover_of_tiledL _ S1024x1.size (by sl_kernel_rfl) y
theorem scoverA_2 (c : Dev nD) (t : Fin cfg1.N) (h0 : t.val % 4 = 0) (h1 : ¬t.val % 4 = 3) (y : S1024x128.Idx) :
    ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t)).2.2.1, y ∈ pc.1.set :=
  View.cover_of_tiledL _ S1024x128.size (by sl_kernel_rfl) y
theorem scoverB_0 (c : Dev nD) (t : Fin cfg1.N) (h0 : ¬t.val % 4 = 0) (h1 : ¬t.val % 4 = 3) (p : Scr F) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).1, y ∈ pc.1.set :=
  View.cover_of_tiledL _ S1024x1.size (by sl_kernel_rfl) y
theorem scoverB_1 (c : Dev nD) (t : Fin cfg1.N) (h0 : ¬t.val % 4 = 0) (h1 : ¬t.val % 4 = 3) (p : Scr F) (y : S1024x1.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.1, y ∈ pc.1.set :=
  View.cover_of_tiledL _ S1024x1.size (by sl_kernel_rfl) y
theorem scoverB_2 (c : Dev nD) (t : Fin cfg1.N) (h0 : ¬t.val % 4 = 0) (h1 : ¬t.val % 4 = 3) (p : Scr F) (y : S1024x128.Idx) :
    ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2).2.2.1, y ∈ pc.1.set :=
  View.cover_of_tiledL _ S1024x128.size (by sl_kernel_rfl) y
theorem coverC_3 (c : Dev nD) (t : Fin cfg1.N) (h0 : ¬t.val % 4 = 0) (h1 : t.val % 4 = 3) (p : Scr F) (y : S1024x128.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).1, y ∈ pc.1.set :=
  View.cover_of_tiledL _ S1024x128.size (by sl_kernel_rfl) y
theorem scoverC_0 (c : Dev nD) (t : Fin cfg1.N) (h0 : ¬t.val % 4 = 0) (h1 : t.val % 4 = 3) (p : Scr F) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.1, y ∈ pc.1.set :=
  View.cover_of_tiledL _ S1024x1.size (by sl_kernel_rfl) y
theorem scoverC_1 (c : Dev nD) (t : Fin cfg1.N) (h0 : ¬t.val % 4 = 0) (h1 : t.val % 4 = 3) (p : Scr F) (y : S1024x1.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.1, y ∈ pc.1.set :=
  View.cover_of_tiledL _ S1024x1.size (by sl_kernel_rfl) y
theorem scoverC_2 (c : Dev nD) (t : Fin cfg1.N) (h0 : ¬t.val % 4 = 0) (h1 : t.val % 4 = 3) (p : Scr F) (y : S1024x128.Idx) :
    ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2).2.2.2.1, y ∈ pc.1.set :=
  View.cover_of_tiledL _ S1024x128.size (by sl_kernel_rfl) y

/-! ## What the scratch buffers and the output block hold after each point -/

/-- THE RECURSION ON THE POINT. After the body at position `n`: the output block (a placeholder where the window is
    idle) and the scratch triple — the case the point's residue modulo 4 selects, run at the point's memrefs and
    input blocks, over the triple the point before left (at key block 0 over nothing: the reset overwrites it). -/
def outsAt1 (c : Dev nD) : (n : ℕ) → n < cfg1.N → Vec F S1024x128 .f32 × Scr F
  | 0, hn => (outIdle, scrA V c ⟨0, hn⟩ (Nat.zero_mod _) (fun h => by (try dsimp only at h); omega))
  | n + 1, hn =>
    if h0 : (n + 1) % 4 = 0 then
      if h1 : (n + 1) % 4 = 3 then
        False.elim (by omega)
      else
        (outIdle, scrA V c ⟨n + 1, hn⟩ h0 h1)
    else
      if h1 : (n + 1) % 4 = 3 then
        (outC V c ⟨n + 1, hn⟩ h0 h1 (outsAt1 c n (Nat.lt_of_succ_lt hn)).2, scrC V c ⟨n + 1, hn⟩ h0 h1 (outsAt1 c n (Nat.lt_of_succ_lt hn)).2)
      else
        (outIdle, scrB V c ⟨n + 1, hn⟩ h0 h1 (outsAt1 c n (Nat.lt_of_succ_lt hn)).2)

/-- `outsAt1` at a point of case A. -/
theorem outsAt1_A (c : Dev nD) (t : Fin cfg1.N) (h0 : t.val % 4 = 0) (h1 : ¬t.val % 4 = 3) :
    outsAt1 V c t.val t.isLt = (outIdle, scrA V c t h0 h1) := by
  obtain ⟨n, hn⟩ := t
  cases n with
  | zero => exact rfl
  | succ n => exact (dif_pos h0).trans ((dif_neg h1).trans rfl)

/-- `outsAt1` at a point of case B: over what the point before left. -/
theorem outsAt1_B (c : Dev nD) (t : Fin cfg1.N) (h0 : ¬t.val % 4 = 0) (h1 : ¬t.val % 4 = 3) :
    outsAt1 V c t.val t.isLt = (outIdle, scrB V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

/-- `outsAt1` at a point of case C: over what the point before left. -/
theorem outsAt1_C (c : Dev nD) (t : Fin cfg1.N) (h0 : ¬t.val % 4 = 0) (h1 : t.val % 4 = 3) :
    outsAt1 V c t.val t.isLt = (outC V c t h0 h1 (outsAt1 V c (t.val - 1) (Nat.lt_of_le_of_lt (Nat.sub_le _ _) t.isLt)).2,
      scrC V c t h0 h1 (outsAt1 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-! ## The region invariant -/

/-- The scoped buffers that are neither a staging buffer of this launch nor one of its scratch buffers, each whole
    at some contents, and the generator register at some state: what the body never touches. -/
def othersInv (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg1_1), ((c : Thread nD τ).loc cc2_stg1_1) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg3_1), ((c : Thread nD τ).loc cc2_stg3_1) ↦{fullShare} f)
    ∗ (∃ r, prngReg c r))

/-- The class invariant (the scoped rest and the generator register), listed, the scratch operands as memrefs
    owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg1_1), ((c : Thread nD τ).loc cc0_stg1_1) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg2_1), ((c : Thread nD τ).loc cc0_stg2_1) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ d, owns (c : Thread nD τ) scM1_0 fullShare d)
        ∗ (∃ d, owns (c : Thread nD τ) scM1_1 fullShare d)
        ∗ (∃ d, owns (c : Thread nD τ) scM1_2 fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg1_1), ((c : Thread nD τ).loc cc2_stg1_1) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg2_1), ((c : Thread nD τ).loc cc2_stg2_1) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg3_1), ((c : Thread nD τ).loc cc2_stg3_1) ↦{fullShare} f))
        ∗ (∃ r, prngReg c r)) := by
  unfold Pipeline.ΦA; rw [scopedRest1_eq]; simp only [scM1_0, scM1_1, scM1_2, owns_whole]; try rfl

/-- The class invariant hands out the three scratch buffers at some contents, beside the untouched rest, -/
theorem PhiA1_elim (c : Dev nD) :
    (Pipeline.ΦA spec1 c : sProp 𝕄) ⊢ iprop((∃ d, owns (c : Thread nD τ) scM1_0 fullShare d) ∗ (∃ d, owns (c : Thread nD τ) scM1_1 fullShare d) ∗ (∃ d, owns (c : Thread nD τ) scM1_2 fullShare d) ∗ othersInv c) := by
  rw [PhiA1_eq]; unfold othersInv
  iintro ⟨⟨HR0, HR1, HR2, HR3, HR4, HR5, HR6, HR7, HS0, HS1, HS2, HR8, HR9, HR10, HR11, HR12, HR13, HR14, HR15⟩, Hg⟩
  isplitl [HS0]; · iexact HS0
  isplitl [HS1]; · iexact HS1
  isplitl [HS2]; · iexact HS2
  isplitl [HR0]; · iexact HR0
  isplitl [HR1]; · iexact HR1
  isplitl [HR2]; · iexact HR2
  isplitl [HR3]; · iexact HR3
  isplitl [HR4]; · iexact HR4
  isplitl [HR5]; · iexact HR5
  isplitl [HR6]; · iexact HR6
  isplitl [HR7]; · iexact HR7
  isplitl [HR8]; · iexact HR8
  isplitl [HR9]; · iexact HR9
  isplitl [HR10]; · iexact HR10
  isplitl [HR11]; · iexact HR11
  isplitl [HR12]; · iexact HR12
  isplitl [HR13]; · iexact HR13
  isplitl [HR14]; · iexact HR14
  isplitl [HR15]; · iexact HR15
  iexact Hg

/-- and takes them back. -/
theorem PhiA1_intro (c : Dev nD) :
    iprop((∃ d, owns (c : Thread nD τ) scM1_0 fullShare d) ∗ (∃ d, owns (c : Thread nD τ) scM1_1 fullShare d) ∗ (∃ d, owns (c : Thread nD τ) scM1_2 fullShare d) ∗ othersInv c) ⊢ (Pipeline.ΦA spec1 c : sProp 𝕄) := by
  rw [PhiA1_eq]; unfold othersInv
  iintro ⟨HS0, HS1, HS2, HR0, HR1, HR2, HR3, HR4, HR5, HR6, HR7, HR8, HR9, HR10, HR11, HR12, HR13, HR14, HR15, Hg⟩
  isplitr [Hg]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HS0]; · iexact HS0
    isplitl [HS1]; · iexact HS1
    isplitl [HS2]; · iexact HS2
    isplitl [HR8]; · iexact HR8
    isplitl [HR9]; · iexact HR9
    isplitl [HR10]; · iexact HR10
    isplitl [HR11]; · iexact HR11
    isplitl [HR12]; · iexact HR12
    isplitl [HR13]; · iexact HR13
    isplitl [HR14]; · iexact HR14
    iexact HR15
  iexact Hg

/-- The region invariant before position `n`: before the first point the class invariant (every scratch buffer at
    anything); afterwards each scratch buffer at what the point before left in it, beside the untouched rest. -/
def PhiS (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ othersInv c)

theorem PhiS_zero (c : Dev nD) (n : ℕ) (h : n ≤ cfg1.N) (hz : n = 0) : PhiS V c n h = Pipeline.ΦA spec1 c := by
  subst hz; rfl

/-- After point `n` (before point `n + 1`): the scratch buffers at that point's contents. -/
theorem PhiS_succ (c : Dev nD) (n : ℕ) (hn : n < cfg1.N) :
    PhiS V c (n + 1) hn = iprop(owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ othersInv c) := rfl

/-- Before a point that is not the first: the scratch buffers at what the point before left. -/
theorem PhiS_pos (c : Dev nD) (n : ℕ) (h : n ≤ cfg1.N) (hz : n ≠ 0) :
    PhiS V c n h = iprop(owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ othersInv c) := by
  cases n with
  | zero => exact absurd rfl hz
  | succ n => rfl

/-! ## The pipeline's proof data -/

/-- The proof data of the attention launch on core `c`: the arrays as the region finds them (`V`); after the body
    at point `t` each input's buffer at its block and the output's at `outsAt1`'s first component; the invariant
    `PhiS`; the one input array the three input windows share held at three positive shares that compose to the
    full share (the left half; the left and the right half of the right half), the output's at the full share;
    nothing owed. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
  owed _ := 0

/-- The proof data's arrays are the region-entry contents. -/
theorem A_eq1 (c : Dev nD) (w : Fin cfg1.W) : (dat1 V c).A w = V c (Pipeline.arrRef spec1 w) := by
  dsimp only [dat1]

/-- The shares of the three input windows, -/
theorem q1_0 (c : Dev nD) : (dat1 V c).q 0 = fullShare.left := by dsimp only [dat1]
theorem q1_1 (c : Dev nD) : (dat1 V c).q 1 = fullShare.right.left := by dsimp only [dat1]
theorem q1_2 (c : Dev nD) : (dat1 V c).q 2 = fullShare.right.right := by dsimp only [dat1]
theorem q1_3 (c : Dev nD) : (dat1 V c).q 3 = fullShare := by dsimp only [dat1]
/-- which compose to the full share: the two halves of the right half to the right half, the two halves to the whole. -/
theorem q1_split_right : fullShare.right ∈ PCS.op fullShare.right.left fullShare.right.right := PosShare.mem_left_op_right _
theorem q1_split : fullShare ∈ PCS.op fullShare.left fullShare.right := PosShare.mem_left_op_right _

/-- Nothing is owed at any point. -/
theorem owed1 (c : Dev nD) (t : Fin (cfg1.N + 1)) : (dat1 V c).owed t = 0 := rfl

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the point's residue modulo 4 says which case it is
    in; that case's run applies: the invariant hands the body the scratch buffers at what the point before left
    (at anything before the first point) and takes them back at this point's contents; where the output window is
    idle its buffer is handed back untouched, at key block 3 it is taken at anything and given back at the block
    stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 192 := lt_of_lt_of_eq t.isLt (show cfg1.N = 192 from N_1)
  by_cases h0 : t.val % 4 = 0
  · by_cases h1 : t.val % 4 = 3
    · exfalso; omega
    · -- case A
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold scrA; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_elim c) $$ HΦ
        icases HΦ' with ⟨HS0, HS1, HS2, Hrest⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          iexact Hrest
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨HS0, HS1, HS2, Hrest⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HS0 HS1 HS2 Hrest]
        · isplitl [HS0]
          · unfold owns; iexists _; isplitr
            swap; · iexact HS0
            ipureintro; exact View.read_writes_of_cover _ _ _ _ _ (scoverA_0 V c t h0 h1)
          isplitl [HS1]
          · unfold owns; iexists _; isplitr
            swap; · iexact HS1
            ipureintro; exact View.read_writes_of_cover _ _ _ _ _ (scoverA_1 V c t h0 h1)
          isplitl [HS2]
          · unfold owns; iexists _; isplitr
            swap; · iexact HS2
            ipureintro; exact View.read_writes_of_cover _ _ _ _ _ (scoverA_2 V c t h0 h1)
          iexact Hrest
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · -- case C
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold scrC outC; (try dsimp only)
      rw [PhiS_castSucc V c t, PhiS_pos V c _ _ hz]
      iintro ⟨⟨HS0, HS1, HS2, Hrest⟩, Ho, ⟨%d0, H0⟩, ⟨%d1, H1⟩, ⟨%d2, H2⟩, ⟨%d3, H3⟩⟩
      iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scoverC_0 V c t h0 h1 _)
        isplitl [HS1]
        · unfold owns; iexists _; isplitr
          swap; · iexact HS1
          ipureintro; exact View.read_writes_of_cover _ _ _ _ _ (scoverC_1 V c t h0 h1 _)
        isplitl [HS2]
        · unfold owns; iexists _; isplitr
          swap; · iexact HS2
          ipureintro; exact View.read_writes_of_cover _ _ _ _ _ (scoverC_2 V c t h0 h1 _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverC_3 V c t h0 h1 _)
    · -- case B
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold scrB; (try dsimp only)
      rw [PhiS_castSucc V c t, PhiS_pos V c _ _ hz]
      iintro ⟨⟨HS0, HS1, HS2, Hrest⟩, Ho, ⟨%d0, H0⟩, ⟨%d1, H1⟩, ⟨%d2, H2⟩, ⟨%d3, H3⟩⟩
      iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 Hrest]
      · isplitl [HS0]
        · unfold owns; iexists _; isplitr
          swap; · iexact HS0
          ipureintro; exact View.read_writes_of_cover _ _ _ _ _ (scoverB_0 V c t h0 h1 _)
        isplitl [HS1]
        · unfold owns; iexists _; isplitr
          swap; · iexact HS1
          ipureintro; exact View.read_writes_of_cover _ _ _ _ _ (scoverB_1 V c t h0 h1 _)
        isplitl [HS2]
        · unfold owns; iexists _; isplitr
          swap; · iexact HS2
          ipureintro; exact View.read_writes_of_cover _ _ _ _ _ (scoverB_2 V c t h0 h1 _)
        iexact Hrest
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region (the class invariant) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the class invariant back: the scratch buffers' named contents
    are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  iintro ⟨HS0, HS1, HS2, Hrest⟩
  iapply (PhiA1_intro c)
  isplitl [HS0]; · iexists _; iexact HS0
  isplitl [HS1]; · iexists _; iexact HS1
  isplitl [HS2]; · iexists _; iexact HS2
  iexact Hrest

/-- The same after the last point. -/
theorem hout1 (c : Dev nD) : (dat1 V c).Φ (Fin.last cfg1.N) ⊢ Pipeline.ΦA spec1 c :=
  Phi_out1 V c _ (by rw [Fin.val_last]; have : cfg1.N = 192 := N_1; omega)

end Region

end Cert.KernelIdeal.Attn

end
-- ==== Proof.Boundaries.lean ====
/-
  The buffers' contents at the four boundaries around the three kernel regions.

  When region 0 is entered every unscoped buffer holds the launch contents with the host operations before the region
  applied. A region changes one array, its output: the projected rows after region 0, the attention rows after region 1,
  the output rows after region 2; what it leaves there is the fold of its write-backs over every grid point, and every
  other buffer, the arrays it only reads included, stays as entered. Each region's proof data are taken at the contents
  its region is entered with, so that region 1 reads what region 0 wrote and region 2 what region 1 wrote.
-/
import proofs.«162336_j12171937317144_2_alg».proof.Proof.LaunchRest
import proofs.«162336_j12171937317144_2_alg».proof.Proof.QuantLinearBody
import proofs.«162336_j12171937317144_2_alg».proof.Proof.AttnBody

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The buffers' contents when region 0 is entered, read at the TensorCore's references. -/
abbrev U9 : (c : Dev nD) → (b : Ref sig .tc) → Buf (Elt F) ((c : Thread nD τ).loc b) := fun c b => V9 m c b
/-- What region 0's write-backs leave in the projected rows. -/
def out0 (c : Dev nD) : Buf (Elt F) ((c : Thread nD τ).loc main_v31) := (QL.dat0 (U9 m) c).arrAt 3 cfg0.N
/-- After region 0: the projected rows replaced by that. -/
def W10 (c : Dev nD) : Valuation τ sig (Elt F) := Function.update (V9 m c) main_v31 (out0 m c)
abbrev U10 : (c : Dev nD) → (b : Ref sig .tc) → Buf (Elt F) ((c : Thread nD τ).loc b) := fun c b => W10 m c b
/-- What region 1's write-backs leave in the attention rows. -/
def out1 (c : Dev nD) : Buf (Elt F) ((c : Thread nD τ).loc main_v32) := (Attn.dat1 (U10 m) c).arrAt 3 cfg1.N
/-- After region 1. -/
def W11 (c : Dev nD) : Valuation τ sig (Elt F) := Function.update (W10 m c) main_v32 (out1 m c)
abbrev U11 : (c : Dev nD) → (b : Ref sig .tc) → Buf (Elt F) ((c : Thread nD τ).loc b) := fun c b => W11 m c b
/-- What region 2's write-backs leave in the output rows. -/
def out2 (c : Dev nD) : Buf (Elt F) ((c : Thread nD τ).loc main_v33) := (QL.dat2 (U11 m) c).arrAt 3 cfg2.N
/-- After region 2. -/
def W12 (c : Dev nD) : Valuation τ sig (Elt F) := Function.update (W11 m c) main_v33 (out2 m c)
abbrev U12 : (c : Dev nD) → (b : Ref sig .tc) → Buf (Elt F) ((c : Thread nD τ).loc b) := fun c b => W12 m c b

theorem out0_def (c : Dev nD) : out0 m c = (QL.dat0 (U9 m) c).arrAt 3 cfg0.N := rfl
theorem out1_def (c : Dev nD) : out1 m c = (Attn.dat1 (U10 m) c).arrAt 3 cfg1.N := rfl
theorem out2_def (c : Dev nD) : out2 m c = (QL.dat2 (U11 m) c).arrAt 3 cfg2.N := rfl
attribute [irreducible] out0 out1 out2

theorem W10_self (c : Dev nD) : W10 m c main_v31 = out0 m c := by unfold W10; rw [Function.update_self]
theorem W11_self (c : Dev nD) : W11 m c main_v32 = out1 m c := by unfold W11; rw [Function.update_self]
theorem W12_self (c : Dev nD) : W12 m c main_v33 = out2 m c := by unfold W12; rw [Function.update_self]

/-- What the regions leave, as a lookup in the boundary contents. -/
def outs : Outs (F := F) := fun J r c => if J = 10 then W10 m c r else if J = 11 then W11 m c r else W12 m c r

theorem outs_10 (c : Dev nD) : outs m 10 main_v31 c = out0 m c := by
  unfold outs; rw [if_pos rfl]; exact W10_self m c
theorem outs_11 (c : Dev nD) : outs m 11 main_v32 c = out1 m c := by
  unfold outs; rw [if_neg (by decide), if_pos rfl]; exact W11_self m c
theorem outs_12 (c : Dev nD) : outs m 12 main_v33 c = out2 m c := by
  unfold outs; rw [if_neg (by decide), if_neg (by decide)]; exact W12_self m c

theorem V10_eq (c : Dev nD) : V10 m (outs m) c = W10 m c := by
  have h : V10 m (outs m) c = Function.update (V9 m c) main_v31 (outs m 10 main_v31 c) := rfl
  rw [h, outs_10]; rfl
theorem V11_eq (c : Dev nD) : V11 m (outs m) c = W11 m c := by
  have h : V11 m (outs m) c = Function.update (V10 m (outs m) c) main_v32 (outs m 11 main_v32 c) := rfl
  rw [h, outs_11, V10_eq]; rfl
theorem V12_eq (c : Dev nD) : V12 m (outs m) c = W12 m c := by
  have h : V12 m (outs m) c = Function.update (V11 m (outs m) c) main_v33 (outs m 12 main_v33 c) := rfl
  rw [h, outs_12, V11_eq]; rfl

/-- Every pipeline's proof data, each at its region's entry contents. -/
def pdats : (p : Fin 3) → (c : Dev nD) → Dat τ (Elt F) Unit ℕ (Pipeline.UD sig nD τ) ℕ (cfgs p) c
  | ⟨0, _⟩ => fun c => QL.dat0 (U9 m) c
  | ⟨1, _⟩ => fun c => Attn.dat1 (U10 m) c
  | ⟨2, _⟩ => fun c => QL.dat2 (U11 m) c

/-- A window that never writes its block back leaves its array as it found it. -/
theorem arrAt_input {cfg : Pipeline.Cfg sig Λ₀} {c : Dev nD} (dat : Dat τ (Elt F) Unit ℕ (Pipeline.UD sig nD τ) ℕ cfg c) (w : Fin cfg.W)
    (h : ∀ t, (cfg.win w).flush t = false) : ∀ n : Nat, dat.arrAt w n = dat.A w
  | 0 => rfl
  | n + 1 => by
      have ih := arrAt_input dat w h n
      rw [Dat.arrAt]
      dsimp only
      split
      · rename_i hlt
        rw [h ⟨n, hlt⟩]
        exact ih
      · exact ih

theorem noflush0 : ∀ w : Fin cfg0.W, w ≠ 3 → ∀ t, (cfg0.win w).flush t = false := by decide

/-- After region 0 each of its arrays holds what the pipeline leaves: the three it reads as entered, the projected
    rows the write-backs. -/
theorem hF0 (c : Dev nD) (w : Fin cfg0.W) : (QL.dat0 (U9 m) c).arrAt w cfg0.N = U10 m c (Pipeline.arrRef spec0 w) := by
  by_cases hw : w = 3
  · subst hw
    show _ = W10 m c main_v31
    rw [W10_self, out0_def]
  · have hne : Pipeline.arrRef spec0 w ≠ main_v31 := by revert w; decide
    rw [arrAt_input _ w (noflush0 w hw), QL.A_eq0]
    show V9 m c (Pipeline.arrRef spec0 w) = W10 m c (Pipeline.arrRef spec0 w)
    simp only [W10, Function.update_of_ne (StableHlo.devRef_ne_of_ne hne : (Proc.devRef .tc (Pipeline.arrRef spec0 w) : DevRef τ sig) ≠ Proc.devRef .tc main_v31)]

theorem hrest0 (c : Dev nD) : ∀ b, b ∉ Finset.univ.image (Pipeline.arrRef spec0) → U10 m c b = U9 m c b := fun b hb => by
  have hne : b ≠ main_v31 := fun e => hb (e ▸ Finset.mem_image.mpr ⟨3, Finset.mem_univ _, rfl⟩)
  show W10 m c b = V9 m c b
  simp only [W10, Function.update_of_ne (StableHlo.devRef_ne_of_ne hne : (Proc.devRef .tc b : DevRef τ sig) ≠ Proc.devRef .tc main_v31)]

theorem noflush2 : ∀ w : Fin cfg2.W, w ≠ 3 → ∀ t, (cfg2.win w).flush t = false := by decide

theorem hF2 (c : Dev nD) (w : Fin cfg2.W) : (QL.dat2 (U11 m) c).arrAt w cfg2.N = U12 m c (Pipeline.arrRef spec2 w) := by
  by_cases hw : w = 3
  · subst hw
    show _ = W12 m c main_v33
    rw [W12_self, out2_def]
  · have hne : Pipeline.arrRef spec2 w ≠ main_v33 := by revert w; decide
    rw [arrAt_input _ w (noflush2 w hw), QL.A_eq2]
    show W11 m c (Pipeline.arrRef spec2 w) = W12 m c (Pipeline.arrRef spec2 w)
    simp only [W12, Function.update_of_ne (StableHlo.devRef_ne_of_ne hne : (Proc.devRef .tc (Pipeline.arrRef spec2 w) : DevRef τ sig) ≠ Proc.devRef .tc main_v33)]

theorem hrest2 (c : Dev nD) : ∀ b, b ∉ Finset.univ.image (Pipeline.arrRef spec2) → U12 m c b = U11 m c b := fun b hb => by
  have hne : b ≠ main_v33 := fun e => hb (e ▸ Finset.mem_image.mpr ⟨3, Finset.mem_univ _, rfl⟩)
  show W12 m c b = W11 m c b
  simp only [W12, Function.update_of_ne (StableHlo.devRef_ne_of_ne hne : (Proc.devRef .tc b : DevRef τ sig) ≠ Proc.devRef .tc main_v33)]

end Cert.KernelIdeal.Asm

end
-- ==== Proof.AttnShares.lean ====
/-
  The attention region reads the projected rows [4096,4608] through three windows: a query block, a key block and a value
  block of one and the same array. A window that only reads its array needs only a positive share of it. So on entering
  the region the array's buffer, held whole at the full share, is dealt to the three windows as a half and two quarters,
  and on leaving the three parts, still at the contents they were dealt at, are put together again.
-/
import proofs.«162336_j12171937317144_2_alg».proof.Proof.Gen.KernelIdeal.Regions

noncomputable section

namespace Cert.KernelIdeal.Shares

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (Pipeline.UD sig nD τ) ℕ

/-- The four windows' arrays, each a whole buffer, as whole-buffer points-tos at each window's own share. -/
theorem arrays_whole (c : Dev nD) (dat : Dat τ (Elt F) Unit ℕ (Pipeline.UD sig nD τ) ℕ cfg1 c)
    (G : (w : Fin cfg1.W) → Buf (Elt F) ((cfg1.win w).arr.view.loc (c.tc : Thread nD τ))) :
    dat.arrays G = bigSep Finset.univ fun w => (((c.tc : Thread nD τ).loc (Pipeline.arrRef spec1 w)) ↦{dat.share w} G w : sProp 𝕄) := by
  unfold Dat.arrays
  exact bigSep_congr fun w _ => by rw [(arr_whole1 w).set_eq_univ]

/-- The four windows look at two buffers: the three input windows at the projected rows, the output window at the
    attention rows. -/
theorem image_arr1 : Finset.univ.image (Pipeline.arrRef spec1) = ({main_v31, main_v32} : Finset (Ref sig .tc)) := by decide

/-- Entering: the two buffers, whole at the full share, are the four windows' arrays at the windows' shares; the query,
    key and value windows, which only read the projected rows, take a half and two quarters of that buffer. -/
theorem arrays_of_arrBufs1 (c : Dev nD) (dat : Dat τ (Elt F) Unit ℕ (Pipeline.UD sig nD τ) ℕ cfg1 c)
    (V : (b : Ref sig .tc) → Buf (Elt F) ((c.tc : Thread nD τ).loc b))
    (hq0 : dat.q 0 = fullShare.left) (hq1 : dat.q 1 = fullShare.right.left) (hq2 : dat.q 2 = fullShare.right.right) :
    (Pipeline.arrBufs spec1 c V : sProp 𝕄) ⊢ dat.arrays (fun w => V (Pipeline.arrRef spec1 w)) := by
  have hs0 : dat.share 0 = fullShare.left := by rw [← hq0]; rfl
  have hs1 : dat.share 1 = fullShare.right.left := by rw [← hq1]; rfl
  have hs2 : dat.share 2 = fullShare.right.right := by rw [← hq2]; rfl
  have hs3 : dat.share 3 = fullShare := rfl
  rw [arrays_whole, bigSep_W1, hs0, hs1, hs2, hs3]
  have hL : (Pipeline.arrBufs spec1 c V : sProp 𝕄)
      = iprop((((c.tc : Thread nD τ).loc main_v31) ↦{fullShare} V main_v31) ∗ (((c.tc : Thread nD τ).loc main_v32) ↦{fullShare} V main_v32)) := by
    unfold Pipeline.arrBufs
    rw [image_arr1, bigSep_insert (by decide : main_v31 ∉ ({main_v32} : Finset (Ref sig .tc))), bigSep_singleton]
    rfl
  rw [hL]
  iintro ⟨H31, H32⟩
  ihave H := (pointsTo_share (PosShare.mem_left_op_right fullShare)).1 $$ H31
  icases H with ⟨Ha, Hb⟩
  ihave Hb' := (pointsTo_share (PosShare.mem_left_op_right fullShare.right)).1 $$ Hb
  icases Hb' with ⟨Hb1, Hb2⟩
  isplitl [Ha]; · iexact Ha
  isplitl [Hb1]; · iexact Hb1
  isplitl [Hb2]; · iexact Hb2
  iexact H32

/-- Leaving: the four windows' arrays at the windows' shares, the three reading windows all at the one buffer's contents,
    are the two buffers whole at the full share again. -/
theorem arrBufs_of_arrays1 (c : Dev nD) (dat : Dat τ (Elt F) Unit ℕ (Pipeline.UD sig nD τ) ℕ cfg1 c)
    (V : (b : Ref sig .tc) → Buf (Elt F) ((c.tc : Thread nD τ).loc b))
    (hq0 : dat.q 0 = fullShare.left) (hq1 : dat.q 1 = fullShare.right.left) (hq2 : dat.q 2 = fullShare.right.right) :
    dat.arrays (fun w => V (Pipeline.arrRef spec1 w)) ⊢ (Pipeline.arrBufs spec1 c V : sProp 𝕄) := by
  have hs0 : dat.share 0 = fullShare.left := by rw [← hq0]; rfl
  have hs1 : dat.share 1 = fullShare.right.left := by rw [← hq1]; rfl
  have hs2 : dat.share 2 = fullShare.right.right := by rw [← hq2]; rfl
  have hs3 : dat.share 3 = fullShare := rfl
  rw [arrays_whole, bigSep_W1, hs0, hs1, hs2, hs3]
  have hL : (Pipeline.arrBufs spec1 c V : sProp 𝕄)
      = iprop((((c.tc : Thread nD τ).loc main_v31) ↦{fullShare} V main_v31) ∗ (((c.tc : Thread nD τ).loc main_v32) ↦{fullShare} V main_v32)) := by
    unfold Pipeline.arrBufs
    rw [image_arr1, bigSep_insert (by decide : main_v31 ∉ ({main_v32} : Finset (Ref sig .tc))), bigSep_singleton]
    rfl
  rw [hL]
  iintro ⟨Ha, Hb1, Hb2, H32⟩
  ihave Hb := (pointsTo_share (PosShare.mem_left_op_right fullShare.right)).2 $$ [Hb1 Hb2]
  · isplitl [Hb1] <;> iassumption
  ihave H31 := (pointsTo_share (PosShare.mem_left_op_right fullShare)).2 $$ [Ha Hb]
  · isplitl [Ha] <;> iassumption
  isplitl [H31]; · iexact H31
  iexact H32

end Cert.KernelIdeal.Shares

end
-- ==== Proof.Records1.lean ====
/-
  The attention region as a segment of the program, between its two boundaries.

  The region is entered holding every unscoped buffer whole at the boundary's contents, the generator register at
  some state and nothing owed. Its three input windows all look at the projected rows: that one buffer, split out
  of the unscoped buffers whole at the full share, is dealt to them as a half and two quarters, and when the region
  ends the three parts, still at the contents they were dealt at, are put together again and returned beside the
  attention rows at what the write-backs left. The register and the scoped buffers go into the region's invariant
  and come back; the region owes nothing and has no semaphore of its own.
-/
import proofs.«162336_j12171937317144_2_alg».proof.Proof.Boundaries
import proofs.«162336_j12171937317144_2_alg».proof.Proof.AttnShares
import Idealize.ShloMosaic.Lib.Pipeline.RegionsLoop

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- The three input windows never write their blocks back. -/
theorem noflush1 : ∀ w : Fin cfg1.W, w ≠ 3 → ∀ t, (cfg1.win w).flush t = false := by decide +kernel

/-- After the region each of its arrays holds what the pipeline leaves: the projected rows, which the three input
    windows only read, as entered; the attention rows the write-backs. -/
theorem hF1 (c : Dev nD) (w : Fin cfg1.W) : (Attn.dat1 (U10 m) c).arrAt w cfg1.N = U11 m c (Pipeline.arrRef spec1 w) := by
  by_cases hw : w = 3
  · subst hw
    show _ = W11 m c main_v32
    rw [W11_self, out1_def]
  · have hne : Pipeline.arrRef spec1 w ≠ main_v32 := by revert w; decide
    rw [arrAt_input _ w (noflush1 w hw), Attn.A_eq1]
    show W10 m c (Pipeline.arrRef spec1 w) = W11 m c (Pipeline.arrRef spec1 w)
    simp only [W11, Function.update_of_ne (StableHlo.devRef_ne_of_ne hne : (Proc.devRef .tc (Pipeline.arrRef spec1 w) : DevRef τ sig) ≠ Proc.devRef .tc main_v32)]

/-- Every other buffer stays as entered. -/
theorem hrest1 (c : Dev nD) : ∀ b, b ∉ Finset.univ.image (Pipeline.arrRef spec1) → U11 m c b = U10 m c b := fun b hb => by
  have hne : b ≠ main_v32 := fun e => hb (e ▸ Finset.mem_image.mpr ⟨3, Finset.mem_univ _, rfl⟩)
  show W11 m c b = W10 m c b
  simp only [W11, Function.update_of_ne (StableHlo.devRef_ne_of_ne hne : (Proc.devRef .tc b : DevRef τ sig) ≠ Proc.devRef .tc main_v32)]

/-- The unscoped buffers that are no array of the region, at two valuations that agree off the arrays. -/
theorem rest_congr1 (c : Dev nD) (V V' : (b : Ref sig .tc) → Buf (Elt F) ((c.tc : Thread nD τ).loc b))
    (hrest : ∀ b, b ∉ Finset.univ.image (Pipeline.arrRef spec1) → V' b = V b) :
    (Pipeline.unscopedRest (Ix := Unit) (Name := ℕ) (U := Pipeline.UD sig nD τ) (Lvl := ℕ) spec1 c V : sProp 𝕄)
      = Pipeline.unscopedRest (Ix := Unit) (Name := ℕ) (U := Pipeline.UD sig nD τ) (Lvl := ℕ) spec1 c V' := by
  unfold Pipeline.unscopedRest
  exact bigSep_congr fun b hb => by rw [hrest b (Finset.mem_sdiff.mp hb).2]

/-- ENTRY, the arrays' part: the unscoped buffers at the entry boundary are the region's arrays at the proof data's
    entry contents — the projected rows dealt to the three input windows — and the unscoped rest. -/
theorem entry1 (c : Dev nD) :
    (StableHlo.held (c : Thread nD τ) (Pipeline.ucRefs τ sig) (W10 m c) : sProp 𝕄)
      ⊢ iprop((Attn.dat1 (U10 m) c).arrays ((Attn.dat1 (U10 m) c).arrAt · 0)
          ∗ Pipeline.unscopedRest (Ix := Unit) (Name := ℕ) (U := Pipeline.UD sig nD τ) (Lvl := ℕ) spec1 c (U10 m c)) := by
  rw [← Pipeline.unscopedBufs_held (Ix := Unit) (Name := ℕ) (U := Pipeline.UD sig nD τ) (Lvl := ℕ) c (W10 m c),
    Pipeline.unscopedBufs_split₀ cfgs 1 winFacts₀1.arr_unscoped c (fun b => W10 m c b)]
  refine BIClass.sep_mono ?_ .rfl
  have hA : (fun w => (Attn.dat1 (U10 m) c).arrAt w 0) = fun w => U10 m c (Pipeline.arrRef spec1 w) :=
    funext fun w => Attn.A_eq1 (U10 m) c w
  rw [hA]
  exact Shares.arrays_of_arrBufs1 c (Attn.dat1 (U10 m) c) (U10 m c) (Attn.q1_0 _ c) (Attn.q1_1 _ c) (Attn.q1_2 _ c)

/-- EXIT, the arrays' part: the region's arrays at what the pipeline leaves, the three parts of the projected rows
    put together again, and the unscoped rest are the unscoped buffers at the exit boundary. -/
theorem exit1 (c : Dev nD) :
    iprop((Attn.dat1 (U10 m) c).arrays ((Attn.dat1 (U10 m) c).arrAt · cfg1.N)
        ∗ Pipeline.unscopedRest (Ix := Unit) (Name := ℕ) (U := Pipeline.UD sig nD τ) (Lvl := ℕ) spec1 c (U10 m c))
      ⊢ (StableHlo.held (c : Thread nD τ) (Pipeline.ucRefs τ sig) (W11 m c) : sProp 𝕄) := by
  rw [← Pipeline.unscopedBufs_held (Ix := Unit) (Name := ℕ) (U := Pipeline.UD sig nD τ) (Lvl := ℕ) c (W11 m c),
    Pipeline.unscopedBufs_split₀ cfgs 1 winFacts₀1.arr_unscoped c (fun b => W11 m c b)]
  have hA : (fun w => (Attn.dat1 (U10 m) c).arrAt w cfg1.N) = fun w => U11 m c (Pipeline.arrRef spec1 w) :=
    funext fun w => hF1 m c w
  rw [hA]
  exact BIClass.sep_mono (Shares.arrBufs_of_arrays1 c (Attn.dat1 (U10 m) c) (U11 m c) (Attn.q1_0 _ c) (Attn.q1_1 _ c) (Attn.q1_2 _ c))
    (Entails.of_eq (rest_congr1 c (U10 m c) (U11 m c) (hrest1 m c)))

set_option backward.isDefEq.respectTransparency.types false in
/-- The attention region between its two boundaries. -/
def reg1 : Pipeline.RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (Attn.body_obligation1 (U10 m) c).loose
  hwaits := Pipeline.hwaits_of_owed_zero _ _ _ _ L lv 1 fun _ _ => rfl
  pre c := iprop(StableHlo.held (c : Thread nD τ) (Pipeline.ucRefs τ sig) (W10 m c) ∗ R c)
  post c := iprop(StableHlo.held (c : Thread nD τ) (Pipeline.ucRefs τ sig) (W11 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (U10 m c)
  hentry c := by
    rw [Pipeline.ownSems0_none]
    have hsplit : (StableHlo.held (c : Thread nD τ) (Pipeline.ucRefs τ sig) (W10 m c) : sProp 𝕄)
        ⊢ iprop((pdats m 1 c).arrays ((pdats m 1 c).arrAt · 0)
            ∗ Pipeline.unscopedRest (Ix := Unit) (Name := ℕ) (U := Pipeline.UD sig nD τ) (Lvl := ℕ) spec1 c (U10 m c)) := entry1 m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := (show (_ : sProp 𝕄) ⊢ Pipeline.ΦA spec1 c from by
      unfold Pipeline.ΦA
      iintro ⟨Hp, -, Hr⟩
      isplitl [Hr]; · iexact Hr
      iexact Hp).trans (Attn.hin1 (U10 m) c)
  hout c := (Attn.hout1 (U10 m) c).trans (by
      rw [Pipeline.ownSems0_none]; unfold Pipeline.ΦA
      iintro ⟨Hr, Hp⟩
      isplitl [Hp]; · iexact Hp
      isplitr; · iempintro
      iexact Hr)
  hexit c := by
    have hjoin : iprop((pdats m 1 c).arrays ((pdats m 1 c).arrAt · cfg1.N)
          ∗ Pipeline.unscopedRest (Ix := Unit) (Name := ℕ) (U := Pipeline.UD sig nD τ) (Lvl := ℕ) spec1 c (U10 m c))
        ⊢ (StableHlo.held (c : Thread nD τ) (Pipeline.ucRefs τ sig) (W11 m c) : sProp 𝕄) := exit1 m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.Spec.lean ====
/-
  The three stages of the quantised attention block as functions on the extended reals, index by index.

  A row r of numbers is fake-quantised to eight bits: with a = max_j |r j| (the maximum over the row, from minus
  infinity) and step s = max (a / 127) eps, entry k becomes clip (roundHalfEven (r k / s)) (-127) 127 * s.

  Stage 1 (the joint projection): row n of the input and row o of the weight are each fake-quantised, and
    qkv n o = (sum over c of fq (x n) c * fq (w o) c) + b o.
  Stage 2 (attention, head h = col / 128, lane d = col % 128, queries in columns [0,1536), keys in [1536,3072),
  values in [3072,4608)): with scores s m = sum over d' of (qkv n (128 h + d') * scale) * qkv m (1536 + 128 h + d'),
  M their maximum from minus infinity, p m = exp (s m - M) and L = 0 + sum over m of p m,
    att n col = sum over m of (p m / L) * qkv m (3072 + 128 h + d).
  Stage 3 (the output projection) is stage 1's formula on the attention rows with the second weight and bias.

  The kernel accumulates sum over m of p m * v m block by block, rescaling by exp (old maximum - new maximum), and
  divides by L once at the end; the reference divides each p m by L first. The two agree by
    (sum_m p m * v m) * L^-1 = sum_m (p m * L^-1) * v m,
  which is Finset.sum_mul on the reals: it needs every p m and v m real and L real and nonzero (multiplication on
  the extended reals does not distribute over sums at the infinities), hence the finiteness of the inputs.
-/
import Idealize.ShloMosaic.PureOps.Ideal
import Idealize.ShloMosaic.Lib.ValueIdx

noncomputable section

namespace AttnSpec

open Idealize.ShloMosaic

/-- The 32-bit words the two programs share, read at the ideal instance. -/
abbrev c127 : EReal := Ideal.ofBits .f32 0x42FE0000#32
abbrev cNeg127 : EReal := Ideal.ofBits .f32 0xC2FE0000#32
abbrev cEps : EReal := Ideal.ofBits .f32 0x322BCC77#32
abbrev cScale : EReal := Ideal.ofBits .f32 0x3DB504F3#32

/-- The maximum of a finite family from minus infinity. -/
def greatest {ι : Type} [Fintype ι] (f : ι → EReal) : EReal := Finset.univ.sup f

/-- The quantisation step of a row: max (max_j |r j| / 127) eps, with |x| = max x (-x). -/
def step {n : Nat} (r : Fin n → EReal) : EReal :=
  max (Ideal.div (greatest fun j => max (r j) (-(r j))) c127) cEps

/-- One entry of a fake-quantised row. -/
def fq {n : Nat} (r : Fin n → EReal) (k : Fin n) : EReal :=
  min c127 (max cNeg127 (Ideal.liftRound Ideal.roundHalfEven (Ideal.div (r k) (step r)))) * step r

/-- A quantised linear layer: rows of x against rows of w, plus the bias. -/
def linear {N C O : Nat} (x : Fin N → Fin C → EReal) (w : Fin O → Fin C → EReal) (b : Fin O → EReal)
    (n : Fin N) (o : Fin O) : EReal :=
  (∑ c : Fin C, fq (x n) c * fq (w o) c) + b o

/-- Column 128 h + d of part part (0 queries, 1 keys, 2 values) of a 4608-wide row. -/
def col (part : Fin 3) (h : Fin 12) (d : Fin 128) : Fin 4608 :=
  ⟨1536 * part.val + 128 * h.val + d.val, by omega⟩

/-- The score of query row n against key row m in head h. -/
def score (qkv : Fin 4096 → Fin 4608 → EReal) (h : Fin 12) (n m : Fin 4096) : EReal :=
  ∑ d : Fin 128, (qkv n (col 0 h d) * cScale) * qkv m (col 1 h d)

/-- The unnormalised weight of key m for query n. -/
def weight (qkv : Fin 4096 → Fin 4608 → EReal) (h : Fin 12) (n m : Fin 4096) : EReal :=
  Ideal.exp (score qkv h n m - greatest fun m' => score qkv h n m')

/-- The normaliser of query n. -/
def norm (qkv : Fin 4096 → Fin 4608 → EReal) (h : Fin 12) (n : Fin 4096) : EReal :=
  0 + ∑ m : Fin 4096, weight qkv h n m

/-- Attention, written into column 128 h + d of row n. -/
def attn (qkv : Fin 4096 → Fin 4608 → EReal) (n : Fin 4096) (h : Fin 12) (d : Fin 128) : EReal :=
  ∑ m : Fin 4096, Ideal.div (weight qkv h n m) (norm qkv h n) * qkv m (col 2 h d)

/-- The attention rows as a 1536-wide array. -/
def attnRows (qkv : Fin 4096 → Fin 4608 → EReal) (n : Fin 4096) (c : Fin 1536) : EReal :=
  attn qkv n ⟨c.val / 128, by omega⟩ ⟨c.val % 128, Nat.mod_lt _ (by norm_num)⟩

/-- The whole block: projection, attention, projection. -/
def block (x : Fin 4096 → Fin 1536 → EReal) (wq : Fin 4608 → Fin 1536 → EReal) (bq : Fin 4608 → EReal)
    (wp : Fin 1536 → Fin 1536 → EReal) (bp : Fin 1536 → EReal) (n : Fin 4096) (o : Fin 1536) : EReal :=
  linear (attnRows (linear x wq bq)) wp bp n o

end AttnSpec

end
-- ==== Proof.LibMaskAlgebra.lean ====
/-
  The algebra behind a matching-cost matrix whose cross-entropy and focal parts are folded into one
  contraction.

  For a prediction x write  p = 1/(1+e^(-x)),  neg = softplus x = max x 0 + log (1 + e^(-|x|))  and
  pos = softplus (-x).  Since  softplus (-x) = softplus x - x,  the two target-weighted sums
      ∑ pos·t + ∑ neg·(1-t)          and          ∑ (1-p)²·pos·t + ∑ p²·neg·(1-t)
  are  ∑ (-x)·t + ∑ neg  and  ∑ ((1-p)²·pos - p²·neg)·t + ∑ p²·neg : what multiplies the target is
  collected into one family, what does not is a plain row sum.  Over the reals this is distributivity;
  nothing is assumed about the targets t (they need not be 0 or 1).

  The extended reals are not a ring (a product does not distribute over a sum when an infinity meets a
  sum of opposite signs), so the identity is transferred to them only for families all of whose entries
  are real numbers: every such expression is the image of the same expression over ℝ.  The file also reads
  the operations of the extended-real instance on real arguments, names the constants that occur, and
  regroups a sum over 4 × 2048 tiled positions into a sum over 8192 positions.
-/
import Idealize.ShloMosaic.PureOps.Ideal
import Mathlib.Tactic
import Mathlib.Algebra.BigOperators.Fin
import Mathlib.Logic.Equiv.Fin.Basic

noncomputable section

namespace MaskAlgebra

open scoped BigOperators
open Idealize.ShloMosaic

/-! ### Over the reals -/

/-- The softplus of x written with a maximum and an absolute value. -/
def softplus (x : ℝ) : ℝ := max x 0 + Real.log (1 + Real.exp (-|x|))

/-- softplus (-x) = softplus x - x : the absolute value does not see the sign, and
    max (-x) 0 = max x 0 - x. -/
theorem softplus_neg (x : ℝ) :
    max (-x) 0 + Real.log (1 + Real.exp (-|-x|))
      = (max x 0 + Real.log (1 + Real.exp (-|x|))) - x := by
  rw [abs_neg]
  rcases le_total 0 x with h | h
  · rw [max_eq_right (by linarith), max_eq_left h]; ring
  · rw [max_eq_left (by linarith), max_eq_right h]; ring

/-- A real power with exponent 2 is the product of the base with itself, for every real base. -/
theorem rpow_two_eq_mul (y : ℝ) : Real.rpow y 2 = y * y := by
  show y ^ (2 : ℝ) = y * y
  rw [Real.rpow_two, sq]

/-- The folding identity over the reals, for any divisor d (d = 0 included: both sides then divide by
    zero in the same way): the cross-entropy and focal sums against a target t and its complement are
    one sum against t plus two row sums. -/
theorem fold_real {ι : Type*} (s : Finset ι) (x p neg t : ι → ℝ) (d : ℝ) :
    5 * ((∑ i ∈ s, (neg i - x i) * t i + ∑ i ∈ s, neg i * (1 - t i)) / d)
      + 5 * ((∑ i ∈ s, ((1 - p i) ^ 2 * (neg i - x i)) * t i
              + ∑ i ∈ s, (p i ^ 2 * neg i) * (1 - t i)) / d)
    = (∑ i ∈ s, (5 * (0 - x i)
          + 5 * ((1 - p i) * (1 - p i) * (neg i - x i) - p i * p i * neg i)) * t i) * (1 / d)
      + (5 * ∑ i ∈ s, neg i + 5 * ∑ i ∈ s, p i * p i * neg i) * (1 / d) := by
  have key : ∀ i, 5 * ((neg i - x i) * t i + neg i * (1 - t i))
        + 5 * (((1 - p i) ^ 2 * (neg i - x i)) * t i + (p i ^ 2 * neg i) * (1 - t i))
      = (5 * (0 - x i) + 5 * ((1 - p i) * (1 - p i) * (neg i - x i) - p i * p i * neg i)) * t i
        + (5 * neg i + 5 * (p i * p i * neg i)) := fun i => by ring
  have hL : 5 * ((∑ i ∈ s, (neg i - x i) * t i + ∑ i ∈ s, neg i * (1 - t i)) / d)
      + 5 * ((∑ i ∈ s, ((1 - p i) ^ 2 * (neg i - x i)) * t i
              + ∑ i ∈ s, (p i ^ 2 * neg i) * (1 - t i)) / d)
      = (∑ i ∈ s, (5 * ((neg i - x i) * t i + neg i * (1 - t i))
        + 5 * (((1 - p i) ^ 2 * (neg i - x i)) * t i + (p i ^ 2 * neg i) * (1 - t i)))) * (1 / d) := by
    simp only [Finset.sum_add_distrib, ← Finset.mul_sum]; ring
  rw [hL, Finset.sum_congr rfl (fun i _ => key i)]
  simp only [Finset.sum_add_distrib, ← Finset.mul_sum]; ring

/-! ### Real members of the extended reals -/

/-- An extended real that is a real number. -/
def IsReal (a : EReal) : Prop := ∃ r : ℝ, a = (r : EReal)

/-- A real number is real. -/
theorem isReal_coe (r : ℝ) : IsReal (r : EReal) := ⟨r, rfl⟩

/-- Zero is real. -/
theorem isReal_zero : IsReal (0 : EReal) := ⟨0, EReal.coe_zero.symm⟩

/-- One is real. -/
theorem isReal_one : IsReal (1 : EReal) := ⟨1, EReal.coe_one.symm⟩

/-- A real member is neither infinity. -/
theorem IsReal.ne_bot_top {a : EReal} (h : IsReal a) : a ≠ ⊥ ∧ a ≠ ⊤ := by
  obtain ⟨r, rfl⟩ := h
  exact ⟨EReal.coe_ne_bot r, EReal.coe_ne_top r⟩

/-- An extended real that is neither infinity is real. -/
theorem isReal_of_ne {a : EReal} (hb : a ≠ ⊥) (ht : a ≠ ⊤) : IsReal a :=
  ⟨a.toReal, (EReal.coe_toReal ht hb).symm⟩

/-- Sums of reals are real. -/
theorem IsReal.add {a b : EReal} (ha : IsReal a) (hb : IsReal b) : IsReal (a + b) := by
  obtain ⟨r, rfl⟩ := ha; obtain ⟨s, rfl⟩ := hb
  exact ⟨r + s, (EReal.coe_add r s).symm⟩

/-- Differences of reals are real. -/
theorem IsReal.sub {a b : EReal} (ha : IsReal a) (hb : IsReal b) : IsReal (a - b) := by
  obtain ⟨r, rfl⟩ := ha; obtain ⟨s, rfl⟩ := hb
  exact ⟨r - s, (EReal.coe_sub r s).symm⟩

/-- Products of reals are real. -/
theorem IsReal.mul {a b : EReal} (ha : IsReal a) (hb : IsReal b) : IsReal (a * b) := by
  obtain ⟨r, rfl⟩ := ha; obtain ⟨s, rfl⟩ := hb
  exact ⟨r * s, (EReal.coe_mul r s).symm⟩

/-- The opposite of a real is real. -/
theorem IsReal.neg {a : EReal} (ha : IsReal a) : IsReal (-a) := by
  obtain ⟨r, rfl⟩ := ha
  exact ⟨-r, (EReal.coe_neg r).symm⟩

/-- The coercion of the reals into the extended reals commutes with the maximum. -/
theorem coe_max (r s : ℝ) : max (r : EReal) (s : EReal) = ((max r s : ℝ) : EReal) :=
  (EReal.coe_strictMono.monotone.map_max).symm

/-- The maximum of two reals is real. -/
theorem IsReal.max {a b : EReal} (ha : IsReal a) (hb : IsReal b) : IsReal (max a b) := by
  obtain ⟨r, rfl⟩ := ha; obtain ⟨s, rfl⟩ := hb
  exact ⟨Max.max r s, coe_max r s⟩

/-- The absolute value, written max a (-a), of a real number. -/
theorem abs_coe (r : ℝ) : max (r : EReal) (-(r : EReal)) = ((|r| : ℝ) : EReal) := by
  rw [← EReal.coe_neg, coe_max]; rfl

/-- The absolute value max a (-a) of a real is real. -/
theorem IsReal.abs {a : EReal} (ha : IsReal a) : IsReal (Max.max a (-a)) :=
  ha.max ha.neg

/-- The coercion of the reals into the extended reals commutes with a finite sum. -/
theorem coe_sum {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A finite sum of reals is real. -/
theorem isReal_sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add
      (ih fun i hi => h i (Finset.mem_insert_of_mem hi))

/-- A family of real members is the image of a real family. -/
theorem exists_real_fun {ι : Type*} (y : ι → EReal) (hy : ∀ i, IsReal (y i)) :
    ∃ y' : ι → ℝ, y = fun i => ((y' i : ℝ) : EReal) := by
  choose y' hy' using hy
  exact ⟨y', funext hy'⟩

/-! ### The operations of the extended-real instance on real arguments -/

/-- The exponential of a real is real. -/
theorem IsReal.exp {a : EReal} (ha : IsReal a) : IsReal (Ideal.exp a) := by
  obtain ⟨r, rfl⟩ := ha
  exact ⟨Real.exp r, Ideal.exp_coe r⟩

/-- log (1 + r) for a real r > -1, read in the extended reals. -/
theorem log1p_coe {r : ℝ} (hr : -1 < r) :
    Ideal.log1p (r : EReal) = ((Real.log (1 + r) : ℝ) : EReal) := by
  have h : (1 : EReal) + (r : EReal) = ((1 + r : ℝ) : EReal) := by
    rw [EReal.coe_add, EReal.coe_one]
  rw [Ideal.log1p, h, Ideal.log_coe, if_neg (by linarith)]

/-- log (1 + e^r), read in the extended reals. -/
theorem log1p_exp_coe (r : ℝ) :
    Ideal.log1p (Ideal.exp (r : EReal)) = ((Real.log (1 + Real.exp r) : ℝ) : EReal) := by
  rw [Ideal.exp_coe, log1p_coe (by linarith [Real.exp_pos r])]

/-- log (1 + r) is real for a real r > -1. -/
theorem isReal_log1p {r : ℝ} (hr : -1 < r) : IsReal (Ideal.log1p (r : EReal)) :=
  ⟨_, log1p_coe hr⟩

/-- log (1 + e^a) is real for a real a. -/
theorem IsReal.log1p_exp {a : EReal} (ha : IsReal a) : IsReal (Ideal.log1p (Ideal.exp a)) := by
  obtain ⟨r, rfl⟩ := ha
  exact ⟨_, log1p_exp_coe r⟩

/-- The logistic function of a real is real. -/
theorem IsReal.logistic {a : EReal} (ha : IsReal a) : IsReal (Ideal.logistic a) := by
  obtain ⟨r, rfl⟩ := ha
  exact ⟨_, Ideal.logistic_coe r⟩

/-- The quotient of two reals, the divisor not zero, read in the extended reals. -/
theorem div_coe_coe (a : ℝ) {n : ℝ} (hn : n ≠ 0) :
    Ideal.div (a : EReal) (n : EReal) = ((a / n : ℝ) : EReal) := by
  rw [Ideal.div_coe hn, ← EReal.coe_mul, mul_one_div]

/-- The quotient of a real by a nonzero real is real. -/
theorem IsReal.div_coe {a : EReal} (ha : IsReal a) {n : ℝ} (hn : n ≠ 0) :
    IsReal (Ideal.div a (n : EReal)) := by
  obtain ⟨r, rfl⟩ := ha
  exact ⟨_, div_coe_coe r hn⟩

/-- A real power of a real is real. -/
theorem IsReal.pow {a b : EReal} (ha : IsReal a) (hb : IsReal b) : IsReal (Ideal.pow a b) := by
  obtain ⟨r, rfl⟩ := ha; obtain ⟨s, rfl⟩ := hb
  exact ⟨_, Ideal.pow_coe_coe r s⟩

/-- The power with exponent 2 of a real, read in the extended reals, is the square. -/
theorem pow_two_coe (r : ℝ) : Ideal.pow (r : EReal) ((2 : ℝ) : EReal) = ((r * r : ℝ) : EReal) := by
  rw [Ideal.pow_coe_coe, rpow_two_eq_mul]

/-- The softplus max a 0 + log (1 + e^(-|a|)) of a real, read in the extended reals. -/
theorem softplus_coe (r : ℝ) :
    max (r : EReal) 0 + Ideal.log1p (Ideal.exp (-(max (r : EReal) (-(r : EReal)))))
      = ((softplus r : ℝ) : EReal) := by
  rw [abs_coe, ← EReal.coe_neg, log1p_exp_coe, ← EReal.coe_zero, coe_max, ← EReal.coe_add]
  rfl

/-- The softplus of the opposite of a real is the softplus minus the real, in the extended reals. -/
theorem softplus_neg_coe (r : ℝ) :
    max (-(r : EReal)) 0 + Ideal.log1p (Ideal.exp (-(max (-(r : EReal)) (-(-(r : EReal))))))
      = (max (r : EReal) 0 + Ideal.log1p (Ideal.exp (-(max (r : EReal) (-(r : EReal)))))) - (r : EReal) := by
  rw [softplus_coe, ← EReal.coe_neg, softplus_coe, ← EReal.coe_sub]
  exact congrArg _ (softplus_neg r)

/-! ### The folding identity in the extended reals -/

/-- The folding identity over the reals with the squares written as products. -/
theorem fold_real_mul {ι : Type*} (s : Finset ι) (x p neg t : ι → ℝ) (d : ℝ) :
    5 * ((∑ i ∈ s, (neg i - x i) * t i + ∑ i ∈ s, neg i * (1 - t i)) / d)
      + 5 * ((∑ i ∈ s, ((1 - p i) * (1 - p i) * (neg i - x i)) * t i
              + ∑ i ∈ s, (p i * p i * neg i) * (1 - t i)) / d)
    = (∑ i ∈ s, (5 * (0 - x i)
          + 5 * ((1 - p i) * (1 - p i) * (neg i - x i) - p i * p i * neg i)) * t i) * (1 / d)
      + (5 * ∑ i ∈ s, neg i + 5 * ∑ i ∈ s, p i * p i * neg i) * (1 / d) := by
  simpa only [sq] using fold_real s x p neg t d

/-- The folding identity in the extended reals, for families all of whose entries are real. -/
theorem fold_ereal {ι : Type*} (s : Finset ι) (X P NEG T : ι → EReal)
    (hX : ∀ i, IsReal (X i)) (hP : ∀ i, IsReal (P i)) (hN : ∀ i, IsReal (NEG i))
    (hT : ∀ i, IsReal (T i)) {d : ℝ} (hd : d ≠ 0) :
    ((5 : ℝ) : EReal) * Ideal.div (∑ i ∈ s, (NEG i - X i) * T i + ∑ i ∈ s, NEG i * (1 - T i)) (d : EReal)
      + ((5 : ℝ) : EReal) * Ideal.div (∑ i ∈ s, (Ideal.pow (1 - P i) ((2 : ℝ) : EReal) * (NEG i - X i)) * T i
              + ∑ i ∈ s, (Ideal.pow (P i) ((2 : ℝ) : EReal) * NEG i) * (1 - T i)) (d : EReal)
    = (∑ i ∈ s, (((5 : ℝ) : EReal) * (0 - X i)
          + ((5 : ℝ) : EReal) * ((1 - P i) * (1 - P i) * (NEG i - X i) - P i * P i * NEG i)) * T i)
          * ((1 / d : ℝ) : EReal)
      + (((5 : ℝ) : EReal) * ∑ i ∈ s, NEG i + ((5 : ℝ) : EReal) * ∑ i ∈ s, P i * P i * NEG i)
          * ((1 / d : ℝ) : EReal) := by
  obtain ⟨x, rfl⟩ := exists_real_fun X hX
  obtain ⟨p, rfl⟩ := exists_real_fun P hP
  obtain ⟨neg, rfl⟩ := exists_real_fun NEG hN
  obtain ⟨t, rfl⟩ := exists_real_fun T hT
  simp only [← EReal.coe_one, ← EReal.coe_zero, ← EReal.coe_sub, pow_two_coe, ← EReal.coe_mul,
    ← EReal.coe_add, coe_sum, div_coe_coe _ hd]
  exact congrArg _ (fold_real_mul s x p neg t d)

/-! ### The constants -/

/-- The pattern of +0.0 denotes 0. -/
theorem ofBits_zero : Ideal.ofBits .f32 0x00000000#32 = 0 := by
  simp [Ideal.ofBits, Ideal.ieee]

/-- The pattern of 1.0 denotes 1. -/
theorem ofBits_one : Ideal.ofBits .f32 0x3F800000#32 = ((1 : ℝ) : EReal) := by
  simp [Ideal.ofBits, Ideal.ieee, -EReal.coe_mul]; norm_num

/-- The pattern of 2.0 denotes 2. -/
theorem ofBits_two : Ideal.ofBits .f32 0x40000000#32 = ((2 : ℝ) : EReal) := by
  simp [Ideal.ofBits, Ideal.ieee, -EReal.coe_mul]; norm_num

/-- The pattern of 5.0 denotes 5. -/
theorem ofBits_five : Ideal.ofBits .f32 0x40A00000#32 = ((5 : ℝ) : EReal) := by
  simp [Ideal.ofBits, Ideal.ieee, -EReal.coe_mul]; norm_num

/-- The pattern of 8192.0 denotes 8192. -/
theorem ofBits_8192 : Ideal.ofBits .f32 0x46000000#32 = ((8192 : ℝ) : EReal) := by
  simp [Ideal.ofBits, Ideal.ieee, -EReal.coe_mul]; norm_num

/-- The pattern of 2⁻¹³ denotes 1/8192. -/
theorem ofBits_inv_8192 : Ideal.ofBits .f32 0x39000000#32 = ((1 / 8192 : ℝ) : EReal) := by
  simp [Ideal.ofBits, Ideal.ieee, -EReal.coe_mul]; norm_num

/-! ### Tiled sums -/

/-- A sum over 4 tiles of 2048 consecutive positions is the sum over the 8192 positions, in any additive
    commutative monoid (nothing is assumed finite). -/
theorem sum_tiles {M : Type*} [AddCommMonoid M] (a b : ℕ) (f : ℕ → M) :
    ∑ j : Fin a, ∑ k : Fin b, f (b * j.val + k.val) = ∑ c : Fin (a * b), f c.val := by
  rw [← Fintype.sum_prod_type' (f := fun (j : Fin a) (k : Fin b) => f (b * j.val + k.val))]
  refine Fintype.sum_equiv finProdFinEquiv _ _ ?_
  rintro ⟨j, k⟩
  show f (b * j.val + k.val) = f (finProdFinEquiv (j, k)).val
  congr 1
  simp only [finProdFinEquiv_apply_val]
  rw [Nat.add_comm]

end MaskAlgebra

end
-- ==== Proof.SpecReal.lean ====
/-
  The quantised attention block on real inputs stays in the reals.

  The extended reals are not a ring: products do not distribute over sums at the infinities, and
  v + (q - v) = q fails when v is infinite. Every identity that relates the two programs therefore needs
  each intermediate value to be a real number. This file records that: on rows of reals the step of a row
  is a positive real, a fake-quantised entry is real, a quantised linear layer is real, and for a real
  joint projection the scores, weights, normaliser and attention output are real, the weights positive
  and the normaliser positive (hence nonzero).

  The ingredients beyond closure of the reals under + - * max |.| and finite sums: the minimum of two
  reals is real; a rounded real is real (an integer); the maximum from minus infinity of a nonempty
  finite family of reals is one of its members; the shared 32-bit words are real numbers (127, -127, and
  two positive reals); exp of a real is a positive real; a sum of positive reals over a nonempty index
  set is positive.
-/
import proofs.«162336_j12171937317144_2_alg».proof.Proof.Spec
import proofs.«162336_j12171937317144_2_alg».proof.Proof.LibMaskAlgebra

noncomputable section

namespace AttnSpec

open scoped BigOperators
open Idealize.ShloMosaic MaskAlgebra

/-! ### Two more closure properties of the reals inside the extended reals -/

/-- The coercion of the reals into the extended reals commutes with the minimum. -/
theorem coe_min (r s : ℝ) : min (r : EReal) (s : EReal) = ((min r s : ℝ) : EReal) :=
  (EReal.coe_strictMono.monotone.map_min).symm

/-- The minimum of two reals is real. -/
theorem isReal_min {a b : EReal} (ha : IsReal a) (hb : IsReal b) : IsReal (min a b) := by
  obtain ⟨r, rfl⟩ := ha; obtain ⟨s, rfl⟩ := hb
  exact ⟨min r s, coe_min r s⟩

/-- A rounded real is real (it is an integer). -/
theorem isReal_liftRound (f : ℝ → ℤ) {a : EReal} (ha : IsReal a) : IsReal (Ideal.liftRound f a) := by
  obtain ⟨r, rfl⟩ := ha
  exact ⟨(f r : ℝ), rfl⟩

/-- A real that is positive in the extended reals is a nonzero real. -/
theorem ne_zero_of_coe_pos {s : ℝ} (h : (0 : EReal) < (s : EReal)) : s ≠ 0 := by
  rintro rfl
  simp at h

/-! ### The shared words -/

/-- The pattern of 127.0 denotes 127. -/
theorem c127_eq : c127 = ((127 : ℝ) : EReal) := by
  simp [c127, Ideal.ofBits, Ideal.ieee, -EReal.coe_mul]; norm_num

/-- The pattern of -127.0 denotes -127. -/
theorem cNeg127_eq : cNeg127 = ((-127 : ℝ) : EReal) := by
  simp [cNeg127, Ideal.ofBits, Ideal.ieee, -EReal.coe_mul]; norm_num

/-- The smallest step is a positive real. -/
theorem cEps_real_pos : ∃ e : ℝ, 0 < e ∧ cEps = (e : EReal) := by
  refine ⟨11258999 * (2 : ℝ) ^ (-50 : ℤ), by positivity, ?_⟩
  simp [cEps, Ideal.ofBits, Ideal.ieee, -EReal.coe_mul]

/-- The score scale is a positive real. -/
theorem cScale_real_pos : ∃ e : ℝ, 0 < e ∧ cScale = (e : EReal) := by
  refine ⟨11863283 * (2 : ℝ) ^ (-27 : ℤ), by positivity, ?_⟩
  simp [cScale, Ideal.ofBits, Ideal.ieee, -EReal.coe_mul]

/-- The smallest step is real. -/
theorem isReal_cEps : IsReal cEps := by
  obtain ⟨e, -, he⟩ := cEps_real_pos
  exact ⟨e, he⟩

/-- The smallest step is positive. -/
theorem cEps_pos : (0 : EReal) < cEps := by
  obtain ⟨e, hpos, he⟩ := cEps_real_pos
  rw [he]; exact_mod_cast hpos

/-- The score scale is real. -/
theorem isReal_cScale : IsReal cScale := by
  obtain ⟨e, -, he⟩ := cScale_real_pos
  exact ⟨e, he⟩

/-! ### The maximum from minus infinity -/

/-- Every member is at most the maximum. -/
theorem le_greatest {ι : Type} [Fintype ι] (f : ι → EReal) (i : ι) : f i ≤ greatest f :=
  Finset.le_sup (f := f) (Finset.mem_univ i)

/-- The maximum of a nonempty finite family is one of its members. -/
theorem exists_eq_greatest {ι : Type} [Fintype ι] [Nonempty ι] (f : ι → EReal) :
    ∃ i, greatest f = f i := by
  obtain ⟨i, -, hi⟩ := Finset.exists_mem_eq_sup Finset.univ Finset.univ_nonempty f
  exact ⟨i, hi⟩

/-- The maximum of a nonempty finite family of reals is real. -/
theorem isReal_greatest {ι : Type} [Fintype ι] [Nonempty ι] (f : ι → EReal) (hf : ∀ i, IsReal (f i)) :
    IsReal (greatest f) := by
  obtain ⟨i, hi⟩ := exists_eq_greatest f
  rw [hi]; exact hf i

/-- The maximum over an empty family is minus infinity. -/
theorem greatest_of_isEmpty {ι : Type} [Fintype ι] [IsEmpty ι] (f : ι → EReal) : greatest f = ⊥ := by
  rw [greatest, Finset.univ_eq_empty, Finset.sup_empty]

/-! ### The step and the fake-quantised entries of a row of reals -/

/-- The step of any row is positive: it is at least the smallest step. -/
theorem step_pos {n : Nat} (r : Fin n → EReal) : 0 < step r :=
  lt_max_of_lt_right cEps_pos

/-- The step of any row is not zero. -/
theorem step_ne_zero {n : Nat} (r : Fin n → EReal) : step r ≠ 0 :=
  (step_pos r).ne'

/-- The step of a row of reals is real (of the empty row too: it is then the smallest step). -/
theorem isReal_step {n : Nat} (r : Fin n → EReal) (hr : ∀ j, IsReal (r j)) : IsReal (step r) := by
  rcases n with _ | n
  · have h0 : greatest (fun j : Fin 0 => max (r j) (-(r j))) = ⊥ := greatest_of_isEmpty _
    have h1 : Ideal.div ⊥ ((127 : ℝ) : EReal) = ⊥ := by
      rw [Ideal.div_coe (by norm_num)]
      exact EReal.bot_mul_coe_of_pos (by norm_num)
    rw [step, h0, c127_eq, h1, max_eq_right bot_le]
    exact isReal_cEps
  · rw [step, c127_eq]
    exact ((isReal_greatest _ fun j => (hr j).abs).div_coe (by norm_num)).max isReal_cEps

/-- The step of a row of reals is a positive real number. -/
theorem step_real_pos {n : Nat} (r : Fin n → EReal) (hr : ∀ j, IsReal (r j)) :
    ∃ s : ℝ, 0 < s ∧ step r = (s : EReal) := by
  obtain ⟨s, hs⟩ := isReal_step r hr
  have hpos := step_pos r
  rw [hs] at hpos
  exact ⟨s, by exact_mod_cast hpos, hs⟩

/-- A fake-quantised entry of a row of reals is real. -/
theorem isReal_fq {n : Nat} (r : Fin n → EReal) (hr : ∀ j, IsReal (r j)) (k : Fin n) : IsReal (fq r k) := by
  obtain ⟨s, hpos, hs⟩ := step_real_pos r hr
  rw [fq, hs, c127_eq, cNeg127_eq]
  exact (isReal_min (isReal_coe _)
    ((isReal_coe _).max (isReal_liftRound _ ((hr k).div_coe hpos.ne')))).mul (isReal_coe s)

/-- A quantised linear layer on real inputs, weights and bias is real. -/
theorem isReal_linear {N C O : Nat} (x : Fin N → Fin C → EReal) (w : Fin O → Fin C → EReal) (b : Fin O → EReal)
    (hx : ∀ n c, IsReal (x n c)) (hw : ∀ o c, IsReal (w o c)) (hb : ∀ o, IsReal (b o))
    (n : Fin N) (o : Fin O) : IsReal (linear x w b n o) :=
  (isReal_sum _ _ fun c _ => (isReal_fq _ (hx n) c).mul (isReal_fq _ (hw o) c)).add (hb o)

/-! ### Attention on a real joint projection -/

section Attention

variable (qkv : Fin 4096 → Fin 4608 → EReal) (hq : ∀ n c, IsReal (qkv n c))
include hq

/-- The scores are real. -/
theorem isReal_score (h : Fin 12) (n m : Fin 4096) : IsReal (score qkv h n m) :=
  isReal_sum _ _ fun d _ => ((hq n _).mul isReal_cScale).mul (hq m _)

/-- The largest score of a query is real. -/
theorem isReal_greatest_score (h : Fin 12) (n : Fin 4096) :
    IsReal (greatest fun m' => score qkv h n m') :=
  isReal_greatest _ fun m' => isReal_score qkv hq h n m'

/-- The weights are real. -/
theorem isReal_weight (h : Fin 12) (n m : Fin 4096) : IsReal (weight qkv h n m) :=
  ((isReal_score qkv hq h n m).sub (isReal_greatest_score qkv hq h n)).exp

/-- The weights are positive real numbers. -/
theorem weight_real_pos (h : Fin 12) (n m : Fin 4096) :
    ∃ p : ℝ, 0 < p ∧ weight qkv h n m = (p : EReal) := by
  obtain ⟨t, ht⟩ := (isReal_score qkv hq h n m).sub (isReal_greatest_score qkv hq h n)
  exact ⟨Real.exp t, Real.exp_pos t, by rw [weight, ht]; rfl⟩

/-- The weights are positive. -/
theorem weight_pos (h : Fin 12) (n m : Fin 4096) : 0 < weight qkv h n m := by
  obtain ⟨p, hp, he⟩ := weight_real_pos qkv hq h n m
  rw [he]; exact_mod_cast hp

/-- The normaliser is a positive real number: a sum over a nonempty set of positive reals. -/
theorem norm_real_pos (h : Fin 12) (n : Fin 4096) :
    ∃ L : ℝ, 0 < L ∧ norm qkv h n = (L : EReal) := by
  choose p hp he using fun m => weight_real_pos qkv hq h n m
  refine ⟨∑ m : Fin 4096, p m, Finset.sum_pos (fun m _ => hp m) Finset.univ_nonempty, ?_⟩
  rw [norm, zero_add, ← coe_sum]
  exact Finset.sum_congr rfl fun m _ => he m

/-- The normaliser is real. -/
theorem isReal_norm (h : Fin 12) (n : Fin 4096) : IsReal (norm qkv h n) := by
  obtain ⟨L, -, hL⟩ := norm_real_pos qkv hq h n
  exact ⟨L, hL⟩

/-- The normaliser is positive. -/
theorem norm_pos (h : Fin 12) (n : Fin 4096) : 0 < norm qkv h n := by
  obtain ⟨L, hpos, hL⟩ := norm_real_pos qkv hq h n
  rw [hL]; exact_mod_cast hpos

/-- The normaliser is not zero. -/
theorem norm_ne_zero (h : Fin 12) (n : Fin 4096) : norm qkv h n ≠ 0 :=
  (norm_pos qkv hq h n).ne'

/-- The normalised weights are real. -/
theorem isReal_div_weight_norm (h : Fin 12) (n m : Fin 4096) :
    IsReal (Ideal.div (weight qkv h n m) (norm qkv h n)) := by
  obtain ⟨L, hpos, hL⟩ := norm_real_pos qkv hq h n
  rw [hL]
  exact (isReal_weight qkv hq h n m).div_coe hpos.ne'

/-- The attention output is real. -/
theorem isReal_attn (n : Fin 4096) (h : Fin 12) (d : Fin 128) : IsReal (attn qkv n h d) :=
  isReal_sum _ _ fun m _ => (isReal_div_weight_norm qkv hq h n m).mul (hq m _)

/-- The attention rows are real. -/
theorem isReal_attnRows (n : Fin 4096) (c : Fin 1536) : IsReal (attnRows qkv n c) :=
  isReal_attn qkv hq n _ _

end Attention

/-- The whole block on real inputs is real. -/
theorem isReal_block (x : Fin 4096 → Fin 1536 → EReal) (wq : Fin 4608 → Fin 1536 → EReal) (bq : Fin 4608 → EReal)
    (wp : Fin 1536 → Fin 1536 → EReal) (bp : Fin 1536 → EReal)
    (hx : ∀ n c, IsReal (x n c)) (hwq : ∀ o c, IsReal (wq o c)) (hbq : ∀ o, IsReal (bq o))
    (hwp : ∀ o c, IsReal (wp o c)) (hbp : ∀ o, IsReal (bp o)) (n : Fin 4096) (o : Fin 1536) :
    IsReal (block x wq bq wp bp n o) :=
  isReal_linear _ _ _ (isReal_attnRows _ (isReal_linear x wq bq hx hwq hbq)) hwp hbp n o

end AttnSpec

end
-- ==== Proof.LinearPayload.lean ====
/-
  The linear kernels' payload at an index.

  A grid point of a quantised linear kernel holds a [512, 1536] block of activation rows, a [512, 1536] block of
  weight rows (already fake-quantised before the kernel runs) and a [1, 512] block of the bias. The payload
  fake-quantises each activation row (lane maximum of |x| from minus infinity, kept as a column, divided by 127,
  maximum with the smallest step, broadcast along the row; divide, round, clip, multiply), contracts it with each
  weight row into the zero splat and adds the bias row. Read at (r, o) this is the specification's
  sum over c of fq (row r) c * (weight row o) c, plus the bias at o. No finiteness is needed: the kernel stores the
  quantised value itself, not v + (q - v). Rounding to a narrower float format is the identity on the extended
  reals, so the first kernel's payload (which stores the narrower format) has the same value as the third's.
-/
import proofs.«162336_j12171937317144_2_alg».proof.Proof.Gen.KernelIdeal.Skeleton
import proofs.«162336_j12171937317144_2_alg».proof.Proof.Spec
import proofs.«162336_j12171937317144_2_alg».proof.Proof.LibMaskAlgebra
import proofs.«162336_j12171937317144_2_alg».proof.Proof.SpecReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.LinVal

open Cert.KernelIdeal Cert.KernelIdeal.Gen Idealize.ShloMosaic Idealize.SL.Sem
open Idealize.ShloMosaic.ValueIdx MaskAlgebra

variable {α : Type}

/-! ### The non-pointwise operations of the payload, read at an index -/

/-- The pattern of minus infinity. -/
theorem ofBits_negInf : Ideal.ofBits .f32 0xFF800000#32 = (⊥ : EReal) := by
  simp [Ideal.ofBits, Ideal.ieee]

/-- The absolute value of a vector, entry by entry. -/
theorem absf_apply {s : Shape} {φ : FTy} (a : FVec Ideal s φ) (i : s.Idx) : absf a i = max (a i) (-(a i)) := rfl

/-- The rounding of a vector, entry by entry. -/
theorem roundeven_apply {s : Shape} {φ : FTy} (a : FVec Ideal s φ) (i : s.Idx) :
    roundeven a i = Ideal.liftRound Ideal.roundHalfEven (a i) := rfl

/-- The lane maximum of a [512, 1536] vector from minus infinity, at row r: the supremum of the row. -/
theorem rowmax_at (y : FVec Ideal S512x1536 .f32) (h : S512x1536.Reduces [1] S512) (hφ : FKind.Formats .f32)
    (hacc : (0xFF800000#32 : BitVec 32) = 0xFF800000#32) (r : Fin 512) :
    multiReduction (F := Ideal) .maximumf [1] S512 y 0xFF800000#32 h hφ hacc (ix1 r)
      = AttnSpec.greatest fun j : Fin 1536 => y (ix2 r j) := by
  refine (Ideal.multiReduction_maximumf_single y 0xFF800000#32 h hφ hacc (ix1 r)).trans ?_
  have hl : ∀ k : Fin (S512x1536.size 1), h.lift (ix1 r) k = ix2 r ⟨k.val, k.isLt⟩ := fun k => by
    funext c; apply Fin.ext; fin_cases c <;> rfl
  have hf : (y ∘ h.lift (ix1 r)) = fun k : Fin 1536 => y (ix2 r k) := funext fun k => by
    show y (h.lift (ix1 r) k) = _
    rw [hl k]; rfl
  have hb : FloatOps.ofBits (F := Ideal) .f32 0xFF800000#32 = (⊥ : EReal) := ofBits_negInf
  rw [hb, hf]
  rfl

/-- A [512] vector cast to a [512, 1] column reads, at (r, 0), the operand at r. -/
theorem col_cast_apply (v : S512.Idx → α) (h : S512.ShapeCasts S512x1) (r : Fin 512) :
    shapeCast S512x1 v h (ix2 r (0 : Fin 1)) = v (ix1 r) :=
  shapeCast_apply v h _ _ (by
    rw [Shape.rowMajor_val_two, Shape.rowMajor_val_one]
    show r.val = r.val * 1 + 0
    omega)

/-- A [512, 1] column broadcast to [512, 1536] reads, at (r, c), the column at (r, 0). -/
theorem col_bcast_apply (v : S512x1.Idx → α) (h : S512x1.Broadcasts S512x1536) (r : Fin 512) (c : Fin 1536) :
    broadcastTo S512x1536 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The product of a [512, 1536] block with the transpose of a [512, 1536] block into the zero splat, at (r, o):
    the sum over the 1536 columns. -/
theorem matmul_at {φ₁ φ₂ : FTy} (A : FVec Ideal S512x1536 φ₁) (B : FVec Ideal S512x1536 φ₂) (r o : Fin 512) :
    matmul dot_S512x1536_S512x1536_S512x512_1_1_0_0_n_n none A B (constant S512x512 .f32 0x00000000#32) (ix2 r o)
      = ∑ c : Fin 1536, A (ix2 r c) * B (ix2 o c) := by
  refine (Ideal.matmul_constant_zero_apply dot_S512x1536_S512x1536_S512x512_1_1_0_0_n_n none A B (ix2 r o)).trans ?_
  rw [← Equiv.sum_comp (ValueIdx.contrEquiv1 dot_S512x1536_S512x1536_S512x512_1_1_0_0_n_n 1536 rfl rfl).symm]
  refine Finset.sum_congr rfl fun k _ => ?_
  have hk := ValueIdx.contrEquiv1_symm_val dot_S512x1536_S512x1536_S512x512_1_1_0_0_n_n 1536 rfl rfl k
  have el : dot_S512x1536_S512x1536_S512x512_1_1_0_0_n_n.lhsIdx (ix2 r o)
      ((ValueIdx.contrEquiv1 dot_S512x1536_S512x1536_S512x512_1_1_0_0_n_n 1536 rfl rfl).symm k) = ix2 r k :=
    funext fun a => Fin.ext (by
      match a with
      | ⟨0, _⟩ =>
        show (dot_S512x1536_S512x1536_S512x512_1_1_0_0_n_n.lhsIdx (ix2 r o) _ 0).val = r.val
        unfold DotDims.lhsIdx
        rw [dif_neg (show ¬(0 : Fin S512x1536.rank) ∈ dot_S512x1536_S512x1536_S512x512_1_1_0_0_n_n.lhsBatch by decide),
          dif_pos (show (0 : Fin S512x1536.rank) ∈ dot_S512x1536_S512x1536_S512x512_1_1_0_0_n_n.lhsNonContracting by decide)]
        rfl
      | ⟨1, _⟩ =>
        exact (dot_S512x1536_S512x1536_S512x512_1_1_0_0_n_n.lhsIdx_val_of_single rfl (ix2 r o) _).trans hk)
  have er : dot_S512x1536_S512x1536_S512x512_1_1_0_0_n_n.rhsIdx (ix2 r o)
      ((ValueIdx.contrEquiv1 dot_S512x1536_S512x1536_S512x512_1_1_0_0_n_n 1536 rfl rfl).symm k) = ix2 o k :=
    funext fun a => Fin.ext (by
      match a with
      | ⟨0, _⟩ =>
        show (dot_S512x1536_S512x1536_S512x512_1_1_0_0_n_n.rhsIdx (ix2 r o) _ 0).val = o.val
        unfold DotDims.rhsIdx
        rw [dif_neg (show ¬(0 : Fin S512x1536.rank) ∈ dot_S512x1536_S512x1536_S512x512_1_1_0_0_n_n.rhsBatch by decide),
          dif_pos (show (0 : Fin S512x1536.rank) ∈ dot_S512x1536_S512x1536_S512x512_1_1_0_0_n_n.rhsNonContracting by decide)]
        rfl
      | ⟨1, _⟩ =>
        exact (dot_S512x1536_S512x1536_S512x512_1_1_0_0_n_n.rhsIdx_val_of_single rfl (ix2 r o) _).trans hk)
  rw [el, er]

/-! ### The payloads -/

/-- The third kernel's payload at (r, o): the fake-quantised activation row r against the (already quantised)
    weight row o, plus the bias. -/
theorem k2_pay1_at (x : Vec Ideal S512x1536 .f32) (w : Vec Ideal S512x1536 .bf16) (b : Vec Ideal S1x512 .f32)
    (r o : Fin 512) :
    k2_pay1 (F := Ideal) x w b (ix2 r o)
      = (∑ c : Fin 1536, AttnSpec.fq (fun c => x (ix2 r c)) c * w (ix2 o c)) + b (ix2 0 o) := by
  unfold k2_pay1
  dsimp only
  rw [addf_apply, matmul_at, broadcastTo_1b_ab_apply, shapeCast_self, shapeCast_self, shapeCast_self]
  refine congrArg (· + _) (Finset.sum_congr rfl fun c _ => ?_)
  simp only [truncf_apply, mulf_apply, minimumf_apply, maximumf_apply, roundeven_apply, divf_apply, broadcast_apply,
    col_bcast_apply, col_cast_apply]
  rw [rowmax_at]
  simp only [absf_apply]
  rfl

/-- The first kernel's payload is the third's rounded to the narrower format, which at the extended reals is the
    identity: the same value at (r, o). -/
theorem k0_pay1_at (x : Vec Ideal S512x1536 .f32) (w : Vec Ideal S512x1536 .bf16) (b : Vec Ideal S1x512 .f32)
    (r o : Fin 512) :
    k0_pay1 (F := Ideal) x w b (ix2 r o)
      = (∑ c : Fin 1536, AttnSpec.fq (fun c => x (ix2 r c)) c * w (ix2 o c)) + b (ix2 0 o) :=
  k2_pay1_at x w b r o

end Cert.KernelIdeal.LinVal

end
-- ==== Proof.QuantLinearCover.lean ====
/- From blocks to the array, for the output of each fake-quantised linear layer: after the region, every element of
   the output array is the payload of the three input blocks of the one grid point whose output block holds it. -/
import proofs.«162336_j12171937317144_2_alg».proof.Proof.QuantLinearBody
import Idealize.ShloMosaic.Lib.Pipeline.Value
import Idealize.ShloMosaic.Lib.ValueIdx

noncomputable section

namespace Cert.KernelIdeal.QL

open Cert.KernelIdeal.Gen
open Idealize.ShloMosaic Idealize.ShloMosaic.TcCoe
open Idealize.SL Idealize.SL.Sem
open Idealize.ShloMosaic.Pipeline (Dat)

variable {F : FTy → Type} [FloatOps F]

-- the TensorCore's buffer contents when a region is entered
variable (V : (c : Dev nD) → (b : Ref sig .tc) → Buf (Elt F) ((c : Thread nD τ).loc b))

/-! # The first layer's output array -/

/-- The output's block index at a point, decided over the grid: the point's row-major coordinates. -/
theorem idx0_3 : ∀ t : Fin cfg0.N, win0_3.index t (0 : Fin 2) = t.val / 9 ∧ win0_3.index t (1 : Fin 2) = t.val % 9 :=
  (by decide +kernel : ∀ t : Fin grid0.N, win0_3.index t (0 : Fin 2) = t.val / 9 ∧ win0_3.index t (1 : Fin 2) = t.val % 9)

/-- The point whose output block holds element `(n, o)` of the array. -/
def pt0 (n : Fin 4096) (o : Fin 4608) : Fin cfg0.N := ⟨n.val / 512 * 9 + o.val / 512, by
  have hn := n.isLt; have ho := o.isLt
  show _ < grid0.N; rw [N_0]; omega⟩

theorem pt0_val (n : Fin 4096) (o : Fin 4608) : (pt0 n o).val = n.val / 512 * 9 + o.val / 512 := rfl

/-- Element `(n, o)` sits in that block at `(n % 512, o % 512)`: on each axis a block's coordinate in the array is
    the block index times the block's size plus the coordinate inside the block. -/
theorem emb0_3 (n : Fin 4096) (o : Fin 4608) :
    ((cfg0.win 3).blk (pt0 n o)).view.emb (ValueIdx.ix2 (⟨n.val % 512, Nat.mod_lt _ (by decide)⟩ : Fin 512) (⟨o.val % 512, Nat.mod_lt _ (by decide)⟩ : Fin 512))
      = ValueIdx.ix2 n o := by
  obtain ⟨e0, e1⟩ := idx0_3 (pt0 n o)
  rw [pt0_val] at e0 e1
  have hn := n.isLt; have ho := o.isLt
  funext a; apply Fin.ext
  match a with
  | ⟨0, _⟩ => show win0_3.index (pt0 n o) (0 : Fin 2) * 512 + 1 * (n.val % 512) = n.val; omega
  | ⟨1, _⟩ => show win0_3.index (pt0 n o) (1 : Fin 2) * 512 + 1 * (o.val % 512) = o.val; omega

/-- THE OUTPUT ARRAY AFTER THE REGION, element by element: element `(n, o)` is the payload of the three input blocks
    of the point `(n / 512, o / 512)`, at `(n % 512, o % 512)`. -/
theorem read0_3 (c : Dev nD) (n : Fin 4096) (o : Fin 4608) :
    (dat0 V c).arrAt 3 cfg0.N (ValueIdx.ix2 n o)
      = k0_pay1 (iblk0 V c 0 (pt0 n o)) (iblk0 V c 1 (pt0 n o)) (iblk0 V c 2 (pt0 n o))
          (ValueIdx.ix2 (⟨n.val % 512, Nat.mod_lt _ (by decide)⟩ : Fin 512) (⟨o.val % 512, Nat.mod_lt _ (by decide)⟩ : Fin 512)) := by
  have h := (dat0 V c).arrAt_emb_eq_flushed 3 disjoint0_3 (pt0 n o) (flush0_3 _)
    (ValueIdx.ix2 (⟨n.val % 512, Nat.mod_lt _ (by decide)⟩ : Fin 512) (⟨o.val % 512, Nat.mod_lt _ (by decide)⟩ : Fin 512))
  rw [emb0_3, flushed0_3] at h
  exact h

/-! # The second layer's output array -/

/-- The output's block index at a point, decided over the grid: the point's row-major coordinates. -/
theorem idx2_3 : ∀ t : Fin cfg2.N, win2_3.index t (0 : Fin 2) = t.val / 3 ∧ win2_3.index t (1 : Fin 2) = t.val % 3 :=
  (by decide +kernel : ∀ t : Fin grid2.N, win2_3.index t (0 : Fin 2) = t.val / 3 ∧ win2_3.index t (1 : Fin 2) = t.val % 3)

/-- The point whose output block holds element `(n, o)` of the array. -/
def pt2 (n : Fin 4096) (o : Fin 1536) : Fin cfg2.N := ⟨n.val / 512 * 3 + o.val / 512, by
  have hn := n.isLt; have ho := o.isLt
  show _ < grid2.N; rw [N_2]; omega⟩

theorem pt2_val (n : Fin 4096) (o : Fin 1536) : (pt2 n o).val = n.val / 512 * 3 + o.val / 512 := rfl

/-- Element `(n, o)` sits in that block at `(n % 512, o % 512)`: on each axis a block's coordinate in the array is
    the block index times the block's size plus the coordinate inside the block. -/
theorem emb2_3 (n : Fin 4096) (o : Fin 1536) :
    ((cfg2.win 3).blk (pt2 n o)).view.emb (ValueIdx.ix2 (⟨n.val % 512, Nat.mod_lt _ (by decide)⟩ : Fin 512) (⟨o.val % 512, Nat.mod_lt _ (by decide)⟩ : Fin 512))
      = ValueIdx.ix2 n o := by
  obtain ⟨e0, e1⟩ := idx2_3 (pt2 n o)
  rw [pt2_val] at e0 e1
  have hn := n.isLt; have ho := o.isLt
  funext a; apply Fin.ext
  match a with
  | ⟨0, _⟩ => show win2_3.index (pt2 n o) (0 : Fin 2) * 512 + 1 * (n.val % 512) = n.val; omega
  | ⟨1, _⟩ => show win2_3.index (pt2 n o) (1 : Fin 2) * 512 + 1 * (o.val % 512) = o.val; omega

/-- THE OUTPUT ARRAY AFTER THE REGION, element by element: element `(n, o)` is the payload of the three input blocks
    of the point `(n / 512, o / 512)`, at `(n % 512, o % 512)`. -/
theorem read2_3 (c : Dev nD) (n : Fin 4096) (o : Fin 1536) :
    (dat2 V c).arrAt 3 cfg2.N (ValueIdx.ix2 n o)
      = k2_pay1 (iblk2 V c 0 (pt2 n o)) (iblk2 V c 1 (pt2 n o)) (iblk2 V c 2 (pt2 n o))
          (ValueIdx.ix2 (⟨n.val % 512, Nat.mod_lt _ (by decide)⟩ : Fin 512) (⟨o.val % 512, Nat.mod_lt _ (by decide)⟩ : Fin 512)) := by
  have h := (dat2 V c).arrAt_emb_eq_flushed 3 disjoint2_3 (pt2 n o) (flush2_3 _)
    (ValueIdx.ix2 (⟨n.val % 512, Nat.mod_lt _ (by decide)⟩ : Fin 512) (⟨o.val % 512, Nat.mod_lt _ (by decide)⟩ : Fin 512))
  rw [emb2_3, flushed2_3] at h
  exact h

end Cert.KernelIdeal.QL

end
-- ==== Proof.QuantLinearBlocks.lean ====
/- The input blocks of the two fake-quantised linear layers, element by element: at a grid point, each input window's
   block read at an index is the region-entry array at explicit coordinates — the activations move with the point's
   row coordinate, the weights and the bias with its column coordinate — and the same at the point that holds a given
   element of the output array. -/
import proofs.«162336_j12171937317144_2_alg».proof.Proof.QuantLinearCover

noncomputable section

namespace Cert.KernelIdeal.QL

open Cert.KernelIdeal.Gen
open Idealize.ShloMosaic Idealize.ShloMosaic.TcCoe
open Idealize.SL Idealize.SL.Sem
open Idealize.ShloMosaic.Pipeline (Dat)

variable {F : FTy → Type} [FloatOps F]

-- the TensorCore's buffer contents when a region is entered
variable (V : (c : Dev nD) → (b : Ref sig .tc) → Buf (Elt F) ((c : Thread nD τ).loc b))

/-! # The first layer -/

/-! ## The input blocks, element by element -/

/-- The three input windows' block indices at a point, decided over the grid: the activations move with the point's
    row coordinate, the weights and the bias with its column coordinate. -/
theorem idx0_in : ∀ t : Fin cfg0.N,
    win0_0.index t (0 : Fin 2) = t.val / 9 ∧ win0_0.index t (1 : Fin 2) = 0
    ∧ win0_1.index t (0 : Fin 2) = t.val % 9 ∧ win0_1.index t (1 : Fin 2) = 0
    ∧ win0_2.index t (0 : Fin 2) = 0 ∧ win0_2.index t (1 : Fin 2) = t.val % 9 :=
  (by decide +kernel : ∀ t : Fin grid0.N,
    win0_0.index t (0 : Fin 2) = t.val / 9 ∧ win0_0.index t (1 : Fin 2) = 0
    ∧ win0_1.index t (0 : Fin 2) = t.val % 9 ∧ win0_1.index t (1 : Fin 2) = 0
    ∧ win0_2.index t (0 : Fin 2) = 0 ∧ win0_2.index t (1 : Fin 2) = t.val % 9)

theorem lt0 (t : Fin cfg0.N) : t.val < 72 := Nat.lt_of_lt_of_eq t.isLt (N_0 : cfg0.N = 72)

/-- The activation block at point `t`, at `(p, q)`: row `t / 9 * 512 + p` of the entry array. -/
theorem iblk0_0_apply (c : Dev nD) (t : Fin cfg0.N) (p : Fin 512) (q : Fin 1536) :
    iblk0 V c 0 t (ValueIdx.ix2 p q)
      = V c main_v0 (ValueIdx.ix2 (⟨t.val / 9 * 512 + p.val, by have := lt0 t; have := p.isLt; omega⟩ : Fin 4096) q) := by
  obtain ⟨e0, e1, -⟩ := idx0_in t
  have hp := p.isLt; have hq := q.isLt
  show V c main_v0 (((cfg0.win 0).blk t).view.emb (ValueIdx.ix2 p q)) = _
  congr 1
  funext a; apply Fin.ext
  match a with
  | ⟨0, _⟩ => show win0_0.index t (0 : Fin 2) * 512 + 1 * p.val = t.val / 9 * 512 + p.val; omega
  | ⟨1, _⟩ => show win0_0.index t (1 : Fin 2) * 1536 + 1 * q.val = q.val; omega

/-- The weight block at point `t`, at `(p, q)`: row `t % 9 * 512 + p` of the entry array. -/
theorem iblk0_1_apply (c : Dev nD) (t : Fin cfg0.N) (p : Fin 512) (q : Fin 1536) :
    iblk0 V c 1 t (ValueIdx.ix2 p q)
      = V c main_v16 (ValueIdx.ix2 (⟨t.val % 9 * 512 + p.val, by have := p.isLt; omega⟩ : Fin 4608) q) := by
  obtain ⟨-, -, e0, e1, -⟩ := idx0_in t
  have hp := p.isLt; have hq := q.isLt
  show V c main_v16 (((cfg0.win 1).blk t).view.emb (ValueIdx.ix2 p q)) = _
  congr 1
  funext a; apply Fin.ext
  match a with
  | ⟨0, _⟩ => show win0_1.index t (0 : Fin 2) * 512 + 1 * p.val = t.val % 9 * 512 + p.val; omega
  | ⟨1, _⟩ => show win0_1.index t (1 : Fin 2) * 1536 + 1 * q.val = q.val; omega

/-- The bias block at point `t`, at `(0, q)`: column `t % 9 * 512 + q` of the entry array. -/
theorem iblk0_2_apply (c : Dev nD) (t : Fin cfg0.N) (p : Fin 1) (q : Fin 512) :
    iblk0 V c 2 t (ValueIdx.ix2 p q)
      = V c main_v1 (ValueIdx.ix2 p (⟨t.val % 9 * 512 + q.val, by have := q.isLt; omega⟩ : Fin 4608)) := by
  obtain ⟨-, -, -, -, e0, e1⟩ := idx0_in t
  have hp := p.isLt; have hq := q.isLt
  show V c main_v1 (((cfg0.win 2).blk t).view.emb (ValueIdx.ix2 p q)) = _
  congr 1
  funext a; apply Fin.ext
  match a with
  | ⟨0, _⟩ => show win0_2.index t (0 : Fin 2) * 1 + 1 * p.val = p.val; omega
  | ⟨1, _⟩ => show win0_2.index t (1 : Fin 2) * 512 + 1 * q.val = t.val % 9 * 512 + q.val; omega

/-! ## The input blocks of the point that holds element `(n, o)` -/

/-- The activation block of element `(n, o)`'s point: rows `n / 512 * 512 + p`. -/
theorem iblk0_0_pt (c : Dev nD) (n : Fin 4096) (o : Fin 4608) (p : Fin 512) (q : Fin 1536) :
    iblk0 V c 0 (pt0 n o) (ValueIdx.ix2 p q)
      = V c main_v0 (ValueIdx.ix2 (⟨n.val / 512 * 512 + p.val, by have := n.isLt; have := p.isLt; omega⟩ : Fin 4096) q) := by
  have hn := n.isLt; have ho := o.isLt; have hp := p.isLt
  have e : (⟨(pt0 n o).val / 9 * 512 + p.val, by have := lt0 (pt0 n o); omega⟩ : Fin 4096)
      = ⟨n.val / 512 * 512 + p.val, by omega⟩ := Fin.ext (by show (pt0 n o).val / 9 * 512 + p.val = n.val / 512 * 512 + p.val; rw [pt0_val]; omega)
  rw [iblk0_0_apply, e]

/-- The weight block of element `(n, o)`'s point: rows `o / 512 * 512 + p`. -/
theorem iblk0_1_pt (c : Dev nD) (n : Fin 4096) (o : Fin 4608) (p : Fin 512) (q : Fin 1536) :
    iblk0 V c 1 (pt0 n o) (ValueIdx.ix2 p q)
      = V c main_v16 (ValueIdx.ix2 (⟨o.val / 512 * 512 + p.val, by have := o.isLt; have := p.isLt; omega⟩ : Fin 4608) q) := by
  have hn := n.isLt; have ho := o.isLt; have hp := p.isLt
  have e : (⟨(pt0 n o).val % 9 * 512 + p.val, by omega⟩ : Fin 4608)
      = ⟨o.val / 512 * 512 + p.val, by omega⟩ := Fin.ext (by show (pt0 n o).val % 9 * 512 + p.val = o.val / 512 * 512 + p.val; rw [pt0_val]; omega)
  rw [iblk0_1_apply, e]

/-- The bias block of element `(n, o)`'s point: columns `o / 512 * 512 + q`. -/
theorem iblk0_2_pt (c : Dev nD) (n : Fin 4096) (o : Fin 4608) (p : Fin 1) (q : Fin 512) :
    iblk0 V c 2 (pt0 n o) (ValueIdx.ix2 p q)
      = V c main_v1 (ValueIdx.ix2 p (⟨o.val / 512 * 512 + q.val, by have := o.isLt; have := q.isLt; omega⟩ : Fin 4608)) := by
  have hn := n.isLt; have ho := o.isLt; have hq := q.isLt
  have e : (⟨(pt0 n o).val % 9 * 512 + q.val, by omega⟩ : Fin 4608)
      = ⟨o.val / 512 * 512 + q.val, by omega⟩ := Fin.ext (by show (pt0 n o).val % 9 * 512 + q.val = o.val / 512 * 512 + q.val; rw [pt0_val]; omega)
  rw [iblk0_2_apply, e]

/-! # The second layer -/

/-! ## The input blocks, element by element -/

/-- The three input windows' block indices at a point, decided over the grid: the activations move with the point's
    row coordinate, the weights and the bias with its column coordinate. -/
theorem idx2_in : ∀ t : Fin cfg2.N,
    win2_0.index t (0 : Fin 2) = t.val / 3 ∧ win2_0.index t (1 : Fin 2) = 0
    ∧ win2_1.index t (0 : Fin 2) = t.val % 3 ∧ win2_1.index t (1 : Fin 2) = 0
    ∧ win2_2.index t (0 : Fin 2) = 0 ∧ win2_2.index t (1 : Fin 2) = t.val % 3 :=
  (by decide +kernel : ∀ t : Fin grid2.N,
    win2_0.index t (0 : Fin 2) = t.val / 3 ∧ win2_0.index t (1 : Fin 2) = 0
    ∧ win2_1.index t (0 : Fin 2) = t.val % 3 ∧ win2_1.index t (1 : Fin 2) = 0
    ∧ win2_2.index t (0 : Fin 2) = 0 ∧ win2_2.index t (1 : Fin 2) = t.val % 3)

theorem lt2 (t : Fin cfg2.N) : t.val < 24 := Nat.lt_of_lt_of_eq t.isLt (N_2 : cfg2.N = 24)

/-- The activation block at point `t`, at `(p, q)`: row `t / 3 * 512 + p` of the entry array. -/
theorem iblk2_0_apply (c : Dev nD) (t : Fin cfg2.N) (p : Fin 512) (q : Fin 1536) :
    iblk2 V c 0 t (ValueIdx.ix2 p q)
      = V c main_v32 (ValueIdx.ix2 (⟨t.val / 3 * 512 + p.val, by have := lt2 t; have := p.isLt; omega⟩ : Fin 4096) q) := by
  obtain ⟨e0, e1, -⟩ := idx2_in t
  have hp := p.isLt; have hq := q.isLt
  show V c main_v32 (((cfg2.win 0).blk t).view.emb (ValueIdx.ix2 p q)) = _
  congr 1
  funext a; apply Fin.ext
  match a with
  | ⟨0, _⟩ => show win2_0.index t (0 : Fin 2) * 512 + 1 * p.val = t.val / 3 * 512 + p.val; omega
  | ⟨1, _⟩ => show win2_0.index t (1 : Fin 2) * 1536 + 1 * q.val = q.val; omega

/-- The weight block at point `t`, at `(p, q)`: row `t % 3 * 512 + p` of the entry array. -/
theorem iblk2_1_apply (c : Dev nD) (t : Fin cfg2.N) (p : Fin 512) (q : Fin 1536) :
    iblk2 V c 1 t (ValueIdx.ix2 p q)
      = V c main_v30 (ValueIdx.ix2 (⟨t.val % 3 * 512 + p.val, by have := p.isLt; omega⟩ : Fin 1536) q) := by
  obtain ⟨-, -, e0, e1, -⟩ := idx2_in t
  have hp := p.isLt; have hq := q.isLt
  show V c main_v30 (((cfg2.win 1).blk t).view.emb (ValueIdx.ix2 p q)) = _
  congr 1
  funext a; apply Fin.ext
  match a with
  | ⟨0, _⟩ => show win2_1.index t (0 : Fin 2) * 512 + 1 * p.val = t.val % 3 * 512 + p.val; omega
  | ⟨1, _⟩ => show win2_1.index t (1 : Fin 2) * 1536 + 1 * q.val = q.val; omega

/-- The bias block at point `t`, at `(0, q)`: column `t % 3 * 512 + q` of the entry array. -/
theorem iblk2_2_apply (c : Dev nD) (t : Fin cfg2.N) (p : Fin 1) (q : Fin 512) :
    iblk2 V c 2 t (ValueIdx.ix2 p q)
      = V c main_v2 (ValueIdx.ix2 p (⟨t.val % 3 * 512 + q.val, by have := q.isLt; omega⟩ : Fin 1536)) := by
  obtain ⟨-, -, -, -, e0, e1⟩ := idx2_in t
  have hp := p.isLt; have hq := q.isLt
  show V c main_v2 (((cfg2.win 2).blk t).view.emb (ValueIdx.ix2 p q)) = _
  congr 1
  funext a; apply Fin.ext
  match a with
  | ⟨0, _⟩ => show win2_2.index t (0 : Fin 2) * 1 + 1 * p.val = p.val; omega
  | ⟨1, _⟩ => show win2_2.index t (1 : Fin 2) * 512 + 1 * q.val = t.val % 3 * 512 + q.val; omega

/-! ## The input blocks of the point that holds element `(n, o)` -/

/-- The activation block of element `(n, o)`'s point: rows `n / 512 * 512 + p`. -/
theorem iblk2_0_pt (c : Dev nD) (n : Fin 4096) (o : Fin 1536) (p : Fin 512) (q : Fin 1536) :
    iblk2 V c 0 (pt2 n o) (ValueIdx.ix2 p q)
      = V c main_v32 (ValueIdx.ix2 (⟨n.val / 512 * 512 + p.val, by have := n.isLt; have := p.isLt; omega⟩ : Fin 4096) q) := by
  have hn := n.isLt; have ho := o.isLt; have hp := p.isLt
  have e : (⟨(pt2 n o).val / 3 * 512 + p.val, by have := lt2 (pt2 n o); omega⟩ : Fin 4096)
      = ⟨n.val / 512 * 512 + p.val, by omega⟩ := Fin.ext (by show (pt2 n o).val / 3 * 512 + p.val = n.val / 512 * 512 + p.val; rw [pt2_val]; omega)
  rw [iblk2_0_apply, e]

/-- The weight block of element `(n, o)`'s point: rows `o / 512 * 512 + p`. -/
theorem iblk2_1_pt (c : Dev nD) (n : Fin 4096) (o : Fin 1536) (p : Fin 512) (q : Fin 1536) :
    iblk2 V c 1 (pt2 n o) (ValueIdx.ix2 p q)
      = V c main_v30 (ValueIdx.ix2 (⟨o.val / 512 * 512 + p.val, by have := o.isLt; have := p.isLt; omega⟩ : Fin 1536) q) := by
  have hn := n.isLt; have ho := o.isLt; have hp := p.isLt
  have e : (⟨(pt2 n o).val % 3 * 512 + p.val, by omega⟩ : Fin 1536)
      = ⟨o.val / 512 * 512 + p.val, by omega⟩ := Fin.ext (by show (pt2 n o).val % 3 * 512 + p.val = o.val / 512 * 512 + p.val; rw [pt2_val]; omega)
  rw [iblk2_1_apply, e]

/-- The bias block of element `(n, o)`'s point: columns `o / 512 * 512 + q`. -/
theorem iblk2_2_pt (c : Dev nD) (n : Fin 4096) (o : Fin 1536) (p : Fin 1) (q : Fin 512) :
    iblk2 V c 2 (pt2 n o) (ValueIdx.ix2 p q)
      = V c main_v2 (ValueIdx.ix2 p (⟨o.val / 512 * 512 + q.val, by have := o.isLt; have := q.isLt; omega⟩ : Fin 1536)) := by
  have hn := n.isLt; have ho := o.isLt; have hq := q.isLt
  have e : (⟨(pt2 n o).val % 3 * 512 + q.val, by omega⟩ : Fin 1536)
      = ⟨o.val / 512 * 512 + q.val, by omega⟩ := Fin.ext (by show (pt2 n o).val % 3 * 512 + q.val = o.val / 512 * 512 + q.val; rw [pt2_val]; omega)
  rw [iblk2_2_apply, e]

end Cert.KernelIdeal.QL

end
-- ==== Proof.KernelLinear.lean ====
/-
  The two linear kernels' output arrays, element by element, as the specification's quantised linear layer on the
  arrays the region is entered with.

  Element (n, o) of the output lies in the block of grid point (n / 512, o / 512) at (n % 512, o % 512); that
  point's activation block holds rows n / 512 * 512 + p (all 1536 columns, so a block row is a whole row), its
  weight block rows o / 512 * 512 + p and its bias block columns o / 512 * 512 + q. With
  n / 512 * 512 + n % 512 = n the payload read at (n % 512, o % 512) is the sum over the 1536 columns of
  fq (row n) k * weight (o, k), plus the bias at o.
-/
import proofs.«162336_j12171937317144_2_alg».proof.Proof.LinearPayload
import proofs.«162336_j12171937317144_2_alg».proof.Proof.QuantLinearBlocks

noncomputable section

namespace Cert.KernelIdeal.LinVal

open Cert.KernelIdeal Cert.KernelIdeal.Gen Idealize.ShloMosaic Idealize.ShloMosaic.TcCoe Idealize.SL Idealize.SL.Sem
open Idealize.ShloMosaic.ValueIdx MaskAlgebra

-- the TensorCore's buffer contents when a region is entered
variable (V : (c : Dev nD) → (b : Ref sig .tc) → Buf (Elt Ideal) ((c : Thread nD τ).loc b))

/-- Element (n, o) of the first linear kernel's output array: the fake-quantised row n of the activations against
    row o of the (already quantised) weights, plus the bias at o. -/
theorem linear0_at (c : Dev nD) (n : Fin 4096) (o : Fin 4608) :
    (QL.dat0 V c).arrAt 3 cfg0.N (ix2 n o)
      = (∑ k : Fin 1536, AttnSpec.fq (fun k => V c main_v0 (ix2 n k)) k * V c main_v16 (ix2 o k)) + V c main_v1 (ix2 0 o) := by
  have hn := n.isLt; have ho := o.isLt
  rw [QL.read0_3, k0_pay1_at]
  refine congrArg₂ (· + ·) (Finset.sum_congr rfl fun k _ => congrArg₂ (· * ·) ?_ ?_) ?_
  · refine congrArg (fun r => AttnSpec.fq r k) (funext fun q => ?_)
    refine (QL.iblk0_0_pt V c n o _ q).trans ?_
    exact congrArg (fun i => V c main_v0 (ix2 i q)) (Fin.ext (by show n.val / 512 * 512 + n.val % 512 = n.val; omega))
  · refine (QL.iblk0_1_pt V c n o _ k).trans ?_
    exact congrArg (fun i => V c main_v16 (ix2 i k)) (Fin.ext (by show o.val / 512 * 512 + o.val % 512 = o.val; omega))
  · refine (QL.iblk0_2_pt V c n o _ _).trans ?_
    exact congrArg (fun i => V c main_v1 (ix2 (0 : Fin 1) i)) (Fin.ext (by show o.val / 512 * 512 + o.val % 512 = o.val; omega))

/-- Element (n, o) of the third linear kernel's output array: the fake-quantised row n of the activations against
    row o of the (already quantised) weights, plus the bias at o. -/
theorem linear2_at (c : Dev nD) (n : Fin 4096) (o : Fin 1536) :
    (QL.dat2 V c).arrAt 3 cfg2.N (ix2 n o)
      = (∑ k : Fin 1536, AttnSpec.fq (fun k => V c main_v32 (ix2 n k)) k * V c main_v30 (ix2 o k)) + V c main_v2 (ix2 0 o) := by
  have hn := n.isLt; have ho := o.isLt
  rw [QL.read2_3, k2_pay1_at]
  refine congrArg₂ (· + ·) (Finset.sum_congr rfl fun k _ => congrArg₂ (· * ·) ?_ ?_) ?_
  · refine congrArg (fun r => AttnSpec.fq r k) (funext fun q => ?_)
    refine (QL.iblk2_0_pt V c n o _ q).trans ?_
    exact congrArg (fun i => V c main_v32 (ix2 i q)) (Fin.ext (by show n.val / 512 * 512 + n.val % 512 = n.val; omega))
  · refine (QL.iblk2_1_pt V c n o _ k).trans ?_
    exact congrArg (fun i => V c main_v30 (ix2 i k)) (Fin.ext (by show o.val / 512 * 512 + o.val % 512 = o.val; omega))
  · refine (QL.iblk2_2_pt V c n o _ _).trans ?_
    exact congrArg (fun i => V c main_v2 (ix2 (0 : Fin 1) i)) (Fin.ext (by show o.val / 512 * 512 + o.val % 512 = o.val; omega))

end Cert.KernelIdeal.LinVal

end
-- ==== Proof.KernelHost.lean ====
/-
  The arrays the first kernel reads, entry by entry.

  Before its first kernel the program reshapes the activations [1, 4096, 1536] to [4096, 1536] and the two biases to
  rows, and fake-quantises each weight row by row: the row maximum of |w| from minus infinity, kept as a column, divided
  by 127, the maximum with the smallest step; the weight divided by the step broadcast along the row, rounded to the
  nearest even integer, clipped to [-127, 127], multiplied by the step, narrowed to a shorter float format (the identity
  on the extended reals). Here the quantised value itself is stored, not w + (q - w), so no finiteness is needed.

  Each stretch of host operations is first read as an equation between whole arrays, over an arbitrary valuation of the
  buffers before the stretch; the equations are chained through the buffers a stretch leaves unchanged; the resulting
  array is then read at an index, where the reduction is the supremum of the row and every other operation is pointwise.
-/
import proofs.«162336_j12171937317144_2_alg».proof.Proof.Gen.KernelIdeal.Regions
import proofs.«162336_j12171937317144_2_alg».proof.Proof.Spec
import Idealize.ShloMosaic.Lib.ValueIdx
import Idealize.ShloMosaic.Lib.ValueLayout
import Idealize.ShloMosaic.Lib.StableHlo.Run
import Idealize.ShloMosaic.Lib.Pipeline.Value
import Idealize.ShloMosaic.PureOps.Ideal.Laws

noncomputable section

namespace Cert.KernelIdeal.HostVal

open Cert.KernelIdeal Cert.KernelIdeal.Gen Idealize.ShloMosaic Idealize.ShloMosaic.TcCoe Idealize.SL.Sem Idealize.ShloMosaic.StableHlo
open Idealize.ShloMosaic.ValueIdx

/-! ### Broadcasts read at an index -/

/-- A scalar broadcast to any shape reads the scalar. -/
theorem bcast_scalar_at {α : Type} {t : Shape} (h : S_.BroadcastsInDim t (![] : Fin 0 → Fin t.rank)) (x : S_.Idx → α) (j : t.Idx) :
    broadcastInDim t ![] h x j = x ix0 :=
  congrArg x (funext fun a => a.elim0)

/-- The pattern of minus infinity. -/
theorem ofBits_negInf : Ideal.ofBits .f32 0xFF800000#32 = (⊥ : EReal) := by
  simp [Ideal.ofBits, Ideal.ieee]

/-! ### The first weight, [4608, 1536] -/

section Q

/-- A [4608] vector kept as a column [4608, 1] reads its entry. -/
theorem bcast_colQ_at {α : Type} (x : S4608.Idx → α) (o : Fin 4608) (z : Fin 1) :
    broadcastInDim S4608x1 ![0] bcast_S4608_S4608x1_0 x (ix2 o z) = x (ix1 o) :=
  congrArg x (funext fun a => match a with | ⟨0, _⟩ => rfl)

/-- A column [4608, 1] broadcast along the rows of [4608, 1536] reads the row's entry. -/
theorem bcast_rowQ_at {α : Type} (x : S4608x1.Idx → α) (o : Fin 4608) (k : Fin 1536) :
    broadcastInDim S4608x1536 ![0, 1] bcast_S4608x1_S4608x1536_0_1 x (ix2 o k) = x (ix2 o (0 : Fin 1)) :=
  congrArg x (funext fun a => match a with | ⟨0, _⟩ => rfl | ⟨1, _⟩ => rfl)

/-- The per-row steps as the host computes them: the row maximum of |w| from minus infinity, kept as a column,
    divided by 127, the maximum with the smallest step. -/
def stepArrQ (W : FVec Ideal S4608x1536 .f32) : FVec Ideal S4608x1 .f32 :=
  maximumf
    (Host.divf
      (broadcastInDim S4608x1 ![0] bcast_S4608_S4608x1_0
        (Host.reduce FloatOps.maximumf (Host.absf W) (constant (F := Ideal) S_ .f32 0xFF800000#32) reducesTo_S4608x1536_S4608_d1 h_S_))
      (broadcastInDim S4608x1 ![] bcast_S_S4608x1 (constant (F := Ideal) S_ .f32 0x42FE0000#32)))
    (broadcastInDim S4608x1 ![] bcast_S_S4608x1 (constant (F := Ideal) S_ .f32 0x322BCC77#32))

/-- The quotient array the host rounds. -/
def quotArrQ (W : FVec Ideal S4608x1536 .f32) : FVec Ideal S4608x1536 .f32 :=
  Host.divf W (broadcastInDim S4608x1536 ![0, 1] bcast_S4608x1_S4608x1536_0_1 (stepArrQ W))

/-- The row maximum of the absolute values: the fold of the maximum from minus infinity over the removed axis is
    the supremum of the row. -/
theorem rowmaxQ_at (W : FVec Ideal S4608x1536 .f32) (o : Fin 4608) :
    Host.reduce FloatOps.maximumf (Host.absf W) (constant (F := Ideal) S_ .f32 0xFF800000#32) reducesTo_S4608x1536_S4608_d1 h_S_ (ix1 o)
      = AttnSpec.greatest fun j : Fin 1536 => max (W (ix2 o j)) (-(W (ix2 o j))) := by
  have h : S4608x1536.Reduces [1] S4608 := by decide
  rw [Host.reduce_eq_fold_single FloatOps.maximumf _ _ reducesTo_S4608x1536_S4608_d1 h h_S_]
  have hl : ∀ k : Fin (S4608x1536.size 1), h.lift (ix1 o) k = ix2 o ⟨k.val, k.isLt⟩ := fun k => by
    funext c; apply Fin.ext; fin_cases c <;> rfl
  have hf : (Host.absf W ∘ h.lift (ix1 o)) = fun k : Fin 1536 => max (W (ix2 o k)) (-(W (ix2 o k))) := funext fun k => by
    show Host.absf W (h.lift (ix1 o) k) = _
    rw [hl k]; rfl
  have hb : constant (F := Ideal) S_ .f32 0xFF800000#32 (Shape.Idx.first h_S_) = (⊥ : EReal) := ofBits_negInf
  rw [hb, hf]
  rfl

/-- The step of a row. -/
theorem stepArrQ_at (W : FVec Ideal S4608x1536 .f32) (o : Fin 4608) (z : Fin 1) :
    stepArrQ W (ix2 o z) = AttnSpec.step fun k : Fin 1536 => W (ix2 o k) := by
  unfold stepArrQ AttnSpec.step AttnSpec.c127 AttnSpec.cEps
  simp only [maximumf, Host.divf, Ideal.maximumf_def, Ideal.hostDivf_def]
  rw [bcast_colQ_at, bcast_scalar_at, bcast_scalar_at, rowmaxQ_at, constant_apply, constant_apply]

/-- The quantised array as the host computes it: the quotient rounded to the nearest even integer, clipped to
    [-127, 127], multiplied by the step, then narrowed (the identity on the extended reals). -/
def fqArrQ (W : FVec Ideal S4608x1536 .f32) : FVec Ideal S4608x1536 .bf16 :=
  truncf .bf16
    (mulf
      (minimumf (broadcastInDim S4608x1536 ![] bcast_S_S4608x1536 (constant (F := Ideal) S_ .f32 0x42FE0000#32))
        (maximumf (broadcastInDim S4608x1536 ![] bcast_S_S4608x1536 (constant (F := Ideal) S_ .f32 0xC2FE0000#32))
          (Host.roundeven (quotArrQ W))))
      (broadcastInDim S4608x1536 ![0, 1] bcast_S4608x1_S4608x1536_0_1 (stepArrQ W)))
    bitsLt_bf16_f32

/-- An entry of the quantised array is the specification's fake-quantised entry of its row. -/
theorem fqArrQ_at (W : FVec Ideal S4608x1536 .f32) (o : Fin 4608) (k : Fin 1536) :
    fqArrQ W (ix2 o k) = AttnSpec.fq (fun k => W (ix2 o k)) k := by
  unfold fqArrQ quotArrQ AttnSpec.fq AttnSpec.c127 AttnSpec.cNeg127
  simp only [truncf, mulf, minimumf, maximumf, Host.roundeven, Host.divf, Ideal.truncf_def, Ideal.mulf_def,
    Ideal.minimumf_def, Ideal.maximumf_def, Ideal.hostUnary_roundeven_def, Ideal.hostDivf_def]
  rw [bcast_scalar_at, bcast_scalar_at, bcast_rowQ_at, stepArrQ_at, constant_apply, constant_apply]

end Q
/-! ### The second weight, [1536, 1536] -/

section P

/-- A [1536] vector kept as a column [1536, 1] reads its entry. -/
theorem bcast_colP_at {α : Type} (x : S1536.Idx → α) (o : Fin 1536) (z : Fin 1) :
    broadcastInDim S1536x1 ![0] bcast_S1536_S1536x1_0 x (ix2 o z) = x (ix1 o) :=
  congrArg x (funext fun a => match a with | ⟨0, _⟩ => rfl)

/-- A column [1536, 1] broadcast along the rows of [1536, 1536] reads the row's entry. -/
theorem bcast_rowP_at {α : Type} (x : S1536x1.Idx → α) (o : Fin 1536) (k : Fin 1536) :
    broadcastInDim S1536x1536 ![0, 1] bcast_S1536x1_S1536x1536_0_1 x (ix2 o k) = x (ix2 o (0 : Fin 1)) :=
  congrArg x (funext fun a => match a with | ⟨0, _⟩ => rfl | ⟨1, _⟩ => rfl)

/-- The per-row steps as the host computes them: the row maximum of |w| from minus infinity, kept as a column,
    divided by 127, the maximum with the smallest step. -/
def stepArrP (W : FVec Ideal S1536x1536 .f32) : FVec Ideal S1536x1 .f32 :=
  maximumf
    (Host.divf
      (broadcastInDim S1536x1 ![0] bcast_S1536_S1536x1_0
        (Host.reduce FloatOps.maximumf (Host.absf W) (constant (F := Ideal) S_ .f32 0xFF800000#32) reducesTo_S1536x1536_S1536_d1 h_S_))
      (broadcastInDim S1536x1 ![] bcast_S_S1536x1 (constant (F := Ideal) S_ .f32 0x42FE0000#32)))
    (broadcastInDim S1536x1 ![] bcast_S_S1536x1 (constant (F := Ideal) S_ .f32 0x322BCC77#32))

/-- The quotient array the host rounds. -/
def quotArrP (W : FVec Ideal S1536x1536 .f32) : FVec Ideal S1536x1536 .f32 :=
  Host.divf W (broadcastInDim S1536x1536 ![0, 1] bcast_S1536x1_S1536x1536_0_1 (stepArrP W))

/-- The row maximum of the absolute values: the fold of the maximum from minus infinity over the removed axis is
    the supremum of the row. -/
theorem rowmaxP_at (W : FVec Ideal S1536x1536 .f32) (o : Fin 1536) :
    Host.reduce FloatOps.maximumf (Host.absf W) (constant (F := Ideal) S_ .f32 0xFF800000#32) reducesTo_S1536x1536_S1536_d1 h_S_ (ix1 o)
      = AttnSpec.greatest fun j : Fin 1536 => max (W (ix2 o j)) (-(W (ix2 o j))) := by
  have h : S1536x1536.Reduces [1] S1536 := by decide
  rw [Host.reduce_eq_fold_single FloatOps.maximumf _ _ reducesTo_S1536x1536_S1536_d1 h h_S_]
  have hl : ∀ k : Fin (S1536x1536.size 1), h.lift (ix1 o) k = ix2 o ⟨k.val, k.isLt⟩ := fun k => by
    funext c; apply Fin.ext; fin_cases c <;> rfl
  have hf : (Host.absf W ∘ h.lift (ix1 o)) = fun k : Fin 1536 => max (W (ix2 o k)) (-(W (ix2 o k))) := funext fun k => by
    show Host.absf W (h.lift (ix1 o) k) = _
    rw [hl k]; rfl
  have hb : constant (F := Ideal) S_ .f32 0xFF800000#32 (Shape.Idx.first h_S_) = (⊥ : EReal) := ofBits_negInf
  rw [hb, hf]
  rfl

/-- The step of a row. -/
theorem stepArrP_at (W : FVec Ideal S1536x1536 .f32) (o : Fin 1536) (z : Fin 1) :
    stepArrP W (ix2 o z) = AttnSpec.step fun k : Fin 1536 => W (ix2 o k) := by
  unfold stepArrP AttnSpec.step AttnSpec.c127 AttnSpec.cEps
  simp only [maximumf, Host.divf, Ideal.maximumf_def, Ideal.hostDivf_def]
  rw [bcast_colP_at, bcast_scalar_at, bcast_scalar_at, rowmaxP_at, constant_apply, constant_apply]

/-- The quantised array as the host computes it: the quotient rounded to the nearest even integer, clipped to
    [-127, 127], multiplied by the step, then narrowed (the identity on the extended reals). -/
def fqArrP (W : FVec Ideal S1536x1536 .f32) : FVec Ideal S1536x1536 .bf16 :=
  truncf .bf16
    (mulf
      (minimumf (broadcastInDim S1536x1536 ![] bcast_S_S1536x1536 (constant (F := Ideal) S_ .f32 0x42FE0000#32))
        (maximumf (broadcastInDim S1536x1536 ![] bcast_S_S1536x1536 (constant (F := Ideal) S_ .f32 0xC2FE0000#32))
          (Host.roundeven (quotArrP W))))
      (broadcastInDim S1536x1536 ![0, 1] bcast_S1536x1_S1536x1536_0_1 (stepArrP W)))
    bitsLt_bf16_f32

/-- An entry of the quantised array is the specification's fake-quantised entry of its row. -/
theorem fqArrP_at (W : FVec Ideal S1536x1536 .f32) (o : Fin 1536) (k : Fin 1536) :
    fqArrP W (ix2 o k) = AttnSpec.fq (fun k => W (ix2 o k)) k := by
  unfold fqArrP quotArrP AttnSpec.fq AttnSpec.c127 AttnSpec.cNeg127
  simp only [truncf, mulf, minimumf, maximumf, Host.roundeven, Host.divf, Ideal.truncf_def, Ideal.mulf_def,
    Ideal.minimumf_def, Ideal.maximumf_def, Ideal.hostUnary_roundeven_def, Ideal.hostDivf_def]
  rw [bcast_scalar_at, bcast_scalar_at, bcast_rowP_at, stepArrP_at, constant_apply, constant_apply]

end P

/-! ### The host stretches before the first kernel, as whole-array equations -/

section Stretches

variable (Vg : Valuation τ sig (Elt Ideal))

/-- The first stretch leaves the step column of the first weight. -/
theorem s0_v9 : (after (hostOps0 (F := Ideal)) Vg main_v9 : S4608x1.Idx → EReal) = stepArrQ (Vg main_arg1) := by
  dsimp only [hostOps0]
  after_results
  rfl

/-- The first stretch leaves the quotient array of the first weight. -/
theorem s0_v11 : (after (hostOps0 (F := Ideal)) Vg main_v11 : S4608x1536.Idx → EReal) = quotArrQ (Vg main_arg1) := by
  dsimp only [hostOps0]
  after_results
  rfl

/-- The rounding stretch. -/
theorem s1_v12 : (after (hostOps0_1 (F := Ideal)) Vg main_v12 : S4608x1536.Idx → EReal)
    = Host.roundeven (F := Ideal) (s := S4608x1536) (φ := .f32) (Vg main_v11) := by
  dsimp only [hostOps0_1]
  after_results
  rfl

/-- The two clipping bounds. -/
theorem s2_c2 : (after (hostOps0_2 (F := Ideal)) Vg main_cst_2 : S_.Idx → EReal) = constant (F := Ideal) S_ .f32 0xC2FE0000#32 := by
  dsimp only [hostOps0_2]
  after_results
theorem s2_c3 : (after (hostOps0_2 (F := Ideal)) Vg main_cst_3 : S_.Idx → EReal) = constant (F := Ideal) S_ .f32 0x42FE0000#32 := by
  dsimp only [hostOps0_2]
  after_results

/-- The clipping stretch. -/
theorem s3_v13 : (after (hostOps0_3 (F := Ideal)) Vg main_v13 : S4608x1536.Idx → EReal)
    = minimumf (F := Ideal) (s := S4608x1536) (φ := .f32) (broadcastInDim S4608x1536 ![] bcast_S_S4608x1536 (Vg main_cst_3))
        (maximumf (broadcastInDim S4608x1536 ![] bcast_S_S4608x1536 (Vg main_cst_2)) (Vg main_v12)) := by
  dsimp only [hostOps0_3]
  after_results
  rfl

/-- The multiplication by the step and the narrowing. -/
theorem s4_v16 : (after (hostOps0_4 (F := Ideal)) Vg main_v16 : S4608x1536.Idx → EReal)
    = truncf (F := Ideal) (s := S4608x1536) (φ := .f32) .bf16
        (mulf (Vg main_v13) (broadcastInDim S4608x1536 ![0, 1] bcast_S4608x1_S4608x1536_0_1 (Vg main_v9))) bitsLt_bf16_f32 := by
  dsimp only [hostOps0_4]
  after_results

/-- The fifth stretch leaves the step column of the second weight. -/
theorem t4_v23 : (after (hostOps0_4 (F := Ideal)) Vg main_v23 : S1536x1.Idx → EReal) = stepArrP (Vg main_arg3) := by
  dsimp only [hostOps0_4]
  after_results
  rfl

/-- The fifth stretch leaves the quotient array of the second weight. -/
theorem t4_v25 : (after (hostOps0_4 (F := Ideal)) Vg main_v25 : S1536x1536.Idx → EReal) = quotArrP (Vg main_arg3) := by
  dsimp only [hostOps0_4]
  after_results
  rfl

/-- The second rounding stretch. -/
theorem t5_v26 : (after (hostOps0_5 (F := Ideal)) Vg main_v26 : S1536x1536.Idx → EReal)
    = Host.roundeven (F := Ideal) (s := S1536x1536) (φ := .f32) (Vg main_v25) := by
  dsimp only [hostOps0_5]
  after_results
  rfl

/-- The two clipping bounds, again. -/
theorem t6_c7 : (after (hostOps0_6 (F := Ideal)) Vg main_cst_7 : S_.Idx → EReal) = constant (F := Ideal) S_ .f32 0xC2FE0000#32 := by
  dsimp only [hostOps0_6]
  after_results
theorem t6_c8 : (after (hostOps0_6 (F := Ideal)) Vg main_cst_8 : S_.Idx → EReal) = constant (F := Ideal) S_ .f32 0x42FE0000#32 := by
  dsimp only [hostOps0_6]
  after_results

/-- The second clipping stretch. -/
theorem t7_v27 : (after (hostOps0_7 (F := Ideal)) Vg main_v27 : S1536x1536.Idx → EReal)
    = minimumf (F := Ideal) (s := S1536x1536) (φ := .f32) (broadcastInDim S1536x1536 ![] bcast_S_S1536x1536 (Vg main_cst_8))
        (maximumf (broadcastInDim S1536x1536 ![] bcast_S_S1536x1536 (Vg main_cst_7)) (Vg main_v26)) := by
  dsimp only [hostOps0_7]
  after_results
  rfl

/-- The second multiplication by the step and narrowing. -/
theorem t8_v30 : (after (hostOps0_8 (F := Ideal)) Vg main_v30 : S1536x1536.Idx → EReal)
    = truncf (F := Ideal) (s := S1536x1536) (φ := .f32) .bf16
        (mulf (Vg main_v27) (broadcastInDim S1536x1536 ![0, 1] bcast_S1536x1_S1536x1536_0_1 (Vg main_v23))) bitsLt_bf16_f32 := by
  dsimp only [hostOps0_8]
  after_results

/-- The three reshapes of the first stretch. -/
theorem s0_v0 : (after (hostOps0 (F := Ideal)) Vg main_v0 : S4096x1536.Idx → EReal)
    = shapeCast S4096x1536 (Vg main_arg0) shapeCasts_S1x4096x1536_S4096x1536 := by
  dsimp only [hostOps0]
  after_results
  rfl
theorem s0_v1 : (after (hostOps0 (F := Ideal)) Vg main_v1 : S1x4608.Idx → EReal)
    = shapeCast S1x4608 (Vg main_arg2) shapeCasts_S4608_S1x4608 := by
  dsimp only [hostOps0]
  after_results
  rfl
theorem s0_v2 : (after (hostOps0 (F := Ideal)) Vg main_v2 : S1x1536.Idx → EReal)
    = shapeCast S1x1536 (Vg main_arg4) shapeCasts_S1536_S1x1536 := by
  dsimp only [hostOps0]
  after_results
  rfl

end Stretches

/-! ### The arrays the first kernel reads, at an index -/

section Assembly

variable (m : (ℓ : Loc nD τ sig) → Buf (Elt Ideal) ℓ) (c : Dev nD)

/-- The quantised first weight, as a whole array. -/
theorem V9_v16 : (V9 m c main_v16 : S4608x1536.Idx → EReal) = fqArrQ (m ((c : Thread nD τ).loc main_arg1)) := by
  have e16 : V9 m c main_v16 = V5 m c main_v16 :=
    (V9_of m c main_v16 (by decide)).trans <| (V8_of m c main_v16 (by decide)).trans <|
    (V7_of m c main_v16 (by decide)).trans <| (V6_of m c main_v16 (by decide))
  have e9 : V4 m c main_v9 = V1 m c main_v9 :=
    (V4_of m c main_v9 (by decide)).trans <| (V3_of m c main_v9 (by decide)).trans <| (V2_of m c main_v9 (by decide))
  have e12 : V3 m c main_v12 = V2 m c main_v12 := V3_of m c main_v12 (by decide)
  have h5 : V5 m c main_v16 = _ := s4_v16 (V4 m c)
  have h4 : V4 m c main_v13 = _ := s3_v13 (V3 m c)
  have hc2 : V3 m c main_cst_2 = _ := s2_c2 (V2 m c)
  have hc3 : V3 m c main_cst_3 = _ := s2_c3 (V2 m c)
  have h2 : V2 m c main_v12 = _ := s1_v12 (V1 m c)
  have h11 : V1 m c main_v11 = _ := s0_v11 (V0 m c)
  have h9 : V1 m c main_v9 = _ := s0_v9 (V0 m c)
  rw [e16, h5, h4, hc2, hc3, e12, h2, h11, e9, h9]
  rfl

/-- An entry of the quantised first weight is the specification's fake-quantised entry of its row. -/
theorem v16_at (o : Fin 4608) (k : Fin 1536) :
    V9 m c main_v16 (ix2 o k) = AttnSpec.fq (fun k => m ((c : Thread nD τ).loc main_arg1) (ix2 o k)) k :=
  (congrFun (V9_v16 m c) (ix2 o k)).trans (fqArrQ_at _ o k)

/-- The quantised second weight, as a whole array. -/
theorem V9_v30 : (V9 m c main_v30 : S1536x1536.Idx → EReal) = fqArrP (m ((c : Thread nD τ).loc main_arg3)) := by
  have e23 : V8 m c main_v23 = V5 m c main_v23 :=
    (V8_of m c main_v23 (by decide)).trans <| (V7_of m c main_v23 (by decide)).trans <| (V6_of m c main_v23 (by decide))
  have e26 : V7 m c main_v26 = V6 m c main_v26 := V7_of m c main_v26 (by decide)
  have ea : V4 m c main_arg3 = m ((c : Thread nD τ).loc main_arg3) :=
    (V4_of m c main_arg3 (by decide)).trans <| (V3_of m c main_arg3 (by decide)).trans <|
    (V2_of m c main_arg3 (by decide)).trans <| (V1_of m c main_arg3 (by decide)).trans rfl
  have h9 : V9 m c main_v30 = _ := t8_v30 (V8 m c)
  have h8 : V8 m c main_v27 = _ := t7_v27 (V7 m c)
  have hc7 : V7 m c main_cst_7 = _ := t6_c7 (V6 m c)
  have hc8 : V7 m c main_cst_8 = _ := t6_c8 (V6 m c)
  have h6 : V6 m c main_v26 = _ := t5_v26 (V5 m c)
  have h25 : V5 m c main_v25 = _ := t4_v25 (V4 m c)
  have h23 : V5 m c main_v23 = _ := t4_v23 (V4 m c)
  rw [h9, h8, hc7, hc8, e26, h6, h25, e23, h23, ea]
  rfl

/-- An entry of the quantised second weight is the specification's fake-quantised entry of its row. -/
theorem v30_at (o k : Fin 1536) :
    V9 m c main_v30 (ix2 o k) = AttnSpec.fq (fun k => m ((c : Thread nD τ).loc main_arg3) (ix2 o k)) k :=
  (congrFun (V9_v30 m c) (ix2 o k)).trans (fqArrP_at _ o k)

/-- The three reshaped arguments are untouched by the later stretches. -/
theorem V9_v0 : (V9 m c main_v0 : S4096x1536.Idx → EReal)
    = shapeCast S4096x1536 (m ((c : Thread nD τ).loc main_arg0)) shapeCasts_S1x4096x1536_S4096x1536 :=
  (V9_of m c main_v0 (by decide)).trans <| (V8_of m c main_v0 (by decide)).trans <| (V7_of m c main_v0 (by decide)).trans <|
  (V6_of m c main_v0 (by decide)).trans <| (V5_of m c main_v0 (by decide)).trans <| (V4_of m c main_v0 (by decide)).trans <|
  (V3_of m c main_v0 (by decide)).trans <| (V2_of m c main_v0 (by decide)).trans <| s0_v0 (V0 m c)
theorem V9_v1 : (V9 m c main_v1 : S1x4608.Idx → EReal)
    = shapeCast S1x4608 (m ((c : Thread nD τ).loc main_arg2)) shapeCasts_S4608_S1x4608 :=
  (V9_of m c main_v1 (by decide)).trans <| (V8_of m c main_v1 (by decide)).trans <| (V7_of m c main_v1 (by decide)).trans <|
  (V6_of m c main_v1 (by decide)).trans <| (V5_of m c main_v1 (by decide)).trans <| (V4_of m c main_v1 (by decide)).trans <|
  (V3_of m c main_v1 (by decide)).trans <| (V2_of m c main_v1 (by decide)).trans <| s0_v1 (V0 m c)
theorem V9_v2 : (V9 m c main_v2 : S1x1536.Idx → EReal)
    = shapeCast S1x1536 (m ((c : Thread nD τ).loc main_arg4)) shapeCasts_S1536_S1x1536 :=
  (V9_of m c main_v2 (by decide)).trans <| (V8_of m c main_v2 (by decide)).trans <| (V7_of m c main_v2 (by decide)).trans <|
  (V6_of m c main_v2 (by decide)).trans <| (V5_of m c main_v2 (by decide)).trans <| (V4_of m c main_v2 (by decide)).trans <|
  (V3_of m c main_v2 (by decide)).trans <| (V2_of m c main_v2 (by decide)).trans <| s0_v2 (V0 m c)

/-- The activation array the first kernel reads is the first argument with its unit axis dropped. -/
theorem v0_at (n : Fin 4096) (k : Fin 1536) :
    V9 m c main_v0 (ix2 n k) = m ((c : Thread nD τ).loc main_arg0) (ix3 0 n k) :=
  (congrFun (V9_v0 m c) (ix2 n k)).trans (shapeCast_1ab_ab_apply _ _ n k)

/-- The first bias row is the third argument with a unit axis added. -/
theorem v1_at (o : Fin 4608) :
    V9 m c main_v1 (ix2 0 o) = m ((c : Thread nD τ).loc main_arg2) (ix1 o) :=
  (congrFun (V9_v1 m c) (ix2 0 o)).trans (shapeCast_a_1a_apply _ _ 0 o)

/-- The second bias row is the fifth argument with a unit axis added. -/
theorem v2_at (o : Fin 1536) :
    V9 m c main_v2 (ix2 0 o) = m ((c : Thread nD τ).loc main_arg4) (ix1 o) :=
  (congrFun (V9_v2 m c) (ix2 0 o)).trans (shapeCast_a_1a_apply _ _ 0 o)

end Assembly

end Cert.KernelIdeal.HostVal

end
-- ==== Proof.AttnCases.lean ====
/-
  The attention launch's scratch triple and output block after each point, over the body's payloads.

  Each case of the body, run whole, leaves in every buffer it stores one whole-block piece last; read back, that is
  the piece's payload, and the payloads' operands are the blocks and the triple the case was handed (a load through
  the whole-block rectangle reads the contents; a load after the reset reads the reset's splat). So after a point
  the triple is one update `upd` of the triple before — the reset triple at key block 0 — and the output block at
  key block 3 is the updated numerator divided by the updated normaliser.
-/
import proofs.«162336_j12171937317144_2_alg».proof.Proof.Gen.KernelIdeal.Launch
import proofs.«162336_j12171937317144_2_alg».proof.Proof.Gen.KernelIdeal.Skeleton
import proofs.«162336_j12171937317144_2_alg».proof.Proof.Gen.KernelIdeal.Points
import proofs.«162336_j12171937317144_2_alg».proof.Proof.AttnBody
import Idealize.ShloMosaic.Lib.Pipeline.FrameBody
import Idealize.ShloMosaic.Lib.Pipeline.Value
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Whole-block loads and stores read back

Every load and store of the body goes through the rectangle of the buffer's own sizes at zero offsets. A load
through it of a buffer held at the contents that read `X` reads `X`; a load after one store through it reads
the store's payload; what a list of stores whose last goes through it leaves reads back as that store's payload. -/

section Whole

variable {sig' : RefSig} {κ : Kind} {sp : Space} {d : Fin 2 → ℕ} {e : EltTy} {Val : EltTy → Type}

theorem zeros2 : (![0, 0] : Fin 2 → ℕ) = fun _ => 0 := by funext a; fin_cases a <;> rfl

theorem load_whole2 (m : Memref sig' κ sp ⟨2, d⟩ e) (h : m.IsWhole) (inb : ∀ a, (![0, 0] : Fin 2 → ℕ) a + d a ≤ d a)
    (X : (⟨2, d⟩ : Shape).Idx → Val e) :
    View.readAt Val m.view (Rect.unit (s := ⟨2, d⟩) ![0, 0] d inb).toLoadRect (h.unread X) = X :=
  (View.readAt_eq_ld m.view (h.unread X) (Rect.unit (s := ⟨2, d⟩) ![0, 0] d inb)).trans
    (by rw [h.read_unread]; exact View.ld_unit_zero zeros2 inb X)

theorem readCov_whole2 [∀ e, Nonempty (Val e)] (v : View sig' κ sp ⟨2, d⟩ e) (inb : ∀ a, (![0, 0] : Fin 2 → ℕ) a + d a ≤ d a)
    (w : (⟨2, d⟩ : Shape).Idx → Val e) :
    v.readCov [(⟨Rect.unit (s := ⟨2, d⟩) ![0, 0] d inb, w⟩ : View.Piece Val ⟨2, d⟩ e)] (Rect.unit (s := ⟨2, d⟩) ![0, 0] d inb).toLoadRect = w :=
  View.readCov_unit_zero v zeros2 inb w

theorem readback_whole2 [∀ e, Nonempty (Val e)] (v : View sig' κ sp ⟨2, d⟩ e) (inb : ∀ a, (![0, 0] : Fin 2 → ℕ) a + d a ≤ d a)
    (w : (⟨2, d⟩ : Shape).Idx → Val e) (L : List (View.Piece Val ⟨2, d⟩ e)) :
    v.read Val (v.writes Val v.junk ((⟨Rect.unit (s := ⟨2, d⟩) ![0, 0] d inb, w⟩ : View.Piece Val ⟨2, d⟩ e) :: L)) = w := by
  have hcov : ∀ y : (⟨2, d⟩ : Shape).Idx, ∃ p ∈ ((⟨Rect.unit (s := ⟨2, d⟩) ![0, 0] d inb, w⟩ : View.Piece Val ⟨2, d⟩ e) :: L), y ∈ p.1.set :=
    fun y => ⟨⟨Rect.unit (s := ⟨2, d⟩) ![0, 0] d inb, w⟩, List.mem_cons_self, View.mem_set_unit_zero zeros2 inb y⟩
  rw [View.read_writes_eq_canon v v.junk _ hcov]
  exact View.canon_cons_unit_zero zeros2 inb w L

end Whole

/-! ## The update of the scratch triple, and the three cases as equations over the payloads -/

/-- One update of the scratch triple (running maximum, normaliser, numerator) `p` from the point's query, key and
    value blocks: the new maximum, the normaliser rescaled by the exponential of the maximum's change plus the row
    sums of the new weights, the numerator rescaled likewise plus the new weights times the values — each as the
    body's payloads compute them. -/
def upd (b0 b1 b2 : Vec F S1024x128 .bf16) (p : Scr F) : Scr F :=
  (k1_pay2 (k1_pay8 b0 b1 p.1), k1_pay11 b0 b1 p.1 p.1 p.2.1, k1_pay1 (k1_pay9 b0 b1 p.1 p.1) (k1_pay12 b0 b1 b2 p.1) p.2.2)

/-- The reset triple: the body's splats of −∞, 0 and 0. -/
def reset0 : Scr F := (k1_pay4, k1_pay5, k1_pay6)

/-- Case B's run leaves the update of the triple it was handed, -/
theorem runB_eq (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : ¬cond1_1 i)
    (x0 x1 x2 : Vec F S1024x128 .bf16) (xs0 xs1 : Vec F S1024x1 .f32) (xs2 : Vec F S1024x128 .f32)
    (v0 v1 : View sig .tc .vmem S1024x1 .f32) (v2 : View sig .tc .vmem S1024x128 .f32) :
    (v0.read (Elt F) (v0.writes (Elt F) v0.junk (kernelRun1_B (F := F) c i arg3 harg3 arg4 harg4 arg5 harg5 arg6 harg6 arg7 harg7 arg8 harg8 arg9 harg9 hc0 hc1 x0 x1 x2 xs0 xs1 xs2).1), v1.read (Elt F) (v1.writes (Elt F) v1.junk (kernelRun1_B (F := F) c i arg3 harg3 arg4 harg4 arg5 harg5 arg6 harg6 arg7 harg7 arg8 harg8 arg9 harg9 hc0 hc1 x0 x1 x2 xs0 xs1 xs2).2.1), v2.read (Elt F) (v2.writes (Elt F) v2.junk (kernelRun1_B (F := F) c i arg3 harg3 arg4 harg4 arg5 harg5 arg6 harg6 arg7 harg7 arg8 harg8 arg9 harg9 hc0 hc1 x0 x1 x2 xs0 xs1 xs2).2.2.1))
      = upd x0 x1 x2 (xs0, xs1, xs2) := by
  unfold kernelRun1_B upd; dsimp only; sl_unfold_run_names
  simp only [readback_whole2, load_whole2, readCov_whole2]

/-- case A's the update of the reset triple, -/
theorem runA_eq (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : cond1_0 i) (hc1 : ¬cond1_1 i)
    (x0 x1 x2 : Vec F S1024x128 .bf16)
    (v0 v1 : View sig .tc .vmem S1024x1 .f32) (v2 : View sig .tc .vmem S1024x128 .f32) :
    (v0.read (Elt F) (v0.writes (Elt F) v0.junk (kernelRun1_A (F := F) c i arg3 harg3 arg4 harg4 arg5 harg5 arg6 harg6 arg7 harg7 arg8 harg8 arg9 harg9 hc0 hc1 x0 x1 x2).1), v1.read (Elt F) (v1.writes (Elt F) v1.junk (kernelRun1_A (F := F) c i arg3 harg3 arg4 harg4 arg5 harg5 arg6 harg6 arg7 harg7 arg8 harg8 arg9 harg9 hc0 hc1 x0 x1 x2).2.1), v2.read (Elt F) (v2.writes (Elt F) v2.junk (kernelRun1_A (F := F) c i arg3 harg3 arg4 harg4 arg5 harg5 arg6 harg6 arg7 harg7 arg8 harg8 arg9 harg9 hc0 hc1 x0 x1 x2).2.2.1))
      = upd x0 x1 x2 reset0 := by
  unfold kernelRun1_A upd reset0; dsimp only; sl_unfold_run_names
  simp only [readback_whole2, load_whole2, readCov_whole2]

/-- and case C's the update of the triple it was handed, with the output block the updated numerator divided by the
    updated normaliser. -/
theorem runC_eq (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 x2 : Vec F S1024x128 .bf16) (xs0 xs1 : Vec F S1024x1 .f32) (xs2 : Vec F S1024x128 .f32)
    (v0 v1 : View sig .tc .vmem S1024x1 .f32) (v2 : View sig .tc .vmem S1024x128 .f32) :
    (v0.read (Elt F) (v0.writes (Elt F) v0.junk (kernelRun1_C (F := F) c i arg3 harg3 arg4 harg4 arg5 harg5 arg6 harg6 arg7 harg7 arg8 harg8 arg9 harg9 hc0 hc1 x0 x1 x2 xs0 xs1 xs2).2.1), v1.read (Elt F) (v1.writes (Elt F) v1.junk (kernelRun1_C (F := F) c i arg3 harg3 arg4 harg4 arg5 harg5 arg6 harg6 arg7 harg7 arg8 harg8 arg9 harg9 hc0 hc1 x0 x1 x2 xs0 xs1 xs2).2.2.1), v2.read (Elt F) (v2.writes (Elt F) v2.junk (kernelRun1_C (F := F) c i arg3 harg3 arg4 harg4 arg5 harg5 arg6 harg6 arg7 harg7 arg8 harg8 arg9 harg9 hc0 hc1 x0 x1 x2 xs0 xs1 xs2).2.2.2.1))
      = upd x0 x1 x2 (xs0, xs1, xs2) := by
  unfold kernelRun1_C upd; dsimp only; sl_unfold_run_names
  simp only [readback_whole2, load_whole2, readCov_whole2]

theorem runC_out_eq (c : Dev nD) (i : grid1.Coords) (arg3 : Memref sig .tc .vmem S1024x128 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S1024x128 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x128 .f32) (harg9 : arg9.IsWhole) (hc0 : ¬cond1_0 i) (hc1 : cond1_1 i)
    (x0 x1 x2 : Vec F S1024x128 .bf16) (xs0 xs1 : Vec F S1024x1 .f32) (xs2 : Vec F S1024x128 .f32)
    (v3 : View sig .tc .vmem S1024x128 .f32) :
    v3.read (Elt F) (v3.writes (Elt F) v3.junk (kernelRun1_C (F := F) c i arg3 harg3 arg4 harg4 arg5 harg5 arg6 harg6 arg7 harg7 arg8 harg8 arg9 harg9 hc0 hc1 x0 x1 x2 xs0 xs1 xs2).1)
      = k1_pay3 (upd x0 x1 x2 (xs0, xs1, xs2)).2.2 (upd x0 x1 x2 (xs0, xs1, xs2)).2.1 := by
  unfold kernelRun1_C upd; dsimp only; sl_unfold_run_names
  simp only [readback_whole2, load_whole2, readCov_whole2]

section Region
-- the TensorCore's buffer contents when the region is entered
variable (V : (c : Dev nD) → (b : Ref sig .tc) → Buf (Elt F) ((c : Thread nD τ).loc b))

/-! ## The cases at a point of the grid -/

theorem scrA_eq (c : Dev nD) (t : Fin cfg1.N) (h0 : t.val % 4 = 0) (h1 : ¬t.val % 4 = 3) :
    scrA V c t h0 h1 = upd (iblk1 V c 0 t) (iblk1 V c 1 t) (iblk1 V c 2 t) reset0 := by
  unfold scrA
  exact runA_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) VS1_0 VS1_1 VS1_2

theorem scrB_eq (c : Dev nD) (t : Fin cfg1.N) (h0 : ¬t.val % 4 = 0) (h1 : ¬t.val % 4 = 3) (p : Scr F) :
    scrB V c t h0 h1 p = upd (iblk1 V c 0 t) (iblk1 V c 1 t) (iblk1 V c 2 t) p := by
  unfold scrB
  exact runB_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) p.1 p.2.1 p.2.2 VS1_0 VS1_1 VS1_2

theorem scrC_eq (c : Dev nD) (t : Fin cfg1.N) (h0 : ¬t.val % 4 = 0) (h1 : t.val % 4 = 3) (p : Scr F) :
    scrC V c t h0 h1 p = upd (iblk1 V c 0 t) (iblk1 V c 1 t) (iblk1 V c 2 t) p := by
  unfold scrC
  exact runC_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) p.1 p.2.1 p.2.2 VS1_0 VS1_1 VS1_2

theorem outC_eq (c : Dev nD) (t : Fin cfg1.N) (h0 : ¬t.val % 4 = 0) (h1 : t.val % 4 = 3) (p : Scr F) :
    outC V c t h0 h1 p = k1_pay3 (upd (iblk1 V c 0 t) (iblk1 V c 1 t) (iblk1 V c 2 t) p).2.2 (upd (iblk1 V c 0 t) (iblk1 V c 1 t) (iblk1 V c 2 t) p).2.1 := by
  unfold outC
  exact runC_out_eq c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) _ _ (iblk1 V c 0 t) (iblk1 V c 1 t) (iblk1 V c 2 t) p.1 p.2.1 p.2.2 VO1_3

/-- The recursion's value depends on the position only. -/
theorem outsAt1_congr (c : Dev nD) {n m : ℕ} (e : n = m) (hn : n < cfg1.N) (hm : m < cfg1.N) :
    outsAt1 V c n hn = outsAt1 V c m hm := by
  subst e; rfl

/-! ## The recursion on the point, over the payloads

After the body at point `t` the scratch triple is the update, from the point's three blocks, of the triple after
the point before — of the reset triple at key block 0 —, and at key block 3 the output block is the numerator
divided by the normaliser, both as just updated. -/

/-- At key block 0: the update of the reset triple. -/
theorem scr_reset (c : Dev nD) (t : Fin cfg1.N) (h0 : t.val % 4 = 0) :
    (outsAt1 V c t.val t.isLt).2 = upd (iblk1 V c 0 t) (iblk1 V c 1 t) (iblk1 V c 2 t) reset0 := by
  have h1 : ¬t.val % 4 = 3 := by omega
  rw [outsAt1_A V c t h0 h1]; exact scrA_eq V c t h0 h1

/-- At the other key blocks: the update of what the point before left. -/
theorem scr_step (c : Dev nD) (t : Fin cfg1.N) (h0 : ¬t.val % 4 = 0) :
    (outsAt1 V c t.val t.isLt).2 = upd (iblk1 V c 0 t) (iblk1 V c 1 t) (iblk1 V c 2 t) (outsAt1 V c (t.val - 1) (Nat.lt_of_le_of_lt (Nat.sub_le _ _) t.isLt)).2 := by
  by_cases h1 : t.val % 4 = 3
  · rw [outsAt1_C V c t h0 h1]; exact scrC_eq V c t h0 h1 _
  · rw [outsAt1_B V c t h0 h1]; exact scrB_eq V c t h0 h1 _

/-- At key block 3 the output block stored: the updated numerator over the updated normaliser. -/
theorem out_last (c : Dev nD) (t : Fin cfg1.N) (h1 : t.val % 4 = 3) :
    (outsAt1 V c t.val t.isLt).1 = k1_pay3 (outsAt1 V c t.val t.isLt).2.2.2 (outsAt1 V c t.val t.isLt).2.2.1 := by
  have h0 : ¬t.val % 4 = 0 := by omega
  have e := outsAt1_C V c t h0 h1
  have e1 := congrArg Prod.fst e
  have e2 := congrArg Prod.snd e
  dsimp only at e1 e2
  rw [e1, e2, outC_eq, scrC_eq]

end Region

end Cert.KernelIdeal.Attn

end
-- ==== Proof.AttnBlocks.lean ====
/- The attention region's blocks, element by element: at a grid point `t`, read as head `t / 16`, query block
   `t / 4 % 4` and key block `t % 4`, each input window's block at an index is the region-entry array at explicit
   coordinates; and after the region every element of the output array is the element, at its place in the block, of
   what the last key block's point of its head and query block wrote back. -/
import proofs.«162336_j12171937317144_2_alg».proof.Proof.AttnBody
import Idealize.ShloMosaic.Lib.Pipeline.Value
import Idealize.ShloMosaic.Lib.ValueIdx

noncomputable section

namespace Cert.KernelIdeal.Attn

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

-- the TensorCore's buffer contents when the region is entered
variable (V : (c : Dev nD) → (b : Ref sig .tc) → Buf (Elt F) ((c : Thread nD τ).loc b))

/-! ## The windows' block indices -/

/-- The four windows' block indices at a point, decided over the grid: queries and the output at (query block, head),
    keys at (key block, 12 + head), values at (key block, 24 + head). -/
theorem idx1_in : ∀ t : Fin cfg1.N,
    win1_0.index t (0 : Fin 2) = t.val / 4 % 4 ∧ win1_0.index t (1 : Fin 2) = t.val / 16
    ∧ win1_1.index t (0 : Fin 2) = t.val % 4 ∧ win1_1.index t (1 : Fin 2) = 12 + t.val / 16
    ∧ win1_2.index t (0 : Fin 2) = t.val % 4 ∧ win1_2.index t (1 : Fin 2) = 24 + t.val / 16
    ∧ win1_3.index t (0 : Fin 2) = t.val / 4 % 4 ∧ win1_3.index t (1 : Fin 2) = t.val / 16 :=
  (by decide +kernel : ∀ t : Fin grid1.N,
    win1_0.index t (0 : Fin 2) = t.val / 4 % 4 ∧ win1_0.index t (1 : Fin 2) = t.val / 16
    ∧ win1_1.index t (0 : Fin 2) = t.val % 4 ∧ win1_1.index t (1 : Fin 2) = 12 + t.val / 16
    ∧ win1_2.index t (0 : Fin 2) = t.val % 4 ∧ win1_2.index t (1 : Fin 2) = 24 + t.val / 16
    ∧ win1_3.index t (0 : Fin 2) = t.val / 4 % 4 ∧ win1_3.index t (1 : Fin 2) = t.val / 16)

theorem lt1 (t : Fin cfg1.N) : t.val < 192 := Nat.lt_of_lt_of_eq t.isLt (N_1 : cfg1.N = 192)

/-! ## The input blocks, element by element -/

/-- The query block at point `t`, at `(p, d)`: row `t / 4 % 4 * 1024 + p`, column `t / 16 * 128 + d`. -/
theorem iblk1_0_apply (c : Dev nD) (t : Fin cfg1.N) (p : Fin 1024) (d : Fin 128) :
    iblk1 V c 0 t (ValueIdx.ix2 p d)
      = V c main_v31 (ValueIdx.ix2 (⟨t.val / 4 % 4 * 1024 + p.val, by have := p.isLt; omega⟩ : Fin 4096)
          (⟨t.val / 16 * 128 + d.val, by have := lt1 t; have := d.isLt; omega⟩ : Fin 4608)) := by
  obtain ⟨e0, e1, -⟩ := idx1_in t
  have hp := p.isLt; have hd := d.isLt
  show V c main_v31 (((cfg1.win 0).blk t).view.emb (ValueIdx.ix2 p d)) = _
  congr 1
  funext a; apply Fin.ext
  match a with
  | ⟨0, _⟩ => show win1_0.index t (0 : Fin 2) * 1024 + 1 * p.val = t.val / 4 % 4 * 1024 + p.val; omega
  | ⟨1, _⟩ => show win1_0.index t (1 : Fin 2) * 128 + 1 * d.val = t.val / 16 * 128 + d.val; omega

/-- The key block at point `t`, at `(p, d)`: row `t % 4 * 1024 + p`, column `1536 + t / 16 * 128 + d`. -/
theorem iblk1_1_apply (c : Dev nD) (t : Fin cfg1.N) (p : Fin 1024) (d : Fin 128) :
    iblk1 V c 1 t (ValueIdx.ix2 p d)
      = V c main_v31 (ValueIdx.ix2 (⟨t.val % 4 * 1024 + p.val, by have := p.isLt; omega⟩ : Fin 4096)
          (⟨1536 + t.val / 16 * 128 + d.val, by have := lt1 t; have := d.isLt; omega⟩ : Fin 4608)) := by
  obtain ⟨-, -, e0, e1, -⟩ := idx1_in t
  have hp := p.isLt; have hd := d.isLt
  show V c main_v31 (((cfg1.win 1).blk t).view.emb (ValueIdx.ix2 p d)) = _
  congr 1
  funext a; apply Fin.ext
  match a with
  | ⟨0, _⟩ => show win1_1.index t (0 : Fin 2) * 1024 + 1 * p.val = t.val % 4 * 1024 + p.val; omega
  | ⟨1, _⟩ => show win1_1.index t (1 : Fin 2) * 128 + 1 * d.val = 1536 + t.val / 16 * 128 + d.val; omega

/-- The value block at point `t`, at `(p, d)`: row `t % 4 * 1024 + p`, column `3072 + t / 16 * 128 + d`. -/
theorem iblk1_2_apply (c : Dev nD) (t : Fin cfg1.N) (p : Fin 1024) (d : Fin 128) :
    iblk1 V c 2 t (ValueIdx.ix2 p d)
      = V c main_v31 (ValueIdx.ix2 (⟨t.val % 4 * 1024 + p.val, by have := p.isLt; omega⟩ : Fin 4096)
          (⟨3072 + t.val / 16 * 128 + d.val, by have := lt1 t; have := d.isLt; omega⟩ : Fin 4608)) := by
  obtain ⟨-, -, -, -, e0, e1, -⟩ := idx1_in t
  have hp := p.isLt; have hd := d.isLt
  show V c main_v31 (((cfg1.win 2).blk t).view.emb (ValueIdx.ix2 p d)) = _
  congr 1
  funext a; apply Fin.ext
  match a with
  | ⟨0, _⟩ => show win1_2.index t (0 : Fin 2) * 1024 + 1 * p.val = t.val % 4 * 1024 + p.val; omega
  | ⟨1, _⟩ => show win1_2.index t (1 : Fin 2) * 128 + 1 * d.val = 3072 + t.val / 16 * 128 + d.val; omega

/-! ## The output array after the region, element by element -/

/-- Two points that write the output back (the last key block of a head and query block) and have the same output
    block index are the same point; so their blocks share no array index. -/
theorem disjoint1_3 : ∀ t t' : Fin cfg1.N, (cfg1.win 3).flush t = true → (cfg1.win 3).flush t' = true → t ≠ t' →
    Disjoint ((cfg1.win 3).blk t).view.set ((cfg1.win 3).blk t').view.set :=
  fun t t' hf hf' hne => (cfg1.win 3).disjoint_blk fun h => hne (by
    have h3 : t.val % 4 = 3 := (flush1_3 t).mp hf
    have h3' : t'.val % 4 = 3 := (flush1_3 t').mp hf'
    obtain ⟨-, -, -, -, -, -, e0, e1⟩ := idx1_in t
    obtain ⟨-, -, -, -, -, -, e0', e1'⟩ := idx1_in t'
    have a0 : win1_3.index t (0 : Fin 2) = win1_3.index t' (0 : Fin 2) := congrFun h 0
    have a1 : win1_3.index t (1 : Fin 2) = win1_3.index t' (1 : Fin 2) := congrFun h 1
    have := lt1 t; have := lt1 t'
    apply Fin.ext; omega)

/-- The point that writes back the output block holding element `(n, col)`: head `col / 128`, query block
    `n / 1024`, the last key block. -/
def pt1 (n : Fin 4096) (col : Fin 1536) : Fin cfg1.N := ⟨col.val / 128 * 16 + n.val / 1024 * 4 + 3, by
  have hn := n.isLt; have hc := col.isLt
  show _ < grid1.N; rw [N_1]; omega⟩

theorem pt1_val (n : Fin 4096) (col : Fin 1536) : (pt1 n col).val = col.val / 128 * 16 + n.val / 1024 * 4 + 3 := rfl

/-- That point writes the output back. -/
theorem flush_pt1 (n : Fin 4096) (col : Fin 1536) : (cfg1.win 3).flush (pt1 n col) = true :=
  (flush1_3 (pt1 n col)).mpr (by rw [pt1_val]; omega)

/-- Element `(n, col)` sits in that point's output block at `(n % 1024, col % 128)`. -/
theorem emb1_3 (n : Fin 4096) (col : Fin 1536) :
    ((cfg1.win 3).blk (pt1 n col)).view.emb (ValueIdx.ix2 (⟨n.val % 1024, Nat.mod_lt _ (by decide)⟩ : Fin 1024) (⟨col.val % 128, Nat.mod_lt _ (by decide)⟩ : Fin 128))
      = ValueIdx.ix2 n col := by
  obtain ⟨-, -, -, -, -, -, e0, e1⟩ := idx1_in (pt1 n col)
  rw [pt1_val] at e0 e1
  have hn := n.isLt; have hc := col.isLt
  funext a; apply Fin.ext
  match a with
  | ⟨0, _⟩ => show win1_3.index (pt1 n col) (0 : Fin 2) * 1024 + 1 * (n.val % 1024) = n.val; omega
  | ⟨1, _⟩ => show win1_3.index (pt1 n col) (1 : Fin 2) * 128 + 1 * (col.val % 128) = col.val; omega

/-- THE OUTPUT ARRAY AFTER THE REGION, element by element: element `(n, col)` is, at `(n % 1024, col % 128)`, what
    the last key block's point of head `col / 128` and query block `n / 1024` wrote back. -/
theorem read1_3 (c : Dev nD) (n : Fin 4096) (col : Fin 1536) :
    (dat1 V c).arrAt 3 cfg1.N (ValueIdx.ix2 n col)
      = (dat1 V c).flushed 3 (pt1 n col)
          (ValueIdx.ix2 (⟨n.val % 1024, Nat.mod_lt _ (by decide)⟩ : Fin 1024) (⟨col.val % 128, Nat.mod_lt _ (by decide)⟩ : Fin 128)) := by
  have h := (dat1 V c).arrAt_emb_eq_flushed 3 disjoint1_3 (pt1 n col) (flush_pt1 n col)
    (ValueIdx.ix2 (⟨n.val % 1024, Nat.mod_lt _ (by decide)⟩ : Fin 1024) (⟨col.val % 128, Nat.mod_lt _ (by decide)⟩ : Fin 128))
  rw [emb1_3] at h
  exact h

/-- What that point wrote back is the first component of the point-by-point recursion there. -/
theorem flushed1_3 (c : Dev nD) (t : Fin cfg1.N) :
    (dat1 V c).flushed 3 t = (cfg1.win 3).cut (grid1.coords t) (outsAt1 V c t.val t.isLt).1 := by
  show (cfg1.win 3).cut (grid1.coords t) ((dat1 V c).after 3 t) = _
  rw [after1_3]

end Cert.KernelIdeal.Attn

end
-- ==== Proof.AttnKeyPoints.lean ====
/- The attention region's grid points in the coordinates of the softmax: the point of head `h`, query block `qi` and
   key block `k`; its coordinates read back; the step to the next key block; the point that writes an output element's
   block back; and the three input blocks at such a point, element by element, as the region-entry array at explicit
   coordinates. -/
import proofs.«162336_j12171937317144_2_alg».proof.Proof.AttnBlocks

noncomputable section

namespace Cert.KernelIdeal.Attn

open Cert.KernelIdeal Cert.KernelIdeal.Gen
open Idealize.ShloMosaic Idealize.ShloMosaic.TcCoe
open Idealize.SL Idealize.SL.Sem
open Idealize.ShloMosaic.Pipeline (Dat)

variable {F : FTy → Type} [FloatOps F]

-- the TensorCore's buffer contents when the region is entered
variable (V : (c : Dev nD) → (b : Ref sig .tc) → Buf (Elt F) ((c : Thread nD τ).loc b))

/-! ## The points of one head and query block -/

/-- The point of head `h`, query block `qi` and key block `k`. -/
def kp (h : Fin 12) (qi : Fin 4) (k : Fin 4) : Fin cfg1.N := ⟨h.val * 16 + qi.val * 4 + k.val, by
  have hh := h.isLt; have hq := qi.isLt; have hk := k.isLt
  show _ < grid1.N; rw [N_1]; omega⟩

theorem kp_val (h : Fin 12) (qi : Fin 4) (k : Fin 4) : (kp h qi k).val = h.val * 16 + qi.val * 4 + k.val := rfl

/-- Its three coordinates, read back off the point. -/
theorem kp_mod (h : Fin 12) (qi : Fin 4) (k : Fin 4) : (kp h qi k).val % 4 = k.val := by
  have hq := qi.isLt; have hk := k.isLt; rw [kp_val]; omega
theorem kp_div (h : Fin 12) (qi : Fin 4) (k : Fin 4) : (kp h qi k).val / 4 % 4 = qi.val := by
  have hq := qi.isLt; have hk := k.isLt; rw [kp_val]; omega
theorem kp_head (h : Fin 12) (qi : Fin 4) (k : Fin 4) : (kp h qi k).val / 16 = h.val := by
  have hq := qi.isLt; have hk := k.isLt; rw [kp_val]; omega

/-- The next key block's point is the next point. -/
theorem kp_succ (h : Fin 12) (qi : Fin 4) (k : Fin 4) (hk : k.val + 1 < 4) :
    (kp h qi ⟨k.val + 1, hk⟩).val = (kp h qi k).val + 1 := by
  show h.val * 16 + qi.val * 4 + (k.val + 1) = h.val * 16 + qi.val * 4 + k.val + 1; omega

/-- The first key block's point is a multiple of four; the last one's is three more. -/
theorem kp_zero_mod (h : Fin 12) (qi : Fin 4) : (kp h qi 0).val % 4 = 0 := kp_mod h qi 0
theorem kp_last_mod (h : Fin 12) (qi : Fin 4) : (kp h qi 3).val % 4 = 3 := kp_mod h qi 3

/-- The point that writes back the output block holding element `(n, col)` is the last key block's point of head
    `col / 128` and query block `n / 1024`. -/
theorem pt1_eq_kp (n : Fin 4096) (col : Fin 1536) :
    pt1 n col = kp (⟨col.val / 128, by have := col.isLt; omega⟩ : Fin 12) (⟨n.val / 1024, by have := n.isLt; omega⟩ : Fin 4) 3 :=
  Fin.ext (by show col.val / 128 * 16 + n.val / 1024 * 4 + 3 = col.val / 128 * 16 + n.val / 1024 * 4 + 3; rfl)

/-! ## The input blocks there, element by element -/

/-- The query block: rows `qi * 1024 + p`, columns `h * 128 + d`, whatever the key block. -/
theorem iblk1_0_kp (c : Dev nD) (h : Fin 12) (qi : Fin 4) (k : Fin 4) (p : Fin 1024) (d : Fin 128) :
    iblk1 V c 0 (kp h qi k) (ValueIdx.ix2 p d)
      = V c main_v31 (ValueIdx.ix2 (⟨qi.val * 1024 + p.val, by have := qi.isLt; have := p.isLt; omega⟩ : Fin 4096)
          (⟨h.val * 128 + d.val, by have := h.isLt; have := d.isLt; omega⟩ : Fin 4608)) := by
  have hh := h.isLt; have hq := qi.isLt; have hk := k.isLt; have hp := p.isLt; have hd := d.isLt
  have e0 : (⟨(kp h qi k).val / 4 % 4 * 1024 + p.val, by omega⟩ : Fin 4096) = ⟨qi.val * 1024 + p.val, by omega⟩ :=
    Fin.ext (by show (kp h qi k).val / 4 % 4 * 1024 + p.val = qi.val * 1024 + p.val; rw [kp_div])
  have e1 : (⟨(kp h qi k).val / 16 * 128 + d.val, by have := lt1 (kp h qi k); omega⟩ : Fin 4608) = ⟨h.val * 128 + d.val, by omega⟩ :=
    Fin.ext (by show (kp h qi k).val / 16 * 128 + d.val = h.val * 128 + d.val; rw [kp_head])
  rw [iblk1_0_apply, e0, e1]

/-- The key block: rows `k * 1024 + p`, columns `1536 + h * 128 + d`. -/
theorem iblk1_1_kp (c : Dev nD) (h : Fin 12) (qi : Fin 4) (k : Fin 4) (p : Fin 1024) (d : Fin 128) :
    iblk1 V c 1 (kp h qi k) (ValueIdx.ix2 p d)
      = V c main_v31 (ValueIdx.ix2 (⟨k.val * 1024 + p.val, by have := k.isLt; have := p.isLt; omega⟩ : Fin 4096)
          (⟨1536 + h.val * 128 + d.val, by have := h.isLt; have := d.isLt; omega⟩ : Fin 4608)) := by
  have hh := h.isLt; have hq := qi.isLt; have hk := k.isLt; have hp := p.isLt; have hd := d.isLt
  have e0 : (⟨(kp h qi k).val % 4 * 1024 + p.val, by omega⟩ : Fin 4096) = ⟨k.val * 1024 + p.val, by omega⟩ :=
    Fin.ext (by show (kp h qi k).val % 4 * 1024 + p.val = k.val * 1024 + p.val; rw [kp_mod])
  have e1 : (⟨1536 + (kp h qi k).val / 16 * 128 + d.val, by have := lt1 (kp h qi k); omega⟩ : Fin 4608) = ⟨1536 + h.val * 128 + d.val, by omega⟩ :=
    Fin.ext (by show 1536 + (kp h qi k).val / 16 * 128 + d.val = 1536 + h.val * 128 + d.val; rw [kp_head])
  rw [iblk1_1_apply, e0, e1]

/-- The value block: rows `k * 1024 + p`, columns `3072 + h * 128 + d`. -/
theorem iblk1_2_kp (c : Dev nD) (h : Fin 12) (qi : Fin 4) (k : Fin 4) (p : Fin 1024) (d : Fin 128) :
    iblk1 V c 2 (kp h qi k) (ValueIdx.ix2 p d)
      = V c main_v31 (ValueIdx.ix2 (⟨k.val * 1024 + p.val, by have := k.isLt; have := p.isLt; omega⟩ : Fin 4096)
          (⟨3072 + h.val * 128 + d.val, by have := h.isLt; have := d.isLt; omega⟩ : Fin 4608)) := by
  have hh := h.isLt; have hq := qi.isLt; have hk := k.isLt; have hp := p.isLt; have hd := d.isLt
  have e0 : (⟨(kp h qi k).val % 4 * 1024 + p.val, by omega⟩ : Fin 4096) = ⟨k.val * 1024 + p.val, by omega⟩ :=
    Fin.ext (by show (kp h qi k).val % 4 * 1024 + p.val = k.val * 1024 + p.val; rw [kp_mod])
  have e1 : (⟨3072 + (kp h qi k).val / 16 * 128 + d.val, by have := lt1 (kp h qi k); omega⟩ : Fin 4608) = ⟨3072 + h.val * 128 + d.val, by omega⟩ :=
    Fin.ext (by show 3072 + (kp h qi k).val / 16 * 128 + d.val = 3072 + h.val * 128 + d.val; rw [kp_head])
  rw [iblk1_2_apply, e0, e1]

end Cert.KernelIdeal.Attn

end
-- ==== Proof.OnlineCore.lean ====
/-
  Softmax accumulated block by block, over the reals.

  Keys come in blocks j = 0, 1, 2, … of B keys each; key i of block j has score σ j i and value ν j i. The running
  maximum M j is the largest score among the blocks up to j. The running normaliser and the running numerator are kept
  relative to the running maximum: when block j + 1 arrives both are multiplied by exp (M j − M (j + 1)) and the new
  block's terms exp (σ (j + 1) i − M (j + 1)), weighted by the values for the numerator, are added. Since
  exp (M j − M (j + 1)) * exp (s − M j) = exp (s − M (j + 1)), after block j the normaliser is the sum of
  exp (s − M j) over every key seen so far and the numerator is the same sum weighted by the values.
-/
import Mathlib.Analysis.SpecialFunctions.Exp
import Mathlib.Algebra.BigOperators.Intervals
import Mathlib.Algebra.Order.BigOperators.Group.Finset

noncomputable section

namespace OnlineCore

open Finset

variable {B : ℕ} [NeZero B]

/-- The largest score within one block. -/
def blockMax (σ : ℕ → Fin B → ℝ) (j : ℕ) : ℝ :=
  Finset.univ.sup' ⟨⟨0, Nat.pos_of_ne_zero (NeZero.ne B)⟩, Finset.mem_univ _⟩ (σ j)

/-- The running maximum after block j. -/
def runMax (σ : ℕ → Fin B → ℝ) : ℕ → ℝ
  | 0 => blockMax σ 0
  | j + 1 => max (runMax σ j) (blockMax σ (j + 1))

/-- The running normaliser after block j. -/
def runNorm (σ : ℕ → Fin B → ℝ) : ℕ → ℝ
  | 0 => ∑ i, Real.exp (σ 0 i - runMax σ 0)
  | j + 1 => Real.exp (runMax σ j - runMax σ (j + 1)) * runNorm σ j + ∑ i, Real.exp (σ (j + 1) i - runMax σ (j + 1))

/-- The running numerator after block j. -/
def runNum (σ ν : ℕ → Fin B → ℝ) : ℕ → ℝ
  | 0 => ∑ i, Real.exp (σ 0 i - runMax σ 0) * ν 0 i
  | j + 1 => Real.exp (runMax σ j - runMax σ (j + 1)) * runNum σ ν j
      + ∑ i, Real.exp (σ (j + 1) i - runMax σ (j + 1)) * ν (j + 1) i

theorem le_blockMax (σ : ℕ → Fin B → ℝ) (j : ℕ) (i : Fin B) : σ j i ≤ blockMax σ j :=
  Finset.le_sup' (σ j) (Finset.mem_univ i)

theorem exists_eq_blockMax (σ : ℕ → Fin B → ℝ) (j : ℕ) : ∃ i, blockMax σ j = σ j i := by
  obtain ⟨i, -, hi⟩ := Finset.exists_mem_eq_sup' ⟨⟨0, Nat.pos_of_ne_zero (NeZero.ne B)⟩, Finset.mem_univ _⟩ (σ j)
  exact ⟨i, hi⟩

/-- Every score of a block up to j is at most the running maximum after block j. -/
theorem le_runMax (σ : ℕ → Fin B → ℝ) : ∀ (j j' : ℕ), j' ≤ j → ∀ i, σ j' i ≤ runMax σ j
  | 0, j', h, i => by
      obtain rfl : j' = 0 := Nat.le_zero.mp h
      exact le_blockMax σ 0 i
  | j + 1, j', h, i => by
      rcases Nat.lt_or_ge j' (j + 1) with hlt | hge
      · exact (le_runMax σ j j' (Nat.lt_succ_iff.mp hlt) i).trans (le_max_left _ _)
      · obtain rfl : j' = j + 1 := le_antisymm h hge
        exact (le_blockMax σ (j + 1) i).trans (le_max_right _ _)

/-- The running maximum after block j is attained by a key of a block up to j. -/
theorem exists_eq_runMax (σ : ℕ → Fin B → ℝ) : ∀ j : ℕ, ∃ j' ≤ j, ∃ i, runMax σ j = σ j' i
  | 0 => by
      obtain ⟨i, hi⟩ := exists_eq_blockMax σ 0
      exact ⟨0, le_rfl, i, hi⟩
  | j + 1 => by
      rcases le_total (runMax σ j) (blockMax σ (j + 1)) with h | h
      · obtain ⟨i, hi⟩ := exists_eq_blockMax σ (j + 1)
        exact ⟨j + 1, le_rfl, i, by show max _ _ = _; rw [max_eq_right h, hi]⟩
      · obtain ⟨j', hj', i, hi⟩ := exists_eq_runMax σ j
        exact ⟨j', hj'.trans (Nat.le_succ j), i, by show max _ _ = _; rw [max_eq_left h, hi]⟩

/-- After block j the normaliser is the sum of exp (s − M j) over every key of the blocks up to j. -/
theorem runNorm_eq (σ : ℕ → Fin B → ℝ) : ∀ j : ℕ,
    runNorm σ j = ∑ j' ∈ Finset.range (j + 1), ∑ i, Real.exp (σ j' i - runMax σ j)
  | 0 => by simp [runNorm]
  | j + 1 => by
      rw [runNorm, runNorm_eq σ j, Finset.sum_range_succ (fun j' => ∑ i, Real.exp (σ j' i - runMax σ (j + 1))) (j + 1),
        Finset.mul_sum]
      congr 1
      refine Finset.sum_congr rfl fun j' _ => ?_
      rw [Finset.mul_sum]
      refine Finset.sum_congr rfl fun i _ => ?_
      rw [← Real.exp_add]
      congr 1
      ring

/-- After block j the numerator is the same sum weighted by the values. -/
theorem runNum_eq (σ ν : ℕ → Fin B → ℝ) : ∀ j : ℕ,
    runNum σ ν j = ∑ j' ∈ Finset.range (j + 1), ∑ i, Real.exp (σ j' i - runMax σ j) * ν j' i
  | 0 => by simp [runNum]
  | j + 1 => by
      rw [runNum, runNum_eq σ ν j,
        Finset.sum_range_succ (fun j' => ∑ i, Real.exp (σ j' i - runMax σ (j + 1)) * ν j' i) (j + 1), Finset.mul_sum]
      congr 1
      refine Finset.sum_congr rfl fun j' _ => ?_
      rw [Finset.mul_sum]
      refine Finset.sum_congr rfl fun i _ => ?_
      rw [← mul_assoc, ← Real.exp_add]
      congr 2
      ring

/-- The normaliser is positive: every term is. -/
theorem runNorm_pos (σ : ℕ → Fin B → ℝ) (j : ℕ) : 0 < runNorm σ j := by
  rw [runNorm_eq]
  refine Finset.sum_pos (fun j' _ => Finset.sum_pos (fun i _ => Real.exp_pos _) ⟨⟨0, Nat.pos_of_ne_zero (NeZero.ne B)⟩, Finset.mem_univ _⟩)
    ⟨0, Finset.mem_range.mpr (Nat.succ_pos j)⟩

/-- Dividing once at the end is dividing every weight first: the sum of (weight / normaliser) * value is the numerator
    over the normaliser. -/
theorem num_div_norm (σ ν : ℕ → Fin B → ℝ) (j : ℕ) :
    runNum σ ν j * (runNorm σ j)⁻¹
      = ∑ j' ∈ Finset.range (j + 1), ∑ i, (Real.exp (σ j' i - runMax σ j) * (runNorm σ j)⁻¹) * ν j' i := by
  rw [runNum_eq, Finset.sum_mul]
  refine Finset.sum_congr rfl fun j' _ => ?_
  rw [Finset.sum_mul]
  refine Finset.sum_congr rfl fun i _ => ?_
  ring

end OnlineCore

end
-- ==== Proof.OnlineEReal.lean ====
/-
  Softmax accumulated block by block, as one query row computes it on the extended reals.

  The state is (running maximum, running normaliser, running numerator), started at (minus infinity, 0, 0). A block of
  B keys with scores S i and values W i moves the state (m, l, acc) to
    m' = max m (the largest S i),   a = exp (m − m'),
    l' = a * l + (0 + sum of exp (S i − m')),   acc' = a * acc + sum of exp (S i − m') * W i.
  At the first block m is minus infinity, so m − m' is minus infinity and a = exp of it = 0: the start values are
  forgotten. When every score and value is a real number the state after k + 1 blocks is, coerced, the real running
  maximum, normaliser and numerator after block k.
-/
import proofs.«162336_j12171937317144_2_alg».proof.Proof.OnlineCore
import proofs.«162336_j12171937317144_2_alg».proof.Proof.SpecReal

noncomputable section

namespace OnlineEReal

open Idealize.ShloMosaic MaskAlgebra OnlineCore

variable {B : ℕ} [NeZero B]

/-- One block's update of (maximum, normaliser, numerator). -/
def step (S W : Fin B → EReal) (st : EReal × EReal × EReal) : EReal × EReal × EReal :=
  (max st.1 (AttnSpec.greatest S),
   Ideal.exp (st.1 - max st.1 (AttnSpec.greatest S)) * st.2.1 + (0 + ∑ i, Ideal.exp (S i - max st.1 (AttnSpec.greatest S))),
   Ideal.exp (st.1 - max st.1 (AttnSpec.greatest S)) * st.2.2 + ∑ i, Ideal.exp (S i - max st.1 (AttnSpec.greatest S)) * W i)

/-- The state after the first k blocks. -/
def run (S W : ℕ → Fin B → EReal) : ℕ → EReal × EReal × EReal
  | 0 => (⊥, 0, 0)
  | k + 1 => step (S k) (W k) (run S W k)

theorem exp_coe (r : ℝ) : Ideal.exp (r : EReal) = ((Real.exp r : ℝ) : EReal) := rfl

theorem exp_bot : Ideal.exp (⊥ : EReal) = 0 := rfl

theorem bot_sub_coe (r : ℝ) : (⊥ : EReal) - (r : EReal) = ⊥ := by
  rw [sub_eq_add_neg, ← EReal.coe_neg, EReal.bot_add]

/-- The largest of a block of real scores, among the extended reals, is the real block maximum. -/
theorem greatest_coe (σ : ℕ → Fin B → ℝ) (j : ℕ) :
    AttnSpec.greatest (fun i => ((σ j i : ℝ) : EReal)) = ((blockMax σ j : ℝ) : EReal) := by
  haveI : Nonempty (Fin B) := ⟨⟨0, Nat.pos_of_ne_zero (NeZero.ne B)⟩⟩
  refine le_antisymm ?_ ?_
  · obtain ⟨i, hi⟩ := AttnSpec.exists_eq_greatest (fun i => ((σ j i : ℝ) : EReal))
    rw [hi]
    exact EReal.coe_le_coe_iff.mpr (le_blockMax σ j i)
  · obtain ⟨i, hi⟩ := exists_eq_blockMax σ j
    rw [hi]
    exact AttnSpec.le_greatest (fun i => ((σ j i : ℝ) : EReal)) i

theorem sum_exp_coe (σ : ℕ → Fin B → ℝ) (j : ℕ) (m : ℝ) :
    ∑ i, Ideal.exp (((σ j i : ℝ) : EReal) - (m : EReal)) = ((∑ i, Real.exp (σ j i - m) : ℝ) : EReal) := by
  rw [← coe_sum]
  refine Finset.sum_congr rfl fun i _ => ?_
  rw [← EReal.coe_sub, exp_coe]

theorem sum_exp_mul_coe (σ ν : ℕ → Fin B → ℝ) (j : ℕ) (m : ℝ) :
    ∑ i, Ideal.exp (((σ j i : ℝ) : EReal) - (m : EReal)) * ((ν j i : ℝ) : EReal)
      = ((∑ i, Real.exp (σ j i - m) * ν j i : ℝ) : EReal) := by
  rw [← coe_sum]
  refine Finset.sum_congr rfl fun i _ => ?_
  rw [← EReal.coe_sub, exp_coe, ← EReal.coe_mul]

/-- On real scores and values the state after k + 1 blocks is the real running maximum, normaliser and numerator
    after block k. -/
theorem run_succ (σ ν : ℕ → Fin B → ℝ) : ∀ k : ℕ,
    run (fun j i => ((σ j i : ℝ) : EReal)) (fun j i => ((ν j i : ℝ) : EReal)) (k + 1)
      = (((runMax σ k : ℝ) : EReal), ((runNorm σ k : ℝ) : EReal), ((runNum σ ν k : ℝ) : EReal))
  | 0 => by
      show step _ _ ((⊥ : EReal), (0 : EReal), (0 : EReal)) = _
      unfold step
      simp only [greatest_coe, max_bot_left, bot_sub_coe, exp_bot, zero_mul, zero_add, sum_exp_coe, sum_exp_mul_coe]
      rfl
  | k + 1 => by
      show step _ _ (run _ _ (k + 1)) = _
      rw [run_succ σ ν k]
      unfold step
      simp only [greatest_coe, coe_max, ← EReal.coe_sub, exp_coe, ← EReal.coe_mul, zero_add]
      simp only [coe_sum, ← EReal.coe_add]
      rfl

end OnlineEReal

end
-- ==== Proof.AttnPayload.lean ====
/-
  The attention kernel's payloads at an index, and one grid point as one step of the online softmax.

  A grid point holds a [1024, 128] block of queries, of keys and of values and the carried scratch (running
  maximum and normaliser as [1024, 1] columns, running numerator [1024, 128]). Its payloads, read at row r (and
  lane d or key k): the scores, a contraction over the 128 lanes of (query * scale) against the key; the new maximum,
  max of the old one and the lane maximum of the scores from minus infinity; the rescaling factor exp (old - new);
  the weights exp (score - new maximum); the new normaliser, factor * old + lane sum of the weights; the block's
  contribution, a contraction of the weights against the values over the 1024 keys; the new numerator,
  factor * old + contribution. Put together these are exactly one block's update of (maximum, normaliser,
  numerator) in the online softmax, with no hypothesis on the values: every reading is by definition.
-/
import proofs.«162336_j12171937317144_2_alg».proof.Proof.Gen.KernelIdeal.Skeleton
import proofs.«162336_j12171937317144_2_alg».proof.Proof.Spec
import proofs.«162336_j12171937317144_2_alg».proof.Proof.LibMaskAlgebra
import proofs.«162336_j12171937317144_2_alg».proof.Proof.SpecReal
import proofs.«162336_j12171937317144_2_alg».proof.Proof.OnlineEReal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnVal

open Cert.KernelIdeal Cert.KernelIdeal.Gen Idealize.ShloMosaic Idealize.SL.Sem
open Idealize.ShloMosaic.ValueIdx MaskAlgebra

variable {α : Type}

/-! ### Pointwise operations and layout operations read at an index -/

/-- The pattern of minus infinity. -/
theorem ofBits_negInf : Ideal.ofBits .f32 0xFF800000#32 = (⊥ : EReal) := by
  simp [Ideal.ofBits, Ideal.ieee]

/-- The exponential of a vector, entry by entry. -/
theorem exp_apply {s : Shape} {φ : FTy} (a : FVec Ideal s φ) (i : s.Idx) : exp a i = Ideal.exp (a i) := rfl

/-- The lane maximum of a [1024, 1024] vector from minus infinity, at row r: the supremum of the row. -/
theorem rowmax_at (y : FVec Ideal S1024x1024 .f32) (h : S1024x1024.Reduces [1] S1024) (hφ : FKind.Formats .f32)
    (hacc : (0xFF800000#32 : BitVec 32) = 0xFF800000#32) (r : Fin 1024) :
    multiReduction (F := Ideal) .maximumf [1] S1024 y 0xFF800000#32 h hφ hacc (ix1 r)
      = AttnSpec.greatest fun j : Fin 1024 => y (ix2 r j) := by
  refine (Ideal.multiReduction_maximumf_single y 0xFF800000#32 h hφ hacc (ix1 r)).trans ?_
  have hl : ∀ k : Fin (S1024x1024.size 1), h.lift (ix1 r) k = ix2 r ⟨k.val, k.isLt⟩ := fun k => by
    funext c; apply Fin.ext; fin_cases c <;> rfl
  have hf : (y ∘ h.lift (ix1 r)) = fun k : Fin 1024 => y (ix2 r k) := funext fun k => by
    show y (h.lift (ix1 r) k) = _
    rw [hl k]; rfl
  have hb : FloatOps.ofBits (F := Ideal) .f32 0xFF800000#32 = (⊥ : EReal) := ofBits_negInf
  rw [hb, hf]
  rfl

/-- The lane sum of a [1024, 1024] vector, at row r: the sum of the row. -/
theorem rowsum_at (y : FVec Ideal S1024x1024 .f32) (h : S1024x1024.Reduces [1] S1024) (hφ : FKind.Formats .f32)
    (hacc : (0x00000000#32 : BitVec 32) = 0x00000000#32) (r : Fin 1024) :
    multiReduction (F := Ideal) .add [1] S1024 y 0x00000000#32 h hφ hacc (ix1 r) = ∑ k : Fin 1024, y (ix2 r k) := by
  refine (Ideal.multiReduction_add_single y 0x00000000#32 h hφ hacc (ix1 r)).trans ?_
  have hl : ∀ k : Fin (S1024x1024.size 1), h.lift (ix1 r) k = ix2 r ⟨k.val, k.isLt⟩ := fun k => by
    funext c; apply Fin.ext; fin_cases c <;> rfl
  show ∑ k : Fin 1024, y (h.lift (ix1 r) k) = _
  exact Finset.sum_congr rfl fun k _ => congrArg y (hl k)

/-- A [1024] vector cast to a [1024, 1] column reads, at (r, 0), the operand at r. -/
theorem col_cast_apply (v : S1024.Idx → α) (h : S1024.ShapeCasts S1024x1) (r : Fin 1024) :
    shapeCast S1024x1 v h (ix2 r (0 : Fin 1)) = v (ix1 r) :=
  shapeCast_apply v h _ _ (by
    rw [Shape.rowMajor_val_two, Shape.rowMajor_val_one]
    show r.val = r.val * 1 + 0
    omega)

/-- A [1024, 1] column broadcast to [1024, 1024] reads, at (r, c), the column at (r, 0). -/
theorem col_bcast_sq_apply (v : S1024x1.Idx → α) (h : S1024x1.Broadcasts S1024x1024) (r c : Fin 1024) :
    broadcastTo S1024x1024 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- A [1024, 1] column broadcast to [1024, 128] reads, at (r, d), the column at (r, 0). -/
theorem col_bcast_lane_apply (v : S1024x1.Idx → α) (h : S1024x1.Broadcasts S1024x128) (r : Fin 1024) (d : Fin 128) :
    broadcastTo S1024x128 v h (ix2 r d) = v (ix2 r (0 : Fin 1)) := by
  refine broadcastTo_apply v h (ix2 r d) (ix2 r (0 : Fin 1)) fun ax => ?_
  match ax with
  | ⟨0, _⟩ => rfl
  | ⟨1, _⟩ => rfl

/-- The product of a [1024, 128] block with the transpose of a [1024, 128] block into the zero splat, at (r, o): the sum over the 128 lanes. -/
theorem matmul_qk_at {φ₁ φ₂ : FTy} (A : FVec Ideal S1024x128 φ₁) (B : FVec Ideal S1024x128 φ₂) (r : Fin 1024) (o : Fin 1024) :
    matmul dot_S1024x128_S1024x128_S1024x1024_1_1_0_0_n_n none A B (constant S1024x1024 .f32 0x00000000#32) (ix2 r o)
      = ∑ c : Fin 128, A (ix2 r c) * B (ix2 o c) := by
  refine (Ideal.matmul_constant_zero_apply dot_S1024x128_S1024x128_S1024x1024_1_1_0_0_n_n none A B (ix2 r o)).trans ?_
  rw [← Equiv.sum_comp (ValueIdx.contrEquiv1 dot_S1024x128_S1024x128_S1024x1024_1_1_0_0_n_n 128 rfl rfl).symm]
  refine Finset.sum_congr rfl fun c _ => ?_
  have hk := ValueIdx.contrEquiv1_symm_val dot_S1024x128_S1024x128_S1024x1024_1_1_0_0_n_n 128 rfl rfl c
  have el : dot_S1024x128_S1024x128_S1024x1024_1_1_0_0_n_n.lhsIdx (ix2 r o) ((ValueIdx.contrEquiv1 dot_S1024x128_S1024x128_S1024x1024_1_1_0_0_n_n 128 rfl rfl).symm c) = ix2 r c :=
    funext fun a => Fin.ext (by
      match a with
      | ⟨0, _⟩ =>
        show (dot_S1024x128_S1024x128_S1024x1024_1_1_0_0_n_n.lhsIdx (ix2 r o) _ 0).val = r.val
        unfold DotDims.lhsIdx
        rw [dif_neg (show ¬(0 : Fin S1024x128.rank) ∈ dot_S1024x128_S1024x128_S1024x1024_1_1_0_0_n_n.lhsBatch by decide),
          dif_pos (show (0 : Fin S1024x128.rank) ∈ dot_S1024x128_S1024x128_S1024x1024_1_1_0_0_n_n.lhsNonContracting by decide)]
        rfl
      | ⟨1, _⟩ =>
        exact (dot_S1024x128_S1024x128_S1024x1024_1_1_0_0_n_n.lhsIdx_val_of_single rfl (ix2 r o) _).trans hk)
  have er : dot_S1024x128_S1024x128_S1024x1024_1_1_0_0_n_n.rhsIdx (ix2 r o) ((ValueIdx.contrEquiv1 dot_S1024x128_S1024x128_S1024x1024_1_1_0_0_n_n 128 rfl rfl).symm c) = ix2 o c :=
    funext fun a => Fin.ext (by
      match a with
      | ⟨0, _⟩ =>
        show (dot_S1024x128_S1024x128_S1024x1024_1_1_0_0_n_n.rhsIdx (ix2 r o) _ 0).val = o.val
        unfold DotDims.rhsIdx
        rw [dif_neg (show ¬(0 : Fin S1024x128.rank) ∈ dot_S1024x128_S1024x128_S1024x1024_1_1_0_0_n_n.rhsBatch by decide),
          dif_pos (show (0 : Fin S1024x128.rank) ∈ dot_S1024x128_S1024x128_S1024x1024_1_1_0_0_n_n.rhsNonContracting by decide)]
        rfl
      | ⟨1, _⟩ =>
        exact (dot_S1024x128_S1024x128_S1024x1024_1_1_0_0_n_n.rhsIdx_val_of_single rfl (ix2 r o) _).trans hk)
  rw [el, er]

/-- The product of a [1024, 1024] block with a [1024, 128] block into the zero splat, at (r, o): the sum over the 1024 keys. -/
theorem matmul_pv_at {φ₁ φ₂ : FTy} (A : FVec Ideal S1024x1024 φ₁) (B : FVec Ideal S1024x128 φ₂) (r : Fin 1024) (o : Fin 128) :
    matmul dot_S1024x1024_S1024x128_S1024x128_1_0_0_1_n_n none A B (constant S1024x128 .f32 0x00000000#32) (ix2 r o)
      = ∑ c : Fin 1024, A (ix2 r c) * B (ix2 c o) := by
  refine (Ideal.matmul_constant_zero_apply dot_S1024x1024_S1024x128_S1024x128_1_0_0_1_n_n none A B (ix2 r o)).trans ?_
  rw [← Equiv.sum_comp (ValueIdx.contrEquiv1 dot_S1024x1024_S1024x128_S1024x128_1_0_0_1_n_n 1024 rfl rfl).symm]
  refine Finset.sum_congr rfl fun c _ => ?_
  have hk := ValueIdx.contrEquiv1_symm_val dot_S1024x1024_S1024x128_S1024x128_1_0_0_1_n_n 1024 rfl rfl c
  have el : dot_S1024x1024_S1024x128_S1024x128_1_0_0_1_n_n.lhsIdx (ix2 r o) ((ValueIdx.contrEquiv1 dot_S1024x1024_S1024x128_S1024x128_1_0_0_1_n_n 1024 rfl rfl).symm c) = ix2 r c :=
    funext fun a => Fin.ext (by
      match a with
      | ⟨0, _⟩ =>
        show (dot_S1024x1024_S1024x128_S1024x128_1_0_0_1_n_n.lhsIdx (ix2 r o) _ 0).val = r.val
        unfold DotDims.lhsIdx
        rw [dif_neg (show ¬(0 : Fin S1024x1024.rank) ∈ dot_S1024x1024_S1024x128_S1024x128_1_0_0_1_n_n.lhsBatch by decide),
          dif_pos (show (0 : Fin S1024x1024.rank) ∈ dot_S1024x1024_S1024x128_S1024x128_1_0_0_1_n_n.lhsNonContracting by decide)]
        rfl
      | ⟨1, _⟩ =>
        exact (dot_S1024x1024_S1024x128_S1024x128_1_0_0_1_n_n.lhsIdx_val_of_single rfl (ix2 r o) _).trans hk)
  have er : dot_S1024x1024_S1024x128_S1024x128_1_0_0_1_n_n.rhsIdx (ix2 r o) ((ValueIdx.contrEquiv1 dot_S1024x1024_S1024x128_S1024x128_1_0_0_1_n_n 1024 rfl rfl).symm c) = ix2 c o :=
    funext fun a => Fin.ext (by
      match a with
      | ⟨1, _⟩ =>
        show (dot_S1024x1024_S1024x128_S1024x128_1_0_0_1_n_n.rhsIdx (ix2 r o) _ 1).val = o.val
        unfold DotDims.rhsIdx
        rw [dif_neg (show ¬(1 : Fin S1024x128.rank) ∈ dot_S1024x1024_S1024x128_S1024x128_1_0_0_1_n_n.rhsBatch by decide),
          dif_pos (show (1 : Fin S1024x128.rank) ∈ dot_S1024x1024_S1024x128_S1024x128_1_0_0_1_n_n.rhsNonContracting by decide)]
        rfl
      | ⟨0, _⟩ =>
        exact (dot_S1024x1024_S1024x128_S1024x128_1_0_0_1_n_n.rhsIdx_val_of_single rfl (ix2 r o) _).trans hk)
  rw [el, er]

/-! ### The payloads of the attention kernel at an index -/

section Payloads

variable (q kk vv : Vec Ideal S1024x128 .bf16) (mOld lOld : Vec Ideal S1024x1 .f32) (accOld : Vec Ideal S1024x128 .f32)

/-- The score of query row r against key row k of the two blocks. -/
def S (q kk : Vec Ideal S1024x128 .bf16) (r k : Fin 1024) : EReal :=
  ∑ d : Fin 128, (q (ix2 r d) * AttnSpec.cScale) * kk (ix2 k d)

/-- The scores of a block. -/
theorem k1_pay7_at (r k : Fin 1024) : k1_pay7 (F := Ideal) q kk (ix2 r k) = S q kk r k := by
  unfold k1_pay7
  try dsimp only
  rw [matmul_qk_at, shapeCast_self, shapeCast_self]
  unfold S
  refine Finset.sum_congr rfl fun d _ => ?_
  simp only [truncf_apply, mulf_apply, extf_apply, broadcast_apply]
  rfl

/-- The new running maximum of row r. -/
theorem k1_pay8_at (r : Fin 1024) :
    k1_pay8 (F := Ideal) q kk mOld (ix2 r 0)
      = max (mOld (ix2 r 0)) (AttnSpec.greatest fun k : Fin 1024 => S q kk r k) := by
  unfold k1_pay8
  try dsimp only
  rw [maximumf_apply, col_cast_apply, rowmax_at]
  simp only [k1_pay7_at]

/-- The rescaling factor of row r. -/
theorem k1_pay9_at (v18 : Vec Ideal S1024x1 .f32) (r : Fin 1024) :
    k1_pay9 (F := Ideal) q kk mOld v18 (ix2 r 0)
      = Ideal.exp (v18 (ix2 r 0) - k1_pay8 (F := Ideal) q kk mOld (ix2 r 0)) := rfl

/-- The unnormalised weights of a block. -/
theorem k1_pay10_at (r k : Fin 1024) :
    k1_pay10 (F := Ideal) q kk mOld (ix2 r k)
      = Ideal.exp (S q kk r k - k1_pay8 (F := Ideal) q kk mOld (ix2 r 0)) := by
  unfold k1_pay10
  try dsimp only
  rw [exp_apply, subf_apply, col_bcast_sq_apply, k1_pay7_at]

/-- The new running normaliser of row r. -/
theorem k1_pay11_at (v18 : Vec Ideal S1024x1 .f32) (r : Fin 1024) :
    k1_pay11 (F := Ideal) q kk mOld v18 lOld (ix2 r 0)
      = k1_pay9 (F := Ideal) q kk mOld v18 (ix2 r 0) * lOld (ix2 r 0)
        + ∑ k : Fin 1024, k1_pay10 (F := Ideal) q kk mOld (ix2 r k) := by
  unfold k1_pay11
  try dsimp only
  rw [shapeCast_self, addf_apply, mulf_apply, col_cast_apply, rowsum_at]

/-- The block's contribution to the numerator. -/
theorem k1_pay12_at (r : Fin 1024) (d : Fin 128) :
    k1_pay12 (F := Ideal) q kk vv mOld (ix2 r d)
      = ∑ k : Fin 1024, k1_pay10 (F := Ideal) q kk mOld (ix2 r k) * vv (ix2 k d) := by
  unfold k1_pay12
  try dsimp only
  rw [matmul_pv_at, shapeCast_self]
  rfl

/-- The new running numerator. -/
theorem k1_pay1_at (a : FVec Ideal S1024x1 .f32) (pv : FVec Ideal S1024x128 .f32) (r : Fin 1024) (d : Fin 128) :
    k1_pay1 (F := Ideal) a pv accOld (ix2 r d) = a (ix2 r 0) * accOld (ix2 r d) + pv (ix2 r d) := by
  unfold k1_pay1
  try dsimp only
  rw [shapeCast_self, addf_apply, mulf_apply, col_bcast_lane_apply]

/-- The stored maximum is the new maximum. -/
theorem k1_pay2_eq (v17 : FVec Ideal S1024x1 .f32) : k1_pay2 (F := Ideal) v17 = v17 := by
  unfold k1_pay2
  try dsimp only
  rw [shapeCast_self]

/-- The final quotient. -/
theorem k1_pay3_at (r : Fin 1024) (d : Fin 128) :
    k1_pay3 (F := Ideal) accOld lOld (ix2 r d) = Ideal.div (accOld (ix2 r d)) (lOld (ix2 r 0)) := by
  unfold k1_pay3
  try dsimp only
  rw [divf_apply, col_bcast_lane_apply]

/-- The reset value of the running maximum: minus infinity. -/
theorem k1_pay4_at (i : S1024x1.Idx) : k1_pay4 (F := Ideal) i = (⊥ : EReal) := by
  unfold k1_pay4
  try dsimp only
  rw [shapeCast_self, broadcast_apply]
  exact ofBits_negInf

/-- The reset value of the running normaliser: zero. -/
theorem k1_pay5_at (i : S1024x1.Idx) : k1_pay5 (F := Ideal) i = (0 : EReal) := by
  unfold k1_pay5
  try dsimp only
  rw [shapeCast_self, broadcast_apply]
  exact MaskAlgebra.ofBits_zero

/-- The reset value of the running numerator: zero. -/
theorem k1_pay6_at (i : S1024x128.Idx) : k1_pay6 (F := Ideal) i = (0 : EReal) := by
  unfold k1_pay6
  try dsimp only
  rw [shapeCast_self, broadcast_apply]
  exact MaskAlgebra.ofBits_zero

/-- One grid point of the attention kernel moves row r's (maximum, normaliser, numerator at lane d) by one
    block's update of the online softmax. -/
theorem step_at (r : Fin 1024) (d : Fin 128) :
    (k1_pay8 (F := Ideal) q kk mOld (ix2 r 0), k1_pay11 (F := Ideal) q kk mOld mOld lOld (ix2 r 0),
      k1_pay1 (F := Ideal) (k1_pay9 (F := Ideal) q kk mOld mOld) (k1_pay12 (F := Ideal) q kk vv mOld) accOld (ix2 r d))
      = OnlineEReal.step (B := 1024) (fun k => S q kk r k) (fun k => vv (ix2 k d))
          (mOld (ix2 r 0), lOld (ix2 r 0), accOld (ix2 r d)) := by
  unfold OnlineEReal.step
  rw [k1_pay11_at, k1_pay1_at, k1_pay12_at, k1_pay9_at]
  simp only [k1_pay10_at, k1_pay8_at, zero_add]

end Payloads

end Cert.KernelIdeal.AttnVal

end
-- ==== Proof.AttnOut.lean ====
/-
  The attention launch's output array, element by element, as the streaming softmax of its input array.

  Fix an output element (n, col): head h = col / 128, lane d = col % 128, query block n / 1024, row r = n % 1024
  within it. Along the four key blocks of that head and query block the body's scratch triple at row r (and lane
  d for the numerator) follows the block-by-block softmax recurrence over the scores of query row n against the
  1024 key rows of each block and the value rows' lane d; at the last key block the output block stores the
  numerator divided by the normaliser, and that is what the region leaves in the output array at (n, col).
-/
import proofs.«162336_j12171937317144_2_alg».proof.Proof.AttnCases
import proofs.«162336_j12171937317144_2_alg».proof.Proof.AttnKeyPoints
import proofs.«162336_j12171937317144_2_alg».proof.Proof.AttnPayload

set_option maxRecDepth 16384

noncomputable section

namespace Cert.KernelIdeal.Attn

open Cert.KernelIdeal Cert.KernelIdeal.Gen
open Idealize.ShloMosaic Idealize.ShloMosaic.TcCoe
open Idealize.SL Idealize.SL.Sem
open Idealize.ShloMosaic.Pipeline (Dat)
open Idealize.ShloMosaic.ValueIdx

-- the TensorCore's buffer contents when the region is entered
variable (V : (c : Dev nD) → (b : Ref sig .tc) → Buf (Elt Ideal) ((c : Thread nD τ).loc b))

/-! ## The scratch triple along the key blocks of one head and query block -/

/-- The scratch triple after the point of key block `k`. -/
def scrK (c : Dev nD) (h : Fin 12) (qi : Fin 4) (k : Fin 4) : Scr Ideal :=
  (outsAt1 V c (kp h qi k).val (kp h qi k).isLt).2

/-- After key block 0: the update of the reset triple. -/
theorem scrK_zero (c : Dev nD) (h : Fin 12) (qi : Fin 4) :
    scrK V c h qi 0 = upd (iblk1 V c 0 (kp h qi 0)) (iblk1 V c 1 (kp h qi 0)) (iblk1 V c 2 (kp h qi 0)) reset0 :=
  scr_reset V c (kp h qi 0) (kp_zero_mod h qi)

/-- After the next key block: the update of the triple after this one. -/
theorem scrK_succ (c : Dev nD) (h : Fin 12) (qi : Fin 4) (k : Fin 4) (hk : k.val + 1 < 4) :
    scrK V c h qi ⟨k.val + 1, hk⟩ = upd (iblk1 V c 0 (kp h qi ⟨k.val + 1, hk⟩)) (iblk1 V c 1 (kp h qi ⟨k.val + 1, hk⟩)) (iblk1 V c 2 (kp h qi ⟨k.val + 1, hk⟩)) (scrK V c h qi k) := by
  have h0 : ¬(kp h qi ⟨k.val + 1, hk⟩).val % 4 = 0 := by rw [kp_mod]; exact Nat.succ_ne_zero _
  have e := scr_step V c (kp h qi ⟨k.val + 1, hk⟩) h0
  have en : (kp h qi ⟨k.val + 1, hk⟩).val - 1 = (kp h qi k).val := by rw [kp_succ h qi k hk]; omega
  unfold scrK
  rw [e, outsAt1_congr V c en _ (kp h qi k).isLt]

/-! ## The scores and values an output element meets -/

theorem col0_eq (h : Fin 12) (d : Fin 128) :
    (⟨h.val * 128 + d.val, by have := h.isLt; have := d.isLt; omega⟩ : Fin 4608) = AttnSpec.col 0 h d :=
  Fin.ext (by show h.val * 128 + d.val = 1536 * (0 : Fin 3).val + 128 * h.val + d.val; simp only [Fin.val_zero]; omega)
theorem col1_eq (h : Fin 12) (d : Fin 128) :
    (⟨1536 + h.val * 128 + d.val, by have := h.isLt; have := d.isLt; omega⟩ : Fin 4608) = AttnSpec.col 1 h d :=
  Fin.ext (by show 1536 + h.val * 128 + d.val = 1536 * (1 : Fin 3).val + 128 * h.val + d.val; simp only [Fin.val_one]; omega)
theorem col2_eq (h : Fin 12) (d : Fin 128) :
    (⟨3072 + h.val * 128 + d.val, by have := h.isLt; have := d.isLt; omega⟩ : Fin 4608) = AttnSpec.col 2 h d :=
  Fin.ext (by show 3072 + h.val * 128 + d.val = 1536 * (2 : Fin 3).val + 128 * h.val + d.val; simp only [Fin.val_two]; omega)

/-- The region's input array (the 4096 rows of queries, keys and values, 4608 wide) as the region finds it. -/
def qkv1 (c : Dev nD) : Fin 4096 → Fin 4608 → EReal := fun n j => V c main_v31 (ix2 n j)

/-- The scores of query row `n` against the 1024 key rows of key block `k`, in head `h` (zero past the last block). -/
def Sn (c : Dev nD) (n : Fin 4096) (h : Fin 12) (k : ℕ) (i : Fin 1024) : EReal :=
  if hk : k < 4 then AttnSpec.score (qkv1 V c) h n (⟨k * 1024 + i.val, by have := i.isLt; omega⟩ : Fin 4096) else 0

/-- Lane `d` of the 1024 value rows of key block `k`, in head `h` (zero past the last block). -/
def Wn (c : Dev nD) (h : Fin 12) (d : Fin 128) (k : ℕ) (i : Fin 1024) : EReal :=
  if hk : k < 4 then qkv1 V c (⟨k * 1024 + i.val, by have := i.isLt; omega⟩ : Fin 4096) (AttnSpec.col 2 h d) else 0

theorem Sn_eq (c : Dev nD) (n : Fin 4096) (h : Fin 12) (k : ℕ) (hk : k < 4) (i : Fin 1024) :
    Sn V c n h k i = AttnSpec.score (qkv1 V c) h n (⟨k * 1024 + i.val, by have := i.isLt; omega⟩ : Fin 4096) := dif_pos hk
theorem Wn_eq (c : Dev nD) (h : Fin 12) (d : Fin 128) (k : ℕ) (hk : k < 4) (i : Fin 1024) :
    Wn V c h d k i = qkv1 V c (⟨k * 1024 + i.val, by have := i.isLt; omega⟩ : Fin 4096) (AttnSpec.col 2 h d) := dif_pos hk

/-- The scores the body computes from the query and key blocks at key block `k` are those. -/
theorem S_eq (c : Dev nD) (h : Fin 12) (qi : Fin 4) (k : Fin 4) (r : Fin 1024) :
    (fun i => AttnVal.S (iblk1 V c 0 (kp h qi k)) (iblk1 V c 1 (kp h qi k)) r i)
      = Sn V c (⟨qi.val * 1024 + r.val, by have := qi.isLt; have := r.isLt; omega⟩ : Fin 4096) h k.val := by
  funext i
  rw [Sn_eq V c _ h k.val k.isLt i]
  unfold AttnVal.S AttnSpec.score qkv1
  refine Finset.sum_congr rfl fun d' _ => ?_
  rw [iblk1_0_kp, iblk1_1_kp, col0_eq, col1_eq]
  try rfl

/-- The value block's lane at key block `k` likewise. -/
theorem W_eq (c : Dev nD) (h : Fin 12) (qi : Fin 4) (k : Fin 4) (d : Fin 128) :
    (fun i => iblk1 V c 2 (kp h qi k) (ix2 i d)) = Wn V c h d k.val := by
  funext i
  rw [Wn_eq V c h d k.val k.isLt i]
  unfold qkv1
  rw [iblk1_2_kp, col2_eq]
  try rfl

/-! ## The recurrence along the key blocks -/

/-- After key block `k` the scratch triple at row `r` (the numerator at lane `d`) is the streaming softmax's state
    after `k + 1` blocks. -/
theorem run_at (c : Dev nD) (h : Fin 12) (qi : Fin 4) (r : Fin 1024) (d : Fin 128) :
    ∀ (k : ℕ) (hk : k < 4),
      ((scrK V c h qi ⟨k, hk⟩).1 (ix2 r 0), (scrK V c h qi ⟨k, hk⟩).2.1 (ix2 r 0), (scrK V c h qi ⟨k, hk⟩).2.2 (ix2 r d))
        = OnlineEReal.run (B := 1024) (Sn V c (⟨qi.val * 1024 + r.val, by have := qi.isLt; have := r.isLt; omega⟩ : Fin 4096) h) (Wn V c h d) (k + 1)
  | 0, hk => by
    rw [show (⟨0, hk⟩ : Fin 4) = 0 from rfl, scrK_zero]
    unfold upd reset0
    dsimp only
    rw [AttnVal.k1_pay2_eq, AttnVal.step_at, AttnVal.k1_pay4_at, AttnVal.k1_pay5_at, AttnVal.k1_pay6_at]
    rw [S_eq V c h qi 0 r, W_eq V c h qi 0 d]
    rfl
  | k + 1, hk => by
    have ih := run_at c h qi r d k (by omega)
    rw [show (⟨k + 1, hk⟩ : Fin 4) = ⟨(⟨k, by omega⟩ : Fin 4).val + 1, hk⟩ from rfl, scrK_succ V c h qi ⟨k, by omega⟩ hk]
    unfold upd
    dsimp only
    rw [AttnVal.k1_pay2_eq, AttnVal.step_at, ih]
    rw [S_eq V c h qi ⟨k + 1, hk⟩ r, W_eq V c h qi ⟨k + 1, hk⟩ d]
    rfl

/-! ## The output array after the region -/

/-- The output window is uncut: what is written back is the block. -/
theorem cut1_3 (t : Fin cfg1.N) (X : Vec Ideal S1024x128 .f32) (a : Fin 1024) (b : Fin 128) :
    (cfg1.win 3).cut (grid1.coords t) X (ix2 a b) = X (ix2 a b) := rfl

/-- THE OUTPUT, element by element: what the region leaves at `(n, col)` of its output array is the streaming
    softmax's numerator after the four key blocks divided by its normaliser — over the scores of query row `n`
    and lane `col % 128` of the value rows, in head `col / 128`. -/
theorem attn_out (c : Dev nD) (n : Fin 4096) (col : Fin 1536) :
    (dat1 V c).arrAt 3 cfg1.N (ix2 n col)
      = Ideal.div
          (OnlineEReal.run (B := 1024) (Sn V c n ⟨col.val / 128, by have := col.isLt; omega⟩) (Wn V c ⟨col.val / 128, by have := col.isLt; omega⟩ ⟨col.val % 128, Nat.mod_lt _ (by decide)⟩) 4).2.2
          (OnlineEReal.run (B := 1024) (Sn V c n ⟨col.val / 128, by have := col.isLt; omega⟩) (Wn V c ⟨col.val / 128, by have := col.isLt; omega⟩ ⟨col.val % 128, Nat.mod_lt _ (by decide)⟩) 4).2.1 := by
  have hn := n.isLt; have hc := col.isLt
  have hrow : (⟨(⟨n.val / 1024, by omega⟩ : Fin 4).val * 1024 + (⟨n.val % 1024, Nat.mod_lt _ (by decide)⟩ : Fin 1024).val, by show n.val / 1024 * 1024 + n.val % 1024 < 4096; omega⟩ : Fin 4096) = n :=
    Fin.ext (by show n.val / 1024 * 1024 + n.val % 1024 = n.val; omega)
  have hrun := run_at V c ⟨col.val / 128, by omega⟩ ⟨n.val / 1024, by omega⟩ ⟨n.val % 1024, Nat.mod_lt _ (by decide)⟩ ⟨col.val % 128, Nat.mod_lt _ (by decide)⟩ 3 (by decide)
  rw [hrow] at hrun
  have e1 := congrArg (fun x => x.2.1) hrun
  have e2 := congrArg (fun x => x.2.2) hrun
  dsimp only at e1 e2
  unfold scrK at e1 e2
  rw [read1_3, flushed1_3, cut1_3, pt1_eq_kp, out_last V c _ (kp_last_mod _ _), AttnVal.k1_pay3_at]
  exact congrArg₂ Ideal.div e2 e1

end Cert.KernelIdeal.Attn

end
-- ==== Proof.LibSumBlocks.lean ====
/-
  Regrouping a finite sum into consecutive blocks, in any additive commutative monoid (used at the extended
  reals, where addition is commutative and associative although it is not cancellative): a sum over
  `a * b` consecutive positions is the sum over `a` blocks of the sums over the `b` positions of each
  block, and a sum over four blocks is the left-to-right accumulation `(((0 + s₀) + s₁) + s₂) + s₃`.
  Nothing here needs the summands to be finite.
-/
import Mathlib.Algebra.BigOperators.Fin
import Mathlib.Logic.Equiv.Fin.Basic

namespace Cert.SumBlocks

open scoped BigOperators

/-- A sum over the positions `0 … a*b-1` is the sum over blocks `k < a` of the sums over the offsets
    `j < b` inside block `k`, position `k * b + j`. -/
theorem sum_blocks {M : Type*} [AddCommMonoid M] (a b : ℕ) (f : ℕ → M) :
    ∑ i : Fin (a * b), f i.val = ∑ k : Fin a, ∑ j : Fin b, f (k.val * b + j.val) := by
  rw [← Fintype.sum_prod_type' (f := fun (k : Fin a) (j : Fin b) => f (k.val * b + j.val))]
  refine (Fintype.sum_equiv finProdFinEquiv _ _ ?_).symm
  rintro ⟨k, j⟩
  show f (k.val * b + j.val) = f (finProdFinEquiv (k, j)).val
  congr 1
  simp only [finProdFinEquiv_apply_val]
  rw [Nat.mul_comm, Nat.add_comm]

/-- Four blocks accumulated from zero, left to right, are their sum. -/
theorem acc_four {M : Type*} [AddCommMonoid M] (s : Fin 4 → M) :
    (((0 + s 0) + s 1) + s 2) + s 3 = ∑ k : Fin 4, s k := by
  rw [Fin.sum_univ_four, zero_add]

end Cert.SumBlocks
-- ==== Proof.OnlineIsAttn.lean ====
/-
  From the blockwise run of the online softmax to the attention of the specification.

  One query row of one head sees its 4096 keys in four blocks of 1024. On a real joint projection the scores and
  values are real, so the state after the four blocks is the real running maximum, normaliser and numerator. The
  running maximum after the last block is the largest score over all keys (it is at least every score and is one
  of them); the running normaliser is then the sum over all keys of exp (score - largest), which is the
  specification's normaliser, and numerator / normaliser is the sum over all keys of (weight / normaliser) * value
  (distributivity, over the reals), which is the specification's attention output. Sums over the 4096 keys are
  regrouped into four blocks of 1024 consecutive keys.
-/
import proofs.«162336_j12171937317144_2_alg».proof.Proof.Spec
import proofs.«162336_j12171937317144_2_alg».proof.Proof.SpecReal
import proofs.«162336_j12171937317144_2_alg».proof.Proof.LibMaskAlgebra
import proofs.«162336_j12171937317144_2_alg».proof.Proof.OnlineCore
import proofs.«162336_j12171937317144_2_alg».proof.Proof.OnlineEReal
import proofs.«162336_j12171937317144_2_alg».proof.Proof.LibSumBlocks

noncomputable section

namespace OnlineAttn

open scoped BigOperators
open Idealize.ShloMosaic MaskAlgebra OnlineCore AttnSpec

/-! ### The run looks only at the blocks it has consumed -/

/-- The state after k blocks depends only on the scores and values of the blocks below k. -/
theorem run_congr {B : ℕ} [NeZero B] (S S' W W' : ℕ → Fin B → EReal) : ∀ k : ℕ,
    (∀ j < k, S j = S' j) → (∀ j < k, W j = W' j) → OnlineEReal.run S W k = OnlineEReal.run S' W' k
  | 0, _, _ => rfl
  | k + 1, hS, hW => by
      show OnlineEReal.step (S k) (W k) (OnlineEReal.run S W k)
        = OnlineEReal.step (S' k) (W' k) (OnlineEReal.run S' W' k)
      rw [hS k (Nat.lt_succ_self k), hW k (Nat.lt_succ_self k),
        run_congr S S' W W' k (fun j hj => hS j (Nat.lt_succ_of_lt hj)) (fun j hj => hW j (Nat.lt_succ_of_lt hj))]

/-! ### 4096 keys as four blocks of 1024 -/

/-- A family over the 4096 keys cut into blocks of 1024 (zero past the fourth block). -/
def blk (s : Fin 4096 → ℝ) : ℕ → Fin 1024 → ℝ :=
  fun k i => if hk : k < 4 then s ⟨k * 1024 + i.val, by have := i.isLt; omega⟩ else 0

/-- A sum over the 4096 keys is the sum over the four blocks of the sums inside each block. -/
theorem sum_blk {M : Type*} [AddCommMonoid M] (f : Fin 4096 → M) :
    ∑ m : Fin 4096, f m
      = ∑ k ∈ Finset.range 4, ∑ i : Fin 1024,
          (if hk : k < 4 then f ⟨k * 1024 + i.val, by have := i.isLt; omega⟩ else 0) := by
  rw [Finset.sum_range]
  have e := Cert.SumBlocks.sum_blocks 4 1024 (fun p => if hp : p < 4096 then f ⟨p, hp⟩ else 0)
  have e1 : ∑ m : Fin 4096, f m
      = ∑ m : Fin (4 * 1024), (if hp : m.val < 4096 then f ⟨m.val, hp⟩ else 0) :=
    Finset.sum_congr rfl fun m _ => by rw [dif_pos m.isLt]
  rw [e1, e]
  refine Finset.sum_congr rfl fun k _ => Finset.sum_congr rfl fun i _ => ?_
  rw [dif_pos k.isLt, dif_pos (by have := k.isLt; have := i.isLt; omega)]

/-- Every score is at most the running maximum after the four blocks. -/
theorem le_runMax_blk (s : Fin 4096 → ℝ) (m : Fin 4096) : s m ≤ runMax (blk s) 3 := by
  have hm := m.isLt
  have e : s m = blk s (m.val / 1024) ⟨m.val % 1024, Nat.mod_lt _ (by norm_num)⟩ := by
    unfold blk
    rw [dif_pos (by omega)]
    exact congrArg s (Fin.ext (by show m.val = m.val / 1024 * 1024 + m.val % 1024; omega))
  rw [e]
  exact le_runMax (blk s) 3 (m.val / 1024) (by omega) _

/-- The running maximum after the four blocks is one of the scores. -/
theorem exists_eq_runMax_blk (s : Fin 4096 → ℝ) : ∃ m : Fin 4096, runMax (blk s) 3 = s m := by
  obtain ⟨j', hj', i, hi⟩ := exists_eq_runMax (blk s) 3
  have hi' := i.isLt
  refine ⟨⟨j' * 1024 + i.val, by omega⟩, ?_⟩
  rw [hi]
  unfold blk
  rw [dif_pos (by omega)]

/-- The running normaliser after the four blocks is the sum over all keys. -/
theorem runNorm_blk (s : Fin 4096 → ℝ) :
    runNorm (blk s) 3 = ∑ m : Fin 4096, Real.exp (s m - runMax (blk s) 3) := by
  rw [runNorm_eq, sum_blk fun m => Real.exp (s m - runMax (blk s) 3)]
  refine Finset.sum_congr rfl fun k hk => Finset.sum_congr rfl fun i _ => ?_
  have hk' : k < 4 := Finset.mem_range.mp hk
  rw [dif_pos hk']
  unfold blk
  rw [dif_pos hk']

/-- The running numerator over the running normaliser after the four blocks is the sum over all keys of
    (weight / normaliser) * value. -/
theorem num_div_norm_blk (s v : Fin 4096 → ℝ) :
    runNum (blk s) (blk v) 3 * (runNorm (blk s) 3)⁻¹
      = ∑ m : Fin 4096, (Real.exp (s m - runMax (blk s) 3) * (runNorm (blk s) 3)⁻¹) * v m := by
  rw [num_div_norm, sum_blk fun m => (Real.exp (s m - runMax (blk s) 3) * (runNorm (blk s) 3)⁻¹) * v m]
  refine Finset.sum_congr rfl fun k hk => Finset.sum_congr rfl fun i _ => ?_
  have hk' : k < 4 := Finset.mem_range.mp hk
  rw [dif_pos hk']
  unfold blk
  rw [dif_pos hk', dif_pos hk']

/-! ### From the blockwise run to the attention of the specification -/

/-- Four blocks of the online softmax over the scores of query row n in head h and the values of lane d,
    numerator over normaliser, is the specification's attention output, when the joint projection is real. -/
theorem attn_of_run (qkv : Fin 4096 → Fin 4608 → EReal) (hq : ∀ n c, IsReal (qkv n c))
    (n : Fin 4096) (h : Fin 12) (d : Fin 128) (S W : ℕ → Fin 1024 → EReal)
    (hS : ∀ k (hk : k < 4) (i : Fin 1024),
      S k i = score qkv h n ⟨k * 1024 + i.val, by have := i.isLt; omega⟩)
    (hW : ∀ k (hk : k < 4) (i : Fin 1024),
      W k i = qkv ⟨k * 1024 + i.val, by have := i.isLt; omega⟩ (col 2 h d)) :
    Ideal.div (OnlineEReal.run (B := 1024) S W 4).2.2 (OnlineEReal.run (B := 1024) S W 4).2.1
      = attn qkv n h d := by
  choose sr hsr using fun m => isReal_score qkv hq h n m
  choose vr hvr using fun m => hq m (col 2 h d)
  have hrun : OnlineEReal.run (B := 1024) S W 4
      = OnlineEReal.run (B := 1024) (fun j i => ((blk sr j i : ℝ) : EReal)) (fun j i => ((blk vr j i : ℝ) : EReal)) 4 :=
    run_congr _ _ _ _ 4
      (fun j hj => funext fun i => by rw [hS j hj i, hsr]; unfold blk; rw [dif_pos hj])
      (fun j hj => funext fun i => by rw [hW j hj i, hvr]; unfold blk; rw [dif_pos hj])
  rw [hrun, OnlineEReal.run_succ (blk sr) (blk vr) 3]
  show Ideal.div ((runNum (blk sr) (blk vr) 3 : ℝ) : EReal) ((runNorm (blk sr) 3 : ℝ) : EReal) = _
  have hLpos := runNorm_pos (blk sr) 3
  have hG : greatest (fun m' => score qkv h n m') = ((runMax (blk sr) 3 : ℝ) : EReal) := by
    refine le_antisymm ?_ ?_
    · obtain ⟨m, hm⟩ := exists_eq_greatest (fun m' => score qkv h n m')
      rw [hm, hsr]
      exact EReal.coe_le_coe_iff.mpr (le_runMax_blk sr m)
    · obtain ⟨m, hm⟩ := exists_eq_runMax_blk sr
      rw [hm, ← hsr]
      exact le_greatest (fun m' => score qkv h n m') m
  have hw : ∀ m, weight qkv h n m = ((Real.exp (sr m - runMax (blk sr) 3) : ℝ) : EReal) := fun m => by
    rw [weight, hG, hsr, ← EReal.coe_sub]; rfl
  have hN : norm qkv h n = ((runNorm (blk sr) 3 : ℝ) : EReal) := by
    show (0 : EReal) + ∑ m : Fin 4096, weight qkv h n m = _
    rw [zero_add, runNorm_blk, ← coe_sum]
    exact Finset.sum_congr rfl fun m _ => hw m
  rw [div_coe_coe _ hLpos.ne', div_eq_mul_inv, num_div_norm_blk, ← coe_sum]
  unfold attn
  refine Finset.sum_congr rfl fun m _ => ?_
  rw [hw m, hN, hvr m, div_coe_coe _ hLpos.ne', ← EReal.coe_mul, div_eq_mul_inv]

end OnlineAttn

end
-- ==== Proof.FiniteInputs.lean ====
/-
  The precondition read back: the printed predicate is, for each of the five arguments, the reduction by "and" over
  every axis of the array of comparisons |x| < +∞, the five results and-ed together. When it comes out 1 every
  comparison is 1; and an extended real x with max x (-x) < ⊤ is neither ⊤ nor ⊥, hence a real number.
-/
import proofs.«162336_j12171937317144_2_alg».proof.Pre_finite_inputs
import proofs.«162336_j12171937317144_2_alg».proof.Proof.Gen.Pre_finite_inputs
import proofs.«162336_j12171937317144_2_alg».proof.Proof.LibMaskAlgebra
import Idealize.ShloMosaic.Lib.ReduceAll
import Idealize.ShloMosaic.Lib.ValueIdx

noncomputable section

namespace Cert.FiniteInputs

open Idealize.ShloMosaic Idealize.ShloMosaic.ValueIdx Cert.Pre_finite_inputs

/-- The shape of a scalar has exactly one index. -/
instance : Subsingleton S_.Idx := ⟨fun a b => funext fun d => d.elim0⟩

/-- The f32 word 0x7F800000 denotes +∞. -/
theorem ofBits_posInf : Ideal.ofBits .f32 0x7F800000#32 = (⊤ : EReal) := by
  simp [Ideal.ofBits, Ideal.ieee]

/-- An extended real whose absolute value max x (-x) lies strictly below +∞ is a real number. -/
theorem isReal_of_abs_lt_top (x : EReal)
    (h : FloatOps.cmpf (F := Ideal) (φ := .f32) .olt (FloatOps.hostAbsf (F := Ideal) (φ := .f32) x) (FloatOps.ofBits (F := Ideal) .f32 0x7F800000#32) = 1#1) :
    MaskAlgebra.IsReal x := by
  change Ideal.cmp .olt (max x (-x)) (Ideal.ofBits .f32 0x7F800000#32) = 1#1 at h
  rw [ofBits_posInf] at h
  induction x using EReal.rec with
  | bot => simp [Ideal.cmp] at h
  | top => simp [Ideal.cmp] at h
  | coe r => exact ⟨r, rfl⟩

/-- One conjunct of the printed predicate: if the reduction by "and", over every axis, of the array of
    comparisons |x i| < +∞ comes out 1, then every entry of x is a real number. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) :
    ∀ i, MaskAlgebra.IsReal (x i) := fun i =>
  isReal_of_abs_lt_top (x i) (Host.reduce_andi_all _ _ hr hu ix0 e i)

/-- The precondition read back: when the printed predicate is all ones, every entry of each of the five
    arguments is a real number. -/
theorem real_of_fn [Cert.Pre_finite_inputs.Facts]
    (a0 : FVec Ideal S1x4096x1536 .f32) (a1 : FVec Ideal S4608x1536 .f32) (a2 : FVec Ideal S4608 .f32)
    (a3 : FVec Ideal S1536x1536 .f32) (a4 : FVec Ideal S1536 .f32)
    (h : Cert.Pre_finite_inputs.fn (F := Ideal) a0 a1 a2 a3 a4 = fun _ => 1#1) :
    (∀ i, MaskAlgebra.IsReal (a0 i)) ∧ (∀ i, MaskAlgebra.IsReal (a1 i)) ∧ (∀ i, MaskAlgebra.IsReal (a2 i))
      ∧ (∀ i, MaskAlgebra.IsReal (a3 i)) ∧ (∀ i, MaskAlgebra.IsReal (a4 i)) := by
  have e := congrFun h ix0
  dsimp only [Cert.Pre_finite_inputs.fn, Cert.Pre_finite_inputs.fn_part1, andi] at e
  rw [IntOp.andi_eq_one, IntOp.andi_eq_one, IntOp.andi_eq_one, IntOp.andi_eq_one] at e
  obtain ⟨⟨⟨⟨e0, e1⟩, e2⟩, e3⟩, e4⟩ := e
  exact ⟨all_real a0 _ _ _ e0, all_real a1 _ _ _ e1, all_real a2 _ _ _ e2, all_real a3 _ _ _ e3,
    all_real a4 _ _ _ e4⟩

end Cert.FiniteInputs
-- ==== Proof.KernelIsBlock.lean ====
/-
  The kernel program computes the specification's block: the three regions chained.

  Region 0 leaves, in the projected rows, the quantised linear layer of the first three arguments: its payload is
  the linear layer on the arrays the region is entered with, and those are the reshaped activations, the
  fake-quantised first weight and the reshaped first bias. Region 1 reads what region 0 left and leaves the
  attention rows of it: the four key blocks of the online softmax end in numerator / normaliser, which is the
  specification's attention when the projected rows are real, and they are, the arguments being real. Region 2
  reads what region 1 left, the fake-quantised second weight and the second bias (both as entered before region 0:
  the regions in between do not write them) and leaves the quantised linear layer of them: the block.
-/
import proofs.«162336_j12171937317144_2_alg».proof.Proof.Boundaries
import proofs.«162336_j12171937317144_2_alg».proof.Proof.KernelLinear
import proofs.«162336_j12171937317144_2_alg».proof.Proof.KernelHost
import proofs.«162336_j12171937317144_2_alg».proof.Proof.AttnOut
import proofs.«162336_j12171937317144_2_alg».proof.Proof.OnlineIsAttn
import proofs.«162336_j12171937317144_2_alg».proof.Proof.SpecReal
import proofs.«162336_j12171937317144_2_alg».proof.Proof.FiniteInputs

noncomputable section

namespace Cert.KernelIdeal.Asm

open Idealize.ShloMosaic Idealize.ShloMosaic.TcCoe
open Idealize.SL Idealize.SL.Sem
open Cert.KernelIdeal Cert.KernelIdeal.Gen
open Idealize.ShloMosaic.ValueIdx MaskAlgebra

variable (m : (ℓ : Loc nD τ sig) → Buf (Elt Ideal) ℓ) (c : Dev nD)

/-- The activations as rows. -/
abbrev X : Fin 4096 → Fin 1536 → EReal := fun n k => m ((c : Thread nD τ).loc main_arg0) (ix3 0 n k)
/-- The first weight as rows. -/
abbrev WQ : Fin 4608 → Fin 1536 → EReal := fun o k => m ((c : Thread nD τ).loc main_arg1) (ix2 o k)
/-- The first bias. -/
abbrev BQ : Fin 4608 → EReal := fun o => m ((c : Thread nD τ).loc main_arg2) (ix1 o)
/-- The second weight as rows. -/
abbrev WP : Fin 1536 → Fin 1536 → EReal := fun o k => m ((c : Thread nD τ).loc main_arg3) (ix2 o k)
/-- The second bias. -/
abbrev BP : Fin 1536 → EReal := fun o => m ((c : Thread nD τ).loc main_arg4) (ix1 o)

/-- The five arguments have real entries. -/
abbrev RealArgs : Prop :=
  (∀ i, IsReal (m ((c : Thread nD τ).loc main_arg0) i)) ∧ (∀ i, IsReal (m ((c : Thread nD τ).loc main_arg1) i))
    ∧ (∀ i, IsReal (m ((c : Thread nD τ).loc main_arg2) i)) ∧ (∀ i, IsReal (m ((c : Thread nD τ).loc main_arg3) i))
    ∧ (∀ i, IsReal (m ((c : Thread nD τ).loc main_arg4) i))

/-- What the first kernel leaves: the quantised linear layer of the arguments. -/
theorem out0_at (n : Fin 4096) (o : Fin 4608) :
    out0 m c (ix2 n o) = AttnSpec.linear (X m c) (WQ m c) (BQ m c) n o := by
  rw [out0_def, LinVal.linear0_at (U9 m) c n o]
  unfold AttnSpec.linear
  refine congrArg₂ (· + ·) (Finset.sum_congr rfl fun k _ => congrArg₂ (· * ·) ?_ ?_) ?_
  · exact congrArg (fun r => AttnSpec.fq r k) (funext fun q => HostVal.v0_at m c n q)
  · exact HostVal.v16_at m c o k
  · exact HostVal.v1_at m c o

/-- The array the attention kernel reads is what the first kernel left. -/
theorem qkv1_eq : Attn.qkv1 (U10 m) c = AttnSpec.linear (X m c) (WQ m c) (BQ m c) := by
  funext n j
  show W10 m c main_v31 (ix2 n j) = _
  rw [W10_self, out0_at]

/-- What the attention kernel leaves: the attention rows of that, when the arguments are real. -/
theorem out1_at (hreal : RealArgs m c) (n : Fin 4096) (col : Fin 1536) :
    out1 m c (ix2 n col) = AttnSpec.attnRows (AttnSpec.linear (X m c) (WQ m c) (BQ m c)) n col := by
  have hq : ∀ n' c', IsReal (Attn.qkv1 (U10 m) c n' c') := fun n' c' => by
    rw [qkv1_eq]
    exact AttnSpec.isReal_linear _ _ _ (fun n k => hreal.1 _) (fun o k => hreal.2.1 _) (fun o => hreal.2.2.1 _) n' c'
  rw [out1_def, Attn.attn_out (U10 m) c n col]
  unfold AttnSpec.attnRows
  rw [← qkv1_eq m c]
  exact OnlineAttn.attn_of_run (Attn.qkv1 (U10 m) c) hq n _ _ _ _
    (fun k hk i => Attn.Sn_eq (U10 m) c n _ k hk i) (fun k hk i => Attn.Wn_eq (U10 m) c _ _ k hk i)

/-- What the third kernel leaves: the specification's block of the five arguments. -/
theorem kernel_is_block (hreal : RealArgs m c) (n : Fin 4096) (o : Fin 1536) :
    out2 m c (ix2 n o) = AttnSpec.block (X m c) (WQ m c) (BQ m c) (WP m c) (BP m c) n o := by
  have e32 : ∀ n k, U11 m c main_v32 (ix2 n k)
      = AttnSpec.attnRows (AttnSpec.linear (X m c) (WQ m c) (BQ m c)) n k := fun n k => by
    show W11 m c main_v32 (ix2 n k) = _
    rw [W11_self, out1_at m c hreal]
  have h30 : W11 m c main_v30 = V9 m c main_v30 := by
    simp only [W11, W10,
      Function.update_of_ne (StableHlo.devRef_ne_of_ne (by decide : main_v30 ≠ main_v32) : (Proc.devRef .tc main_v30 : DevRef τ sig) ≠ Proc.devRef .tc main_v32),
      Function.update_of_ne (StableHlo.devRef_ne_of_ne (by decide : main_v30 ≠ main_v31) : (Proc.devRef .tc main_v30 : DevRef τ sig) ≠ Proc.devRef .tc main_v31)]
  have h2 : W11 m c main_v2 = V9 m c main_v2 := by
    simp only [W11, W10,
      Function.update_of_ne (StableHlo.devRef_ne_of_ne (by decide : main_v2 ≠ main_v32) : (Proc.devRef .tc main_v2 : DevRef τ sig) ≠ Proc.devRef .tc main_v32),
      Function.update_of_ne (StableHlo.devRef_ne_of_ne (by decide : main_v2 ≠ main_v31) : (Proc.devRef .tc main_v2 : DevRef τ sig) ≠ Proc.devRef .tc main_v31)]
  have e30 : ∀ o k, U11 m c main_v30 (ix2 o k) = AttnSpec.fq (fun k => WP m c o k) k := fun o k => by
    show W11 m c main_v30 (ix2 o k) = _
    rw [h30]; exact HostVal.v30_at m c o k
  have e2 : ∀ o, U11 m c main_v2 (ix2 0 o) = BP m c o := fun o => by
    show W11 m c main_v2 (ix2 0 o) = _
    rw [h2]; exact HostVal.v2_at m c o
  rw [out2_def, LinVal.linear2_at (U11 m) c n o]
  unfold AttnSpec.block AttnSpec.linear
  refine congrArg₂ (· + ·) (Finset.sum_congr rfl fun k _ => congrArg₂ (· * ·) ?_ ?_) ?_
  · exact congrArg (fun r => AttnSpec.fq r k) (funext fun q => e32 n q)
  · exact e30 o k
  · exact e2 o

end Cert.KernelIdeal.Asm

end
-- ==== Proof.KernelTail.lean ====
/- The kernel program's last host operation, read at an index: its result buffer is the second linear layer's output
   array reshaped from [4096, 1536] to [1, 4096, 1536], so element (0, n, o) of the result is element (n, o) of
   that array. Stated over the buffers' contents between the program's items, for any contents the regions leave. -/
import proofs.«162336_j12171937317144_2_alg».proof.Proof.Gen.KernelIdeal.Regions
import Idealize.ShloMosaic.Lib.Pipeline.Value
import Idealize.ShloMosaic.Lib.ValueIdx
import Idealize.ShloMosaic.Lib.StableHlo.Run

noncomputable section

namespace Cert.KernelIdeal.HostVal

open Cert.KernelIdeal Cert.KernelIdeal.Gen
open Idealize.ShloMosaic Idealize.ShloMosaic.TcCoe Idealize.SL.Sem Idealize.ShloMosaic.StableHlo
open Idealize.ShloMosaic.ValueIdx

variable {F : FTy → Type} [FloatOps F]
variable (m : (ℓ : Loc nD τ sig) → Buf (Elt F) ℓ) (outs : Outs (F := F))

/-- The kernel program's result buffer is its last region's output array, reshaped: the one host operation after
    the last region. -/
theorem V13_main_v34_eq (c : Dev nD) :
    (V13 m outs c main_v34 : S1x4096x1536.Idx → Elt F .f32)
      = shapeCast S1x4096x1536 (V12 m outs c main_v33 : S4096x1536.Idx → Elt F .f32) shapeCasts_S4096x1536_S1x4096x1536 := by
  dsimp only [V13, hostOps3]
  after_results
  rfl

/-- Read at an index: element `(0, n, o)` of the result is element `(n, o)` of that array — the two have the same
    row-major position. -/
theorem V13_main_v34_apply (c : Dev nD) (n : Fin 4096) (o : Fin 1536) :
    (V13 m outs c main_v34 : S1x4096x1536.Idx → Elt F .f32) (ix3 (0 : Fin 1) n o)
      = (V12 m outs c main_v33 : S4096x1536.Idx → Elt F .f32) (ix2 n o) := by
  rw [V13_main_v34_eq]
  exact shapeCast_apply _ _ _ (ix2 n o) (by
    rw [Shape.rowMajor_val_two, Shape.rowMajor_val_three]
    show n.val * 1536 + o.val = ((0 : Fin 1).val * 4096 + n.val) * 1536 + o.val
    show n.val * 1536 + o.val = (0 * 4096 + n.val) * 1536 + o.val
    omega)

end Cert.KernelIdeal.HostVal

end
-- ==== Proof.Records.lean ====
/-
  The three kernel regions as segments of the program, each between its two boundaries.

  A region is entered holding every unscoped buffer whole at the boundary's contents, the generator register at some
  state and nothing owed. Its windows' arrays are split out of the unscoped buffers and, when it ends, put back at what
  the pipeline leaves; the register goes into the region's invariant and comes back; the region owes nothing and has no
  semaphore of its own.
-/
import proofs.«162336_j12171937317144_2_alg».proof.Proof.Boundaries
import proofs.«162336_j12171937317144_2_alg».proof.Proof.AttnShares
import Idealize.ShloMosaic.Lib.Pipeline.RegionsLoop

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Region 0 between its two boundaries: its four arrays split out of the unscoped buffers and put back at what the
    pipeline leaves; the generator register into the region's invariant and out; nothing owed; no semaphore of its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (QL.body_obligation0 (U9 m) c).loose
  hwaits := Pipeline.hwaits_of_owed_zero _ _ _ _ L lv 0 fun _ _ => rfl
  pre c := iprop(StableHlo.held (c : Thread nD τ) (Pipeline.ucRefs τ sig) (V9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (U9 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U9 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (U9 m c) (U10 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 between its two boundaries, likewise: its four arrays split out of the unscoped buffers and put back at what the
    pipeline leaves; the generator register into the region's invariant and out; nothing owed; no semaphore of its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (QL.body_obligation2 (U11 m) c).loose
  hwaits := Pipeline.hwaits_of_owed_zero _ _ _ _ L lv 2 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (U11 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (U11 m c) (U12 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Asm

end
-- ==== Proof.FrameWithResult.lean ====
/-
  The run of the three-region program with its RESULT named, given the three regions' records.

  Between two items of the program every unscoped buffer of a core is held whole at a valuation: the launch
  contents, then each stretch of host operations applied, then, after a region, that region's output array replaced
  by what the region left there. The last item is one reshape of the third region's output [4096,1536] into the
  result [1,4096,1536]. So at the end the result buffer holds the last valuation at the result, and each argument
  buffer holds its launch contents, no item writing an argument. This is the conditional frame of the program with
  one more buffer read off the last valuation.
-/
import proofs.«162336_j12171937317144_2_alg».proof.Proof.Gen.KernelIdeal.Regions

noncomputable section

namespace Cert.KernelIdeal.GenR

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

set_option backward.isDefEq.respectTransparency.types false in
/-- Every weakly fair execution of the program from memory `m` with zero counters terminates; the result buffer
    ends at the last valuation's contents and every argument buffer at its launch contents. -/
theorem run_cond {Ix : Type} [DecidableEq Ix] {U : Type} [URA U] {Lvl : Type} [Preorder Lvl]
    (m : (ℓ : Loc nD τ sig) → Buf (Elt F) ℓ)
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V9 m c) ∗ E 0 c) ⊢ R0.pre c)
    (hpost0 : ∀ c : Dev nD, R0.post c ⊢ iprop(StableHlo.held (c : Thread nD τ) (Pipeline.ucRefs τ sig) (V10 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V10 m outs c) ∗ E 1 c) ⊢ R1.pre c)
    (hpost1 : ∀ c : Dev nD, R1.post c ⊢ iprop(StableHlo.held (c : Thread nD τ) (Pipeline.ucRefs τ sig) (V11 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V11 m outs c) ∗ E 2 c) ⊢ R2.pre c)
    (hpost2 : ∀ c : Dev nD, R2.post c ⊢ iprop(StableHlo.held (c : Thread nD τ) (Pipeline.ucRefs τ sig) (V12 m outs c) ∗ E 3 c)) :
    θ_run defs (onTc (τ := τ) (main (F := F))) ⟨m, fun _ => 0, ρ⟩ (fun r => ∀ c : Dev nD,
      r.2.mem ((c.tc : Thread nD τ).loc main_v34) = V13 m outs c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          Prog.lift (.customCall (Pipeline.entry 0) ()),
          Prog.lift (.customCall (Pipeline.entry 1) ()),
          Prog.lift (.customCall (Pipeline.entry 2) ()),
          StableHlo.seq hostOps3 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, .rfl, .rfl, .rfl, .rfl, .rfl, .rfl, hpre0 c, (hpost0 c).trans (hpre1 c), (hpost1 c).trans (hpre2 c), hpost2 c, sep_mono .rfl (hE3 c)⟩)
    (hinit := ?_) (QY := fun c s => s.mem ((c.tc : Thread nD τ).loc main_v34) = V13 m outs c main_v34 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v34) (Finset.mem_filter.mpr ⟨StableHlo.devRef_mem_tcRefs main_v34, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c)⟩
    · iexact HSI

end Cert.KernelIdeal.GenR

end
-- ==== Proof.Assembly.lean ====
/-
  The program's run from the three regions' segments.

  The launch hands every core its unscoped buffers at the launch contents, its generator register and a debt of
  nothing. The host operations before the first region, the three regions and the final reshape follow one another, each
  entered from what the one before left. At the end every argument buffer holds its launch contents, and the result
  buffer holds the reshape of what region 2 left in the output rows.
-/
import proofs.«162336_j12171937317144_2_alg».proof.Proof.Records
import proofs.«162336_j12171937317144_2_alg».proof.Proof.FrameWithResult
import Idealize.ShloMosaic.Lib.Pipeline.Kit

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

set_option backward.isDefEq.respectTransparency.types false in
/-- Every weakly fair execution terminates and every argument buffer ends at its launch contents, given region 1's
    segment between the second and third boundaries. -/
theorem frame_of (ρ : Dev nD → PrngReg)
    (R1 : RegionSeg (pcfgs (F := F)) adm (pdats m) () defs₀ Variants.none L lv 1)
    (hpre1 : ∀ c : Dev nD, iprop(StableHlo.held (c : Thread nD τ) (Pipeline.ucRefs τ sig) (W10 m c) ∗ E (F := F) 1 c) ⊢ R1.pre c)
    (hpost1 : ∀ c : Dev nD, R1.post c ⊢ iprop(StableHlo.held (c : Thread nD τ) (Pipeline.ucRefs τ sig) (W11 m c) ∗ E (F := F) 2 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m embL () Variants.none L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E) (hE0 := hE0 ρ) (hE3 := hE3)
    (R0 := reg0 m) (hpre0 := fun c => .rfl) (hpost0 := fun c => by rw [V10_eq]; exact .rfl)
    (R1 := R1) (hpre1 := fun c => by rw [V10_eq]; exact hpre1 c) (hpost1 := fun c => by rw [V11_eq]; exact hpost1 c)
    (R2 := reg2 m) (hpre2 := fun c => by rw [V11_eq]; exact .rfl) (hpost2 := fun c => by rw [V12_eq]; exact .rfl)

set_option backward.isDefEq.respectTransparency.types false in
/-- The same run with the result named: the result buffer ends at the last boundary's contents, which are the
    reshape of region 2's output rows. -/
theorem run_of (ρ : Dev nD → PrngReg)
    (R1 : RegionSeg (pcfgs (F := F)) adm (pdats m) () defs₀ Variants.none L lv 1)
    (hpre1 : ∀ c : Dev nD, iprop(StableHlo.held (c : Thread nD τ) (Pipeline.ucRefs τ sig) (W10 m c) ∗ E (F := F) 1 c) ⊢ R1.pre c)
    (hpost1 : ∀ c : Dev nD, R1.post c ⊢ iprop(StableHlo.held (c : Thread nD τ) (Pipeline.ucRefs τ sig) (W11 m c) ∗ E (F := F) 2 c)) :
    θ_run defs (onTc (τ := τ) (main (F := F))) ⟨m, fun _ => 0, ρ⟩ (fun r => ∀ c : Dev nD,
      r.2.mem ((c.tc : Thread nD τ).loc main_v34) = V13 m (outs m) c main_v34
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  GenR.run_cond m embL () Variants.none L lv (fun _ _ => rfl) ρ (outs m) (pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := E) (hE0 := hE0 ρ) (hE3 := hE3)
    (R0 := reg0 m) (hpre0 := fun c => .rfl) (hpost0 := fun c => by rw [V10_eq]; exact .rfl)
    (R1 := R1) (hpre1 := fun c => by rw [V10_eq]; exact hpre1 c) (hpost1 := fun c => by rw [V11_eq]; exact hpost1 c)
    (R2 := reg2 m) (hpre2 := fun c => by rw [V11_eq]; exact .rfl) (hpost2 := fun c => by rw [V12_eq]; exact .rfl)

end Cert.KernelIdeal.Asm

end
-- ==== Proof.RefStage1.lean ====
/-
  The first quantised linear layer of the reference program is the specification's, entry by entry.

  A row is fake-quantised by the reference as v + (clip (round (v / s)) * s - v) with s the row's step; the step is
  max (a / 127) eps with a the maximum over the row, from minus infinity, of |v|. The maximum is a reduction the
  generated reading does not cover: it is read here as the fold of the maximum over the removed axis, which is
  the supremum of the row. Every other operation is read at an index by the generated lemmas. The one place where
  the inputs must be real: v + (q - v) = q needs v and q real.
-/
import proofs.«162336_j12171937317144_2_alg».proof.Proof.Gen.ReferenceIdeal.Read
import proofs.«162336_j12171937317144_2_alg».proof.Proof.Spec
import proofs.«162336_j12171937317144_2_alg».proof.Proof.LibMaskAlgebra
import proofs.«162336_j12171937317144_2_alg».proof.Proof.SpecReal
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx MaskAlgebra

/-- The pattern of minus infinity. -/
theorem ofBits_negInf : Ideal.ofBits .f32 0xFF800000#32 = (⊥ : EReal) := by
  simp [Ideal.ofBits, Ideal.ieee]

/-- For reals v and q, v + (q - v) = q (false at the infinities). -/
theorem add_sub_self_of_isReal {v q : EReal} (hv : IsReal v) (hq : IsReal q) : v + (q - v) = q := by
  obtain ⟨a, rfl⟩ := hv; obtain ⟨b, rfl⟩ := hq
  rw [← EReal.coe_sub, ← EReal.coe_add]
  exact congrArg _ (by ring)

/-! ### The fake-quantised rows of a [1, 4096, 1536] array -/

/-- The row maximum of the absolute values, read by hand: the fold of the maximum from minus infinity over the
    removed axis. -/
theorem v1_at (y : (⟨S1x4096x1536, .f32⟩ : BufTy).Contents (Elt Ideal)) (n : Fin 4096) :
    val_main_v1 (F := Ideal) y (ix2 0 n)
      = AttnSpec.greatest fun j : Fin 1536 => max (y (ix3 0 n j)) (-(y (ix3 0 n j))) := by
  unfold val_main_v1
  have h : S1x4096x1536.Reduces [2] S1x4096 := by decide
  rw [Host.reduce_eq_fold_single FloatOps.maximumf _ _ reducesTo_S1x4096x1536_S1x4096_d2 h h_S_]
  have hl : ∀ k : Fin (S1x4096x1536.size 2), h.lift (ix2 0 n) k = ix3 0 n ⟨k.val, k.isLt⟩ := fun k => by
    funext c; apply Fin.ext; fin_cases c <;> rfl
  have hf : (val_main_v0 (F := Ideal) y ∘ h.lift (ix2 0 n))
      = fun k : Fin 1536 => max (y (ix3 0 n k)) (-(y (ix3 0 n k))) := funext fun k => by
    show val_main_v0 (F := Ideal) y (h.lift (ix2 0 n) k) = _
    rw [hl k]; rfl
  have hb : val_main_cst (F := Ideal) (Shape.Idx.first h_S_) = (⊥ : EReal) := ofBits_negInf
  rw [hb, hf]
  rfl

/-- The step of a row. -/
theorem v6_at (y : (⟨S1x4096x1536, .f32⟩ : BufTy).Contents (Elt Ideal)) (n : Fin 4096) :
    val_main_v6 (F := Ideal) y (ix3 0 n 0) = AttnSpec.step fun c : Fin 1536 => y (ix3 0 n c) := by
  have e : idx_main_v2 (ix3 (0 : Fin 1) n (0 : Fin 1)) = ix2 0 n := by
    funext a; match a with | ⟨0, _⟩ => rfl | ⟨1, _⟩ => rfl
  rw [val_main_v6_apply, val_main_v4_apply, val_main_v2_apply, e, v1_at, val_main_v5_apply,
    val_main_cst_1_apply, val_main_v3_apply, val_main_cst_0_apply]
  rfl

/-- A fake-quantised entry: v + (q - v) is q because both are real. -/
theorem v14_at (y : (⟨S1x4096x1536, .f32⟩ : BufTy).Contents (Elt Ideal)) (hy : ∀ i, IsReal (y i))
    (n : Fin 4096) (c : Fin 1536) :
    val_main_v14 (F := Ideal) y (ix3 0 n c) = AttnSpec.fq (fun c => y (ix3 0 n c)) c := by
  have e1 : idx_main_v7 (ix3 (0 : Fin 1) n c) = ix3 0 n 0 := by
    funext a; match a with | ⟨0, _⟩ => rfl | ⟨1, _⟩ => rfl | ⟨2, _⟩ => rfl
  have e2 : idx_main_v11 (ix3 (0 : Fin 1) n c) = ix3 0 n 0 := by
    funext a; match a with | ⟨0, _⟩ => rfl | ⟨1, _⟩ => rfl | ⟨2, _⟩ => rfl
  rw [val_main_v14_apply, val_main_v13_apply, val_main_v12_apply, val_main_v10_apply, val_main_call1_v4_apply,
    val_main_call1_v3_apply, val_main_cst_3_apply, val_main_call1_v2_apply, val_main_call1_v1_apply, val_main_call1_v0_apply,
    val_main_cst_2_apply, val_main_v9_apply, val_main_v8_apply, val_main_v7_apply, e1, val_main_v11_apply, e2,
    v6_at]
  exact add_sub_self_of_isReal (hy _) (AttnSpec.isReal_fq _ (fun j => hy _) c)

/-! ### The fake-quantised rows of the first weight -/

/-- The row maximum of the absolute values, read by hand: the fold of the maximum from minus infinity over the
    removed axis. -/
theorem v16_at (w : (⟨S4608x1536, .f32⟩ : BufTy).Contents (Elt Ideal)) (o : Fin 4608) :
    val_main_v16 (F := Ideal) w (ix1 o)
      = AttnSpec.greatest fun j : Fin 1536 => max (w (ix2 o j)) (-(w (ix2 o j))) := by
  unfold val_main_v16
  have h : S4608x1536.Reduces [1] S4608 := by decide
  rw [Host.reduce_eq_fold_single FloatOps.maximumf _ _ reducesTo_S4608x1536_S4608_d1 h h_S_]
  have hl : ∀ k : Fin (S4608x1536.size 1), h.lift (ix1 o) k = ix2 o ⟨k.val, k.isLt⟩ := fun k => by
    funext c; apply Fin.ext; fin_cases c <;> rfl
  have hf : (val_main_v15 (F := Ideal) w ∘ h.lift (ix1 o))
      = fun k : Fin 1536 => max (w (ix2 o k)) (-(w (ix2 o k))) := funext fun k => by
    show val_main_v15 (F := Ideal) w (h.lift (ix1 o) k) = _
    rw [hl k]; rfl
  have hb : val_main_cst_4 (F := Ideal) (Shape.Idx.first h_S_) = (⊥ : EReal) := ofBits_negInf
  rw [hb, hf]
  rfl

/-- The step of a row. -/
theorem v21_at (w : (⟨S4608x1536, .f32⟩ : BufTy).Contents (Elt Ideal)) (o : Fin 4608) :
    val_main_v21 (F := Ideal) w (ix2 o 0) = AttnSpec.step fun c : Fin 1536 => w (ix2 o c) := by
  have e : idx_main_v17 (ix2 o (0 : Fin 1)) = ix1 o := by
    funext a; match a with | ⟨0, _⟩ => rfl
  rw [val_main_v21_apply, val_main_v19_apply, val_main_v17_apply, e, v16_at, val_main_v20_apply,
    val_main_cst_6_apply, val_main_v18_apply, val_main_cst_5_apply]
  rfl

/-- A fake-quantised entry: v + (q - v) is q because both are real. -/
theorem v29_at (w : (⟨S4608x1536, .f32⟩ : BufTy).Contents (Elt Ideal)) (hw : ∀ i, IsReal (w i))
    (o : Fin 4608) (c : Fin 1536) :
    val_main_v29 (F := Ideal) w (ix2 o c) = AttnSpec.fq (fun c => w (ix2 o c)) c := by
  have e1 : idx_main_v22 (ix2 o c) = ix2 o 0 := by
    funext a; match a with | ⟨0, _⟩ => rfl | ⟨1, _⟩ => rfl
  have e2 : idx_main_v26 (ix2 o c) = ix2 o 0 := by
    funext a; match a with | ⟨0, _⟩ => rfl | ⟨1, _⟩ => rfl
  rw [val_main_v29_apply, val_main_v28_apply, val_main_v27_apply, val_main_v25_apply, val_main_call3_v4_apply,
    val_main_call3_v3_apply, val_main_cst_8_apply, val_main_call3_v2_apply, val_main_call3_v1_apply, val_main_call3_v0_apply,
    val_main_cst_7_apply, val_main_v24_apply, val_main_v23_apply, val_main_v22_apply, e1, val_main_v26_apply, e2,
    v21_at]
  exact add_sub_self_of_isReal (hw _) (AttnSpec.isReal_fq _ (fun j => hw _) c)

/-! ### The joint projection -/

/-- The first quantised linear layer of the reference is the specification's, entry by entry. -/
theorem stage1 (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (hx0 : ∀ i, IsReal (x0 i)) (hx1 : ∀ i, IsReal (x1 i))
    (n : Fin 4096) (o : Fin 4608) :
    val_main_v33 (F := Ideal) x0 x1 x2 (ix3 0 n o)
      = AttnSpec.linear (fun n c => x0 (ix3 0 n c)) (fun o c => x1 (ix2 o c)) (fun o => x2 (ix1 o)) n o := by
  have el : ∀ k : Fin 1536, lidx_main_v30 (ix3 (0 : Fin 1) n o) k = ix3 0 n k := fun k => by
    funext a; match a with | ⟨0, _⟩ => rfl | ⟨1, _⟩ => rfl | ⟨2, _⟩ => rfl
  have er : ∀ k : Fin 1536, ridx_main_v30 (ix3 (0 : Fin 1) n o) k = ix2 o k := fun k => by
    funext a; match a with | ⟨0, _⟩ => rfl | ⟨1, _⟩ => rfl
  have eb : idx_main_v31 (idx_main_v32 (ix3 (0 : Fin 1) n o)) = ix1 o := by
    funext a; match a with | ⟨0, _⟩ => rfl
  rw [val_main_v33_apply, val_main_v30_apply, val_main_v32_apply, val_main_v31_apply, eb, Ideal.addf_def]
  unfold AttnSpec.linear
  refine congrArg (· + _) (Finset.sum_congr rfl fun k _ => ?_)
  rw [el k, er k, v14_at x0 hx0 n k, v29_at x1 hx1 o k]

end Cert.ReferenceIdeal.RefValue

end
-- ==== Proof.RefStage2.lean ====
/-
  The attention stage of the reference program is the specification's, on the reference's own joint projection.

  The joint projection [1, 4096, 4608] is reshaped to [1, 4096, 3, 12, 128], transposed to [3, 1, 12, 4096, 128] and
  sliced into queries, keys and values [1, 12, 4096, 128]: entry (0, hd, n, d) of part p is column
  1536 p + 128 hd + d of row n. The scores are a batched contraction over the 128 lanes, the largest score a
  reduction read by hand as the supremum over the keys (max with minus infinity changes nothing), the weights
  exp (score - largest), the normaliser 0 + their sum, the output a batched contraction of weight / normaliser
  against the values, transposed and reshaped back to rows of 1536. No finiteness is needed at this stage: the two
  sides are the same expression.
-/
import proofs.«162336_j12171937317144_2_alg».proof.Proof.Gen.ReferenceIdeal.Read
import proofs.«162336_j12171937317144_2_alg».proof.Proof.Spec
import proofs.«162336_j12171937317144_2_alg».proof.Proof.LibMaskAlgebra
import proofs.«162336_j12171937317144_2_alg».proof.Proof.SpecReal
import Idealize.ShloMosaic.Lib.ValueIdx
import Idealize.ShloMosaic.Lib.Pipeline.Value
import Idealize.ShloMosaic.PureOps.Ideal.Laws
import proofs.«162336_j12171937317144_2_alg».proof.Proof.RefStage1

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx MaskAlgebra

/-! ### Index arithmetic of the head split -/

/-- Unflattening (0, hd, n, d) of [1, 12, 4096, 128] into [1, 1, 12, 4096, 128]. -/
theorem e_unflat (hd : Fin 12) (n : Fin 4096) (d : Fin 128) :
    idx_main_v37 (ix4 (0 : Fin 1) hd n d) = ix5 0 0 hd n d := by
  have h1 := hd.isLt; have h2 := n.isLt; have h3 := d.isLt
  funext a
  match a with
  | ⟨0, _⟩ => rfl
  | ⟨1, _⟩ => rfl
  | ⟨2, _⟩ => exact Fin.ext (by show (((0 * 12 + hd.val) * 4096 + n.val) * 128 + d.val) / 524288 % 12 = hd.val; omega)
  | ⟨3, _⟩ => exact Fin.ext (by show (((0 * 12 + hd.val) * 4096 + n.val) * 128 + d.val) / 128 % 4096 = n.val; omega)
  | ⟨4, _⟩ => exact Fin.ext (by show (((0 * 12 + hd.val) * 4096 + n.val) * 128 + d.val) % 128 = d.val; omega)

/-- The transposition [1, 4096, 3, 12, 128] -> [3, 1, 12, 4096, 128] at (p, 0, hd, n, d). -/
theorem e_transpose (p : Fin 3) (hd : Fin 12) (n : Fin 4096) (d : Fin 128) :
    idx_main_v35 (ix5 p (0 : Fin 1) hd n d) = ix5 0 n p hd d := by
  funext a; match a with | ⟨0, _⟩ => rfl | ⟨1, _⟩ => rfl | ⟨2, _⟩ => rfl | ⟨3, _⟩ => rfl | ⟨4, _⟩ => rfl

/-- Flattening (0, n, p, hd, d) of [1, 4096, 3, 12, 128] into [1, 4096, 4608]: column 1536 p + 128 hd + d. -/
theorem e_flat (p : Fin 3) (hd : Fin 12) (n : Fin 4096) (d : Fin 128) :
    idx_main_v34 (ix5 (0 : Fin 1) n p hd d) = ix3 0 n (AttnSpec.col p hd d) := by
  have h0 := p.isLt; have h1 := hd.isLt; have h2 := n.isLt; have h3 := d.isLt
  funext a
  match a with
  | ⟨0, _⟩ => rfl
  | ⟨1, _⟩ => exact Fin.ext (by show ((((0 * 4096 + n.val) * 3 + p.val) * 12 + hd.val) * 128 + d.val) / 4608 % 4096 = n.val; omega)
  | ⟨2, _⟩ => exact Fin.ext (by show ((((0 * 4096 + n.val) * 3 + p.val) * 12 + hd.val) * 128 + d.val) % 4608 = 1536 * p.val + 128 * hd.val + d.val; omega)

/-- Part 0 of the joint projection, head hd, row n, lane d, is column 1536 * 0 + 128 hd + d of row n. -/
theorem v37_at (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (hd : Fin 12) (n : Fin 4096) (d : Fin 128) :
    val_main_v37 (F := Ideal) x0 x1 x2 (ix4 0 hd n d)
      = val_main_v33 (F := Ideal) x0 x1 x2 (ix3 0 n (AttnSpec.col 0 hd d)) := by
  have ea : idx_main_v37 (ix4 (0 : Fin 1) hd n d) = ix5 0 0 hd n d := e_unflat hd n d
  have eb : idx_main_v36 (ix5 (0 : Fin 1) (0 : Fin 1) hd n d) = ix5 0 0 hd n d := by
    funext a; match a with | ⟨0, _⟩ => rfl | ⟨1, _⟩ => rfl | ⟨2, _⟩ => rfl | ⟨3, _⟩ => rfl | ⟨4, _⟩ => rfl
  rw [val_main_v37_apply, ea, val_main_v36_apply, eb, val_main_v35_apply, e_transpose, val_main_v34_apply, e_flat]

/-- Part 1 of the joint projection, head hd, row n, lane d, is column 1536 * 1 + 128 hd + d of row n. -/
theorem v39_at (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (hd : Fin 12) (n : Fin 4096) (d : Fin 128) :
    val_main_v39 (F := Ideal) x0 x1 x2 (ix4 0 hd n d)
      = val_main_v33 (F := Ideal) x0 x1 x2 (ix3 0 n (AttnSpec.col 1 hd d)) := by
  have ea : idx_main_v39 (ix4 (0 : Fin 1) hd n d) = ix5 0 0 hd n d := e_unflat hd n d
  have eb : idx_main_v38 (ix5 (0 : Fin 1) (0 : Fin 1) hd n d) = ix5 1 0 hd n d := by
    funext a; match a with | ⟨0, _⟩ => rfl | ⟨1, _⟩ => rfl | ⟨2, _⟩ => rfl | ⟨3, _⟩ => rfl | ⟨4, _⟩ => rfl
  rw [val_main_v39_apply, ea, val_main_v38_apply, eb, val_main_v35_apply, e_transpose, val_main_v34_apply, e_flat]

/-- Part 2 of the joint projection, head hd, row n, lane d, is column 1536 * 2 + 128 hd + d of row n. -/
theorem v41_at (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (hd : Fin 12) (n : Fin 4096) (d : Fin 128) :
    val_main_v41 (F := Ideal) x0 x1 x2 (ix4 0 hd n d)
      = val_main_v33 (F := Ideal) x0 x1 x2 (ix3 0 n (AttnSpec.col 2 hd d)) := by
  have ea : idx_main_v41 (ix4 (0 : Fin 1) hd n d) = ix5 0 0 hd n d := e_unflat hd n d
  have eb : idx_main_v40 (ix5 (0 : Fin 1) (0 : Fin 1) hd n d) = ix5 2 0 hd n d := by
    funext a; match a with | ⟨0, _⟩ => rfl | ⟨1, _⟩ => rfl | ⟨2, _⟩ => rfl | ⟨3, _⟩ => rfl | ⟨4, _⟩ => rfl
  rw [val_main_v41_apply, ea, val_main_v40_apply, eb, val_main_v35_apply, e_transpose, val_main_v34_apply, e_flat]

/-! ### Scores, weights, normaliser, output -/

section Softmax

variable (x0 : (⟨S1x4096x1536, .f32⟩ : BufTy).Contents (Elt Ideal)) (x1 : (⟨S4608x1536, .f32⟩ : BufTy).Contents (Elt Ideal))
  (x2 : (⟨S4608, .f32⟩ : BufTy).Contents (Elt Ideal))

/-- The joint projection of the reference as rows of 4608 entries. -/
abbrev qkv : Fin 4096 → Fin 4608 → EReal := fun n c => val_main_v33 (F := Ideal) x0 x1 x2 (ix3 0 n c)

/-- The scores. -/
theorem v44_at (hd : Fin 12) (n m : Fin 4096) :
    val_main_v44 (F := Ideal) x0 x1 x2 (ix4 0 hd n m) = AttnSpec.score (qkv x0 x1 x2) hd n m := by
  have el : ∀ k : Fin 128, lidx_main_v44 (ix4 (0 : Fin 1) hd n m) k = ix4 0 hd n k := fun k => by
    funext a; match a with | ⟨0, _⟩ => rfl | ⟨1, _⟩ => rfl | ⟨2, _⟩ => rfl | ⟨3, _⟩ => rfl
  have er : ∀ k : Fin 128, ridx_main_v44 (ix4 (0 : Fin 1) hd n m) k = ix4 0 hd m k := fun k => by
    funext a; match a with | ⟨0, _⟩ => rfl | ⟨1, _⟩ => rfl | ⟨2, _⟩ => rfl | ⟨3, _⟩ => rfl
  rw [val_main_v44_apply]
  unfold AttnSpec.score
  refine Finset.sum_congr rfl fun k _ => ?_
  rw [el k, er k, val_main_v43_apply, v37_at, val_main_v42_apply, val_main_cst_9_apply, v39_at]
  rfl

/-- The largest score of a query, read by hand: the fold of the maximum from minus infinity over the keys. -/
theorem v45_at (hd : Fin 12) (n : Fin 4096) :
    val_main_v45 (F := Ideal) x0 x1 x2 (ix3 0 hd n)
      = AttnSpec.greatest fun m' => AttnSpec.score (qkv x0 x1 x2) hd n m' := by
  unfold val_main_v45
  have h : S1x12x4096x4096.Reduces [3] S1x12x4096 := by decide
  rw [Host.reduce_eq_fold_single FloatOps.maximumf _ _ reducesTo_S1x12x4096x4096_S1x12x4096_d3 h h_S_]
  have hl : ∀ k : Fin (S1x12x4096x4096.size 3), h.lift (ix3 0 hd n) k = ix4 0 hd n ⟨k.val, k.isLt⟩ := fun k => by
    funext c; apply Fin.ext; fin_cases c <;> rfl
  have hf : (val_main_v44 (F := Ideal) x0 x1 x2 ∘ h.lift (ix3 0 hd n))
      = fun k : Fin 4096 => AttnSpec.score (qkv x0 x1 x2) hd n k := funext fun k => by
    show val_main_v44 (F := Ideal) x0 x1 x2 (h.lift (ix3 0 hd n) k) = _
    rw [hl k]; exact v44_at x0 x1 x2 hd n _
  have hb : val_main_cst_10 (F := Ideal) (Shape.Idx.first h_S_) = (⊥ : EReal) := ofBits_negInf
  rw [hb, hf]
  rfl

/-- The weights. -/
theorem v51_at (hd : Fin 12) (n m : Fin 4096) :
    val_main_v51 (F := Ideal) x0 x1 x2 (ix4 0 hd n m) = AttnSpec.weight (qkv x0 x1 x2) hd n m := by
  have e : idx_main_v48 (idx_main_v49 (ix4 (0 : Fin 1) hd n m)) = ix3 0 hd n := by
    funext a; match a with | ⟨0, _⟩ => rfl | ⟨1, _⟩ => rfl | ⟨2, _⟩ => rfl
  rw [val_main_v51_apply, val_main_v50_apply, v44_at, val_main_v49_apply, val_main_v48_apply, e, val_main_v47_apply,
    val_main_v46_apply, val_main_cst_11_apply, v45_at]
  show Ideal.exp (_ - max (Ideal.ofBits .f32 0xFF800000#32) _) = _
  rw [ofBits_negInf, max_eq_right bot_le]
  rfl

/-- The normaliser. -/
theorem v52_at (hd : Fin 12) (n : Fin 4096) :
    val_main_v52 (F := Ideal) x0 x1 x2 (ix3 0 hd n) = AttnSpec.norm (qkv x0 x1 x2) hd n := by
  have e : ∀ k : Fin 4096, idx_main_v52 (ix3 (0 : Fin 1) hd n) k = ix4 0 hd n k := fun k => by
    funext a; match a with | ⟨0, _⟩ => rfl | ⟨1, _⟩ => rfl | ⟨2, _⟩ => rfl | ⟨3, _⟩ => rfl
  rw [val_main_v52_apply, val_main_cst_12_apply]
  unfold AttnSpec.norm
  refine congrArg₂ (· + ·) ofBits_zero (Finset.sum_congr rfl fun k _ => ?_)
  rw [e k, v51_at]

/-- The attention output, head by head. -/
theorem v56_at (hd : Fin 12) (n : Fin 4096) (d : Fin 128) :
    val_main_v56 (F := Ideal) x0 x1 x2 (ix4 0 hd n d) = AttnSpec.attn (qkv x0 x1 x2) n hd d := by
  have el : ∀ k : Fin 4096, lidx_main_v56 (ix4 (0 : Fin 1) hd n d) k = ix4 0 hd n k := fun k => by
    funext a; match a with | ⟨0, _⟩ => rfl | ⟨1, _⟩ => rfl | ⟨2, _⟩ => rfl | ⟨3, _⟩ => rfl
  have er : ∀ k : Fin 4096, ridx_main_v56 (ix4 (0 : Fin 1) hd n d) k = ix4 0 hd k d := fun k => by
    funext a; match a with | ⟨0, _⟩ => rfl | ⟨1, _⟩ => rfl | ⟨2, _⟩ => rfl | ⟨3, _⟩ => rfl
  have e : ∀ k : Fin 4096, idx_main_v53 (idx_main_v54 (ix4 (0 : Fin 1) hd n k)) = ix3 0 hd n := fun k => by
    funext a; match a with | ⟨0, _⟩ => rfl | ⟨1, _⟩ => rfl | ⟨2, _⟩ => rfl
  rw [val_main_v56_apply]
  unfold AttnSpec.attn
  refine Finset.sum_congr rfl fun k _ => ?_
  rw [el k, er k, val_main_v55_apply, v51_at, val_main_v54_apply, val_main_v53_apply, e k, v52_at, v41_at]
  rfl

/-- The attention rows of the reference are the specification's on the reference's joint projection. -/
theorem stage2 (n : Fin 4096) (c : Fin 1536) :
    val_main_v58 (F := Ideal) x0 x1 x2 (ix3 0 n c) = AttnSpec.attnRows (qkv x0 x1 x2) n c := by
  have hn := n.isLt; have hc := c.isLt
  have e1 : idx_main_v58 (ix3 (0 : Fin 1) n c)
      = ix4 0 n (⟨c.val / 128, by omega⟩ : Fin 12) (⟨c.val % 128, Nat.mod_lt _ (by norm_num)⟩ : Fin 128) := by
    funext a
    match a with
    | ⟨0, _⟩ => rfl
    | ⟨1, _⟩ => exact Fin.ext (by show ((0 * 4096 + n.val) * 1536 + c.val) / 1536 % 4096 = n.val; omega)
    | ⟨2, _⟩ => exact Fin.ext (by show ((0 * 4096 + n.val) * 1536 + c.val) / 128 % 12 = c.val / 128; omega)
    | ⟨3, _⟩ => exact Fin.ext (by show ((0 * 4096 + n.val) * 1536 + c.val) % 128 = c.val % 128; omega)
  have e2 : idx_main_v57 (ix4 (0 : Fin 1) n (⟨c.val / 128, by omega⟩ : Fin 12) (⟨c.val % 128, Nat.mod_lt _ (by norm_num)⟩ : Fin 128))
      = ix4 0 (⟨c.val / 128, by omega⟩ : Fin 12) n (⟨c.val % 128, Nat.mod_lt _ (by norm_num)⟩ : Fin 128) := by
    funext a; match a with | ⟨0, _⟩ => rfl | ⟨1, _⟩ => rfl | ⟨2, _⟩ => rfl | ⟨3, _⟩ => rfl
  rw [val_main_v58_apply, e1, val_main_v57_apply, e2, v56_at]
  rfl

end Softmax

end Cert.ReferenceIdeal.RefValue

end
-- ==== Proof.RefStage3.lean ====
/-
  The output projection of the reference program is the specification's quantised linear layer on the reference's
  own attention rows.

  The reference fake-quantises the attention rows by the same chain of operations as its input rows, so the first
  stage's reading applies to it verbatim; the second weight is read like the first. The attention rows must be
  real for v + (q - v) = q: that is a hypothesis here, discharged where the stages are assembled.
-/
import proofs.«162336_j12171937317144_2_alg».proof.Proof.Gen.ReferenceIdeal.Read
import proofs.«162336_j12171937317144_2_alg».proof.Proof.Spec
import proofs.«162336_j12171937317144_2_alg».proof.Proof.LibMaskAlgebra
import proofs.«162336_j12171937317144_2_alg».proof.Proof.SpecReal
import Idealize.ShloMosaic.Lib.ValueIdx
import Idealize.ShloMosaic.Lib.Pipeline.Value
import Idealize.ShloMosaic.PureOps.Ideal.Laws
import proofs.«162336_j12171937317144_2_alg».proof.Proof.RefStage1

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx MaskAlgebra

/-- The second fake-quantisation of the reference is its first one applied to the attention rows: the two chains of
    operations are the same term. -/
theorem v73_eq (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) :
    val_main_v73 (F := Ideal) x0 x1 x2 = val_main_v14 (F := Ideal) (val_main_v58 (F := Ideal) x0 x1 x2) := rfl

/-! ### The fake-quantised rows of the second weight -/

/-- The row maximum of the absolute values, read by hand: the fold of the maximum from minus infinity over the
    removed axis. -/
theorem v75_at (w : (⟨S1536x1536, .f32⟩ : BufTy).Contents (Elt Ideal)) (o : Fin 1536) :
    val_main_v75 (F := Ideal) w (ix1 o)
      = AttnSpec.greatest fun j : Fin 1536 => max (w (ix2 o j)) (-(w (ix2 o j))) := by
  unfold val_main_v75
  have h : S1536x1536.Reduces [1] S1536 := by decide
  rw [Host.reduce_eq_fold_single FloatOps.maximumf _ _ reducesTo_S1536x1536_S1536_d1 h h_S_]
  have hl : ∀ k : Fin (S1536x1536.size 1), h.lift (ix1 o) k = ix2 o ⟨k.val, k.isLt⟩ := fun k => by
    funext c; apply Fin.ext; fin_cases c <;> rfl
  have hf : (val_main_v74 (F := Ideal) w ∘ h.lift (ix1 o))
      = fun k : Fin 1536 => max (w (ix2 o k)) (-(w (ix2 o k))) := funext fun k => by
    show val_main_v74 (F := Ideal) w (h.lift (ix1 o) k) = _
    rw [hl k]; rfl
  have hb : val_main_cst_18 (F := Ideal) (Shape.Idx.first h_S_) = (⊥ : EReal) := ofBits_negInf
  rw [hb, hf]
  rfl

/-- The step of a row. -/
theorem v80_at (w : (⟨S1536x1536, .f32⟩ : BufTy).Contents (Elt Ideal)) (o : Fin 1536) :
    val_main_v80 (F := Ideal) w (ix2 o 0) = AttnSpec.step fun c : Fin 1536 => w (ix2 o c) := by
  have e : idx_main_v76 (ix2 o (0 : Fin 1)) = ix1 o := by
    funext a; match a with | ⟨0, _⟩ => rfl
  rw [val_main_v80_apply, val_main_v78_apply, val_main_v76_apply, e, v75_at, val_main_v79_apply,
    val_main_cst_20_apply, val_main_v77_apply, val_main_cst_19_apply]
  rfl

/-- A fake-quantised entry: v + (q - v) is q because both are real. -/
theorem v88_at (w : (⟨S1536x1536, .f32⟩ : BufTy).Contents (Elt Ideal)) (hw : ∀ i, IsReal (w i))
    (o : Fin 1536) (c : Fin 1536) :
    val_main_v88 (F := Ideal) w (ix2 o c) = AttnSpec.fq (fun c => w (ix2 o c)) c := by
  have e1 : idx_main_v81 (ix2 o c) = ix2 o 0 := by
    funext a; match a with | ⟨0, _⟩ => rfl | ⟨1, _⟩ => rfl
  have e2 : idx_main_v85 (ix2 o c) = ix2 o 0 := by
    funext a; match a with | ⟨0, _⟩ => rfl | ⟨1, _⟩ => rfl
  rw [val_main_v88_apply, val_main_v87_apply, val_main_v86_apply, val_main_v84_apply, val_main_call7_v4_apply,
    val_main_call7_v3_apply, val_main_cst_22_apply, val_main_call7_v2_apply, val_main_call7_v1_apply, val_main_call7_v0_apply,
    val_main_cst_21_apply, val_main_v83_apply, val_main_v82_apply, val_main_v81_apply, e1, val_main_v85_apply, e2,
    v80_at]
  exact add_sub_self_of_isReal (hw _) (AttnSpec.isReal_fq _ (fun j => hw _) c)

/-! ### The output projection -/

/-- The second quantised linear layer of the reference is the specification's on the reference's attention rows,
    provided those rows are real. -/
theorem stage3 (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (x3 : (⟨S1536x1536, .f32⟩ : BufTy).Contents (Elt Ideal))
    (x4 : (⟨S1536, .f32⟩ : BufTy).Contents (Elt Ideal))
    (h58 : ∀ i, IsReal (val_main_v58 (F := Ideal) x0 x1 x2 i)) (hx3 : ∀ i, IsReal (x3 i))
    (n : Fin 4096) (o : Fin 1536) :
    val_main_v92 (F := Ideal) x0 x1 x2 x3 x4 (ix3 0 n o)
      = AttnSpec.linear (fun n c => val_main_v58 (F := Ideal) x0 x1 x2 (ix3 0 n c)) (fun o c => x3 (ix2 o c))
          (fun o => x4 (ix1 o)) n o := by
  have el : ∀ k : Fin 1536, lidx_main_v89 (ix3 (0 : Fin 1) n o) k = ix3 0 n k := fun k => by
    funext a; match a with | ⟨0, _⟩ => rfl | ⟨1, _⟩ => rfl | ⟨2, _⟩ => rfl
  have er : ∀ k : Fin 1536, ridx_main_v89 (ix3 (0 : Fin 1) n o) k = ix2 o k := fun k => by
    funext a; match a with | ⟨0, _⟩ => rfl | ⟨1, _⟩ => rfl
  have eb : idx_main_v90 (idx_main_v91 (ix3 (0 : Fin 1) n o)) = ix1 o := by
    funext a; match a with | ⟨0, _⟩ => rfl
  rw [val_main_v92_apply, val_main_v89_apply, val_main_v91_apply, val_main_v90_apply, eb, Ideal.addf_def]
  unfold AttnSpec.linear
  refine congrArg (· + _) (Finset.sum_congr rfl fun k _ => ?_)
  rw [el k, er k, v73_eq, v14_at _ h58 n k, v88_at x3 hx3 o k]

end Cert.ReferenceIdeal.RefValue

end
-- ==== Proof.RefIsSpec.lean ====
/-
  The reference program computes the specification's block on finite inputs: the three stages assembled.

  The joint projection of the reference is the specification's quantised linear layer (stage 1, the inputs real);
  hence it is real, hence its attention rows are real (the normaliser is a positive real), which is what the
  output projection's fake-quantisation needs (stage 3); the attention stage itself is the specification's with
  no hypothesis (stage 2).
-/
import proofs.«162336_j12171937317144_2_alg».proof.Proof.Gen.ReferenceIdeal.Read
import proofs.«162336_j12171937317144_2_alg».proof.Proof.Spec
import proofs.«162336_j12171937317144_2_alg».proof.Proof.LibMaskAlgebra
import proofs.«162336_j12171937317144_2_alg».proof.Proof.SpecReal
import Idealize.ShloMosaic.Lib.ValueIdx
import Idealize.ShloMosaic.Lib.Pipeline.Value
import Idealize.ShloMosaic.PureOps.Ideal.Laws
import proofs.«162336_j12171937317144_2_alg».proof.Proof.RefStage1
import proofs.«162336_j12171937317144_2_alg».proof.Proof.RefStage2
import proofs.«162336_j12171937317144_2_alg».proof.Proof.RefStage3

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx MaskAlgebra

/-- Every index of [1, 4096, 1536] is (0, n, c) with n and c of literal range. -/
theorem eq_ix3_lit (i : S1x4096x1536.Idx) :
    i = ix3 (0 : Fin 1) (⟨(i 1).val, (i 1).isLt⟩ : Fin 4096) (⟨(i 2).val, (i 2).isLt⟩ : Fin 1536) := by
  funext a
  match a with
  | ⟨0, _⟩ => exact Fin.ext (by have h : (i 0).val < 1 := (i 0).isLt; show (i 0).val = 0; omega)
  | ⟨1, _⟩ => rfl
  | ⟨2, _⟩ => rfl

/-- The reference program computes the specification's block on finite inputs. -/
theorem ref_is_block (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (x3 : (⟨S1536x1536, .f32⟩ : BufTy).Contents (Elt Ideal))
    (x4 : (⟨S1536, .f32⟩ : BufTy).Contents (Elt Ideal))
    (hx0 : ∀ i, MaskAlgebra.IsReal (x0 i)) (hx1 : ∀ i, MaskAlgebra.IsReal (x1 i)) (hx2 : ∀ i, MaskAlgebra.IsReal (x2 i))
    (hx3 : ∀ i, MaskAlgebra.IsReal (x3 i)) (hx4 : ∀ i, MaskAlgebra.IsReal (x4 i)) (n : Fin 4096) (o : Fin 1536) :
    Read.val_main_v92 (F := Ideal) x0 x1 x2 x3 x4 (ValueIdx.ix3 0 n o)
      = AttnSpec.block (fun n c => x0 (ValueIdx.ix3 0 n c)) (fun o c => x1 (ValueIdx.ix2 o c)) (fun o => x2 (ValueIdx.ix1 o))
          (fun o c => x3 (ValueIdx.ix2 o c)) (fun o => x4 (ValueIdx.ix1 o)) n o := by
  have hq : qkv x0 x1 x2
      = AttnSpec.linear (fun n c => x0 (ix3 0 n c)) (fun o c => x1 (ix2 o c)) (fun o => x2 (ix1 o)) :=
    funext fun n => funext fun c => stage1 x0 x1 x2 hx0 hx1 n c
  have hqr : ∀ n c, IsReal (qkv x0 x1 x2 n c) := fun n c => by
    rw [hq]
    exact AttnSpec.isReal_linear _ _ _ (fun n c => hx0 _) (fun o c => hx1 _) (fun o => hx2 _) n c
  have h58 : ∀ i, IsReal (val_main_v58 (F := Ideal) x0 x1 x2 i) := fun i => by
    rw [eq_ix3_lit i, stage2]
    exact AttnSpec.isReal_attnRows _ hqr _ _
  have hrows : (fun n c => val_main_v58 (F := Ideal) x0 x1 x2 (ix3 0 n c))
      = AttnSpec.attnRows (AttnSpec.linear (fun n c => x0 (ix3 0 n c)) (fun o c => x1 (ix2 o c)) (fun o => x2 (ix1 o))) :=
    funext fun n => funext fun c => by rw [stage2, hq]
  rw [stage3 x0 x1 x2 x3 x4 h58 hx3 n o, hrows]
  rfl

end Cert.ReferenceIdeal.RefValue

end
-- ==== Proof.ReferenceSide.lean ====
/- The reference side of the assembly: on real inputs the reference program runs, its result is the specification's
   block of the five argument arrays, index by index, and its arguments end as launched; and its frame. -/
import proofs.«162336_j12171937317144_2_alg».proof.Defs
import proofs.«162336_j12171937317144_2_alg».proof.Proof.Gen.ReferenceIdeal.Run
import proofs.«162336_j12171937317144_2_alg».proof.Proof.Gen.ReferenceIdeal.Read
import proofs.«162336_j12171937317144_2_alg».proof.Proof.Gen.Pre_finite_inputs
import proofs.«162336_j12171937317144_2_alg».proof.Proof.RefIsSpec

noncomputable section

namespace Cert.ReferenceIdeal.RefValue

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx MaskAlgebra

/-- The specification's block of five argument arrays, as the contents of the result's buffer: at index `i` the
    block at row `i 1` and column `i 2`. -/
def blockOf (a0 : (⟨S1x4096x1536, .f32⟩ : BufTy).Contents (Elt Ideal)) (a1 : (⟨S4608x1536, .f32⟩ : BufTy).Contents (Elt Ideal))
    (a2 : (⟨S4608, .f32⟩ : BufTy).Contents (Elt Ideal)) (a3 : (⟨S1536x1536, .f32⟩ : BufTy).Contents (Elt Ideal))
    (a4 : (⟨S1536, .f32⟩ : BufTy).Contents (Elt Ideal)) : (⟨S1x4096x1536, .f32⟩ : BufTy).Contents (Elt Ideal) :=
  fun i => AttnSpec.block (fun n c => a0 (ix3 0 n c)) (fun o c => a1 (ix2 o c)) (fun o => a2 (ix1 o))
    (fun o c => a3 (ix2 o c)) (fun o => a4 (ix1 o)) (⟨(i 1).val, (i 1).isLt⟩ : Fin 4096) (⟨(i 2).val, (i 2).isLt⟩ : Fin 1536)

/-- On real inputs the reference's result is the specification's block, as whole contents. -/
theorem val_eq_blockOf (x0 : (⟨S1x4096x1536, .f32⟩ : BufTy).Contents (Elt Ideal)) (x1 : (⟨S4608x1536, .f32⟩ : BufTy).Contents (Elt Ideal))
    (x2 : (⟨S4608, .f32⟩ : BufTy).Contents (Elt Ideal)) (x3 : (⟨S1536x1536, .f32⟩ : BufTy).Contents (Elt Ideal))
    (x4 : (⟨S1536, .f32⟩ : BufTy).Contents (Elt Ideal))
    (hx0 : ∀ i, IsReal (x0 i)) (hx1 : ∀ i, IsReal (x1 i)) (hx2 : ∀ i, IsReal (x2 i))
    (hx3 : ∀ i, IsReal (x3 i)) (hx4 : ∀ i, IsReal (x4 i)) :
    Read.val_main_v92 (F := Ideal) x0 x1 x2 x3 x4 = blockOf x0 x1 x2 x3 x4 := by
  funext i
  unfold blockOf
  conv_lhs => rw [eq_ix3_lit i]
  exact ref_is_block x0 x1 x2 x3 x4 hx0 hx1 hx2 hx3 hx4 _ _

/-- THE REFERENCE'S RUN, READ: from any memory whose five argument arrays are real, the reference terminates with its
    result at the specification's block of the arguments and the arguments as launched. -/
theorem ref_run (m' : (ℓ : Loc nD τ sig) → Buf (Elt Ideal) ℓ) (ρ' : Dev nD → PrngReg)
    (hreal : ∀ c : Dev nD,
      (∀ i, IsReal (m' ((c.tc : Thread nD τ).loc main_arg0) i)) ∧ (∀ i, IsReal (m' ((c.tc : Thread nD τ).loc main_arg1) i))
      ∧ (∀ i, IsReal (m' ((c.tc : Thread nD τ).loc main_arg2) i)) ∧ (∀ i, IsReal (m' ((c.tc : Thread nD τ).loc main_arg3) i))
      ∧ (∀ i, IsReal (m' ((c.tc : Thread nD τ).loc main_arg4) i))) :
    θ_run (defs (F := Ideal)) (onTc (τ := τ) (main (F := Ideal))) ⟨m', fun _ => 0, ρ'⟩ (fun r => ∀ c : Dev nD,
      r.2.mem ((c.tc : Thread nD τ).loc main_v92)
        = blockOf (m' ((c.tc : Thread nD τ).loc main_arg0)) (m' ((c.tc : Thread nD τ).loc main_arg1)) (m' ((c.tc : Thread nD τ).loc main_arg2))
            (m' ((c.tc : Thread nD τ).loc main_arg3)) (m' ((c.tc : Thread nD τ).loc main_arg4))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)) :=
  (θ_run defs _ _).mono (fun _ h c =>
    ⟨((h c).1.trans (val_main_v92_eq m' c)).trans
        (val_eq_blockOf _ _ _ _ _ (hreal c).1 (hreal c).2.1 (hreal c).2.2.1 (hreal c).2.2.2.1 (hreal c).2.2.2.2),
      (h c).2⟩)
    (Cert.ReferenceIdeal.Value.run (F := Ideal) m' ρ')

/-- The reference's frame: it runs and its arguments end as launched, from any memory. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.KernelSide.lean ====
/-
  The kernel program's side of the assembly: on real inputs the program runs, its result is the specification's
  block of the five argument arrays, index by index, and its arguments end as launched.

  The result buffer holds the reshape [4096, 1536] -> [1, 4096, 1536] of what the third kernel left, so its element
  (0, n, o) is that array's element (n, o), which is the specification's block at (n, o); every index of the result
  is of that form.
-/
import proofs.«162336_j12171937317144_2_alg».proof.Proof.KernelIsBlock
import proofs.«162336_j12171937317144_2_alg».proof.Proof.KernelTail
import proofs.«162336_j12171937317144_2_alg».proof.Proof.Assembly
import proofs.«162336_j12171937317144_2_alg».proof.Proof.ReferenceSide

noncomputable section

namespace Cert.KernelIdeal.Asm

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen
open Idealize.ShloMosaic.ValueIdx MaskAlgebra

variable (m : (ℓ : Loc nD τ sig) → Buf (Elt Ideal) ℓ)

/-- Every index of [1, 4096, 1536] is (0, n, o) with n and o of literal range. -/
theorem eq_ix3_lit (i : (⟨3, ![1, 4096, 1536]⟩ : Shape).Idx) :
    i = ix3 (0 : Fin 1) (⟨(i 1).val, (i 1).isLt⟩ : Fin 4096) (⟨(i 2).val, (i 2).isLt⟩ : Fin 1536) := by
  funext a
  match a with
  | ⟨0, _⟩ => exact Fin.ext (by have h : (i 0).val < 1 := (i 0).isLt; show (i 0).val = 0; omega)
  | ⟨1, _⟩ => rfl
  | ⟨2, _⟩ => rfl

/-- The kernel program's result buffer, as whole contents, is the specification's block of the five arguments, when
    they are real: the final reshape of what the third kernel left. -/
theorem result_eq (c : Dev nD) (hreal : RealArgs m c) :
    (V13 m (outs m) c main_v34 : S1x4096x1536.Idx → Elt Ideal .f32)
      = Cert.ReferenceIdeal.RefValue.blockOf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  unfold Cert.ReferenceIdeal.RefValue.blockOf
  conv_lhs => rw [eq_ix3_lit i]
  rw [HostVal.V13_main_v34_apply, V12_eq, W12_self, kernel_is_block m c hreal]

/-- THE KERNEL PROGRAM'S RUN, READ: from a memory whose five argument arrays are real, given region 1's segment, the
    program terminates with its result at the specification's block of the arguments and the arguments as launched. -/
theorem kernel_run (ρ : Dev nD → PrngReg) (hreal : ∀ c : Dev nD, RealArgs m c)
    (R1 : RegionSeg (pcfgs (F := Ideal)) adm (pdats m) () defs₀ Variants.none L lv 1)
    (hpre1 : ∀ c : Dev nD, iprop(StableHlo.held (c : Thread nD τ) (Pipeline.ucRefs τ sig) (W10 m c) ∗ E (F := Ideal) 1 c) ⊢ R1.pre c)
    (hpost1 : ∀ c : Dev nD, R1.post c ⊢ iprop(StableHlo.held (c : Thread nD τ) (Pipeline.ucRefs τ sig) (W11 m c) ∗ E (F := Ideal) 2 c)) :
    θ_run (defs (F := Ideal)) (onTc (τ := τ) (main (F := Ideal))) ⟨m, fun _ => 0, ρ⟩ (fun r => ∀ c : Dev nD,
      r.2.mem ((c.tc : Thread nD τ).loc main_v34)
        = Cert.ReferenceIdeal.RefValue.blockOf (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_eq m c (hreal c)), (h c).2⟩)
    (run_of (F := Ideal) m ρ R1 hpre1 hpost1)

end Cert.KernelIdeal.Asm

end
-- ==== Proof.lean ====
/-
  A quantised attention block against its reference, on the extended reals.

  Both programs compute, for an input [4096,1536], a projection to 4608 columns with eight-bit fake-quantised rows,
  twelve-head attention over the projected rows, and a second such projection. The kernel does it in three regions:
  the projection tile by tile, attention block by block with a running maximum, normaliser and numerator, rescaled at
  every key block and divided once at the end, and the second projection tile by tile. The reference does it as whole
  arrays, dividing each weight by the normaliser before the value product, and writes each quantised array q of an
  array v as v + (q − v). On real inputs v + (q − v) = q, the rescaled accumulation is the plain sum (exp (a − b) *
  exp (s − a) = exp (s − b)), and (sum of p · v) / L = sum of (p / L) · v; so both results are one function of the
  arguments, the specification's block. The precondition makes every input entry a real number, and every
  intermediate entry is then real: a quantisation step is positive, a rounded and clipped real is real, sums and
  products of reals are real, and the normaliser is a sum of positive terms.
  Each program's frame: the kernel's regions each run to the end from what the one before left, with the arrays they
  only read unchanged; the reference is host operations only.
-/
import proofs.«162336_j12171937317144_2_alg».proof.Defs
import proofs.«162336_j12171937317144_2_alg».proof.Proof.Gen.Kernel
import proofs.«162336_j12171937317144_2_alg».proof.Proof.Gen.KernelIdeal
import proofs.«162336_j12171937317144_2_alg».proof.Proof.Gen.ReferenceIdeal
import proofs.«162336_j12171937317144_2_alg».proof.Proof.Gen.Pre_finite_inputs
import proofs.«162336_j12171937317144_2_alg».proof.Proof.AssemblyK
import proofs.«162336_j12171937317144_2_alg».proof.Proof.Records1K
import proofs.«162336_j12171937317144_2_alg».proof.Proof.Records1
import proofs.«162336_j12171937317144_2_alg».proof.Proof.KernelSide
import proofs.«162336_j12171937317144_2_alg».proof.Proof.ReferenceSide
import proofs.«162336_j12171937317144_2_alg».proof.Proof.FiniteInputs

noncomputable section

namespace Cert.Proof

open Idealize.ShloMosaic Idealize.ShloMosaic.TcCoe Idealize.SL.Sem

/-- The word-level kernel runs to the end and leaves its arguments unchanged. -/
theorem frame_kernel : Cert.frame_Kernel := fun m ρ _ =>
  Cert.Kernel.Asm.frame_of m ρ (Cert.Kernel.Asm.reg1 m) (fun _ => .rfl) (fun _ => .rfl)

/-- So does the kernel read on the extended reals. -/
theorem frame_kernelIdeal : Cert.frame_KernelIdeal := fun m ρ _ =>
  Cert.KernelIdeal.Asm.frame_of m ρ (Cert.KernelIdeal.Asm.reg1 m) (fun _ => .rfl) (fun _ => .rfl)

/-- On real inputs both programs end with the specification's block of the arguments in their result. -/
theorem algebraic : Cert.algebraic_KernelIdeal_ReferenceIdeal := by
  intro m ρ m' ρ' hpre hagree
  have hreal : ∀ c : Dev Cert.KernelIdeal.nD, Cert.KernelIdeal.Asm.RealArgs m c := fun c =>
    Cert.FiniteInputs.real_of_fn _ _ _ _ _ (hpre c)
  refine ⟨fun c => Cert.ReferenceIdeal.RefValue.blockOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.Asm.kernel_run m ρ hreal (Cert.KernelIdeal.Asm.reg1 m) (fun _ => .rfl) (fun _ => .rfl), ?_⟩
  have hreal' : ∀ c : Dev Cert.ReferenceIdeal.nD,
      (∀ i, MaskAlgebra.IsReal (m' ((c.tc : Thread Cert.ReferenceIdeal.nD Cert.ReferenceIdeal.τ).loc Cert.ReferenceIdeal.main_arg0) i))
      ∧ (∀ i, MaskAlgebra.IsReal (m' ((c.tc : Thread Cert.ReferenceIdeal.nD Cert.ReferenceIdeal.τ).loc Cert.ReferenceIdeal.main_arg1) i))
      ∧ (∀ i, MaskAlgebra.IsReal (m' ((c.tc : Thread Cert.ReferenceIdeal.nD Cert.ReferenceIdeal.τ).loc Cert.ReferenceIdeal.main_arg2) i))
      ∧ (∀ i, MaskAlgebra.IsReal (m' ((c.tc : Thread Cert.ReferenceIdeal.nD Cert.ReferenceIdeal.τ).loc Cert.ReferenceIdeal.main_arg3) i))
      ∧ (∀ i, MaskAlgebra.IsReal (m' ((c.tc : Thread Cert.ReferenceIdeal.nD Cert.ReferenceIdeal.τ).loc Cert.ReferenceIdeal.main_arg4) i)) := fun c => by
    obtain ⟨h0, h1, h2, h3, h4⟩ := hreal c
    obtain ⟨e0, e1, e2, e3, e4⟩ := hagree c
    exact ⟨fun i => by rw [e0]; exact h0 i, fun i => by rw [e1]; exact h1 i, fun i => by rw [e2]; exact h2 i,
      fun i => by rw [e3]; exact h3 i, fun i => by rw [e4]; exact h4 i⟩
  refine (θ_run Cert.ReferenceIdeal.defs _ _).mono (fun r h c => ⟨(h c).1.trans ?_, (h c).2⟩)
    (Cert.ReferenceIdeal.RefValue.ref_run m' ρ' hreal')
  rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, Cert.ReferenceIdeal.RefValue.frame_ri, trivial, algebraic⟩

end Cert.Proof

end
